-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512000x32 : Shape := ⟨2, ![512000, 32]⟩
abbrev S256 : Shape := ⟨1, ![256]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S1024x64000 : Shape := ⟨2, ![1024, 64000]⟩
abbrev S1024 : Shape := ⟨1, ![1024]⟩
abbrev S256x1024 : Shape := ⟨2, ![256, 1024]⟩
abbrev S_ : Shape := ⟨0, ![]⟩

class Facts : Prop where
  bcast_S_S512000x32 : S_.BroadcastsInDim S512000x32 (![] : Fin 0 → Fin S512000x32.rank)
  reducesTo_S512000x32_S_d0_1 : S512000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_
  bcast_S_S1024x64000 : S_.BroadcastsInDim S1024x64000 (![] : Fin 0 → Fin S1024x64000.rank)
  reducesTo_S1024x64000_S_d0_1 : S1024x64000.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part6 {F : FTy → Type} [FloatOps F] (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  main_v103

def fn_part5 {F : FTy → Type} [FloatOps F] (main_arg19 : FVec F S256 .f32) (main_arg20 : FVec F S256 .f32) (main_arg21 : FVec F S256 .f32) (main_v83 : IVec S_ 1) (main_v84 : FVec F S256x1024 .f32) (main_cst_32 : FVec F S_ .f32) : IVec S_ 1 :=
  let main_v85 : FVec F S256x1024 .f32 := broadcastInDim S256x1024 ![] bcast_S_S256x1024 main_cst_32
  let main_v86 : IVec S256x1024 1 := cmpf .olt main_v84 main_v85
  let main_c_33 : IVec S_ 1 := constantI S_ 1 1#1
  let main_v87 : IVec S_ 1 := (fun x v => Host.reduce IntOp.andi x v reducesTo_S256x1024_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_v98 main_v101 main_c_39

def fn_part4 {F : FTy → Type} [FloatOps F] (main_arg15 : FVec F S1024 .f32) (main_arg16 : FVec F S1024 .f32) (main_arg17 : FVec F S1024 .f32) (main_arg18 : FVec F S256x1024 .f32) (main_arg19 : FVec F S256 .f32) (main_arg20 : FVec F S256 .f32) (main_arg21 : FVec F S256 .f32) (main_v63 : IVec S_ 1) (main_v67 : IVec S_ 1) : IVec S_ 1 :=
  let main_v68 : IVec S_ 1 := andi main_v63 main_v67
  let main_v69 : FVec F S1024 .f32 := Host.absf main_arg15
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg16
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg17
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S256x1024 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S1 .f32) (main_arg13 : FVec F S1 .f32) (main_arg14 : FVec F S1024x64000 .f32) (main_arg15 : FVec F S1024 .f32) (main_arg16 : FVec F S1024 .f32) (main_arg17 : FVec F S1024 .f32) (main_arg18 : FVec F S256x1024 .f32) (main_arg19 : FVec F S256 .f32) (main_arg20 : FVec F S256 .f32) (main_arg21 : FVec F S256 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1024x64000 .f32 := Host.absf main_arg14
  let main_cst_24 : FVec F S_ .f32 := constant S_ .f32 0x7F800000#32
  let main_v65 : FVec F S1024x64000 .f32 := broadcastInDim S1024x64000 ![] bcast_S_S1024x64000 main_cst_24
  let main_v66 : IVec S1024x64000 1 := cmpf .olt main_v64 main_v65
  let main_c_25 : IVec S_ 1 := constantI S_ 1 1#1
  let main_v67 : IVec S_ 1 := (fun x v => Host.reduce IntOp.andi x v reducesTo_S1024x64000_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S8 .f32) (main_arg9 : FVec F S8 .f32) (main_arg10 : FVec F S1x8 .f32) (main_arg11 : FVec F S1 .f32) (main_arg12 : FVec F S1 .f32) (main_arg13 : FVec F S1 .f32) (main_arg14 : FVec F S1024x64000 .f32) (main_arg15 : FVec F S1024 .f32) (main_arg16 : FVec F S1024 .f32) (main_arg17 : FVec F S1024 .f32) (main_arg18 : FVec F S256x1024 .f32) (main_arg19 : FVec F S256 .f32) (main_arg20 : FVec F S256 .f32) (main_arg21 : FVec F S256 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S1x8 .f32 := Host.absf main_arg10
  let main_cst_16 : FVec F S_ .f32 := constant S_ .f32 0x7F800000#32
  let main_v45 : FVec F S1x8 .f32 := broadcastInDim S1x8 ![] bcast_S_S1x8 main_cst_16
  let main_v46 : IVec S1x8 1 := cmpf .olt main_v44 main_v45
  let main_c_17 : IVec S_ 1 := constantI S_ 1 1#1
  let main_v47 : IVec S_ 1 := (fun x v => Host.reduce IntOp.andi x v reducesTo_S1x8_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S16 .f32) (main_arg6 : FVec F S8x16 .f32) (main_arg7 : FVec F S8 .f32) (main_arg8 : FVec F S8 .f32) (main_arg9 : FVec F S8 .f32) (main_arg10 : FVec F S1x8 .f32) (main_arg11 : FVec F S1 .f32) (main_arg12 : FVec F S1 .f32) (main_arg13 : FVec F S1 .f32) (main_arg14 : FVec F S1024x64000 .f32) (main_arg15 : FVec F S1024 .f32) (main_arg16 : FVec F S1024 .f32) (main_arg17 : FVec F S1024 .f32) (main_arg18 : FVec F S256x1024 .f32) (main_arg19 : FVec F S256 .f32) (main_arg20 : FVec F S256 .f32) (main_arg21 : FVec F S256 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S8x16 .f32 := Host.absf main_arg6
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S512000x32 .f32) (main_arg1 : IVec S256 32) (main_arg2 : FVec F S16x32 .f32) (main_arg3 : FVec F S16 .f32) (main_arg4 : FVec F S16 .f32) (main_arg5 : FVec F S16 .f32) (main_arg6 : FVec F S8x16 .f32) (main_arg7 : FVec F S8 .f32) (main_arg8 : FVec F S8 .f32) (main_arg9 : FVec F S8 .f32) (main_arg10 : FVec F S1x8 .f32) (main_arg11 : FVec F S1 .f32) (main_arg12 : FVec F S1 .f32) (main_arg13 : FVec F S1 .f32) (main_arg14 : FVec F S1024x64000 .f32) (main_arg15 : FVec F S1024 .f32) (main_arg16 : FVec F S1024 .f32) (main_arg17 : FVec F S1024 .f32) (main_arg18 : FVec F S256x1024 .f32) (main_arg19 : FVec F S256 .f32) (main_arg20 : FVec F S256 .f32) (main_arg21 : FVec F S256 .f32) : IVec S_ 1 :=
  let main_v0 : FVec F S512000x32 .f32 := Host.absf main_arg0
  let main_cst : FVec F S_ .f32 := constant S_ .f32 0x7F800000#32
  let main_v1 : FVec F S512000x32 .f32 := broadcastInDim S512000x32 ![] bcast_S_S512000x32 main_cst
  let main_v2 : IVec S512000x32 1 := cmpf .olt main_v0 main_v1
  let main_c : IVec S_ 1 := constantI S_ 1 1#1
  let main_v3 : IVec S_ 1 := (fun x v => Host.reduce IntOp.andi x v reducesTo_S512000x32_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S512000x32 : Shape := ⟨2, ![512000, 32]⟩
abbrev S256 : Shape := ⟨1, ![256]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S1024x64000 : Shape := ⟨2, ![1024, 64000]⟩
abbrev S1024 : Shape := ⟨1, ![1024]⟩
abbrev S256x1024 : Shape := ⟨2, ![256, 1024]⟩
abbrev S32x16 : Shape := ⟨2, ![32, 16]⟩
abbrev S512000x16 : Shape := ⟨2, ![512000, 16]⟩
abbrev S1x16 : Shape := ⟨2, ![1, 16]⟩
abbrev S_ : Shape := ⟨0, ![]⟩
abbrev S16x8 : Shape := ⟨2, ![16, 8]⟩
abbrev S512000x8 : Shape := ⟨2, ![512000, 8]⟩
abbrev S8x1 : Shape := ⟨2, ![8, 1]⟩
abbrev S512000x1 : Shape := ⟨2, ![512000, 1]⟩
abbrev S1x1 : Shape := ⟨2, ![1, 1]⟩
abbrev S256x2000x1 : Shape := ⟨3, ![256, 2000, 1]⟩
abbrev S256x1 : Shape := ⟨2, ![256, 1]⟩
abbrev S256x1x1 : Shape := ⟨3, ![256, 1, 1]⟩
abbrev S256x2000x32 : Shape := ⟨3, ![256, 2000, 32]⟩
abbrev S256x64000 : Shape := ⟨2, ![256, 64000]⟩
abbrev S1x1024 : Shape := ⟨2, ![1, 1024]⟩
abbrev S1x256 : Shape := ⟨2, ![1, 256]⟩
abbrev S256x3200 : Shape := ⟨2, ![256, 3200]⟩
abbrev S512x3200 : Shape := ⟨2, ![512, 3200]⟩
abbrev S1x512 : Shape := ⟨2, ![1, 512]⟩
abbrev S256x512 : Shape := ⟨2, ![256, 512]⟩
abbrev S512 : Shape := ⟨1, ![512]⟩
abbrev S256x256 : Shape := ⟨2, ![256, 256]⟩

abbrev nBuf : Space → Nat
  | .hbm => 206
  | .vmem => 19
  | .smem => 0
  | _ => 0

abbrev hbmTy0_0 (i : Nat) : BufTy := match i % 128 with
  | 0 => ⟨S512000x32, .f32⟩
  | 1 => ⟨S256, .i32⟩
  | 2 => ⟨S16x32, .f32⟩
  | 3 => ⟨S16, .f32⟩
  | 4 => ⟨S16, .f32⟩
  | 5 => ⟨S16, .f32⟩
  | 6 => ⟨S8x16, .f32⟩
  | 7 => ⟨S8, .f32⟩
  | 8 => ⟨S8, .f32⟩
  | 9 => ⟨S8, .f32⟩
  | 10 => ⟨S1x8, .f32⟩
  | 11 => ⟨S1, .f32⟩
  | 12 => ⟨S1, .f32⟩
  | 13 => ⟨S1, .f32⟩
  | 14 => ⟨S1024x64000, .f32⟩
  | 15 => ⟨S1024, .f32⟩
  | 16 => ⟨S1024, .f32⟩
  | 17 => ⟨S1024, .f32⟩
  | 18 => ⟨S256x1024, .f32⟩
  | 19 => ⟨S256, .f32⟩
  | 20 => ⟨S256, .f32⟩
  | 21 => ⟨S256, .f32⟩
  | 22 => ⟨S32x16, .f32⟩
  | 23 => ⟨S512000x16, .f32⟩
  | 24 => ⟨S1x16, .f32⟩
  | 25 => ⟨S512000x16, .f32⟩
  | 26 => ⟨S512000x16, .f32⟩
  | 27 => ⟨S_, .f32⟩
  | 28 => ⟨S16, .f32⟩
  | 29 => ⟨S_, .f32⟩
  | 30 => ⟨S16, .f32⟩
  | 31 => ⟨S16, .f32⟩
  | 32 => ⟨S_, .i32⟩
  | 33 => ⟨S_, .f32⟩
  | 34 => ⟨S16, .f32⟩
  | 35 => ⟨S1x16, .f32⟩
  | 36 => ⟨S_, .f32⟩
  | 37 => ⟨S1x16, .f32⟩
  | 38 => ⟨S1x16, .f32⟩
  | 39 => ⟨S512000x16, .f32⟩
  | 40 => ⟨S512000x16, .f32⟩
  | 41 => ⟨S512000x16, .f32⟩
  | 42 => ⟨S_, .f32⟩
  | 43 => ⟨S_, .f32⟩
  | 44 => ⟨S_, .f32⟩
  | 45 => ⟨S_, .f32⟩
  | 46 => ⟨S16, .f32⟩
  | 47 => ⟨S16, .f32⟩
  | 48 => ⟨S16, .f32⟩
  | 49 => ⟨S_, .f32⟩
  | 50 => ⟨S_, .i1⟩
  | 51 => ⟨S_, .f32⟩
  | 52 => ⟨S_, .f32⟩
  | 53 => ⟨S16, .f32⟩
  | 54 => ⟨S16, .f32⟩
  | 55 => ⟨S1x16, .f32⟩
  | 56 => ⟨S512000x16, .f32⟩
  | 57 => ⟨S512000x16, .f32⟩
  | 58 => ⟨S_, .f32⟩
  | 59 => ⟨S16, .f32⟩
  | 60 => ⟨S16, .f32⟩
  | 61 => ⟨S16, .f32⟩
  | 62 => ⟨S1x16, .f32⟩
  | 63 => ⟨S512000x16, .f32⟩
  | 64 => ⟨S512000x16, .f32⟩
  | 65 => ⟨S1x16, .f32⟩
  | 66 => ⟨S512000x16, .f32⟩
  | 67 => ⟨S512000x16, .f32⟩
  | 68 => ⟨S1x16, .f32⟩
  | 69 => ⟨S512000x16, .f32⟩
  | 70 => ⟨S512000x16, .f32⟩
  | 71 => ⟨S_, .f32⟩
  | 72 => ⟨S512000x16, .f32⟩
  | 73 => ⟨S512000x16, .f32⟩
  | 74 => ⟨S16x8, .f32⟩
  | 75 => ⟨S512000x8, .f32⟩
  | 76 => ⟨S1x8, .f32⟩
  | 77 => ⟨S512000x8, .f32⟩
  | 78 => ⟨S512000x8, .f32⟩
  | 79 => ⟨S_, .f32⟩
  | 80 => ⟨S8, .f32⟩
  | 81 => ⟨S_, .f32⟩
  | 82 => ⟨S8, .f32⟩
  | 83 => ⟨S8, .f32⟩
  | 84 => ⟨S_, .i32⟩
  | 85 => ⟨S_, .f32⟩
  | 86 => ⟨S8, .f32⟩
  | 87 => ⟨S1x8, .f32⟩
  | 88 => ⟨S_, .f32⟩
  | 89 => ⟨S1x8, .f32⟩
  | 90 => ⟨S1x8, .f32⟩
  | 91 => ⟨S512000x8, .f32⟩
  | 92 => ⟨S512000x8, .f32⟩
  | 93 => ⟨S512000x8, .f32⟩
  | 94 => ⟨S_, .f32⟩
  | 95 => ⟨S_, .f32⟩
  | 96 => ⟨S_, .f32⟩
  | 97 => ⟨S_, .f32⟩
  | 98 => ⟨S8, .f32⟩
  | 99 => ⟨S8, .f32⟩
  | 100 => ⟨S8, .f32⟩
  | 101 => ⟨S_, .f32⟩
  | 102 => ⟨S_, .i1⟩
  | 103 => ⟨S_, .f32⟩
  | 104 => ⟨S_, .f32⟩
  | 105 => ⟨S8, .f32⟩
  | 106 => ⟨S8, .f32⟩
  | 107 => ⟨S1x8, .f32⟩
  | 108 => ⟨S512000x8, .f32⟩
  | 109 => ⟨S512000x8, .f32⟩
  | 110 => ⟨S_, .f32⟩
  | 111 => ⟨S8, .f32⟩
  | 112 => ⟨S8, .f32⟩
  | 113 => ⟨S8, .f32⟩
  | 114 => ⟨S1x8, .f32⟩
  | 115 => ⟨S512000x8, .f32⟩
  | 116 => ⟨S512000x8, .f32⟩
  | 117 => ⟨S1x8, .f32⟩
  | 118 => ⟨S512000x8, .f32⟩
  | 119 => ⟨S512000x8, .f32⟩
  | 120 => ⟨S1x8, .f32⟩
  | 121 => ⟨S512000x8, .f32⟩
  | 122 => ⟨S512000x8, .f32⟩
  | 123 => ⟨S_, .f32⟩
  | 124 => ⟨S512000x8, .f32⟩
  | 125 => ⟨S512000x8, .f32⟩
  | 126 => ⟨S8x1, .f32⟩
  | 127 => ⟨S512000x1, .f32⟩
  | _ => ⟨S512000x32, .f32⟩

abbrev hbmTy0_1 (i : Nat) : BufTy := match i % 128 with
  | 0 => ⟨S1x1, .f32⟩
  | 1 => ⟨S512000x1, .f32⟩
  | 2 => ⟨S512000x1, .f32⟩
  | 3 => ⟨S_, .f32⟩
  | 4 => ⟨S1, .f32⟩
  | 5 => ⟨S_, .f32⟩
  | 6 => ⟨S1, .f32⟩
  | 7 => ⟨S1, .f32⟩
  | 8 => ⟨S_, .i32⟩
  | 9 => ⟨S_, .f32⟩
  | 10 => ⟨S1, .f32⟩
  | 11 => ⟨S1x1, .f32⟩
  | 12 => ⟨S_, .f32⟩
  | 13 => ⟨S1x1, .f32⟩
  | 14 => ⟨S1x1, .f32⟩
  | 15 => ⟨S512000x1, .f32⟩
  | 16 => ⟨S512000x1, .f32⟩
  | 17 => ⟨S512000x1, .f32⟩
  | 18 => ⟨S_, .f32⟩
  | 19 => ⟨S_, .f32⟩
  | 20 => ⟨S_, .f32⟩
  | 21 => ⟨S_, .f32⟩
  | 22 => ⟨S1, .f32⟩
  | 23 => ⟨S1, .f32⟩
  | 24 => ⟨S1, .f32⟩
  | 25 => ⟨S_, .f32⟩
  | 26 => ⟨S_, .i1⟩
  | 27 => ⟨S_, .f32⟩
  | 28 => ⟨S_, .f32⟩
  | 29 => ⟨S1, .f32⟩
  | 30 => ⟨S1, .f32⟩
  | 31 => ⟨S1x1, .f32⟩
  | 32 => ⟨S512000x1, .f32⟩
  | 33 => ⟨S512000x1, .f32⟩
  | 34 => ⟨S_, .f32⟩
  | 35 => ⟨S1, .f32⟩
  | 36 => ⟨S1, .f32⟩
  | 37 => ⟨S1, .f32⟩
  | 38 => ⟨S1x1, .f32⟩
  | 39 => ⟨S512000x1, .f32⟩
  | 40 => ⟨S512000x1, .f32⟩
  | 41 => ⟨S1x1, .f32⟩
  | 42 => ⟨S512000x1, .f32⟩
  | 43 => ⟨S512000x1, .f32⟩
  | 44 => ⟨S1x1, .f32⟩
  | 45 => ⟨S512000x1, .f32⟩
  | 46 => ⟨S512000x1, .f32⟩
  | 47 => ⟨S_, .f32⟩
  | 48 => ⟨S512000x1, .f32⟩
  | 49 => ⟨S512000x1, .f32⟩
  | 50 => ⟨S256x2000x1, .f32⟩
  | 51 => ⟨S_, .f32⟩
  | 52 => ⟨S256x1, .f32⟩
  | 53 => ⟨S_, .f32⟩
  | 54 => ⟨S256x1, .f32⟩
  | 55 => ⟨S256x1, .f32⟩
  | 56 => ⟨S256x1x1, .f32⟩
  | 57 => ⟨S256x2000x1, .f32⟩
  | 58 => ⟨S256x2000x1, .f32⟩
  | 59 => ⟨S256x2000x1, .f32⟩
  | 60 => ⟨S_, .f32⟩
  | 61 => ⟨S256x1, .f32⟩
  | 62 => ⟨S256x1x1, .f32⟩
  | 63 => ⟨S256x2000x1, .f32⟩
  | 64 => ⟨S256x2000x1, .f32⟩
  | 65 => ⟨S256x2000x32, .f32⟩
  | 66 => ⟨S256x2000x32, .f32⟩
  | 67 => ⟨S256x2000x32, .f32⟩
  | 68 => ⟨S256x64000, .f32⟩
  | 69 => ⟨S256x64000, .bf16⟩
  | 70 => ⟨S1x1024, .f32⟩
  | 71 => ⟨S1x1024, .f32⟩
  | 72 => ⟨S1x1024, .f32⟩
  | 73 => ⟨S1x256, .f32⟩
  | 74 => ⟨S1x256, .f32⟩
  | 75 => ⟨S1x256, .f32⟩
  | 76 => ⟨S256x1024, .f32⟩
  | 77 => ⟨S256x256, .f32⟩
  | _ => ⟨S512000x32, .f32⟩

abbrev hbmTy (i : Nat) : BufTy := match i / 128 with
  | 0 => hbmTy0_0 i
  | 1 => hbmTy0_1 i
  | _ => ⟨S512000x32, .f32⟩

abbrev bufTy : (tb : Table) → Fin (tcTables nBuf tb) → BufTy
  | .hbm, ⟨i, _⟩ => hbmTy i
  | .local _ .vmem, ⟨0, _⟩ => ⟨S256x3200, .bf16⟩
  | .local _ .vmem, ⟨1, _⟩ => ⟨S256x3200, .bf16⟩
  | .local _ .vmem, ⟨2, _⟩ => ⟨S512x3200, .f32⟩
  | .local _ .vmem, ⟨3, _⟩ => ⟨S512x3200, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x1024, .f32⟩
  | .local _ .vmem, ⟨14, _⟩ => ⟨S256x1024, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | _, _ => ⟨S512000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst_1 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_call1_cst : Ref sig .tc := ⟨.hbm, 71, rfl⟩
abbrev main_call1_v0 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_2 : Ref sig .tc := ⟨.hbm, 79, rfl⟩
abbrev main_v30 : Ref sig .tc := ⟨.hbm, 80, rfl⟩
abbrev main_cst_3 : Ref sig .tc := ⟨.hbm, 81, rfl⟩
abbrev main_v31 : Ref sig .tc := ⟨.hbm, 82, rfl⟩
abbrev main_v32 : Ref sig .tc := ⟨.hbm, 83, rfl⟩
abbrev main_c_4 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst_3 : Ref sig .tc := ⟨.hbm, 101, rfl⟩
abbrev main_call2_v12 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_cst_5 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_call3_cst : Ref sig .tc := ⟨.hbm, 123, rfl⟩
abbrev main_call3_v0 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_cst_6 : Ref sig .tc := ⟨.hbm, 131, rfl⟩
abbrev main_v55 : Ref sig .tc := ⟨.hbm, 132, rfl⟩
abbrev main_cst_7 : Ref sig .tc := ⟨.hbm, 133, rfl⟩
abbrev main_v56 : Ref sig .tc := ⟨.hbm, 134, rfl⟩
abbrev main_v57 : Ref sig .tc := ⟨.hbm, 135, rfl⟩
abbrev main_c_8 : Ref sig .tc := ⟨.hbm, 136, rfl⟩
abbrev main_call4_cst : Ref sig .tc := ⟨.hbm, 137, rfl⟩
abbrev main_call4_v0 : Ref sig .tc := ⟨.hbm, 138, rfl⟩
abbrev main_call4_v1 : Ref sig .tc := ⟨.hbm, 139, rfl⟩
abbrev main_call4_cst_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_cst_1 : Ref sig .tc := ⟨.hbm, 147, rfl⟩
abbrev main_call4_v8 : Ref sig .tc := ⟨.hbm, 148, rfl⟩
abbrev main_call4_cst_2 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_cst_3 : Ref sig .tc := ⟨.hbm, 153, rfl⟩
abbrev main_call4_v12 : Ref sig .tc := ⟨.hbm, 154, rfl⟩
abbrev main_call4_cst_4 : Ref sig .tc := ⟨.hbm, 155, rfl⟩
abbrev main_call4_call0_v0 : Ref sig .tc := ⟨.hbm, 156, rfl⟩
abbrev main_call4_call0_v1 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_cst_9 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_call5_cst : Ref sig .tc := ⟨.hbm, 175, rfl⟩
abbrev main_call5_v0 : Ref sig .tc := ⟨.hbm, 176, rfl⟩
abbrev main_v74 : Ref sig .tc := ⟨.hbm, 177, rfl⟩
abbrev main_v75 : Ref sig .tc := ⟨.hbm, 178, rfl⟩
abbrev main_cst_10 : Ref sig .tc := ⟨.hbm, 179, rfl⟩
abbrev main_v76 : Ref sig .tc := ⟨.hbm, 180, rfl⟩
abbrev main_cst_11 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_cst_12 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v13 : BitVec 1 := Scalar.cmpi .eq arg1 c19_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  transposes_S16x32_S32x16_1_0 : S16x32.Transposes [1, 0] S32x16
  bcast_S16_S1x16_1 : S16.BroadcastsInDim S1x16 (![1] : Fin 1 → Fin S1x16.rank)
  bcast_S1x16_S512000x16_0_1 : S1x16.BroadcastsInDim S512000x16 (![0, 1] : Fin 2 → Fin S512000x16.rank)
  reducesTo_S512000x16_S16_d0 : S512000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S512000x16 : S_.BroadcastsInDim S512000x16 (![] : Fin 0 → Fin S512000x16.rank)
  transposes_S8x16_S16x8_1_0 : S8x16.Transposes [1, 0] S16x8
  bcast_S8_S1x8_1 : S8.BroadcastsInDim S1x8 (![1] : Fin 1 → Fin S1x8.rank)
  bcast_S1x8_S512000x8_0_1 : S1x8.BroadcastsInDim S512000x8 (![0, 1] : Fin 2 → Fin S512000x8.rank)
  reducesTo_S512000x8_S8_d0 : S512000x8.ReducesTo [0] S8
  bcast_S_S8 : S_.BroadcastsInDim S8 (![] : Fin 0 → Fin S8.rank)
  bcast_S_S1x8 : S_.BroadcastsInDim S1x8 (![] : Fin 0 → Fin S1x8.rank)
  bcast_S_S512000x8 : S_.BroadcastsInDim S512000x8 (![] : Fin 0 → Fin S512000x8.rank)
  transposes_S1x8_S8x1_1_0 : S1x8.Transposes [1, 0] S8x1
  bcast_S1_S1x1_1 : S1.BroadcastsInDim S1x1 (![1] : Fin 1 → Fin S1x1.rank)
  bcast_S1x1_S512000x1_0_1 : S1x1.BroadcastsInDim S512000x1 (![0, 1] : Fin 2 → Fin S512000x1.rank)
  reducesTo_S512000x1_S1_d0 : S512000x1.ReducesTo [0] S1
  bcast_S_S1 : S_.BroadcastsInDim S1 (![] : Fin 0 → Fin S1.rank)
  bcast_S_S1x1 : S_.BroadcastsInDim S1x1 (![] : Fin 0 → Fin S1x1.rank)
  bcast_S_S512000x1 : S_.BroadcastsInDim S512000x1 (![] : Fin 0 → Fin S512000x1.rank)
  shapeCasts_S512000x1_S256x2000x1 : S512000x1.ShapeCasts S256x2000x1
  reducesTo_S256x2000x1_S256x1_d1 : S256x2000x1.ReducesTo [1] S256x1
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x2000x1_0_1_2 : S256x1x1.BroadcastsInDim S256x2000x1 (![0, 1, 2] : Fin 3 → Fin S256x2000x1.rank)
  shapeCasts_S512000x32_S256x2000x32 : S512000x32.ShapeCasts S256x2000x32
  bcast_S256x2000x1_S256x2000x32_0_1_2 : S256x2000x1.BroadcastsInDim S256x2000x32 (![0, 1, 2] : Fin 3 → Fin S256x2000x32.rank)
  shapeCasts_S256x2000x32_S256x64000 : S256x2000x32.ShapeCasts S256x64000
  bitsLt_bf16_f32 : FTy.bits .bf16 < FTy.bits .f32
  shapeCasts_S1024_S1x1024 : S1024.ShapeCasts S1x1024
  shapeCasts_S256_S1x256 : S256.ShapeCasts S1x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x3200_S512x3200_0_0 : ∀ a, (![0, 0] : Fin 2 → Nat) a + S512x3200.size a ≤ S512x3200.size a
  h_S512x3200 : 0 < S512x3200.numel
  inb_S256x3200_S256x3200_0_0 : ∀ a, (![0, 0] : Fin 2 → Nat) a + S256x3200.size a ≤ S256x3200.size a
  h_S256x3200 : 0 < S256x3200.numel
  shapeCasts_S256x3200_S256x3200 : S256x3200.ShapeCasts S256x3200
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  reduces_S256x512_S512 : S256x512.Reduces [0] S512
  shapeCasts_S512_S1x512 : S512.ShapeCasts S1x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  reduces_S256x256_S256 : S256x256.Reduces [0] S256
  reduces_S256x256_S256_2 : S256x256.Reduces [1] S256
  shapeCasts_S256_S256x1 : S256.ShapeCasts S256x1
  broadcasts_S256x1_S256x256 : S256x1.Broadcasts S256x256
  inb_S256x256_S256x256_0_0 : ∀ a, (![0, 0] : Fin 2 → Nat) a + S256x256.size a ≤ S256x256.size a
  h_S256x256 : 0 < S256x256.numel
  dot_S512000x32_S32x16_S512000x16_1_0_0_1_n_n_wf : DotDims.WF S512000x32 S32x16 S512000x16 [1] [0] [0] [1] [] []
  dot_S512000x16_S16x8_S512000x8_1_0_0_1_n_n_wf : DotDims.WF S512000x16 S16x8 S512000x8 [1] [0] [0] [1] [] []
  dot_S512000x8_S8x1_S512000x1_1_0_0_1_n_n_wf : DotDims.WF S512000x8 S8x1 S512000x1 [1] [0] [0] [1] [] []
  dot_S256x3200_S512x3200_S256x512_1_1_0_0_n_n_wf : DotDims.WF S256x3200 S512x3200 S256x512 [1] [1] [0] [0] [] []
  dot_S256x1024_S256x1024_S256x256_1_1_0_0_n_n_wf : DotDims.WF S256x1024 S256x1024 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3200.size a ≤ S256x64000.size a
  hwx0_0 : ∀ i : grid0.Coords, EltTy.bits .bf16 = 32 ∨ (Rect.block (s := S256x64000) S256x3200.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3200.size a ≤ S1024x64000.size a
  hwx0_1 : ∀ i : grid0.Coords, EltTy.bits .f32 = 32 ∨ (Rect.block (s := S1024x64000) S512x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1024.size a
  hwx0_3 : ∀ i : grid0.Coords, EltTy.bits .f32 = 32 ∨ (Rect.block (s := S1x1024) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x1024.size a
  hwx0_4 : ∀ i : grid0.Coords, EltTy.bits .f32 = 32 ∨ (Rect.block (s := S1x1024) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x1024.size a
  hwx0_5 : ∀ i : grid0.Coords, EltTy.bits .f32 = 32 ∨ (Rect.block (s := S256x1024) S256x512.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x1024.size a
  hwx1_0 : ∀ i : grid1.Coords, EltTy.bits .f32 = 32 ∨ (Rect.block (s := S256x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .f32 = 32 ∨ (Rect.block (s := S256x1024) S256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)

variable [Facts₀]

def dot_S512000x32_S32x16_S512000x16_1_0_0_1_n_n : DotDims S512000x32 S32x16 S512000x16 where
  lhsContracting := [1]
  rhsContracting := [0]
  lhsNonContracting := [0]
  rhsNonContracting := [1]
  lhsBatch := []
  rhsBatch := []
  wf := dot_S512000x32_S32x16_S512000x16_1_0_0_1_n_n_wf
def dot_S512000x16_S16x8_S512000x8_1_0_0_1_n_n : DotDims S512000x16 S16x8 S512000x8 where
  lhsContracting := [1]
  rhsContracting := [0]
  lhsNonContracting := [0]
  rhsNonContracting := [1]
  lhsBatch := []
  rhsBatch := []
  wf := dot_S512000x16_S16x8_S512000x8_1_0_0_1_n_n_wf
def dot_S512000x8_S8x1_S512000x1_1_0_0_1_n_n : DotDims S512000x8 S8x1 S512000x1 where
  lhsContracting := [1]
  rhsContracting := [0]
  lhsNonContracting := [0]
  rhsNonContracting := [1]
  lhsBatch := []
  rhsBatch := []
  wf := dot_S512000x8_S8x1_S512000x1_1_0_0_1_n_n_wf
def dot_S256x3200_S512x3200_S256x512_1_1_0_0_n_n : DotDims S256x3200 S512x3200 S256x512 where
  lhsContracting := [1]
  rhsContracting := [1]
  lhsNonContracting := [0]
  rhsNonContracting := [0]
  lhsBatch := []
  rhsBatch := []
  wf := dot_S256x3200_S512x3200_S256x512_1_1_0_0_n_n_wf
def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_v91) S256x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg14) S512x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v92) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v93) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v94) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v98) S256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v98) S256x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg18) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v95) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v96) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v97) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v99) S256x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S512000x32 : Shape := ⟨2, ![512000, 32]⟩
abbrev S256 : Shape := ⟨1, ![256]⟩
abbrev S16x32 : Shape := ⟨2, ![16, 32]⟩
abbrev S16 : Shape := ⟨1, ![16]⟩
abbrev S8x16 : Shape := ⟨2, ![8, 16]⟩
abbrev S8 : Shape := ⟨1, ![8]⟩
abbrev S1x8 : Shape := ⟨2, ![1, 8]⟩
abbrev S1 : Shape := ⟨1, ![1]⟩
abbrev S1024x64000 : Shape := ⟨2, ![1024, 64000]⟩
abbrev S1024 : Shape := ⟨1, ![1024]⟩
abbrev S256x1024 : Shape := ⟨2, ![256, 1024]⟩
abbrev S32x16 : Shape := ⟨2, ![32, 16]⟩
abbrev S512000x16 : Shape := ⟨2, ![512000, 16]⟩
abbrev S1x16 : Shape := ⟨2, ![1, 16]⟩
abbrev S_ : Shape := ⟨0, ![]⟩
abbrev S16x8 : Shape := ⟨2, ![16, 8]⟩
abbrev S512000x8 : Shape := ⟨2, ![512000, 8]⟩
abbrev S8x1 : Shape := ⟨2, ![8, 1]⟩
abbrev S512000x1 : Shape := ⟨2, ![512000, 1]⟩
abbrev S1x1 : Shape := ⟨2, ![1, 1]⟩
abbrev S256x2000x1 : Shape := ⟨3, ![256, 2000, 1]⟩
abbrev S256x1 : Shape := ⟨2, ![256, 1]⟩
abbrev S256x1x1 : Shape := ⟨3, ![256, 1, 1]⟩
abbrev S256x2000x32 : Shape := ⟨3, ![256, 2000, 32]⟩
abbrev S256x64000 : Shape := ⟨2, ![256, 64000]⟩
abbrev S64000x1024 : Shape := ⟨2, ![64000, 1024]⟩
abbrev S1x1024 : Shape := ⟨2, ![1, 1024]⟩
abbrev S1024x256 : Shape := ⟨2, ![1024, 256]⟩
abbrev S256x256 : Shape := ⟨2, ![256, 256]⟩
abbrev S1x256 : Shape := ⟨2, ![1, 256]⟩

abbrev nBuf : Space → Nat
  | .hbm => 311
  | .vmem => 0
  | .smem => 0
  | _ => 0

abbrev hbmTy0_0 (i : Nat) : BufTy := match i % 128 with
  | 0 => ⟨S512000x32, .f32⟩
  | 1 => ⟨S256, .i32⟩
  | 2 => ⟨S16x32, .f32⟩
  | 3 => ⟨S16, .f32⟩
  | 4 => ⟨S16, .f32⟩
  | 5 => ⟨S16, .f32⟩
  | 6 => ⟨S8x16, .f32⟩
  | 7 => ⟨S8, .f32⟩
  | 8 => ⟨S8, .f32⟩
  | 9 => ⟨S8, .f32⟩
  | 10 => ⟨S1x8, .f32⟩
  | 11 => ⟨S1, .f32⟩
  | 12 => ⟨S1, .f32⟩
  | 13 => ⟨S1, .f32⟩
  | 14 => ⟨S1024x64000, .f32⟩
  | 15 => ⟨S1024, .f32⟩
  | 16 => ⟨S1024, .f32⟩
  | 17 => ⟨S1024, .f32⟩
  | 18 => ⟨S256x1024, .f32⟩
  | 19 => ⟨S256, .f32⟩
  | 20 => ⟨S256, .f32⟩
  | 21 => ⟨S256, .f32⟩
  | 22 => ⟨S32x16, .f32⟩
  | 23 => ⟨S512000x16, .f32⟩
  | 24 => ⟨S1x16, .f32⟩
  | 25 => ⟨S512000x16, .f32⟩
  | 26 => ⟨S512000x16, .f32⟩
  | 27 => ⟨S_, .f32⟩
  | 28 => ⟨S16, .f32⟩
  | 29 => ⟨S_, .f32⟩
  | 30 => ⟨S16, .f32⟩
  | 31 => ⟨S16, .f32⟩
  | 32 => ⟨S_, .i32⟩
  | 33 => ⟨S_, .f32⟩
  | 34 => ⟨S16, .f32⟩
  | 35 => ⟨S1x16, .f32⟩
  | 36 => ⟨S_, .f32⟩
  | 37 => ⟨S1x16, .f32⟩
  | 38 => ⟨S1x16, .f32⟩
  | 39 => ⟨S512000x16, .f32⟩
  | 40 => ⟨S512000x16, .f32⟩
  | 41 => ⟨S512000x16, .f32⟩
  | 42 => ⟨S_, .f32⟩
  | 43 => ⟨S_, .f32⟩
  | 44 => ⟨S_, .f32⟩
  | 45 => ⟨S_, .f32⟩
  | 46 => ⟨S16, .f32⟩
  | 47 => ⟨S16, .f32⟩
  | 48 => ⟨S16, .f32⟩
  | 49 => ⟨S_, .f32⟩
  | 50 => ⟨S_, .i1⟩
  | 51 => ⟨S_, .f32⟩
  | 52 => ⟨S_, .f32⟩
  | 53 => ⟨S16, .f32⟩
  | 54 => ⟨S16, .f32⟩
  | 55 => ⟨S1x16, .f32⟩
  | 56 => ⟨S512000x16, .f32⟩
  | 57 => ⟨S512000x16, .f32⟩
  | 58 => ⟨S_, .f32⟩
  | 59 => ⟨S16, .f32⟩
  | 60 => ⟨S16, .f32⟩
  | 61 => ⟨S16, .f32⟩
  | 62 => ⟨S1x16, .f32⟩
  | 63 => ⟨S512000x16, .f32⟩
  | 64 => ⟨S512000x16, .f32⟩
  | 65 => ⟨S1x16, .f32⟩
  | 66 => ⟨S512000x16, .f32⟩
  | 67 => ⟨S512000x16, .f32⟩
  | 68 => ⟨S1x16, .f32⟩
  | 69 => ⟨S512000x16, .f32⟩
  | 70 => ⟨S512000x16, .f32⟩
  | 71 => ⟨S_, .f32⟩
  | 72 => ⟨S512000x16, .f32⟩
  | 73 => ⟨S512000x16, .f32⟩
  | 74 => ⟨S16x8, .f32⟩
  | 75 => ⟨S512000x8, .f32⟩
  | 76 => ⟨S1x8, .f32⟩
  | 77 => ⟨S512000x8, .f32⟩
  | 78 => ⟨S512000x8, .f32⟩
  | 79 => ⟨S_, .f32⟩
  | 80 => ⟨S8, .f32⟩
  | 81 => ⟨S_, .f32⟩
  | 82 => ⟨S8, .f32⟩
  | 83 => ⟨S8, .f32⟩
  | 84 => ⟨S_, .i32⟩
  | 85 => ⟨S_, .f32⟩
  | 86 => ⟨S8, .f32⟩
  | 87 => ⟨S1x8, .f32⟩
  | 88 => ⟨S_, .f32⟩
  | 89 => ⟨S1x8, .f32⟩
  | 90 => ⟨S1x8, .f32⟩
  | 91 => ⟨S512000x8, .f32⟩
  | 92 => ⟨S512000x8, .f32⟩
  | 93 => ⟨S512000x8, .f32⟩
  | 94 => ⟨S_, .f32⟩
  | 95 => ⟨S_, .f32⟩
  | 96 => ⟨S_, .f32⟩
  | 97 => ⟨S_, .f32⟩
  | 98 => ⟨S8, .f32⟩
  | 99 => ⟨S8, .f32⟩
  | 100 => ⟨S8, .f32⟩
  | 101 => ⟨S_, .f32⟩
  | 102 => ⟨S_, .i1⟩
  | 103 => ⟨S_, .f32⟩
  | 104 => ⟨S_, .f32⟩
  | 105 => ⟨S8, .f32⟩
  | 106 => ⟨S8, .f32⟩
  | 107 => ⟨S1x8, .f32⟩
  | 108 => ⟨S512000x8, .f32⟩
  | 109 => ⟨S512000x8, .f32⟩
  | 110 => ⟨S_, .f32⟩
  | 111 => ⟨S8, .f32⟩
  | 112 => ⟨S8, .f32⟩
  | 113 => ⟨S8, .f32⟩
  | 114 => ⟨S1x8, .f32⟩
  | 115 => ⟨S512000x8, .f32⟩
  | 116 => ⟨S512000x8, .f32⟩
  | 117 => ⟨S1x8, .f32⟩
  | 118 => ⟨S512000x8, .f32⟩
  | 119 => ⟨S512000x8, .f32⟩
  | 120 => ⟨S1x8, .f32⟩
  | 121 => ⟨S512000x8, .f32⟩
  | 122 => ⟨S512000x8, .f32⟩
  | 123 => ⟨S_, .f32⟩
  | 124 => ⟨S512000x8, .f32⟩
  | 125 => ⟨S512000x8, .f32⟩
  | 126 => ⟨S8x1, .f32⟩
  | 127 => ⟨S512000x1, .f32⟩
  | _ => ⟨S512000x32, .f32⟩

abbrev hbmTy0_1 (i : Nat) : BufTy := match i % 128 with
  | 0 => ⟨S1x1, .f32⟩
  | 1 => ⟨S512000x1, .f32⟩
  | 2 => ⟨S512000x1, .f32⟩
  | 3 => ⟨S_, .f32⟩
  | 4 => ⟨S1, .f32⟩
  | 5 => ⟨S_, .f32⟩
  | 6 => ⟨S1, .f32⟩
  | 7 => ⟨S1, .f32⟩
  | 8 => ⟨S_, .i32⟩
  | 9 => ⟨S_, .f32⟩
  | 10 => ⟨S1, .f32⟩
  | 11 => ⟨S1x1, .f32⟩
  | 12 => ⟨S_, .f32⟩
  | 13 => ⟨S1x1, .f32⟩
  | 14 => ⟨S1x1, .f32⟩
  | 15 => ⟨S512000x1, .f32⟩
  | 16 => ⟨S512000x1, .f32⟩
  | 17 => ⟨S512000x1, .f32⟩
  | 18 => ⟨S_, .f32⟩
  | 19 => ⟨S_, .f32⟩
  | 20 => ⟨S_, .f32⟩
  | 21 => ⟨S_, .f32⟩
  | 22 => ⟨S1, .f32⟩
  | 23 => ⟨S1, .f32⟩
  | 24 => ⟨S1, .f32⟩
  | 25 => ⟨S_, .f32⟩
  | 26 => ⟨S_, .i1⟩
  | 27 => ⟨S_, .f32⟩
  | 28 => ⟨S_, .f32⟩
  | 29 => ⟨S1, .f32⟩
  | 30 => ⟨S1, .f32⟩
  | 31 => ⟨S1x1, .f32⟩
  | 32 => ⟨S512000x1, .f32⟩
  | 33 => ⟨S512000x1, .f32⟩
  | 34 => ⟨S_, .f32⟩
  | 35 => ⟨S1, .f32⟩
  | 36 => ⟨S1, .f32⟩
  | 37 => ⟨S1, .f32⟩
  | 38 => ⟨S1x1, .f32⟩
  | 39 => ⟨S512000x1, .f32⟩
  | 40 => ⟨S512000x1, .f32⟩
  | 41 => ⟨S1x1, .f32⟩
  | 42 => ⟨S512000x1, .f32⟩
  | 43 => ⟨S512000x1, .f32⟩
  | 44 => ⟨S1x1, .f32⟩
  | 45 => ⟨S512000x1, .f32⟩
  | 46 => ⟨S512000x1, .f32⟩
  | 47 => ⟨S_, .f32⟩
  | 48 => ⟨S512000x1, .f32⟩
  | 49 => ⟨S512000x1, .f32⟩
  | 50 => ⟨S256x2000x1, .f32⟩
  | 51 => ⟨S_, .f32⟩
  | 52 => ⟨S256x1, .f32⟩
  | 53 => ⟨S_, .f32⟩
  | 54 => ⟨S256x1, .f32⟩
  | 55 => ⟨S256x1, .f32⟩
  | 56 => ⟨S256x1x1, .f32⟩
  | 57 => ⟨S256x2000x1, .f32⟩
  | 58 => ⟨S256x2000x1, .f32⟩
  | 59 => ⟨S256x2000x1, .f32⟩
  | 60 => ⟨S_, .f32⟩
  | 61 => ⟨S256x1, .f32⟩
  | 62 => ⟨S256x1x1, .f32⟩
  | 63 => ⟨S256x2000x1, .f32⟩
  | 64 => ⟨S256x2000x1, .f32⟩
  | 65 => ⟨S256x2000x32, .f32⟩
  | 66 => ⟨S256x2000x32, .f32⟩
  | 67 => ⟨S256x2000x32, .f32⟩
  | 68 => ⟨S256x64000, .f32⟩
  | 69 => ⟨S64000x1024, .f32⟩
  | 70 => ⟨S256x1024, .f32⟩
  | 71 => ⟨S1x1024, .f32⟩
  | 72 => ⟨S256x1024, .f32⟩
  | 73 => ⟨S256x1024, .f32⟩
  | 74 => ⟨S_, .f32⟩
  | 75 => ⟨S1024, .f32⟩
  | 76 => ⟨S_, .f32⟩
  | 77 => ⟨S1024, .f32⟩
  | 78 => ⟨S1024, .f32⟩
  | 79 => ⟨S_, .i32⟩
  | 80 => ⟨S_, .f32⟩
  | 81 => ⟨S1024, .f32⟩
  | 82 => ⟨S1x1024, .f32⟩
  | 83 => ⟨S_, .f32⟩
  | 84 => ⟨S1x1024, .f32⟩
  | 85 => ⟨S1x1024, .f32⟩
  | 86 => ⟨S256x1024, .f32⟩
  | 87 => ⟨S256x1024, .f32⟩
  | 88 => ⟨S256x1024, .f32⟩
  | 89 => ⟨S_, .f32⟩
  | 90 => ⟨S_, .f32⟩
  | 91 => ⟨S_, .f32⟩
  | 92 => ⟨S_, .f32⟩
  | 93 => ⟨S1024, .f32⟩
  | 94 => ⟨S1024, .f32⟩
  | 95 => ⟨S1024, .f32⟩
  | 96 => ⟨S_, .f32⟩
  | 97 => ⟨S_, .i1⟩
  | 98 => ⟨S_, .f32⟩
  | 99 => ⟨S_, .f32⟩
  | 100 => ⟨S1024, .f32⟩
  | 101 => ⟨S1024, .f32⟩
  | 102 => ⟨S1x1024, .f32⟩
  | 103 => ⟨S256x1024, .f32⟩
  | 104 => ⟨S256x1024, .f32⟩
  | 105 => ⟨S_, .f32⟩
  | 106 => ⟨S1024, .f32⟩
  | 107 => ⟨S1024, .f32⟩
  | 108 => ⟨S1024, .f32⟩
  | 109 => ⟨S1x1024, .f32⟩
  | 110 => ⟨S256x1024, .f32⟩
  | 111 => ⟨S256x1024, .f32⟩
  | 112 => ⟨S1x1024, .f32⟩
  | 113 => ⟨S256x1024, .f32⟩
  | 114 => ⟨S256x1024, .f32⟩
  | 115 => ⟨S1x1024, .f32⟩
  | 116 => ⟨S256x1024, .f32⟩
  | 117 => ⟨S256x1024, .f32⟩
  | 118 => ⟨S_, .f32⟩
  | 119 => ⟨S256x1024, .f32⟩
  | 120 => ⟨S256x1024, .f32⟩
  | 121 => ⟨S1024x256, .f32⟩
  | 122 => ⟨S256x256, .f32⟩
  | 123 => ⟨S1x256, .f32⟩
  | 124 => ⟨S256x256, .f32⟩
  | 125 => ⟨S256x256, .f32⟩
  | 126 => ⟨S_, .f32⟩
  | 127 => ⟨S256, .f32⟩
  | _ => ⟨S512000x32, .f32⟩

abbrev hbmTy0_2 (i : Nat) : BufTy := match i % 128 with
  | 0 => ⟨S_, .f32⟩
  | 1 => ⟨S256, .f32⟩
  | 2 => ⟨S256, .f32⟩
  | 3 => ⟨S_, .i32⟩
  | 4 => ⟨S_, .f32⟩
  | 5 => ⟨S256, .f32⟩
  | 6 => ⟨S1x256, .f32⟩
  | 7 => ⟨S_, .f32⟩
  | 8 => ⟨S1x256, .f32⟩
  | 9 => ⟨S1x256, .f32⟩
  | 10 => ⟨S256x256, .f32⟩
  | 11 => ⟨S256x256, .f32⟩
  | 12 => ⟨S256x256, .f32⟩
  | 13 => ⟨S_, .f32⟩
  | 14 => ⟨S_, .f32⟩
  | 15 => ⟨S_, .f32⟩
  | 16 => ⟨S_, .f32⟩
  | 17 => ⟨S256, .f32⟩
  | 18 => ⟨S256, .f32⟩
  | 19 => ⟨S256, .f32⟩
  | 20 => ⟨S_, .f32⟩
  | 21 => ⟨S_, .i1⟩
  | 22 => ⟨S_, .f32⟩
  | 23 => ⟨S_, .f32⟩
  | 24 => ⟨S256, .f32⟩
  | 25 => ⟨S256, .f32⟩
  | 26 => ⟨S1x256, .f32⟩
  | 27 => ⟨S256x256, .f32⟩
  | 28 => ⟨S256x256, .f32⟩
  | 29 => ⟨S_, .f32⟩
  | 30 => ⟨S256, .f32⟩
  | 31 => ⟨S256, .f32⟩
  | 32 => ⟨S256, .f32⟩
  | 33 => ⟨S1x256, .f32⟩
  | 34 => ⟨S256x256, .f32⟩
  | 35 => ⟨S256x256, .f32⟩
  | 36 => ⟨S1x256, .f32⟩
  | 37 => ⟨S256x256, .f32⟩
  | 38 => ⟨S256x256, .f32⟩
  | 39 => ⟨S1x256, .f32⟩
  | 40 => ⟨S256x256, .f32⟩
  | 41 => ⟨S256x256, .f32⟩
  | 42 => ⟨S_, .f32⟩
  | 43 => ⟨S256x256, .f32⟩
  | 44 => ⟨S256x256, .f32⟩
  | 45 => ⟨S256x256, .f32⟩
  | 46 => ⟨S_, .f32⟩
  | 47 => ⟨S256, .f32⟩
  | 48 => ⟨S256x1, .f32⟩
  | 49 => ⟨S256x1, .f32⟩
  | 50 => ⟨S_, .f32⟩
  | 51 => ⟨S256x1, .f32⟩
  | 52 => ⟨S256x1, .f32⟩
  | 53 => ⟨S256x256, .f32⟩
  | 54 => ⟨S256x256, .f32⟩
  | _ => ⟨S512000x32, .f32⟩

abbrev hbmTy (i : Nat) : BufTy := match i / 128 with
  | 0 => hbmTy0_0 i
  | 1 => hbmTy0_1 i
  | 2 => hbmTy0_2 i
  | _ => ⟨S512000x32, .f32⟩

abbrev bufTy : (tb : Table) → Fin (tcTables nBuf tb) → BufTy
  | .hbm, ⟨i, _⟩ => hbmTy i
  | _, _ => ⟨S512000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_cst_3 : Ref sig .tc := ⟨.hbm, 49, rfl⟩
abbrev main_call0_v12 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst_1 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_call1_cst : Ref sig .tc := ⟨.hbm, 71, rfl⟩
abbrev main_call1_v0 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_cst_2 : Ref sig .tc := ⟨.hbm, 79, rfl⟩
abbrev main_v30 : Ref sig .tc := ⟨.hbm, 80, rfl⟩
abbrev main_cst_3 : Ref sig .tc := ⟨.hbm, 81, rfl⟩
abbrev main_v31 : Ref sig .tc := ⟨.hbm, 82, rfl⟩
abbrev main_v32 : Ref sig .tc := ⟨.hbm, 83, rfl⟩
abbrev main_c_4 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_cst_1 : Ref sig .tc := ⟨.hbm, 95, rfl⟩
abbrev main_call2_v8 : Ref sig .tc := ⟨.hbm, 96, rfl⟩
abbrev main_call2_cst_2 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst_3 : Ref sig .tc := ⟨.hbm, 101, rfl⟩
abbrev main_call2_v12 : Ref sig .tc := ⟨.hbm, 102, rfl⟩
abbrev main_call2_cst_4 : Ref sig .tc := ⟨.hbm, 103, rfl⟩
abbrev main_call2_call0_v0 : Ref sig .tc := ⟨.hbm, 104, rfl⟩
abbrev main_call2_call0_v1 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_cst_5 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_call3_cst : Ref sig .tc := ⟨.hbm, 123, rfl⟩
abbrev main_call3_v0 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_cst_6 : Ref sig .tc := ⟨.hbm, 131, rfl⟩
abbrev main_v55 : Ref sig .tc := ⟨.hbm, 132, rfl⟩
abbrev main_cst_7 : Ref sig .tc := ⟨.hbm, 133, rfl⟩
abbrev main_v56 : Ref sig .tc := ⟨.hbm, 134, rfl⟩
abbrev main_v57 : Ref sig .tc := ⟨.hbm, 135, rfl⟩
abbrev main_c_8 : Ref sig .tc := ⟨.hbm, 136, rfl⟩
abbrev main_call4_cst : Ref sig .tc := ⟨.hbm, 137, rfl⟩
abbrev main_call4_v0 : Ref sig .tc := ⟨.hbm, 138, rfl⟩
abbrev main_call4_v1 : Ref sig .tc := ⟨.hbm, 139, rfl⟩
abbrev main_call4_cst_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_cst_1 : Ref sig .tc := ⟨.hbm, 147, rfl⟩
abbrev main_call4_v8 : Ref sig .tc := ⟨.hbm, 148, rfl⟩
abbrev main_call4_cst_2 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_cst_3 : Ref sig .tc := ⟨.hbm, 153, rfl⟩
abbrev main_call4_v12 : Ref sig .tc := ⟨.hbm, 154, rfl⟩
abbrev main_call4_cst_4 : Ref sig .tc := ⟨.hbm, 155, rfl⟩
abbrev main_call4_call0_v0 : Ref sig .tc := ⟨.hbm, 156, rfl⟩
abbrev main_call4_call0_v1 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_cst_9 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_call5_cst : Ref sig .tc := ⟨.hbm, 175, rfl⟩
abbrev main_call5_v0 : Ref sig .tc := ⟨.hbm, 176, rfl⟩
abbrev main_v74 : Ref sig .tc := ⟨.hbm, 177, rfl⟩
abbrev main_v75 : Ref sig .tc := ⟨.hbm, 178, rfl⟩
abbrev main_cst_10 : Ref sig .tc := ⟨.hbm, 179, rfl⟩
abbrev main_v76 : Ref sig .tc := ⟨.hbm, 180, rfl⟩
abbrev main_cst_11 : Ref sig .tc := ⟨.hbm, 181, rfl⟩
abbrev main_v77 : Ref sig .tc := ⟨.hbm, 182, rfl⟩
abbrev main_v78 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_cst_12 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_cst_13 : Ref sig .tc := ⟨.hbm, 202, rfl⟩
abbrev main_v96 : Ref sig .tc := ⟨.hbm, 203, rfl⟩
abbrev main_cst_14 : Ref sig .tc := ⟨.hbm, 204, rfl⟩
abbrev main_v97 : Ref sig .tc := ⟨.hbm, 205, rfl⟩
abbrev main_v98 : Ref sig .tc := ⟨.hbm, 206, rfl⟩
abbrev main_c_15 : Ref sig .tc := ⟨.hbm, 207, rfl⟩
abbrev main_call6_cst : Ref sig .tc := ⟨.hbm, 208, rfl⟩
abbrev main_call6_v0 : Ref sig .tc := ⟨.hbm, 209, rfl⟩
abbrev main_call6_v1 : Ref sig .tc := ⟨.hbm, 210, rfl⟩
abbrev main_call6_cst_0 : Ref sig .tc := ⟨.hbm, 211, rfl⟩
abbrev main_call6_v2 : Ref sig .tc := ⟨.hbm, 212, rfl⟩
abbrev main_call6_v3 : Ref sig .tc := ⟨.hbm, 213, rfl⟩
abbrev main_call6_v4 : Ref sig .tc := ⟨.hbm, 214, rfl⟩
abbrev main_call6_v5 : Ref sig .tc := ⟨.hbm, 215, rfl⟩
abbrev main_call6_v6 : Ref sig .tc := ⟨.hbm, 216, rfl⟩
abbrev main_call6_v7 : Ref sig .tc := ⟨.hbm, 217, rfl⟩
abbrev main_call6_cst_1 : Ref sig .tc := ⟨.hbm, 218, rfl⟩
abbrev main_call6_v8 : Ref sig .tc := ⟨.hbm, 219, rfl⟩
abbrev main_call6_cst_2 : Ref sig .tc := ⟨.hbm, 220, rfl⟩
abbrev main_call6_v9 : Ref sig .tc := ⟨.hbm, 221, rfl⟩
abbrev main_call6_v10 : Ref sig .tc := ⟨.hbm, 222, rfl⟩
abbrev main_call6_v11 : Ref sig .tc := ⟨.hbm, 223, rfl⟩
abbrev main_call6_cst_3 : Ref sig .tc := ⟨.hbm, 224, rfl⟩
abbrev main_call6_v12 : Ref sig .tc := ⟨.hbm, 225, rfl⟩
abbrev main_call6_cst_4 : Ref sig .tc := ⟨.hbm, 226, rfl⟩
abbrev main_call6_call0_v0 : Ref sig .tc := ⟨.hbm, 227, rfl⟩
abbrev main_call6_call0_v1 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_cst_16 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_v106 : Ref sig .tc := ⟨.hbm, 237, rfl⟩
abbrev main_v107 : Ref sig .tc := ⟨.hbm, 238, rfl⟩
abbrev main_v108 : Ref sig .tc := ⟨.hbm, 239, rfl⟩
abbrev main_v109 : Ref sig .tc := ⟨.hbm, 240, rfl⟩
abbrev main_v110 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_v114 : Ref sig .tc := ⟨.hbm, 245, rfl⟩
abbrev main_call7_cst : Ref sig .tc := ⟨.hbm, 246, rfl⟩
abbrev main_call7_v0 : Ref sig .tc := ⟨.hbm, 247, rfl⟩
abbrev main_v115 : Ref sig .tc := ⟨.hbm, 248, rfl⟩
abbrev main_v116 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_cst_17 : Ref sig .tc := ⟨.hbm, 254, rfl⟩
abbrev main_v121 : Ref sig .tc := ⟨.hbm, 255, rfl⟩
abbrev main_cst_18 : Ref sig .tc := ⟨.hbm, 256, rfl⟩
abbrev main_v122 : Ref sig .tc := ⟨.hbm, 257, rfl⟩
abbrev main_v123 : Ref sig .tc := ⟨.hbm, 258, rfl⟩
abbrev main_c_19 : Ref sig .tc := ⟨.hbm, 259, rfl⟩
abbrev main_call8_cst : Ref sig .tc := ⟨.hbm, 260, rfl⟩
abbrev main_call8_v0 : Ref sig .tc := ⟨.hbm, 261, rfl⟩
abbrev main_call8_v1 : Ref sig .tc := ⟨.hbm, 262, rfl⟩
abbrev main_call8_cst_0 : Ref sig .tc := ⟨.hbm, 263, rfl⟩
abbrev main_call8_v2 : Ref sig .tc := ⟨.hbm, 264, rfl⟩
abbrev main_call8_v3 : Ref sig .tc := ⟨.hbm, 265, rfl⟩
abbrev main_call8_v4 : Ref sig .tc := ⟨.hbm, 266, rfl⟩
abbrev main_call8_v5 : Ref sig .tc := ⟨.hbm, 267, rfl⟩
abbrev main_call8_v6 : Ref sig .tc := ⟨.hbm, 268, rfl⟩
abbrev main_call8_v7 : Ref sig .tc := ⟨.hbm, 269, rfl⟩
abbrev main_call8_cst_1 : Ref sig .tc := ⟨.hbm, 270, rfl⟩
abbrev main_call8_v8 : Ref sig .tc := ⟨.hbm, 271, rfl⟩
abbrev main_call8_cst_2 : Ref sig .tc := ⟨.hbm, 272, rfl⟩
abbrev main_call8_v9 : Ref sig .tc := ⟨.hbm, 273, rfl⟩
abbrev main_call8_v10 : Ref sig .tc := ⟨.hbm, 274, rfl⟩
abbrev main_call8_v11 : Ref sig .tc := ⟨.hbm, 275, rfl⟩
abbrev main_call8_cst_3 : Ref sig .tc := ⟨.hbm, 276, rfl⟩
abbrev main_call8_v12 : Ref sig .tc := ⟨.hbm, 277, rfl⟩
abbrev main_call8_cst_4 : Ref sig .tc := ⟨.hbm, 278, rfl⟩
abbrev main_call8_call0_v0 : Ref sig .tc := ⟨.hbm, 279, rfl⟩
abbrev main_call8_call0_v1 : Ref sig .tc := ⟨.hbm, 280, rfl⟩
abbrev main_v124 : Ref sig .tc := ⟨.hbm, 281, rfl⟩
abbrev main_v125 : Ref sig .tc := ⟨.hbm, 282, rfl⟩
abbrev main_v126 : Ref sig .tc := ⟨.hbm, 283, rfl⟩
abbrev main_v127 : Ref sig .tc := ⟨.hbm, 284, rfl⟩
abbrev main_cst_20 : Ref sig .tc := ⟨.hbm, 285, rfl⟩
abbrev main_v128 : Ref sig .tc := ⟨.hbm, 286, rfl⟩
abbrev main_v129 : Ref sig .tc := ⟨.hbm, 287, rfl⟩
abbrev main_v130 : Ref sig .tc := ⟨.hbm, 288, rfl⟩
abbrev main_v131 : Ref sig .tc := ⟨.hbm, 289, rfl⟩
abbrev main_v132 : Ref sig .tc := ⟨.hbm, 290, rfl⟩
abbrev main_v133 : Ref sig .tc := ⟨.hbm, 291, rfl⟩
abbrev main_v134 : Ref sig .tc := ⟨.hbm, 292, rfl⟩
abbrev main_v135 : Ref sig .tc := ⟨.hbm, 293, rfl⟩
abbrev main_v136 : Ref sig .tc := ⟨.hbm, 294, rfl⟩
abbrev main_v137 : Ref sig .tc := ⟨.hbm, 295, rfl⟩
abbrev main_v138 : Ref sig .tc := ⟨.hbm, 296, rfl⟩
abbrev main_v139 : Ref sig .tc := ⟨.hbm, 297, rfl⟩
abbrev main_call9_cst : Ref sig .tc := ⟨.hbm, 298, rfl⟩
abbrev main_call9_v0 : Ref sig .tc := ⟨.hbm, 299, rfl⟩
abbrev main_v140 : Ref sig .tc := ⟨.hbm, 300, rfl⟩
abbrev main_call10_v0 : Ref sig .tc := ⟨.hbm, 301, rfl⟩
abbrev main_call10_cst : Ref sig .tc := ⟨.hbm, 302, rfl⟩
abbrev main_call10_v1 : Ref sig .tc := ⟨.hbm, 303, rfl⟩
abbrev main_call10_v2 : Ref sig .tc := ⟨.hbm, 304, rfl⟩
abbrev main_v141 : Ref sig .tc := ⟨.hbm, 305, rfl⟩
abbrev main_cst_21 : Ref sig .tc := ⟨.hbm, 306, rfl⟩
abbrev main_v142 : Ref sig .tc := ⟨.hbm, 307, rfl⟩
abbrev main_v143 : Ref sig .tc := ⟨.hbm, 308, rfl⟩
abbrev main_v144 : Ref sig .tc := ⟨.hbm, 309, rfl⟩
abbrev main_v145 : Ref sig .tc := ⟨.hbm, 310, rfl⟩

abbrev nD : Nat := 1
abbrev τ : Topo := Topo.v7x

variable {F : FTy → Type} [FloatOps F]

class Facts₀ : Prop where
  transposes_S16x32_S32x16_1_0 : S16x32.Transposes [1, 0] S32x16
  bcast_S16_S1x16_1 : S16.BroadcastsInDim S1x16 (![1] : Fin 1 → Fin S1x16.rank)
  bcast_S1x16_S512000x16_0_1 : S1x16.BroadcastsInDim S512000x16 (![0, 1] : Fin 2 → Fin S512000x16.rank)
  reducesTo_S512000x16_S16_d0 : S512000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S512000x16 : S_.BroadcastsInDim S512000x16 (![] : Fin 0 → Fin S512000x16.rank)
  transposes_S8x16_S16x8_1_0 : S8x16.Transposes [1, 0] S16x8
  bcast_S8_S1x8_1 : S8.BroadcastsInDim S1x8 (![1] : Fin 1 → Fin S1x8.rank)
  bcast_S1x8_S512000x8_0_1 : S1x8.BroadcastsInDim S512000x8 (![0, 1] : Fin 2 → Fin S512000x8.rank)
  reducesTo_S512000x8_S8_d0 : S512000x8.ReducesTo [0] S8
  bcast_S_S8 : S_.BroadcastsInDim S8 (![] : Fin 0 → Fin S8.rank)
  bcast_S_S1x8 : S_.BroadcastsInDim S1x8 (![] : Fin 0 → Fin S1x8.rank)
  bcast_S_S512000x8 : S_.BroadcastsInDim S512000x8 (![] : Fin 0 → Fin S512000x8.rank)
  transposes_S1x8_S8x1_1_0 : S1x8.Transposes [1, 0] S8x1
  bcast_S1_S1x1_1 : S1.BroadcastsInDim S1x1 (![1] : Fin 1 → Fin S1x1.rank)
  bcast_S1x1_S512000x1_0_1 : S1x1.BroadcastsInDim S512000x1 (![0, 1] : Fin 2 → Fin S512000x1.rank)
  reducesTo_S512000x1_S1_d0 : S512000x1.ReducesTo [0] S1
  bcast_S_S1 : S_.BroadcastsInDim S1 (![] : Fin 0 → Fin S1.rank)
  bcast_S_S1x1 : S_.BroadcastsInDim S1x1 (![] : Fin 0 → Fin S1x1.rank)
  bcast_S_S512000x1 : S_.BroadcastsInDim S512000x1 (![] : Fin 0 → Fin S512000x1.rank)
  shapeCasts_S512000x1_S256x2000x1 : S512000x1.ShapeCasts S256x2000x1
  reducesTo_S256x2000x1_S256x1_d1 : S256x2000x1.ReducesTo [1] S256x1
  bcast_S_S256x1 : S_.BroadcastsInDim S256x1 (![] : Fin 0 → Fin S256x1.rank)
  bcast_S256x1_S256x1x1_0_2 : S256x1.BroadcastsInDim S256x1x1 (![0, 2] : Fin 2 → Fin S256x1x1.rank)
  bcast_S256x1x1_S256x2000x1_0_1_2 : S256x1x1.BroadcastsInDim S256x2000x1 (![0, 1, 2] : Fin 3 → Fin S256x2000x1.rank)
  shapeCasts_S512000x32_S256x2000x32 : S512000x32.ShapeCasts S256x2000x32
  bcast_S256x2000x1_S256x2000x32_0_1_2 : S256x2000x1.BroadcastsInDim S256x2000x32 (![0, 1, 2] : Fin 3 → Fin S256x2000x32.rank)
  shapeCasts_S256x2000x32_S256x64000 : S256x2000x32.ShapeCasts S256x64000
  transposes_S1024x64000_S64000x1024_1_0 : S1024x64000.Transposes [1, 0] S64000x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  reducesTo_S256x1024_S1024_d0 : S256x1024.ReducesTo [0] S1024
  bcast_S_S1024 : S_.BroadcastsInDim S1024 (![] : Fin 0 → Fin S1024.rank)
  bcast_S_S1x1024 : S_.BroadcastsInDim S1x1024 (![] : Fin 0 → Fin S1x1024.rank)
  bcast_S_S256x1024 : S_.BroadcastsInDim S256x1024 (![] : Fin 0 → Fin S256x1024.rank)
  transposes_S256x1024_S1024x256_1_0 : S256x1024.Transposes [1, 0] S1024x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  reducesTo_S256x256_S256_d0 : S256x256.ReducesTo [0] S256
  bcast_S_S256 : S_.BroadcastsInDim S256 (![] : Fin 0 → Fin S256.rank)
  bcast_S_S1x256 : S_.BroadcastsInDim S1x256 (![] : Fin 0 → Fin S1x256.rank)
  bcast_S_S256x256 : S_.BroadcastsInDim S256x256 (![] : Fin 0 → Fin S256x256.rank)
  reducesTo_S256x256_S256_d1 : S256x256.ReducesTo [1] S256
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  dot_S512000x32_S32x16_S512000x16_1_0_0_1_n_n_wf : DotDims.WF S512000x32 S32x16 S512000x16 [1] [0] [0] [1] [] []
  dot_S512000x16_S16x8_S512000x8_1_0_0_1_n_n_wf : DotDims.WF S512000x16 S16x8 S512000x8 [1] [0] [0] [1] [] []
  dot_S512000x8_S8x1_S512000x1_1_0_0_1_n_n_wf : DotDims.WF S512000x8 S8x1 S512000x1 [1] [0] [0] [1] [] []
  dot_S256x64000_S64000x1024_S256x1024_1_0_0_1_n_n_wf : DotDims.WF S256x64000 S64000x1024 S256x1024 [1] [0] [0] [1] [] []
  dot_S256x1024_S1024x256_S256x256_1_0_0_1_n_n_wf : DotDims.WF S256x1024 S1024x256 S256x256 [1] [0] [0] [1] [] []

variable [Facts₀]

def dot_S512000x32_S32x16_S512000x16_1_0_0_1_n_n : DotDims S512000x32 S32x16 S512000x16 where
  lhsContracting := [1]
  rhsContracting := [0]
  lhsNonContracting := [0]
  rhsNonContracting := [1]
  lhsBatch := []
  rhsBatch := []
  wf := dot_S512000x32_S32x16_S512000x16_1_0_0_1_n_n_wf
def dot_S512000x16_S16x8_S512000x8_1_0_0_1_n_n : DotDims S512000x16 S16x8 S512000x8 where
  lhsContracting := [1]
  rhsContracting := [0]
  lhsNonContracting := [0]
  rhsNonContracting := [1]
  lhsBatch := []
  rhsBatch := []
  wf := dot_S512000x16_S16x8_S512000x8_1_0_0_1_n_n_wf
def dot_S512000x8_S8x1_S512000x1_1_0_0_1_n_n : DotDims S512000x8 S8x1 S512000x1 where
  lhsContracting := [1]
  rhsContracting := [0]
  lhsNonContracting := [0]
  rhsNonContracting := [1]
  lhsBatch := []
  rhsBatch := []
  wf := dot_S512000x8_S8x1_S512000x1_1_0_0_1_n_n_wf
def dot_S256x64000_S64000x1024_S256x1024_1_0_0_1_n_n : DotDims S256x64000 S64000x1024 S256x1024 where
  lhsContracting := [1]
  rhsContracting := [0]
  lhsNonContracting := [0]
  rhsNonContracting := [1]
  lhsBatch := []
  rhsBatch := []
  wf := dot_S256x64000_S64000x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

class Facts : Prop extends Facts₀ where

variable [Facts]
-- ==== Proof.KI.R0Base.lean ====
/-
  Region 0 (the first dense layer: a 256×64000 by 64000×1024 product accumulated over twenty blocks of 3200
  columns, two blocks of 512 output columns) — what its three control cases share.  The grid is 2 × 20, point
  t = 20·n + k; the body zeroes its 256×512 accumulator when k = 0, adds one block's partial product at every
  point, and at k = 19 normalises the accumulated columns (batch statistics over the 256 rows), scales, shifts,
  clamps at zero and stores the block of the result.  Stated here: the blocks of the six windows as the region
  finds them, the two branch conditions in closed form over the grid, where the output window is idle, and the
  memrefs the body is called with.
-/
import proofs.«100161_j89575837925663_2_alg».proof.Proof.Gen.KernelIdeal.Launch
import proofs.«100161_j89575837925663_2_alg».proof.Proof.Gen.KernelIdeal.Skeleton
import proofs.«100161_j89575837925663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The branch conditions, decided over the grid -/

/-- The first branch (zero the accumulator) is taken when the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- The second branch (normalise and store the block) is taken when the second grid coordinate is 19. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second branch is not taken the output window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S256x512 .f32 := (Memref.whole cc0_stg5_0 : Memref sig .tc .vmem S256x512 .f32).view
abbrev ms0_0 (t : Fin cfg0.N) : Memref sig .tc .vmem S256x3200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S256x512 .f32 := Memref.whole cc0_scratch0
abbrev VS0_0 : View sig .tc .vmem S256x512 .f32 := scM0_0.view

/-- The other scoped buffers of the core (the second region's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ otherScoped c) ∗ (∃ r, prngReg c r)) := by
  unfold Pipeline.ΦA otherScoped; rw [scopedRest0_eq]; simp only [scM0_0, owns_whole]; try rfl

end Cert.KernelIdeal.Hand

end
-- ==== Proof.KI.R0RunA.lean ====
/-
  Region 0's body in the case where the second grid coordinate is 0: the accumulator is zeroed, then this block's partial product is added; the output window is idle.  On whole staging memrefs holding the five input blocks the body
  runs to the end; the pieces its stores leave in the accumulator (and in the output buffer, when it stores there)
  are found by running it.
-/
import proofs.«100161_j89575837925663_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : cond0_0 i) (hc1 : ¬cond0_1 i)
    (x0 : Vec F S256x3200 .bf16) (x1 : Vec F S512x3200 .f32) (x2 : Vec F S1x512 .f32) (x3 : Vec F S1x512 .f32) (x4 : Vec F S1x512 .f32) :
    Σ' (L5 : List (View.Piece (Elt F) S256x512 .f32)), { LS0 : List (View.Piece (Elt F) S256x512 .f32) //
      ∀ (xi5 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__fc1_kernel i arg2 harg2 arg3 harg3 arg4 harg4 arg5 harg5 arg6 harg6 arg7 harg7 arg8 harg8) K } := by
  refine ⟨[], ?_, fun xi5 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R0RunB.lean ====
/-
  Region 0's body in the case where the second grid coordinate is neither 0 nor 19: this block's partial product is added to the accumulator; the output window is idle.  On whole staging memrefs holding the five input blocks the body
  runs to the end; the pieces its stores leave in the accumulator (and in the output buffer, when it stores there)
  are found by running it.
-/
import proofs.«100161_j89575837925663_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : ¬cond0_1 i)
    (x0 : Vec F S256x3200 .bf16) (x1 : Vec F S512x3200 .f32) (x2 : Vec F S1x512 .f32) (x3 : Vec F S1x512 .f32) (x4 : Vec F S1x512 .f32) (xs0 : Vec F S256x512 .f32) :
    Σ' (L5 : List (View.Piece (Elt F) S256x512 .f32)), { LS0 : List (View.Piece (Elt F) S256x512 .f32) //
      ∀ (xi5 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__fc1_kernel i arg2 harg2 arg3 harg3 arg4 harg4 arg5 harg5 arg6 harg6 arg7 harg7 arg8 harg8) K } := by
  refine ⟨[], ?_, fun xi5 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R0RunC.lean ====
/-
  Region 0's body in the case where the second grid coordinate is 19: the last partial product is added and the normalised, scaled, shifted and clamped block is stored.  On whole staging memrefs holding the five input blocks the body
  runs to the end; the pieces its stores leave in the accumulator (and in the output buffer, when it stores there)
  are found by running it.
-/
import proofs.«100161_j89575837925663_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) :
    Σ' (L5 : List (View.Piece (Elt F) S256x512 .f32)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__fc1_kernel i arg2 harg2 arg3 harg3 arg4 harg4 arg5 harg5 arg6 harg6 arg7 harg7 arg8 harg8) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R0Frame.lean ====
/-
  Region 0: what the accumulator holds after each grid point and what the output buffer holds at the points that
  store it, the region's invariant (the accumulator at its named contents from the second point on), the proof
  data and the body obligation.  Point t = 20·n + k adds block k's partial product; the accumulator after t is
  defined by recursion on t, restarting at every k = 0.
-/
import proofs.«100161_j89575837925663_2_alg».proof.Proof.KI.R0RunA
import proofs.«100161_j89575837925663_2_alg».proof.Proof.KI.R0RunB
import proofs.«100161_j89575837925663_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case A leaves in the accumulator cover it. -/
theorem scover0_A_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : cond0_0 i) (hc1 : ¬cond0_1 i)
    (x0 : Vec F S256x3200 .bf16) (x1 : Vec F S512x3200 .f32) (x2 : Vec F S1x512 .f32) (x3 : Vec F S1x512 .f32) (x4 : Vec F S1x512 .f32) (y : S256x512.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S256x512.size (by sl_kernel_rfl) y

/-- What case A leaves in the accumulator: its pieces read back. -/
def sout0_A_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : cond0_0 i) (hc1 : ¬cond0_1 i)
    (x0 : Vec F S256x3200 .bf16) (x1 : Vec F S512x3200 .f32) (x2 : Vec F S1x512 .f32) (x3 : Vec F S1x512 .f32) (x4 : Vec F S1x512 .f32) : Vec F S256x512 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- The pieces case B leaves in the accumulator cover it. -/
theorem scover0_B_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : ¬cond0_1 i)
    (x0 : Vec F S256x3200 .bf16) (x1 : Vec F S512x3200 .f32) (x2 : Vec F S1x512 .f32) (x3 : Vec F S1x512 .f32) (x4 : Vec F S1x512 .f32) (xs0 : Vec F S256x512 .f32) (y : S256x512.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S256x512.size (by sl_kernel_rfl) y

/-- What case B leaves in the accumulator: its pieces read back. -/
def sout0_B_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : ¬cond0_1 i)
    (x0 : Vec F S256x3200 .bf16) (x1 : Vec F S512x3200 .f32) (x2 : Vec F S1x512 .f32) (x3 : Vec F S1x512 .f32) (x4 : Vec F S1x512 .f32) (xs0 : Vec F S256x512 .f32) : Vec F S256x512 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- The pieces case C leaves in the accumulator cover it. -/
theorem scover0_C_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) (y : S256x512.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S256x512.size (by sl_kernel_rfl) y

/-- What case C leaves in the accumulator: its pieces read back. -/
def sout0_C_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) : Vec F S256x512 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-- The pieces case C leaves in the output buffer cover it. -/
theorem cover0_C_5 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) (y : S256x512.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S256x512.size (by sl_kernel_rfl) y

/-- What case C leaves in the output buffer: its pieces read back. -/
def out0_C_5 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) : Vec F S256x512 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

section
variable (V : (c : Dev nD) → (b : Ref sig .tc) → Buf (Elt F) ((c : Thread nD τ).loc b))

/-- The accumulator after a point with k = 0, from the point's blocks. -/
def accA (c : Dev nD) (t : Fin cfg0.N) (h0 : t.val % 20 = 0) : Vec F S256x512 .f32 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => by have := (hcond0_1 t).mp h; omega) (iblk0 V c 0 t) (iblk0 V c 1 t) (iblk0 V c 2 t) (iblk0 V c 3 t) (iblk0 V c 4 t)
/-- The accumulator after a point with 0 < k < 19, from the point's blocks and what the point before left. -/
def accB (c : Dev nD) (t : Fin cfg0.N) (h0 : ¬t.val % 20 = 0) (h1 : ¬t.val % 20 = 19) (xs0 : Vec F S256x512 .f32) : Vec F S256x512 .f32 :=
  sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs0
/-- The accumulator after a point with k = 19. -/
def accC (c : Dev nD) (t : Fin cfg0.N) (h1 : t.val % 20 = 19) (xs0 : Vec F S256x512 .f32) : Vec F S256x512 .f32 :=
  sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => by have := (hcond0_0 t).mp h; omega) ((hcond0_1 t).mpr h1) (iblk0 V c 0 t) (iblk0 V c 1 t) (iblk0 V c 2 t) (iblk0 V c 3 t) (iblk0 V c 4 t) xs0
/-- The output buffer after a point with k = 19. -/
def outC (c : Dev nD) (t : Fin cfg0.N) (h1 : t.val % 20 = 19) (xs0 : Vec F S256x512 .f32) : Vec F S256x512 .f32 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => by have := (hcond0_0 t).mp h; omega) ((hcond0_1 t).mpr h1) (iblk0 V c 0 t) (iblk0 V c 1 t) (iblk0 V c 2 t) (iblk0 V c 3 t) (iblk0 V c 4 t) xs0

/-- THE ACCUMULATION: the accumulator after the point at position `n`. -/
def accAt (c : Dev nD) : (n : ℕ) → n < cfg0.N → Vec F S256x512 .f32
  | 0, hn => accA V c ⟨0, hn⟩ (Nat.zero_mod _)
  | n + 1, hn =>
    if h0 : (n + 1) % 20 = 0 then accA V c ⟨n + 1, hn⟩ h0
    else if h1 : (n + 1) % 20 = 19 then accC V c ⟨n + 1, hn⟩ h1 (accAt c n (Nat.lt_of_succ_lt hn))
    else accB V c ⟨n + 1, hn⟩ h0 h1 (accAt c n (Nat.lt_of_succ_lt hn))

/-- The output buffer after the point at position `n` (named only where the body stores it: k = 19). -/
def outAt (c : Dev nD) : (n : ℕ) → n < cfg0.N → Vec F S256x512 .f32
  | 0, _ => VO0_5.read (Elt F) VO0_5.junk
  | n + 1, hn =>
    if h1 : (n + 1) % 20 = 19 then outC V c ⟨n + 1, hn⟩ h1 (accAt V c n (Nat.lt_of_succ_lt hn))
    else VO0_5.read (Elt F) VO0_5.junk

theorem accAt_A (c : Dev nD) (t : Fin cfg0.N) (h0 : t.val % 20 = 0) : accAt V c t.val t.isLt = accA V c t h0 := by
  obtain ⟨n, hn⟩ := t
  cases n with
  | zero => exact rfl
  | succ n => exact (dif_pos h0).trans rfl

theorem accAt_B (c : Dev nD) (t : Fin cfg0.N) (h0 : ¬t.val % 20 = 0) (h1 : ¬t.val % 20 = 19) :
    accAt V c t.val t.isLt = accB V c t h0 h1 (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 20 = 0) (h1 : t.val % 20 = 19) :
    accAt V c t.val t.isLt = accC V c t h1 (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem outAt_C (c : Dev nD) (t : Fin cfg0.N) (h1 : t.val % 20 = 19) :
    outAt V c t.val t.isLt = outC V c t h1 (accAt V c (t.val - 1) (Nat.lt_of_le_of_lt (Nat.sub_le _ _) t.isLt)) := by
  obtain ⟨n, hn⟩ := t
  cases n with
  | zero => exact (by exfalso; (try dsimp only at h1); omega)
  | succ n => exact (dif_pos h1).trans rfl

/-- The region's invariant before position `n`: before the first point the class's (every scoped buffer at anything);
    afterwards the accumulator at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt V c (n - 1) (by omega)) ∗ otherScoped c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in;
    the invariant hands the body the accumulator at what the point before left (at anything where k = 0) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 40 := lt_of_lt_of_eq t.isLt (show cfg0.N = 40 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 20 = 0
  · have h1 : ¬t.val % 20 = 19 := by omega
    rw [Dat.leavesExact_idle (dat0 V c) 5 t (idleAt0_5 t (fun h => h1 ((hcond0_1 t).mp h))) (noFlush0_5 t (fun h => h1 ((hcond0_1 t).mp h)))]
    rw [accAt_A V c t h0]
    unfold accA sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => by have := (hcond0_1 t).mp h; omega) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => by have := (hcond0_1 t).mp h; omega) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 20 = 19
    · rw [show (dat0 V c).leavesExact 5 t = owns (c : Thread nD τ) (ms0_5 t) fullShare ((dat0 V c).after 5 t) from by
        unfold Dat.leavesExact; rw [liveAt0_5 t ((hcond0_1 t).mpr h1)], after0_5]
      rw [accAt_C V c t h0 h1, outAt_C V c t h1]
      unfold accC outC sout0_C_0 out0_C_5; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => by have := (hcond0_0 t).mp h; omega) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [accAt_B V c t h0 h1]
      unfold accB sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 40 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, HR⟩, Hg⟩
  isplitl [HS0 HR]
  · isplitl [HS0]
    · iexists _; iexact HS0
    iexact HR
  iexact Hg

end

end Cert.KernelIdeal.Hand

end
-- ==== Proof.KI.R0Value.lean ====
/-
  Region 0's values, at any float instance: what each case leaves in the accumulator and in the output buffer, as
  the body's pure payloads of the blocks — the partial product added to the zero block (k = 0) or to what the
  point before left (k > 0), and at k = 19 the normalised block of the accumulated columns.
-/
import proofs.«100161_j89575837925663_2_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout_B (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : ¬cond0_1 i)
    (x0 : Vec F S256x3200 .bf16) (x1 : Vec F S512x3200 .f32) (x2 : Vec F S1x512 .f32) (x3 : Vec F S1x512 .f32) (x4 : Vec F S1x512 .f32) (xs0 : Vec F S256x512 .f32) : sout0_B_0 c i arg2 harg2 arg3 harg3 arg4 harg4 arg5 harg5 arg6 harg6 arg7 harg7 arg8 harg8 hc0 hc1 x0 x1 x2 x3 x4 xs0 = k0_pay2 x1 xs0 x0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg4.read_unread, harg5.read_unread, harg6.read_unread, harg8.read_unread, View.ld_unit_zero (S := S256x512) hz2, View.ld_unit_zero (S := S512x3200) hz2, View.ld_unit_zero (S := S256x3200) hz2, View.ld_unit_zero (S := S1x512) hz2]

theorem sout_C (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) : sout0_C_0 c i arg2 harg2 arg3 harg3 arg4 harg4 arg5 harg5 arg6 harg6 arg7 harg7 arg8 harg8 hc0 hc1 x0 x1 x2 x3 x4 xs0 = k0_pay2 x1 xs0 x0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S256x512) hz2, View.ld_unit_zero (S := S512x3200) hz2, View.ld_unit_zero (S := S256x3200) hz2, View.ld_unit_zero (S := S1x512) hz2]

theorem sout_A (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : cond0_0 i) (hc1 : ¬cond0_1 i)
    (x0 : Vec F S256x3200 .bf16) (x1 : Vec F S512x3200 .f32) (x2 : Vec F S1x512 .f32) (x3 : Vec F S1x512 .f32) (x4 : Vec F S1x512 .f32) : sout0_A_0 c i arg2 harg2 arg3 harg3 arg4 harg4 arg5 harg5 arg6 harg6 arg7 harg7 arg8 harg8 hc0 hc1 x0 x1 x2 x3 x4 = k0_pay2 x1 (k0_pay1 (F := F)) x0 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x512) hz2, View.readCov_unit_zero (S := S256x512) _ hz2]
  simp only [View.readAt_eq_ld, harg2.read_unread, harg3.read_unread, harg4.read_unread, harg5.read_unread, harg6.read_unread, harg8.read_unread, View.ld_unit_zero (S := S256x512) hz2, View.ld_unit_zero (S := S512x3200) hz2, View.ld_unit_zero (S := S256x3200) hz2, View.ld_unit_zero (S := S1x512) hz2]

theorem out_C (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) : out0_C_5 c i arg2 harg2 arg3 harg3 arg4 harg4 arg5 harg5 arg6 harg6 arg7 harg7 arg8 harg8 hc0 hc1 x0 x1 x2 x3 x4 xs0 = k0_pay3 (k0_pay2 x1 xs0 x0) x2 x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2, View.readCov_unit_zero (S := S256x512) _ hz2]
  simp only [View.readAt_eq_ld, harg2.read_unread, harg3.read_unread, harg4.read_unread, harg5.read_unread, harg6.read_unread, harg8.read_unread, View.ld_unit_zero (S := S256x512) hz2, View.ld_unit_zero (S := S512x3200) hz2, View.ld_unit_zero (S := S256x3200) hz2, View.ld_unit_zero (S := S1x512) hz2]

section
variable (V : (c : Dev nD) → (b : Ref sig .tc) → Buf (Elt F) ((c : Thread nD τ).loc b))

/-- Where k = 0 the accumulator ends at this block's partial product added to the zero block. -/
theorem accAt_zero (c : Dev nD) (t : Fin cfg0.N) (h0 : t.val % 20 = 0) :
    accAt V c t.val t.isLt = k0_pay2 (iblk0 V c 1 t) (k0_pay1 (F := F)) (iblk0 V c 0 t) := by
  rw [accAt_A V c t h0]; unfold accA; exact sout_A ..

/-- Where k > 0 it ends at this block's partial product added to what the point before left. -/
theorem accAt_step (c : Dev nD) (t : Fin cfg0.N) (h0 : ¬t.val % 20 = 0) :
    accAt V c t.val t.isLt = k0_pay2 (iblk0 V c 1 t) (accAt V c (t.val - 1) (Nat.lt_of_le_of_lt (Nat.sub_le _ _) t.isLt)) (iblk0 V c 0 t) := by
  by_cases h1 : t.val % 20 = 19
  · rw [accAt_C V c t h0 h1]; unfold accC; exact sout_C ..
  · rw [accAt_B V c t h0 h1]; unfold accB; exact sout_B ..

/-- Where k = 19 the output buffer ends at the normalised block of the accumulated columns. -/
theorem outAt_last (c : Dev nD) (t : Fin cfg0.N) (h1 : t.val % 20 = 19) :
    outAt V c t.val t.isLt = k0_pay3 (accAt V c t.val t.isLt) (iblk0 V c 2 t) (iblk0 V c 3 t) (iblk0 V c 4 t) := by
  have h0 : ¬t.val % 20 = 0 := by omega
  rw [outAt_C V c t h1, accAt_step V c t h0]; unfold outC; exact out_C ..

end

end Cert.KernelIdeal.Hand

end
-- ==== Proof.KI.R1Frame.lean ====
/-
  Region 1 (the second dense layer with its batch normalisation, clamp and row normalisation): one grid point,
  five input windows each the whole of its array, one output window stored whole.  What the output buffer holds
  after the body is the body's one store over the five input blocks.
-/
import proofs.«100161_j89575837925663_2_alg».proof.Proof.Gen.KernelIdeal.Launch
import proofs.«100161_j89575837925663_2_alg».proof.Proof.Gen.KernelIdeal.Skeleton
import proofs.«100161_j89575837925663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_A : Rect S256x1024 := Rect.unit (s := S256x1024) ![0, 0] S256x1024.size inb_S256x1024_S256x1024_0_0
abbrev r1_B : Rect S1x256 := Rect.unit (s := S1x256) ![0, 0] S1x256.size inb_S1x256_S1x256_0_0
abbrev r1_C : Rect S256x256 := Rect.unit (s := S256x256) ![0, 0] S256x256.size inb_S256x256_S256x256_0_0

/-- The output buffer after the body, from the input blocks: its one store. -/
def out1_5 (x0 : Vec F S256x1024 .f32) (x1 : Vec F S256x1024 .f32) (x2 : Vec F S1x256 .f32) (x3 : Vec F S1x256 .f32) (x4 : Vec F S1x256 .f32) : Vec F S256x256 .f32 :=
  View.canon [⟨r1_C, k1_pay1 (k1_pay2 (View.ld x0 r1_A) (View.ld x1 r1_A) (View.ld x2 r1_B) (View.ld x3 r1_B) (View.ld x4 r1_B)) (k1_pay3 (View.ld x0 r1_A) (View.ld x1 r1_A) (View.ld x2 r1_B) (View.ld x3 r1_B) (View.ld x4 r1_B))⟩]

theorem cover1_5 (p0 : Vec F S256x256 .f32) (y : S256x256.Idx) :
    ∃ pc ∈ ([⟨r1_C, p0⟩] : List (View.Piece (Elt F) S256x256 .f32)), y ∈ pc.1.set :=
  View.cover_of_tiled [⟨r1_C, p0⟩] S256x256.size (by rfl) y

set_option maxHeartbeats 4000000 in
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole)
    (x0 : Vec F S256x1024 .f32) (x1 : Vec F S256x1024 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__fc2_kernel i arg1 harg1 arg2 harg2 arg3 harg3 arg4 harg4 arg5 harg5 arg6 harg6) K := by
  simp only [cc1__fc2_kernel_eq_skeleton]; unfold cc1__fc2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibColumnSums.lean ====
/-
  Sums along the first axis of a two-axis array, on the extended reals.

  The sum along the first axis of an a×b array is, at column q, the sum over the rows k of the entry (k, q) — for a
  kernel body's lane reduction from the zero accumulator (`colsum_apply`), and for a host program's reduce-add, which
  also adds its initial value (`host_colsum_apply`). Both rest on one index fact: a column index q with the row index
  k put back on the first axis is (k, q) (`lift_col`). Nothing here mentions a program.
-/
import Idealize.ShloMosaic.PureOps.Ideal
import Idealize.ShloMosaic.PureOps.Ideal.Laws
import Idealize.ShloMosaic.PureOps.Reduce
import Idealize.ShloMosaic.Lib.ValueIdx

open scoped BigOperators

noncomputable section

namespace Cert.Lib.ColumnSums

open Idealize.ShloMosaic Idealize.ShloMosaic.ValueIdx

variable {a b : Nat} {φ : FTy}

/-- A column index q of an a×b array with a row index k put back on the first axis is (k, q). -/
theorem lift_col (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext ax; apply Fin.ext
  match ax with
  | ⟨0, _⟩ => rfl
  | ⟨1, _⟩ => rfl

/-- The sum along the first axis of an a×b block, from the neutral accumulator, is at q the sum over k of the block at
    (k, q). -/
theorem colsum_apply (src : FVec Ideal ⟨2, ![a, b]⟩ φ) (acc : BitVec φ.bits)
    (h : (⟨2, ![a, b]⟩ : Shape).Reduces [0] ⟨1, ![b]⟩) (hφ : FKind.Formats φ)
    (hacc : acc = FKind.add.neutral φ hφ) (q : Fin b) :
    multiReduction .add [0] ⟨1, ![b]⟩ src acc h hφ hacc (ix1 q) = ∑ k : Fin a, src (ix2 k q) := by
  rw [Ideal.multiReduction_add_single]
  exact Finset.sum_congr rfl fun k _ => congrArg src (lift_col h q k)

/-- The host's reduce-add along the first axis of an a×b array is at q the initial value plus the sum over k of the
    array at (k, q). -/
theorem host_colsum_apply (h' : (⟨2, ![a, b]⟩ : Shape).ReducesTo [0] ⟨1, ![b]⟩) (h : (⟨2, ![a, b]⟩ : Shape).Reduces [0] ⟨1, ![b]⟩)
    (x : (⟨2, ![a, b]⟩ : Shape).Idx → EReal) (init : EReal) (q : Fin b) :
    Ideal.hostReduceAdd h' x init (ix1 q) = init + ∑ k : Fin a, x (ix2 k q) := by
  rw [Ideal.hostReduceAdd_single h' h]
  exact congrArg (init + ·) (Finset.sum_congr rfl fun k _ => congrArg x (lift_col h q k))

end Cert.Lib.ColumnSums

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«100161_j89575837925663_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«100161_j89575837925663_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibColumnNorm.lean ====
/-
  Column-wise batch normalisation and row-wise Euclidean normalisation on the extended reals.
  For a column h of R entries: colMean h = (Σ h)/256·, colVar h = (Σ (h − mean)²)/256·, and
  bnCol h g β p = max(((h p − mean)·rsqrt(var + ε))·g + β, 0) with the divisor the word 0x43800000 and ε the word
  0x3727C5AC; for a row r: l2row r j = r j / max(√(Σ r²), δ) with δ the word 0x2B8CBCCC.  A kernel body's spelling of
  these on an R×C block (lane sums along the first axis, 1×C rows broadcast down the rows; a lane sum along the
  last axis re-shaped to a column) and a host program's spelling (reduce-add from a zero constant, broadcast_in_dim
  [C]→[1,C]→[R,C], the variance's divisor 256 − 0 guarded by a select on 256 − 0 > 0) both read, entry by entry, as
  these functions of one column (one row) of the array; a product accumulated onto a block reads as the block's
  entry plus the sum over the contracted coordinate.  Nothing here needs finiteness.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«100161_j89575837925663_2_alg».proof.Proof.LibBlockReads
import proofs.«100161_j89575837925663_2_alg».proof.Proof.LibColumnSums
import proofs.«100161_j89575837925663_2_alg».proof.Proof.LibRowVector
import proofs.«100161_j89575837925663_2_alg».proof.Proof.LibHostRows

noncomputable section

open scoped BigOperators

namespace Cert.Lib.ColumnNorm

open Idealize.ShloMosaic Idealize.ShloMosaic.ValueIdx

variable {R C K : Nat}

/-! ## The specification -/

abbrev w256 : EReal := Ideal.ofBits .f32 0x43800000#32
abbrev wEps : EReal := Ideal.ofBits .f32 0x3727C5AC#32
abbrev wTiny : EReal := Ideal.ofBits .f32 0x2B8CBCCC#32
abbrev wZero : EReal := Ideal.ofBits .f32 0x00000000#32

/-- The mean of a column: its sum divided by the word 256.0. -/
def colMean (h : Fin R → EReal) : EReal := Ideal.div (∑ p, h p) w256
/-- The (biased) variance of a column. -/
def colVar (h : Fin R → EReal) : EReal := Ideal.div (∑ p, (h p - colMean h) * (h p - colMean h)) w256
/-- One column normalised, scaled by g, shifted by β and clamped below at the zero word. -/
def bnCol (h : Fin R → EReal) (g be : EReal) (p : Fin R) : EReal :=
  max (((h p - colMean h) * Ideal.rsqrt (colVar h + wEps)) * g + be) wZero
/-- One row divided by the larger of its Euclidean norm and the word δ. -/
def l2row (r : Fin C → EReal) (j : Fin C) : EReal := Ideal.div (r j) (max (Ideal.sqrt (∑ k, r k * r k)) wTiny)

/-- The word 0x43800000 is the real 256. -/
theorem ofBits_256 : Ideal.ofBits .f32 0x43800000#32 = ((256 : ℝ) : EReal) := by
  simp [Ideal.ofBits, Ideal.ieee, -EReal.coe_mul]; norm_num

/-- The vector reciprocal root and root, entry by entry. -/
theorem rsqrt_apply {s : Shape} {φ : FTy} (a : FVec Ideal s φ) (i : s.Idx) : rsqrt a i = Ideal.rsqrt (a i) := rfl
theorem sqrt_apply {s : Shape} {φ : FTy} (a : FVec Ideal s φ) (i : s.Idx) : sqrt a i = Ideal.sqrt (a i) := rfl

/-! ## A kernel body's spellings -/

/-- A block's partial product added to an accumulator block: the left block re-shaped in place, the right block
    narrowed, both contracted along their columns into zeros, the sum re-shaped in place. -/
def bodyAcc (d : DotDims ⟨2, ![R, K]⟩ ⟨2, ![C, K]⟩ ⟨2, ![R, C]⟩) (h1 : (⟨2, ![R, K]⟩ : Shape).ShapeCasts ⟨2, ![R, K]⟩)
    (h2 : (⟨2, ![R, C]⟩ : Shape).ShapeCasts ⟨2, ![R, C]⟩) (hb : (FTy.bf16).bits < (FTy.f32).bits)
    (v3 : FVec Ideal ⟨2, ![C, K]⟩ .f32) (v5 : FVec Ideal ⟨2, ![R, C]⟩ .f32) (v6 : FVec Ideal ⟨2, ![R, K]⟩ .bf16) : FVec Ideal ⟨2, ![R, C]⟩ .f32 :=
  shapeCast ⟨2, ![R, C]⟩ (addf v5 (matmul d none (shapeCast ⟨2, ![R, K]⟩ v6 h1) (truncf .bf16 v3 hb) (constant ⟨2, ![R, C]⟩ .f32 0x00000000#32))) h2

theorem bodyAcc_apply (d : DotDims ⟨2, ![R, K]⟩ ⟨2, ![C, K]⟩ ⟨2, ![R, C]⟩)
    (hlc : d.lhsContracting = [1]) (hrc : d.rhsContracting = [1]) (hln : d.lhsNonContracting = [0])
    (hrn : d.rhsNonContracting = [0]) (hlb : d.lhsBatch = []) (hrb : d.rhsBatch = [])
    (h1 : (⟨2, ![R, K]⟩ : Shape).ShapeCasts ⟨2, ![R, K]⟩) (h2 : (⟨2, ![R, C]⟩ : Shape).ShapeCasts ⟨2, ![R, C]⟩) (hb : (FTy.bf16).bits < (FTy.f32).bits)
    (v3 : FVec Ideal ⟨2, ![C, K]⟩ .f32) (v5 : FVec Ideal ⟨2, ![R, C]⟩ .f32) (v6 : FVec Ideal ⟨2, ![R, K]⟩ .bf16) (p : Fin R) (q : Fin C) :
    bodyAcc d h1 h2 hb v3 v5 v6 (ix2 p q) = v5 (ix2 p q) + ∑ i : Fin K, v6 (ix2 p i) * v3 (ix2 q i) := by
  unfold bodyAcc
  rw [shapeCast_self, shapeCast_self]
  show v5 (ix2 p q) + matmul d none v6 (truncf .bf16 v3 hb) _ (ix2 p q) = _
  rw [Cert.Lib.BlockReads.matmul_zero_cols_apply d hlc hrc hln hrn hlb hrb]
  rfl

/-- The normalisation of an R×C block's columns with a bias row, a scale row and a shift row. -/
def bodyBN (hcc : (⟨2, ![1, C]⟩ : Shape).ShapeCasts ⟨2, ![1, C]⟩) (hbc : (⟨2, ![1, C]⟩ : Shape).Broadcasts ⟨2, ![R, C]⟩)
    (hred : (⟨2, ![R, C]⟩ : Shape).Reduces [0] ⟨1, ![C]⟩) (hsc : (⟨1, ![C]⟩ : Shape).ShapeCasts ⟨2, ![1, C]⟩)
    (hφ : FKind.Formats .f32) (hacc : (0x00000000#32 : BitVec (FTy.f32).bits) = FKind.add.neutral .f32 hφ)
    (v16 : FVec Ideal ⟨2, ![R, C]⟩ .f32) (v17 v41 v45 : FVec Ideal ⟨2, ![1, C]⟩ .f32) : FVec Ideal ⟨2, ![R, C]⟩ .f32 :=
  have v18 : FVec Ideal ⟨2, ![1, C]⟩ .f32 := shapeCast ⟨2, ![1, C]⟩ v17 hcc
  have v19 : FVec Ideal ⟨2, ![R, C]⟩ .f32 := broadcastTo ⟨2, ![R, C]⟩ v18 hbc
  have v20 : FVec Ideal ⟨2, ![R, C]⟩ .f32 := addf v16 v19
  have v21 : FVec Ideal ⟨1, ![C]⟩ .f32 := multiReduction .add [0] ⟨1, ![C]⟩ v20 0x00000000#32 hred hφ hacc
  have v22 : FVec Ideal ⟨2, ![1, C]⟩ .f32 := shapeCast ⟨2, ![1, C]⟩ v21 hsc
  have cst_14 : Ideal .f32 := Scalar.ofBits .f32 0x43800000#32
  have v23 : FVec Ideal ⟨2, ![1, C]⟩ .f32 := broadcast ⟨2, ![1, C]⟩ cst_14
  have v24 : FVec Ideal ⟨2, ![1, C]⟩ .f32 := divf v22 v23
  have v25 : FVec Ideal ⟨2, ![R, C]⟩ .f32 := broadcastTo ⟨2, ![R, C]⟩ v24 hbc
  have v26 : FVec Ideal ⟨2, ![R, C]⟩ .f32 := subf v20 v25
  have v27 : FVec Ideal ⟨2, ![R, C]⟩ .f32 := broadcastTo ⟨2, ![R, C]⟩ v24 hbc
  have v28 : FVec Ideal ⟨2, ![R, C]⟩ .f32 := subf v20 v27
  have v29 : FVec Ideal ⟨2, ![R, C]⟩ .f32 := mulf v26 v28
  have v30 : FVec Ideal ⟨1, ![C]⟩ .f32 := multiReduction .add [0] ⟨1, ![C]⟩ v29 0x00000000#32 hred hφ hacc
  have v31 : FVec Ideal ⟨2, ![1, C]⟩ .f32 := shapeCast ⟨2, ![1, C]⟩ v30 hsc
  have cst_16 : Ideal .f32 := Scalar.ofBits .f32 0x43800000#32
  have v32 : FVec Ideal ⟨2, ![1, C]⟩ .f32 := broadcast ⟨2, ![1, C]⟩ cst_16
  have v33 : FVec Ideal ⟨2, ![1, C]⟩ .f32 := divf v31 v32
  have v34 : FVec Ideal ⟨2, ![R, C]⟩ .f32 := broadcastTo ⟨2, ![R, C]⟩ v24 hbc
  have v35 : FVec Ideal ⟨2, ![R, C]⟩ .f32 := subf v20 v34
  have cst_17 : Ideal .f32 := Scalar.ofBits .f32 0x3727C5AC#32
  have v36 : FVec Ideal ⟨2, ![1, C]⟩ .f32 := broadcast ⟨2, ![1, C]⟩ cst_17
  have v37 : FVec Ideal ⟨2, ![1, C]⟩ .f32 := addf v33 v36
  have v38 : FVec Ideal ⟨2, ![1, C]⟩ .f32 := rsqrt v37
  have v39 : FVec Ideal ⟨2, ![R, C]⟩ .f32 := broadcastTo ⟨2, ![R, C]⟩ v38 hbc
  have v40 : FVec Ideal ⟨2, ![R, C]⟩ .f32 := mulf v35 v39
  have v42 : FVec Ideal ⟨2, ![1, C]⟩ .f32 := shapeCast ⟨2, ![1, C]⟩ v41 hcc
  have v43 : FVec Ideal ⟨2, ![R, C]⟩ .f32 := broadcastTo ⟨2, ![R, C]⟩ v42 hbc
  have v44 : FVec Ideal ⟨2, ![R, C]⟩ .f32 := mulf v40 v43
  have v46 : FVec Ideal ⟨2, ![1, C]⟩ .f32 := shapeCast ⟨2, ![1, C]⟩ v45 hcc
  have v47 : FVec Ideal ⟨2, ![R, C]⟩ .f32 := broadcastTo ⟨2, ![R, C]⟩ v46 hbc
  have v48 : FVec Ideal ⟨2, ![R, C]⟩ .f32 := addf v44 v47
  have cst_22 : Ideal .f32 := Scalar.ofBits .f32 0x00000000#32
  have v49 : FVec Ideal ⟨2, ![R, C]⟩ .f32 := broadcast ⟨2, ![R, C]⟩ cst_22
  have v50 : FVec Ideal ⟨2, ![R, C]⟩ .f32 := maximumf v48 v49
  v50

theorem bodyBN_apply (hcc : (⟨2, ![1, C]⟩ : Shape).ShapeCasts ⟨2, ![1, C]⟩) (hbc : (⟨2, ![1, C]⟩ : Shape).Broadcasts ⟨2, ![R, C]⟩)
    (hred : (⟨2, ![R, C]⟩ : Shape).Reduces [0] ⟨1, ![C]⟩) (hsc : (⟨1, ![C]⟩ : Shape).ShapeCasts ⟨2, ![1, C]⟩)
    (hφ : FKind.Formats .f32) (hacc : (0x00000000#32 : BitVec (FTy.f32).bits) = FKind.add.neutral .f32 hφ)
    (v16 : FVec Ideal ⟨2, ![R, C]⟩ .f32) (v17 v41 v45 : FVec Ideal ⟨2, ![1, C]⟩ .f32) (p : Fin R) (q : Fin C) :
    bodyBN hcc hbc hred hsc hφ hacc v16 v17 v41 v45 (ix2 p q)
      = bnCol (fun p' => v16 (ix2 p' q) + v17 (ix2 0 q)) (v41 (ix2 0 q)) (v45 (ix2 0 q)) p := by
  have hsum : ∀ (src : FVec Ideal ⟨2, ![R, C]⟩ .f32) (q : Fin C),
      multiReduction .add [0] ⟨1, ![C]⟩ src 0x00000000#32 hred hφ hacc (ix1 q) = ∑ k : Fin R, src (ix2 k q) :=
    fun src q => Cert.Lib.ColumnSums.colsum_apply src _ hred hφ hacc q
  unfold bodyBN bnCol colVar colMean
  simp only [maximumf_apply, addf_apply, mulf_apply, subf_apply, divf_apply, broadcast_apply, shapeCast_self, rsqrt_apply,
    Cert.Lib.BlockReads.broadcast_row_apply, Cert.Lib.RowReductions.shapeCast_rowvec_apply, hsum]
  rfl

/-- Each row of an R×C block divided by the larger of the root of its lane sum of squares and δ. -/
def bodyL2 (hred : (⟨2, ![R, C]⟩ : Shape).Reduces [1] ⟨1, ![R]⟩) (hφ : FKind.Formats .f32)
    (hacc : (0x00000000#32 : BitVec (FTy.f32).bits) = FKind.add.neutral .f32 hφ)
    (hsc : (⟨1, ![R]⟩ : Shape).ShapeCasts ⟨2, ![R, 1]⟩) (hbc : (⟨2, ![R, 1]⟩ : Shape).Broadcasts ⟨2, ![R, C]⟩)
    (v39 v40 : FVec Ideal ⟨2, ![R, C]⟩ .f32) : FVec Ideal ⟨2, ![R, C]⟩ .f32 :=
  have v41 : FVec Ideal ⟨1, ![R]⟩ .f32 := multiReduction .add [1] ⟨1, ![R]⟩ v40 0x00000000#32 hred hφ hacc
  have v42 : FVec Ideal ⟨2, ![R, 1]⟩ .f32 := shapeCast ⟨2, ![R, 1]⟩ v41 hsc
  have v43 : FVec Ideal ⟨2, ![R, 1]⟩ .f32 := sqrt v42
  have cst_16 : Ideal .f32 := Scalar.ofBits .f32 0x2B8CBCCC#32
  have v44 : FVec Ideal ⟨2, ![R, 1]⟩ .f32 := broadcast ⟨2, ![R, 1]⟩ cst_16
  have v45 : FVec Ideal ⟨2, ![R, 1]⟩ .f32 := maximumf v43 v44
  have v46 : FVec Ideal ⟨2, ![R, C]⟩ .f32 := broadcastTo ⟨2, ![R, C]⟩ v45 hbc
  have v47 : FVec Ideal ⟨2, ![R, C]⟩ .f32 := divf v39 v46
  v47

theorem bodyL2_apply (hred : (⟨2, ![R, C]⟩ : Shape).Reduces [1] ⟨1, ![R]⟩) (hφ : FKind.Formats .f32)
    (hacc : (0x00000000#32 : BitVec (FTy.f32).bits) = FKind.add.neutral .f32 hφ)
    (hsc : (⟨1, ![R]⟩ : Shape).ShapeCasts ⟨2, ![R, 1]⟩) (hbc : (⟨2, ![R, 1]⟩ : Shape).Broadcasts ⟨2, ![R, C]⟩)
    (v39 : FVec Ideal ⟨2, ![R, C]⟩ .f32) (p : Fin R) (q : Fin C) :
    bodyL2 hred hφ hacc hsc hbc v39 (mulf v39 v39) (ix2 p q) = l2row (fun k => v39 (ix2 p k)) q := by
  have hsum : ∀ (src : FVec Ideal ⟨2, ![R, C]⟩ .f32) (p : Fin R),
      multiReduction .add [1] ⟨1, ![R]⟩ src 0x00000000#32 hred hφ hacc (ix1 p) = ∑ k : Fin C, src (ix2 p k) :=
    fun src p => Cert.Lib.RowReductions.rowsum_apply src _ hred hφ hacc p
  unfold bodyL2 l2row
  simp only [maximumf_apply, mulf_apply, divf_apply, broadcast_apply, sqrt_apply,
    Cert.Lib.RowReductions.broadcast_col_apply, Cert.Lib.RowReductions.shapeCast_col_apply, hsum]
  rfl

end Cert.Lib.ColumnNorm

end
-- ==== Proof.KI.Blocks.lean ====
/-
  The two kernels' payloads as the generic spellings of the column normalisation, and their windows' blocks read
  at an index: region 0's block at grid point t = 20·n + k is, for the pooled rows, columns 3200·k … of the array;
  for the weights, rows 512·n … and columns 3200·k …; for the three parameter rows and the output, columns 512·n …;
  region 1's blocks are its whole arrays.  Arrays are read as functions on ℕ × ℕ (zero outside their extents) so
  that sums over blocks of a coordinate regroup by plain arithmetic.
-/
import proofs.«100161_j89575837925663_2_alg».proof.Proof.KI.R0Value
import proofs.«100161_j89575837925663_2_alg».proof.Proof.KI.R1Frame
import proofs.«100161_j89575837925663_2_alg».proof.Proof.LibColumnNorm
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Lib.ColumnNorm
open scoped BigOperators

/-! ## The payloads -/

theorem pay2_eq (v3 : Vec Ideal S512x3200 .f32) (v5 : Vec Ideal S256x512 .f32) (v6 : Vec Ideal S256x3200 .bf16) :
    k0_pay2 (F := Ideal) v3 v5 v6
      = bodyAcc dot_S256x3200_S512x3200_S256x512_1_1_0_0_n_n shapeCasts_S256x3200_S256x3200 shapeCasts_S256x512_S256x512 bitsLt_bf16_f32 v3 v5 v6 := rfl

theorem pay3_eq (v16 : Vec Ideal S256x512 .f32) (v17 v41 v45 : Vec Ideal S1x512 .f32) :
    k0_pay3 (F := Ideal) v16 v17 v41 v45
      = bodyBN shapeCasts_S1x512_S1x512 broadcasts_S1x512_S256x512 reduces_S256x512_S512 shapeCasts_S512_S1x512 (.inl rfl) rfl v16 v17 v41 v45 := rfl

theorem k1_pay2_eq (v0 v3 : Vec Ideal S256x1024 .f32) (v6 v30 v34 : Vec Ideal S1x256 .f32) :
    k1_pay2 (F := Ideal) v0 v3 v6 v30 v34
      = bodyBN shapeCasts_S1x256_S1x256 broadcasts_S1x256_S256x256 reduces_S256x256_S256 shapeCasts_S256_S1x256 (.inl rfl) rfl
          (matmul dot_S256x1024_S256x1024_S256x256_1_1_0_0_n_n none (truncf .bf16 (shapeCast S256x1024 v0 shapeCasts_S256x1024_S256x1024) bitsLt_bf16_f32) (truncf .bf16 v3 bitsLt_bf16_f32) (constant S256x256 .f32 0x00000000#32))
          v6 v30 v34 := rfl

theorem k1_pay1_eq (v39 v40 : FVec Ideal S256x256 .f32) :
    k1_pay1 (F := Ideal) v39 v40
      = bodyL2 reduces_S256x256_S256_2 (.inl rfl) rfl shapeCasts_S256_S256x1 broadcasts_S256x1_S256x256 v39 v40 := rfl

/-! ## Arrays on ℕ × ℕ -/

/-- An a×b array as a function on ℕ × ℕ, zero outside its extents. -/
def nat2 {a b : ℕ} (A : (⟨2, ![a, b]⟩ : Shape).Idx → EReal) (x y : ℕ) : EReal :=
  if h : x < a ∧ y < b then A (ix2 ⟨x, h.1⟩ ⟨y, h.2⟩) else 0

theorem nat2_ix2 {a b : ℕ} (A : (⟨2, ![a, b]⟩ : Shape).Idx → EReal) (p : Fin a) (q : Fin b) : nat2 A p.val q.val = A (ix2 p q) := by
  unfold nat2; rw [dif_pos ⟨p.isLt, q.isLt⟩]

section
variable (V : (c : Dev nD) → (b : Ref sig .tc) → Buf (Elt Ideal) ((c : Thread nD τ).loc b))

/-! ## Region 0's blocks -/

/-- The windows' block indices at grid point t = 20·n + k, decided over the grid. -/
theorem idx0 : ∀ t : Fin cfg0.N, win0_0.index t (0 : Fin 2) = 0 ∧ win0_0.index t (1 : Fin 2) = t.val % 20
    ∧ win0_1.index t (0 : Fin 2) = t.val / 20 ∧ win0_1.index t (1 : Fin 2) = t.val % 20
    ∧ win0_2.index t (0 : Fin 2) = 0 ∧ win0_2.index t (1 : Fin 2) = t.val / 20
    ∧ win0_3.index t (0 : Fin 2) = 0 ∧ win0_3.index t (1 : Fin 2) = t.val / 20
    ∧ win0_4.index t (0 : Fin 2) = 0 ∧ win0_4.index t (1 : Fin 2) = t.val / 20
    ∧ win0_5.index t (0 : Fin 2) = 0 ∧ win0_5.index t (1 : Fin 2) = t.val / 20 :=
  (by decide +kernel : ∀ t : Fin grid0.N, _)

theorem blk0_0 (c : Dev nD) (t : Fin cfg0.N) (p : Fin 256) (i : Fin 3200) :
    (iblk0 V c 0 t : Vec Ideal S256x3200 .bf16) (ix2 p i) = nat2 (V c main_v91 : S256x64000.Idx → EReal) (p.val) (3200 * (t.val % 20) + i.val) := by
  have hN : t.val < 40 := lt_of_lt_of_eq t.isLt N_0
  obtain ⟨e00, e01, e10, e11, e20, e21, e30, e31, e40, e41, e50, e51⟩ := idx0 t
  have hp := p.isLt
  have hi := i.isLt
  unfold nat2
  rw [dif_pos ⟨by omega, by omega⟩]
  unfold iblk0
  rw [View.read_apply]
  show V c main_v91 _ = V c main_v91 _
  refine congrArg _ (funext fun a => Fin.ext ?_)
  match a with
  | ⟨0, _⟩ => show win0_0.index t (0 : Fin 2) * 256 + 1 * p.val = p.val; omega
  | ⟨1, _⟩ => show win0_0.index t (1 : Fin 2) * 3200 + 1 * i.val = 3200 * (t.val % 20) + i.val; omega

theorem blk0_1 (c : Dev nD) (t : Fin cfg0.N) (p : Fin 512) (i : Fin 3200) :
    (iblk0 V c 1 t : Vec Ideal S512x3200 .f32) (ix2 p i) = nat2 (V c main_arg14 : S1024x64000.Idx → EReal) (512 * (t.val / 20) + p.val) (3200 * (t.val % 20) + i.val) := by
  have hN : t.val < 40 := lt_of_lt_of_eq t.isLt N_0
  obtain ⟨e00, e01, e10, e11, e20, e21, e30, e31, e40, e41, e50, e51⟩ := idx0 t
  have hp := p.isLt
  have hi := i.isLt
  unfold nat2
  rw [dif_pos ⟨by omega, by omega⟩]
  unfold iblk0
  rw [View.read_apply]
  show V c main_arg14 _ = V c main_arg14 _
  refine congrArg _ (funext fun a => Fin.ext ?_)
  match a with
  | ⟨0, _⟩ => show win0_1.index t (0 : Fin 2) * 512 + 1 * p.val = 512 * (t.val / 20) + p.val; omega
  | ⟨1, _⟩ => show win0_1.index t (1 : Fin 2) * 3200 + 1 * i.val = 3200 * (t.val % 20) + i.val; omega

theorem blk0_2 (c : Dev nD) (t : Fin cfg0.N) (p : Fin 1) (i : Fin 512) :
    (iblk0 V c 2 t : Vec Ideal S1x512 .f32) (ix2 p i) = nat2 (V c main_v92 : S1x1024.Idx → EReal) (p.val) (512 * (t.val / 20) + i.val) := by
  have hN : t.val < 40 := lt_of_lt_of_eq t.isLt N_0
  obtain ⟨e00, e01, e10, e11, e20, e21, e30, e31, e40, e41, e50, e51⟩ := idx0 t
  have hp := p.isLt
  have hi := i.isLt
  unfold nat2
  rw [dif_pos ⟨by omega, by omega⟩]
  unfold iblk0
  rw [View.read_apply]
  show V c main_v92 _ = V c main_v92 _
  refine congrArg _ (funext fun a => Fin.ext ?_)
  match a with
  | ⟨0, _⟩ => show win0_2.index t (0 : Fin 2) * 1 + 1 * p.val = p.val; omega
  | ⟨1, _⟩ => show win0_2.index t (1 : Fin 2) * 512 + 1 * i.val = 512 * (t.val / 20) + i.val; omega

theorem blk0_3 (c : Dev nD) (t : Fin cfg0.N) (p : Fin 1) (i : Fin 512) :
    (iblk0 V c 3 t : Vec Ideal S1x512 .f32) (ix2 p i) = nat2 (V c main_v93 : S1x1024.Idx → EReal) (p.val) (512 * (t.val / 20) + i.val) := by
  have hN : t.val < 40 := lt_of_lt_of_eq t.isLt N_0
  obtain ⟨e00, e01, e10, e11, e20, e21, e30, e31, e40, e41, e50, e51⟩ := idx0 t
  have hp := p.isLt
  have hi := i.isLt
  unfold nat2
  rw [dif_pos ⟨by omega, by omega⟩]
  unfold iblk0
  rw [View.read_apply]
  show V c main_v93 _ = V c main_v93 _
  refine congrArg _ (funext fun a => Fin.ext ?_)
  match a with
  | ⟨0, _⟩ => show win0_3.index t (0 : Fin 2) * 1 + 1 * p.val = p.val; omega
  | ⟨1, _⟩ => show win0_3.index t (1 : Fin 2) * 512 + 1 * i.val = 512 * (t.val / 20) + i.val; omega

theorem blk0_4 (c : Dev nD) (t : Fin cfg0.N) (p : Fin 1) (i : Fin 512) :
    (iblk0 V c 4 t : Vec Ideal S1x512 .f32) (ix2 p i) = nat2 (V c main_v94 : S1x1024.Idx → EReal) (p.val) (512 * (t.val / 20) + i.val) := by
  have hN : t.val < 40 := lt_of_lt_of_eq t.isLt N_0
  obtain ⟨e00, e01, e10, e11, e20, e21, e30, e31, e40, e41, e50, e51⟩ := idx0 t
  have hp := p.isLt
  have hi := i.isLt
  unfold nat2
  rw [dif_pos ⟨by omega, by omega⟩]
  unfold iblk0
  rw [View.read_apply]
  show V c main_v94 _ = V c main_v94 _
  refine congrArg _ (funext fun a => Fin.ext ?_)
  match a with
  | ⟨0, _⟩ => show win0_4.index t (0 : Fin 2) * 1 + 1 * p.val = p.val; omega
  | ⟨1, _⟩ => show win0_4.index t (1 : Fin 2) * 512 + 1 * i.val = 512 * (t.val / 20) + i.val; omega

/-! ## Region 1's blocks: the whole arrays -/

theorem blk1_0 (c : Dev nD) (t : Fin cfg1.N) : (iblk1 V c 0 t : Vec Ideal S256x1024 .f32) = V c main_v98 := by
  obtain rfl : t = t1_0 := fin_N1 t
  unfold iblk1
  have hz' : (fun a => win1_0.index t1_0 a * main_v98.ty.shape.size a) = fun _ => 0 := funext fun a => by fin_cases a <;> decide +kernel
  exact Memref.read_access_unit_zero (Elt Ideal) main_v98 hz' (fun a => by rw [congrFun hz' a]; simp) (V c main_v98)

theorem blk1_1 (c : Dev nD) (t : Fin cfg1.N) : (iblk1 V c 1 t : Vec Ideal S256x1024 .f32) = V c main_arg18 := by
  obtain rfl : t = t1_0 := fin_N1 t
  unfold iblk1
  have hz' : (fun a => win1_1.index t1_0 a * main_arg18.ty.shape.size a) = fun _ => 0 := funext fun a => by fin_cases a <;> decide +kernel
  exact Memref.read_access_unit_zero (Elt Ideal) main_arg18 hz' (fun a => by rw [congrFun hz' a]; simp) (V c main_arg18)

theorem blk1_2 (c : Dev nD) (t : Fin cfg1.N) : (iblk1 V c 2 t : Vec Ideal S1x256 .f32) = V c main_v95 := by
  obtain rfl : t = t1_0 := fin_N1 t
  unfold iblk1
  have hz' : (fun a => win1_2.index t1_0 a * main_v95.ty.shape.size a) = fun _ => 0 := funext fun a => by fin_cases a <;> decide +kernel
  exact Memref.read_access_unit_zero (Elt Ideal) main_v95 hz' (fun a => by rw [congrFun hz' a]; simp) (V c main_v95)

theorem blk1_3 (c : Dev nD) (t : Fin cfg1.N) : (iblk1 V c 3 t : Vec Ideal S1x256 .f32) = V c main_v96 := by
  obtain rfl : t = t1_0 := fin_N1 t
  unfold iblk1
  have hz' : (fun a => win1_3.index t1_0 a * main_v96.ty.shape.size a) = fun _ => 0 := funext fun a => by fin_cases a <;> decide +kernel
  exact Memref.read_access_unit_zero (Elt Ideal) main_v96 hz' (fun a => by rw [congrFun hz' a]; simp) (V c main_v96)

theorem blk1_4 (c : Dev nD) (t : Fin cfg1.N) : (iblk1 V c 4 t : Vec Ideal S1x256 .f32) = V c main_v97 := by
  obtain rfl : t = t1_0 := fin_N1 t
  unfold iblk1
  have hz' : (fun a => win1_4.index t1_0 a * main_v97.ty.shape.size a) = fun _ => 0 := funext fun a => by fin_cases a <;> decide +kernel
  exact Memref.read_access_unit_zero (Elt Ideal) main_v97 hz' (fun a => by rw [congrFun hz' a]; simp) (V c main_v97)

end

end Cert.KernelIdeal.Hand

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.KI.Accum.lean ====
/-
  Region 0's accumulation in closed form, on the extended reals.  The accumulator after grid point t = 20·n + k
  holds, at (p, q), the sum over blocks k' ≤ k of the partial products Σ_{i<3200} X(p, 3200k'+i)·W(512n+q, 3200k'+i)
  — by induction on the point: zero plus the first block at k = 0, the previous sum plus this block's after —, so
  at k = 19 the twenty blocks of 3200 regroup into the sum over all 64000 columns, and the block the body stores
  there is the column normalisation of (that sum + bias) over the 256 rows.
-/
import proofs.«100161_j89575837925663_2_alg».proof.Proof.KI.Blocks
import proofs.«100161_j89575837925663_2_alg».proof.Proof.LibFinGroups

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Lib.ColumnNorm
open scoped BigOperators

section
variable (V : (c : Dev nD) → (b : Ref sig .tc) → Buf (Elt Ideal) ((c : Thread nD τ).loc b))

/-- Block k's partial product for column block n, at (p, q). -/
def part (c : Dev nD) (n k p q : ℕ) : EReal :=
  ∑ i : Fin 3200, nat2 (V c main_v91 : S256x64000.Idx → EReal) p (3200 * k + i.val) * nat2 (V c main_arg14 : S1024x64000.Idx → EReal) (512 * n + q) (3200 * k + i.val)

/-- The zero block. -/
theorem pay1_apply (p : Fin 256) (q : Fin 512) : k0_pay1 (F := Ideal) (ix2 p q) = 0 := by
  unfold k0_pay1
  rw [shapeCast_self]
  exact Ideal.ofBits_zero_f32

/-- One point's step: the accumulator's entry plus this block's partial product. -/
theorem step_eq (c : Dev nD) (t : Fin cfg0.N) (xs : Vec Ideal S256x512 .f32) (p : Fin 256) (q : Fin 512) :
    k0_pay2 (F := Ideal) (iblk0 V c 1 t) xs (iblk0 V c 0 t) (ix2 p q) = xs (ix2 p q) + part V c (t.val / 20) (t.val % 20) p.val q.val := by
  rw [pay2_eq, bodyAcc_apply _ rfl rfl rfl rfl rfl rfl]
  refine congrArg (xs (ix2 p q) + ·) (Finset.sum_congr rfl fun i _ => ?_)
  rw [blk0_0 V c t p i, blk0_1 V c t q i]

/-- THE ACCUMULATOR after the point at position s: the blocks up to s's, summed. -/
theorem acc_eq (c : Dev nD) : ∀ (s : ℕ) (hs : s < cfg0.N) (p : Fin 256) (q : Fin 512),
    accAt V c s hs (ix2 p q) = ∑ k ∈ Finset.range (s % 20 + 1), part V c (s / 20) k p.val q.val
  | 0, hs, p, q => by
    have e := accAt_zero V c ⟨0, hs⟩ rfl
    rw [show accAt V c 0 hs = _ from e, step_eq, pay1_apply, zero_add]
    simp
  | s + 1, hs, p, q => by
    by_cases h0 : (s + 1) % 20 = 0
    · have e := accAt_zero V c ⟨s + 1, hs⟩ h0
      rw [show accAt V c (s + 1) hs = _ from e, step_eq, pay1_apply, zero_add]
      show part V c ((s + 1) / 20) ((s + 1) % 20) p.val q.val = _
      rw [h0]; simp
    · have e := accAt_step V c ⟨s + 1, hs⟩ h0
      rw [show accAt V c (s + 1) hs = _ from e, step_eq]
      show accAt V c s _ (ix2 p q) + part V c ((s + 1) / 20) ((s + 1) % 20) p.val q.val = _
      rw [acc_eq c s (Nat.lt_of_succ_lt hs) p q]
      have hd : (s + 1) / 20 = s / 20 := by omega
      have hm : (s + 1) % 20 = s % 20 + 1 := by omega
      rw [hd, hm, Finset.sum_range_succ (fun k => part V c (s / 20) k p.val q.val) (s % 20 + 1)]

/-- Twenty blocks of 3200 are the 64000 columns. -/
theorem full_sum (f : ℕ → EReal) : ∑ k ∈ Finset.range 20, ∑ i : Fin 3200, f (3200 * k + i.val) = ∑ i : Fin 64000, f i.val := by
  rw [Finset.sum_range]
  exact (Cert.Lib.FinGroups.sum_fin_groups 20 3200 f).symm

/-- The first layer before its normalisation, at row p and column j (as naturals): the whole product plus the bias. -/
def lin1 (c : Dev nD) (p j : ℕ) : EReal :=
  (∑ i : Fin 64000, nat2 (V c main_v91 : S256x64000.Idx → EReal) p i.val * nat2 (V c main_arg14 : S1024x64000.Idx → EReal) j i.val) + nat2 (V c main_v92 : S1x1024.Idx → EReal) 0 j

/-- The block the body stores where k = 19: the column normalisation of the first layer's columns 512·n …. -/
theorem out_eq (c : Dev nD) (t : Fin cfg0.N) (h1 : t.val % 20 = 19) (p : Fin 256) (q : Fin 512) :
    outAt V c t.val t.isLt (ix2 p q)
      = bnCol (fun p' : Fin 256 => lin1 V c p'.val (512 * (t.val / 20) + q.val))
          (nat2 (V c main_v93 : S1x1024.Idx → EReal) 0 (512 * (t.val / 20) + q.val)) (nat2 (V c main_v94 : S1x1024.Idx → EReal) 0 (512 * (t.val / 20) + q.val)) p := by
  have hacc : ∀ p' : Fin 256, accAt V c t.val t.isLt (ix2 p' q)
      = ∑ i : Fin 64000, nat2 (V c main_v91 : S256x64000.Idx → EReal) p'.val i.val * nat2 (V c main_arg14 : S1024x64000.Idx → EReal) (512 * (t.val / 20) + q.val) i.val := fun p' => by
    rw [acc_eq V c t.val t.isLt p' q, h1]
    exact full_sum (fun i => nat2 (V c main_v91 : S256x64000.Idx → EReal) p'.val i * nat2 (V c main_arg14 : S1024x64000.Idx → EReal) (512 * (t.val / 20) + q.val) i)
  rw [outAt_last V c t h1, pay3_eq]
  refine (bodyBN_apply _ _ _ _ _ _ _ _ _ _ p q).trans ?_
  simp only [hacc, blk0_2 V c t 0 q, blk0_3 V c t 0 q, blk0_4 V c t 0 q, Fin.val_zero]
  rfl

end

end Cert.KernelIdeal.Hand

end
-- ==== Proof.KI.Run.lean ====
/-
  The run of the whole program: the contents of the core's buffers at the boundaries between @main's items (the
  host stretches before the two regions, then what each region leaves in its output array), the two regions as
  segments over those contents, and the launch — every weakly fair execution ends with every unscoped buffer at
  the last boundary's contents.  The frame claim and the result's value are read off that post.
-/
import proofs.«100161_j89575837925663_2_alg».proof.Proof.KI.R0Frame
import proofs.«100161_j89575837925663_2_alg».proof.Proof.KI.R1Frame
import proofs.«100161_j89575837925663_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The launch over @main's items with the post "every unscoped buffer ends at the last boundary's contents":
    from it both the frame claim (the arguments) and the value of the result are read. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V14 m outs c) ∗ E 1 c) ⊢ R1.pre c)
    (hpost1 : ∀ c : Dev nD, R1.post c ⊢ iprop(StableHlo.held (c : Thread nD τ) (Pipeline.ucRefs τ sig) (V15 m outs c) ∗ E 2 c)) :
    θ_run defs (onTc (τ := τ) (main (F := F))) ⟨m, fun _ => 0, ρ⟩ (fun r => ∀ c : Dev nD, ∀ b ∈ Pipeline.ucRefs τ sig, r.2.mem (((c : Thread nD τ)).1, b) = V15 m outs c b) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, .rfl, .rfl, .rfl, .rfl, .rfl, .rfl, .rfl, .rfl, .rfl, .rfl, hpre0 c, (hpost0 c).trans (hpre1 c), (hpost1 c).trans (sep_mono .rfl (hE2 c))⟩)
    (hinit := ?_) (QY := fun c s => ∀ b ∈ Pipeline.ucRefs τ sig, s.mem (((c : Thread nD τ)).1, b) = V15 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro; exact h
    · iexact HSI

local notation "𝕄" => MT nD τ sig Unit (Elt F) ℕ (UR sig nD τ) ℕ

set_option maxHeartbeats 8000000 in
/-- Putting a region's arrays back: over ANY entry contents `Vv`, if the proof data's arrays are `Vv`'s and its output
    array ends at `X`, every array of the region ends at `Vv` with the output's buffer replaced by `X`. -/
theorem hF0_gen (Vv : Valuation τ sig (Elt F)) (c : Dev nD) (X : Buf (Elt F) ((c : Thread nD τ).loc main_v98))
    (dat : Dat τ (Elt F) Unit ℕ (UR sig nD τ) ℕ cfg0 c) (hA : ∀ w, dat.A w = Vv (Proc.devRef .tc (Pipeline.arrRef spec0 w)))
    (hX : dat.arrAt 5 cfg0.N = X) :
    ∀ w : Fin cfg0.W, dat.arrAt w cfg0.N = Function.update Vv (Proc.devRef .tc main_v98) X (Proc.devRef .tc (Pipeline.arrRef spec0 w))
  | ⟨0, _⟩ => (dat.arrAt_in 0 rfl _).trans ((hA 0).trans (Function.update_of_ne (StableHlo.devRef_ne_of_ne (by decide)) _ _).symm)
  | ⟨1, _⟩ => (dat.arrAt_in 1 rfl _).trans ((hA 1).trans (Function.update_of_ne (StableHlo.devRef_ne_of_ne (by decide)) _ _).symm)
  | ⟨2, _⟩ => (dat.arrAt_in 2 rfl _).trans ((hA 2).trans (Function.update_of_ne (StableHlo.devRef_ne_of_ne (by decide)) _ _).symm)
  | ⟨3, _⟩ => (dat.arrAt_in 3 rfl _).trans ((hA 3).trans (Function.update_of_ne (StableHlo.devRef_ne_of_ne (by decide)) _ _).symm)
  | ⟨4, _⟩ => (dat.arrAt_in 4 rfl _).trans ((hA 4).trans (Function.update_of_ne (StableHlo.devRef_ne_of_ne (by decide)) _ _).symm)
  | ⟨5, _⟩ => hX.trans (show X = Function.update Vv (Proc.devRef .tc main_v98) X (Proc.devRef .tc main_v98) from by rw [Function.update_self])
theorem hrest0_gen (Vv : Valuation τ sig (Elt F)) (c : Dev nD) (X : Buf (Elt F) ((c : Thread nD τ).loc main_v98)) :
    ∀ b : Ref sig .tc, b ∉ Finset.univ.image (Pipeline.arrRef spec0) → Function.update Vv (Proc.devRef .tc main_v98) X (Proc.devRef .tc b) = Vv (Proc.devRef .tc b) :=
  fun b hb => Function.update_of_ne (StableHlo.devRef_ne_of_ne (fun e => hb (Finset.mem_image.mpr ⟨(5 : Fin cfg0.W), Finset.mem_univ _, (show Pipeline.arrRef spec0 5 = b from e.symm)⟩))) _ _

set_option maxHeartbeats 8000000 in
/-- Putting a region's arrays back: over ANY entry contents `Vv`, if the proof data's arrays are `Vv`'s and its output
    array ends at `X`, every array of the region ends at `Vv` with the output's buffer replaced by `X`. -/
theorem hF1_gen (Vv : Valuation τ sig (Elt F)) (c : Dev nD) (X : Buf (Elt F) ((c : Thread nD τ).loc main_v99))
    (dat : Dat τ (Elt F) Unit ℕ (UR sig nD τ) ℕ cfg1 c) (hA : ∀ w, dat.A w = Vv (Proc.devRef .tc (Pipeline.arrRef spec1 w)))
    (hX : dat.arrAt 5 cfg1.N = X) :
    ∀ w : Fin cfg1.W, dat.arrAt w cfg1.N = Function.update Vv (Proc.devRef .tc main_v99) X (Proc.devRef .tc (Pipeline.arrRef spec1 w))
  | ⟨0, _⟩ => (dat.arrAt_in 0 rfl _).trans ((hA 0).trans (Function.update_of_ne (StableHlo.devRef_ne_of_ne (by decide)) _ _).symm)
  | ⟨1, _⟩ => (dat.arrAt_in 1 rfl _).trans ((hA 1).trans (Function.update_of_ne (StableHlo.devRef_ne_of_ne (by decide)) _ _).symm)
  | ⟨2, _⟩ => (dat.arrAt_in 2 rfl _).trans ((hA 2).trans (Function.update_of_ne (StableHlo.devRef_ne_of_ne (by decide)) _ _).symm)
  | ⟨3, _⟩ => (dat.arrAt_in 3 rfl _).trans ((hA 3).trans (Function.update_of_ne (StableHlo.devRef_ne_of_ne (by decide)) _ _).symm)
  | ⟨4, _⟩ => (dat.arrAt_in 4 rfl _).trans ((hA 4).trans (Function.update_of_ne (StableHlo.devRef_ne_of_ne (by decide)) _ _).symm)
  | ⟨5, _⟩ => hX.trans (show X = Function.update Vv (Proc.devRef .tc main_v99) X (Proc.devRef .tc main_v99) from by rw [Function.update_self])
theorem hrest1_gen (Vv : Valuation τ sig (Elt F)) (c : Dev nD) (X : Buf (Elt F) ((c : Thread nD τ).loc main_v99)) :
    ∀ b : Ref sig .tc, b ∉ Finset.univ.image (Pipeline.arrRef spec1) → Function.update Vv (Proc.devRef .tc main_v99) X (Proc.devRef .tc b) = Vv (Proc.devRef .tc b) :=
  fun b hb => Function.update_of_ne (StableHlo.devRef_ne_of_ne (fun e => hb (Finset.mem_image.mpr ⟨(5 : Fin cfg1.W), Finset.mem_univ _, (show Pipeline.arrRef spec1 5 = b from e.symm)⟩))) _ _

/-! ## The contents at the regions' boundaries -/

/-- Region 0's entry contents (after the thirteen host stretches), read at the TensorCore's references. -/
abbrev E13 : (c : Dev nD) → (b : Ref sig .tc) → Buf (Elt F) ((c : Thread nD τ).loc b) := fun c b => V13 m c b
/-- What region 0 leaves in its output array: the write-backs of its proof data folded. -/
def X98 (c : Dev nD) : Buf (Elt F) ((c : Thread nD τ).loc main_v98) := (dat0 (E13 m) c).arrAt 5 cfg0.N
/-- Region 0's exit contents: its output array at what it leaves, every other buffer as entered. -/
abbrev W14 (c : Dev nD) : Valuation τ sig (Elt F) := Function.update (V13 m c) main_v98 (X98 m c)
abbrev E14 : (c : Dev nD) → (b : Ref sig .tc) → Buf (Elt F) ((c : Thread nD τ).loc b) := fun c b => W14 m c b
/-- What region 1 leaves in its output array (the program's result). -/
def X99 (c : Dev nD) : Buf (Elt F) ((c : Thread nD τ).loc main_v99) := (dat1 (E14 m) c).arrAt 5 cfg1.N
abbrev W15 (c : Dev nD) : Valuation τ sig (Elt F) := Function.update (W14 m c) main_v99 (X99 m c)
abbrev E15 : (c : Dev nD) → (b : Ref sig .tc) → Buf (Elt F) ((c : Thread nD τ).loc b) := fun c b => W15 m c b

/-- What the regions leave, as the family the boundaries' contents are written over. -/
def outs : Outs (F := F) := fun _ r c =>
  if h : r = main_v98 then h ▸ X98 m c else if h' : r = main_v99 then h' ▸ X99 m c else V13 m c r

theorem outs_98 (c : Dev nD) : outs m 14 main_v98 c = X98 m c := by unfold outs; rw [dif_pos rfl]
theorem outs_99 (c : Dev nD) : outs m 15 main_v99 c = X99 m c := by
  unfold outs; rw [dif_neg (by decide), dif_pos rfl]
theorem V14_eq (c : Dev nD) : V14 m (outs m) c = W14 m c := by
  show Function.update (V13 m c) main_v98 (outs m 14 main_v98 c) = _; rw [outs_98]
theorem V15_eq (c : Dev nD) : V15 m (outs m) c = W15 m c := by
  show Function.update (V14 m (outs m) c) main_v99 (outs m 15 main_v99 c) = _; rw [outs_99, V14_eq]

theorem hF0 (c : Dev nD) : ∀ w : Fin cfg0.W, (dat0 (E13 m) c).arrAt w cfg0.N = E14 m c (Pipeline.arrRef spec0 w) :=
  hF0_gen (V13 m c) c (X98 m c) (dat0 (E13 m) c) (A_eq0 (E13 m) c) rfl
theorem hrest0 (c : Dev nD) : ∀ b, b ∉ Finset.univ.image (Pipeline.arrRef spec0) → E14 m c b = E13 m c b :=
  hrest0_gen (V13 m c) c (X98 m c)

theorem hF1 (c : Dev nD) : ∀ w : Fin cfg1.W, (dat1 (E14 m) c).arrAt w cfg1.N = E15 m c (Pipeline.arrRef spec1 w) :=
  hF1_gen (W14 m c) c (X99 m c) (dat1 (E14 m) c) (A_eq1 (E14 m) c) rfl
theorem hrest1 (c : Dev nD) : ∀ b, b ∉ Finset.univ.image (Pipeline.arrRef spec1) → E15 m c b = E14 m c b :=
  hrest1_gen (W14 m c) c (X99 m c)

/-! ## The proof data family and the thread state -/

def pdats : (p : Fin 2) → (c : Dev nD) → Dat τ (Elt F) Unit ℕ (UR sig nD τ) ℕ (cfgs p) c
  | ⟨0, _⟩ => fun c => dat0 (E13 m) c
  | ⟨1, _⟩ => fun c => dat1 (E14 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at the boundary's contents, left at the next
    boundary's; its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E13 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec0 c (E13 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E13 m) c)
    unfold Pipeline.ΦA
    iintro ⟨Hp, -, Hr⟩
    isplitl [Hr]; · iexact Hr
    iexact Hp
  hout c := by
    rw [Pipeline.ownSems0_none]
    refine BIBase.Entails.trans (hout0 (E13 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E13 m c) (E14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E14 m) c).loose
  hwaits := Pipeline.hwaits_of_owed_zero _ _ _ _ L lv 1 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec1 c (E14 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E14 m c) (E15 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Every weakly fair execution of @main from memory `m` with zero counters terminates, nothing faulting, with every
    unscoped buffer at the last boundary's contents. -/
theorem run_main (ρ : Dev nD → PrngReg) :
    θ_run defs (onTc (τ := τ) (main (F := F))) ⟨m, fun _ => 0, ρ⟩ (fun r => ∀ c : Dev nD, ∀ b ∈ Pipeline.ucRefs τ sig, r.2.mem (((c : Thread nD τ)).1, b) = V15 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V14_eq]; exact .rfl)
    (R1 := reg1 m) (hpre1 := fun c => by rw [V14_eq]; exact .rfl) (hpost1 := fun c => by rw [V15_eq]; exact .rfl)

end Cert.KernelIdeal.Hand

end
-- ==== Proof.KI.Final.lean ====
/-
  What the two regions leave in their output arrays, on the extended reals.  Region 0's array is, at (p, j), the
  column normalisation of the first layer's column j at row p — its two column blocks are written back at the
  points with k = 19 and cover the array; region 1's array, its one block, is at (p, j) the row normalisation of
  the column normalisation of the second layer.  Then the run, with the result named.
-/
import proofs.«100161_j89575837925663_2_alg».proof.Proof.KI.Accum
import proofs.«100161_j89575837925663_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Lib.ColumnNorm
open scoped BigOperators
open Idealize.ShloMosaic.Pipeline (Dat)

section
variable (V : (c : Dev nD) → (b : Ref sig .tc) → Buf (Elt Ideal) ((c : Thread nD τ).loc b))

/-! ## Region 0's array -/

/-- The first layer after its normalisation, as the contents of region 0's output array. -/
def G98 (c : Dev nD) : Buf (Elt Ideal) ((c : Thread nD τ).loc main_v98) := fun j =>
  bnCol (R := 256) (fun p' : Fin 256 => lin1 V c p'.val (j 1).val) (nat2 (V c main_v93 : S1x1024.Idx → EReal) 0 (j 1).val) (nat2 (V c main_v94 : S1x1024.Idx → EReal) 0 (j 1).val) (j 0)

theorem G98_apply (c : Dev nD) (p : Fin 256) (j : Fin 1024) :
    G98 V c (ix2 p j) = bnCol (fun p' : Fin 256 => lin1 V c p'.val j.val) (nat2 (V c main_v93 : S1x1024.Idx → EReal) 0 j.val) (nat2 (V c main_v94 : S1x1024.Idx → EReal) 0 j.val) p := rfl

/-- What a point with k = 19 writes back is its block of that array. -/
theorem flushed0_eq (c : Dev nD) (t : Fin cfg0.N) (hf : (cfg0.win 5).flush t = true) :
    (dat0 V c).flushed 5 t = ((cfg0.win 5).blk t).view.read (Elt Ideal) (G98 V c) := by
  have h1 : t.val % 20 = 19 := (flush0_5 t).mp hf
  have hN : t.val < 40 := lt_of_lt_of_eq t.isLt N_0
  obtain ⟨e00, e01, e10, e11, e20, e21, e30, e31, e40, e41, e50, e51⟩ := idx0 t
  show (cfg0.win 5).cut (grid0.coords t) ((dat0 V c).after 5 t) = _
  rw [after0_5]
  funext y
  obtain ⟨p, q, rfl⟩ : ∃ (p : Fin 256) (q : Fin 512), y = ix2 p q := ⟨y 0, y 1, eq_ix2 y⟩
  rw [View.read_apply]
  show outAt V c t.val t.isLt (ix2 p q) = G98 V c (((cfg0.win 5).blk t).view.emb (ix2 p q))
  have hemb : ((cfg0.win 5).blk t).view.emb (ix2 p q) = ix2 p (⟨512 * (t.val / 20) + q.val, by have := q.isLt; omega⟩ : Fin 1024) := by
    funext a; apply Fin.ext
    match a with
    | ⟨0, _⟩ => show win0_5.index t (0 : Fin 2) * 256 + 1 * p.val = p.val; omega
    | ⟨1, _⟩ => show win0_5.index t (1 : Fin 2) * 512 + 1 * q.val = 512 * (t.val / 20) + q.val; omega
  rw [hemb, G98_apply, out_eq V c t h1 p q]

/-- An index of the array is in point t's block iff each coordinate is in the block's range on its axis. -/
theorem mem_blk0 (t : Fin cfg0.N) (i : S256x1024.Idx) :
    i ∈ ((cfg0.win 5).blk t).view.set ↔ ∀ a : Fin 2, win0_5.index t a * S256x512.size a ≤ (i a).val ∧ (i a).val < win0_5.index t a * S256x512.size a + S256x512.size a := by
  show i ∈ ((View.whole main_v98).slice (win0_5.rect t)).set ↔ _
  rw [View.set_slice_whole, Rect.mem_set_unit]
  exact Iff.rfl

/-- THE ARRAY region 0 leaves. -/
theorem final98 (c : Dev nD) : (dat0 V c).arrAt 5 cfg0.N = G98 V c :=
  (dat0 V c).arrAt_eq_of_cover 5 (G98 V c) (flushed0_eq V c) fun i => by
    have hi0 : (i 0).val < 256 := (i 0).isLt
    have hi1 : (i 1).val < 1024 := (i 1).isLt
    have hlt : 20 * ((i 1).val / 512) + 19 < cfg0.N := by rw [show cfg0.N = 40 from N_0]; omega
    refine ⟨⟨20 * ((i 1).val / 512) + 19, hlt⟩, (flush0_5 _).mpr (by show (20 * ((i 1).val / 512) + 19) % 20 = 19; omega), ?_⟩
    rw [mem_blk0]
    obtain ⟨e00, e01, e10, e11, e20, e21, e30, e31, e40, e41, e50, e51⟩ := idx0 ⟨20 * ((i 1).val / 512) + 19, hlt⟩
    have hq : (20 * ((i 1).val / 512) + 19) / 20 = (i 1).val / 512 := by omega
    intro a
    match a with
    | ⟨0, _⟩ => show win0_5.index _ (0 : Fin 2) * 256 ≤ (i 0).val ∧ (i 0).val < win0_5.index _ (0 : Fin 2) * 256 + 256
                rw [e50]; omega
    | ⟨1, _⟩ => show win0_5.index _ (1 : Fin 2) * 512 ≤ (i 1).val ∧ (i 1).val < win0_5.index _ (1 : Fin 2) * 512 + 512
                rw [e51]; show (20 * ((i 1).val / 512) + 19) / 20 * 512 ≤ _ ∧ _ < (20 * ((i 1).val / 512) + 19) / 20 * 512 + 512
                rw [hq]; omega

/-! ## Region 1's array -/

/-- Region 1's one block, read at an index: the row normalisation of the second layer's normalised columns. -/
theorem out1_apply (x0 x1 : Vec Ideal S256x1024 .f32) (x2 x3 x4 : Vec Ideal S1x256 .f32) (p j : Fin 256) :
    out1_5 (F := Ideal) x0 x1 x2 x3 x4 (ix2 p j)
      = l2row (fun k : Fin 256 => bnCol (fun p' : Fin 256 => (∑ i : Fin 1024, x0 (ix2 p' i) * x1 (ix2 k i)) + x2 (ix2 0 k)) (x3 (ix2 0 k)) (x4 (ix2 0 k)) p) j := by
  unfold out1_5
  rw [View.canon_unit_zero hz2]
  simp only [View.ld_unit_zero (S := S256x1024) hz2, View.ld_unit_zero (S := S1x256) hz2]
  have h3 : k1_pay3 (F := Ideal) x0 x1 x2 x3 x4 = mulf (k1_pay2 x0 x1 x2 x3 x4) (k1_pay2 x0 x1 x2 x3 x4) := rfl
  rw [h3, k1_pay1_eq]
  refine (bodyL2_apply _ _ _ _ _ _ p j).trans ?_
  refine congrArg (fun r => l2row r j) (funext fun k => ?_)
  rw [k1_pay2_eq]
  refine (bodyBN_apply _ _ _ _ _ _ _ _ _ _ p k).trans ?_
  refine congrArg (fun h => bnCol h (x3 (ix2 0 k)) (x4 (ix2 0 k)) p) (funext fun p' => ?_)
  refine congrArg (· + x2 (ix2 0 k)) ?_
  rw [Cert.Lib.BlockReads.matmul_zero_cols_apply _ rfl rfl rfl rfl rfl rfl, shapeCast_self]
  rfl

theorem mem_blk1 (t : Fin cfg1.N) (i : S256x256.Idx) :
    i ∈ ((cfg1.win 5).blk t).view.set ↔ ∀ a : Fin 2, win1_5.index t a * S256x256.size a ≤ (i a).val ∧ (i a).val < win1_5.index t a * S256x256.size a + S256x256.size a := by
  show i ∈ ((View.whole main_v99).slice (win1_5.rect t)).set ↔ _
  rw [View.set_slice_whole, Rect.mem_set_unit]
  exact Iff.rfl

/-- THE ARRAY region 1 leaves: its block of the five arrays it reads. -/
theorem final99 (c : Dev nD) :
    (dat1 V c).arrAt 5 cfg1.N = (out1_5 (F := Ideal) (V c main_v98) (V c main_arg18) (V c main_v95) (V c main_v96) (V c main_v97) : Buf (Elt Ideal) ((c : Thread nD τ).loc main_v99)) :=
  (dat1 V c).arrAt_eq_of_cover 5 _ (fun t _ => by
      show (cfg1.win 5).cut (grid1.coords t) ((dat1 V c).after 5 t) = _
      rw [after1_5, blk1_0, blk1_1, blk1_2, blk1_3, blk1_4]
      obtain rfl : t = t1_0 := fin_N1 t
      have hz' : (fun a => win1_5.index t1_0 a * main_v99.ty.shape.size a) = fun _ => 0 := funext fun a => by fin_cases a <;> decide +kernel
      exact (Memref.read_access_unit_zero (Elt Ideal) main_v99 hz' (fun a => by rw [congrFun hz' a]; simp) _).symm)
    fun i => ⟨t1_0, flush1_5 t1_0, by
      rw [mem_blk1]
      have hi0 : (i 0).val < 256 := (i 0).isLt
      have hi1 : (i 1).val < 256 := (i 1).isLt
      intro a
      match a with
      | ⟨0, _⟩ => show win1_5.index t1_0 (0 : Fin 2) * 256 ≤ (i 0).val ∧ (i 0).val < win1_5.index t1_0 (0 : Fin 2) * 256 + 256
                  rw [show win1_5.index t1_0 (0 : Fin 2) = 0 from by decide +kernel]; omega
      | ⟨1, _⟩ => show win1_5.index t1_0 (1 : Fin 2) * 256 ≤ (i 1).val ∧ (i 1).val < win1_5.index t1_0 (1 : Fin 2) * 256 + 256
                  rw [show win1_5.index t1_0 (1 : Fin 2) = 0 from by decide +kernel]; omega⟩

end

/-! ## The run, with the result named -/

section
variable (m : (ℓ : Loc nD τ sig) → Buf (Elt Ideal) ℓ)

/-- Region 0's output array after the run. -/
theorem X98_eq (c : Dev nD) : X98 m c = G98 (E13 m) c := final98 (E13 m) c

/-- The program's result after the run, at an index: `R1` what region 0 left, `W2`, `b2`, `g2`, `be2` the second layer's
    weights and parameter rows as region 1 finds them. -/
theorem X99_apply (c : Dev nD) (p j : Fin 256) (R1 W2 : Vec Ideal S256x1024 .f32) (b2 g2 be2 : Vec Ideal S1x256 .f32)
    (hR1 : R1 = G98 (E13 m) c) (hW2 : W2 = V13 m c main_arg18) (hb2 : b2 = V13 m c main_v95) (hg2 : g2 = V13 m c main_v96)
    (hbe2 : be2 = V13 m c main_v97) :
    X99 m c (ix2 p j)
      = l2row (fun k : Fin 256 => bnCol (fun p' : Fin 256 => (∑ i : Fin 1024, R1 (ix2 p' i) * W2 (ix2 k i)) + b2 (ix2 0 k)) (g2 (ix2 0 k)) (be2 (ix2 0 k)) p) j := by
  subst hR1 hW2 hb2 hg2 hbe2
  unfold X99
  rw [final99 (E14 m) c, out1_apply]
  have e98 : E14 m c main_v98 = G98 (E13 m) c := (Function.update_self _ _ _).trans (X98_eq m c)
  have eo : ∀ b : Ref sig .tc, b ≠ main_v98 → E14 m c b = V13 m c b := fun b hb => Function.update_of_ne (StableHlo.devRef_ne_of_ne hb) _ _
  rw [e98, eo main_arg18 (by decide), eo main_v95 (by decide), eo main_v96 (by decide), eo main_v97 (by decide)]

/-- Every weakly fair execution terminates with the result at `X99` and every argument as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v99) = X99 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => by
    have hm : ∀ b : Ref sig .tc, ¬(Proc.devRef .tc b : DevRef τ sig).isScoped → r.2.mem ((c.tc : Thread nD τ).loc b) = V15 m (outs m) c b :=
      fun b hb => h c (Proc.devRef .tc b) (Finset.mem_filter.mpr ⟨StableHlo.devRef_mem_tcRefs b, hb⟩)
    refine ⟨(hm main_v99 (by decide)).trans ?_, (hm main_arg0 (by decide)).trans (V15_main_arg0 m (outs m) c),
      (hm main_arg1 (by decide)).trans (V15_main_arg1 m (outs m) c),
      (hm main_arg2 (by decide)).trans (V15_main_arg2 m (outs m) c),
      (hm main_arg3 (by decide)).trans (V15_main_arg3 m (outs m) c),
      (hm main_arg4 (by decide)).trans (V15_main_arg4 m (outs m) c),
      (hm main_arg5 (by decide)).trans (V15_main_arg5 m (outs m) c),
      (hm main_arg6 (by decide)).trans (V15_main_arg6 m (outs m) c),
      (hm main_arg7 (by decide)).trans (V15_main_arg7 m (outs m) c),
      (hm main_arg8 (by decide)).trans (V15_main_arg8 m (outs m) c),
      (hm main_arg9 (by decide)).trans (V15_main_arg9 m (outs m) c),
      (hm main_arg10 (by decide)).trans (V15_main_arg10 m (outs m) c),
      (hm main_arg11 (by decide)).trans (V15_main_arg11 m (outs m) c),
      (hm main_arg12 (by decide)).trans (V15_main_arg12 m (outs m) c),
      (hm main_arg13 (by decide)).trans (V15_main_arg13 m (outs m) c),
      (hm main_arg14 (by decide)).trans (V15_main_arg14 m (outs m) c),
      (hm main_arg15 (by decide)).trans (V15_main_arg15 m (outs m) c),
      (hm main_arg16 (by decide)).trans (V15_main_arg16 m (outs m) c),
      (hm main_arg17 (by decide)).trans (V15_main_arg17 m (outs m) c),
      (hm main_arg18 (by decide)).trans (V15_main_arg18 m (outs m) c),
      (hm main_arg19 (by decide)).trans (V15_main_arg19 m (outs m) c),
      (hm main_arg20 (by decide)).trans (V15_main_arg20 m (outs m) c),
      (hm main_arg21 (by decide)).trans (V15_main_arg21 m (outs m) c)⟩
    rw [V15_eq]; exact Function.update_self _ _ _)
    (run_main m ρ)

end

end Cert.KernelIdeal.Hand

end
-- ==== Proof.KI.Entry.lean ====
/-
  What region 0 finds when it is entered, at any float instance: the pooled array narrowed (the last stretch's
  conversion of the array before it), the three parameter rows as re-shapings [n] → [1, n] of the parameter vectors,
  and the two weight arrays as launched — each read through the last host stretch only.
-/
import proofs.«100161_j89575837925663_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-- A buffer none of the first twelve stretches writes holds its launch contents before the last one. -/
theorem V12_keep (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) :
    V12 m c r = m ((c : Thread nD τ).loc r) := by
  rw [V12_of m c r h11, V11_of m c r h10, V10_of m c r h9, V9_of m c r h8, V8_of m c r h7, V7_of m c r h6, V6_of m c r h5, V5_of m c r h4, V4_of m c r h3, V3_of m c r h2, V2_of m c r h1, V1_of m c r h0]

set_option maxHeartbeats 4000000 in
theorem entry_v91 (c : Dev nD) :
    V13 m c main_v91 = truncf .bf16 (V13 m c main_v90 : (⟨S256x64000, .f32⟩ : BufTy).Contents (Elt F)) bitsLt_bf16_f32 := by
  show after hostOps0_12 (V12 m c) (Proc.devRef .tc main_v91) = truncf .bf16 (after hostOps0_12 (V12 m c) (Proc.devRef .tc main_v90)) bitsLt_bf16_f32
  simp only [hostOps0_12]
  after_results_simp

set_option maxHeartbeats 4000000 in
theorem entry_v92 (c : Dev nD) :
    V13 m c main_v92 = shapeCast S1x1024 (m ((c : Thread nD τ).loc main_arg15) : (⟨S1024, .f32⟩ : BufTy).Contents (Elt F)) shapeCasts_S1024_S1x1024 := by
  show after hostOps0_12 (V12 m c) (Proc.devRef .tc main_v92) = _
  simp only [hostOps0_12]
  after_results_simp
  rfl

set_option maxHeartbeats 4000000 in
theorem entry_v93 (c : Dev nD) :
    V13 m c main_v93 = shapeCast S1x1024 (m ((c : Thread nD τ).loc main_arg16) : (⟨S1024, .f32⟩ : BufTy).Contents (Elt F)) shapeCasts_S1024_S1x1024 := by
  show after hostOps0_12 (V12 m c) (Proc.devRef .tc main_v93) = _
  simp only [hostOps0_12]
  after_results_simp
  rfl

set_option maxHeartbeats 4000000 in
theorem entry_v94 (c : Dev nD) :
    V13 m c main_v94 = shapeCast S1x1024 (m ((c : Thread nD τ).loc main_arg17) : (⟨S1024, .f32⟩ : BufTy).Contents (Elt F)) shapeCasts_S1024_S1x1024 := by
  show after hostOps0_12 (V12 m c) (Proc.devRef .tc main_v94) = _
  simp only [hostOps0_12]
  after_results_simp
  rfl

set_option maxHeartbeats 4000000 in
theorem entry_v95 (c : Dev nD) :
    V13 m c main_v95 = shapeCast S1x256 (m ((c : Thread nD τ).loc main_arg19) : (⟨S256, .f32⟩ : BufTy).Contents (Elt F)) shapeCasts_S256_S1x256 := by
  show after hostOps0_12 (V12 m c) (Proc.devRef .tc main_v95) = _
  simp only [hostOps0_12]
  after_results_simp
  rfl

set_option maxHeartbeats 4000000 in
theorem entry_v96 (c : Dev nD) :
    V13 m c main_v96 = shapeCast S1x256 (m ((c : Thread nD τ).loc main_arg20) : (⟨S256, .f32⟩ : BufTy).Contents (Elt F)) shapeCasts_S256_S1x256 := by
  show after hostOps0_12 (V12 m c) (Proc.devRef .tc main_v96) = _
  simp only [hostOps0_12]
  after_results_simp
  rfl

set_option maxHeartbeats 4000000 in
theorem entry_v97 (c : Dev nD) :
    V13 m c main_v97 = shapeCast S1x256 (m ((c : Thread nD τ).loc main_arg21) : (⟨S256, .f32⟩ : BufTy).Contents (Elt F)) shapeCasts_S256_S1x256 := by
  show after hostOps0_12 (V12 m c) (Proc.devRef .tc main_v97) = _
  simp only [hostOps0_12]
  after_results_simp
  rfl

theorem entry_arg14 (c : Dev nD) : V13 m c main_arg14 = m ((c : Thread nD τ).loc main_arg14) :=
  (V13_of m c main_arg14 (by decide)).trans (V12_keep m c main_arg14 (by decide) (by decide) (by decide) (by decide) (by decide) (by decide) (by decide) (by decide) (by decide) (by decide) (by decide) (by decide))

theorem entry_arg18 (c : Dev nD) : V13 m c main_arg18 = m ((c : Thread nD τ).loc main_arg18) :=
  (V13_of m c main_arg18 (by decide)).trans (V12_keep m c main_arg18 (by decide) (by decide) (by decide) (by decide) (by decide) (by decide) (by decide) (by decide) (by decide) (by decide) (by decide) (by decide))

end Cert.KernelIdeal.Hand

end
-- ==== Proof.KI.Frame.lean ====
/-
  The frame claim, at any float instance: every weakly fair execution of the program terminates, nothing faulting,
  and every argument array ends holding its launch contents — each read off the run's post (every unscoped buffer at
  the last boundary's contents), where no host stretch writes an argument and no region may change one.
-/
import proofs.«100161_j89575837925663_2_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => by
    have hm : ∀ b : Ref sig .tc, ¬(Proc.devRef .tc b : DevRef τ sig).isScoped → r.2.mem ((c.tc : Thread nD τ).loc b) = V15 m (outs m) c b :=
      fun b hb => h c (Proc.devRef .tc b) (Finset.mem_filter.mpr ⟨StableHlo.devRef_mem_tcRefs b, hb⟩)
    exact ⟨(hm main_arg0 (by decide)).trans (V15_main_arg0 m (outs m) c),
      (hm main_arg1 (by decide)).trans (V15_main_arg1 m (outs m) c),
      (hm main_arg2 (by decide)).trans (V15_main_arg2 m (outs m) c),
      (hm main_arg3 (by decide)).trans (V15_main_arg3 m (outs m) c),
      (hm main_arg4 (by decide)).trans (V15_main_arg4 m (outs m) c),
      (hm main_arg5 (by decide)).trans (V15_main_arg5 m (outs m) c),
      (hm main_arg6 (by decide)).trans (V15_main_arg6 m (outs m) c),
      (hm main_arg7 (by decide)).trans (V15_main_arg7 m (outs m) c),
      (hm main_arg8 (by decide)).trans (V15_main_arg8 m (outs m) c),
      (hm main_arg9 (by decide)).trans (V15_main_arg9 m (outs m) c),
      (hm main_arg10 (by decide)).trans (V15_main_arg10 m (outs m) c),
      (hm main_arg11 (by decide)).trans (V15_main_arg11 m (outs m) c),
      (hm main_arg12 (by decide)).trans (V15_main_arg12 m (outs m) c),
      (hm main_arg13 (by decide)).trans (V15_main_arg13 m (outs m) c),
      (hm main_arg14 (by decide)).trans (V15_main_arg14 m (outs m) c),
      (hm main_arg15 (by decide)).trans (V15_main_arg15 m (outs m) c),
      (hm main_arg16 (by decide)).trans (V15_main_arg16 m (outs m) c),
      (hm main_arg17 (by decide)).trans (V15_main_arg17 m (outs m) c),
      (hm main_arg18 (by decide)).trans (V15_main_arg18 m (outs m) c),
      (hm main_arg19 (by decide)).trans (V15_main_arg19 m (outs m) c),
      (hm main_arg20 (by decide)).trans (V15_main_arg20 m (outs m) c),
      (hm main_arg21 (by decide)).trans (V15_main_arg21 m (outs m) c)⟩)
    (run_main m ρ)

end Cert.KernelIdeal.Hand

end
-- ==== Proof.K.R0Base.lean ====
/-
  Region 0 (the first dense layer: a 256×64000 by 64000×1024 product accumulated over twenty blocks of 3200
  columns, two blocks of 512 output columns) — what its three control cases share.  The grid is 2 × 20, point
  t = 20·n + k; the body zeroes its 256×512 accumulator when k = 0, adds one block's partial product at every
  point, and at k = 19 normalises the accumulated columns (batch statistics over the 256 rows), scales, shifts,
  clamps at zero and stores the block of the result.  Stated here: the blocks of the six windows as the region
  finds them, the two branch conditions in closed form over the grid, where the output window is idle, and the
  memrefs the body is called with.
-/
import proofs.«100161_j89575837925663_2_alg».proof.Proof.Gen.Kernel.Launch
import proofs.«100161_j89575837925663_2_alg».proof.Proof.Gen.Kernel.Skeleton
import proofs.«100161_j89575837925663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## The branch conditions, decided over the grid -/

/-- The first branch (zero the accumulator) is taken when the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

/-- The second branch (normalise and store the block) is taken when the second grid coordinate is 19. -/
abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second branch is not taken the output window is idle and not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev VO0_5 : View sig .tc .vmem S256x512 .f32 := (Memref.whole cc0_stg5_0 : Memref sig .tc .vmem S256x512 .f32).view
abbrev ms0_0 (t : Fin cfg0.N) : Memref sig .tc .vmem S256x3200 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3200 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
/-- The accumulator: a whole scoped buffer of the kernel's own, carried from point to point. -/
abbrev scM0_0 : Memref sig .tc .vmem S256x512 .f32 := Memref.whole cc0_scratch0
abbrev VS0_0 : View sig .tc .vmem S256x512 .f32 := scM0_0.view

/-- The other scoped buffers of the core (the second region's staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The class invariant with the accumulator as a memref owned at some contents. -/
theorem PhiA0_eq (c : Dev nD) :
    (Pipeline.ΦA spec0 c : sProp 𝕄)
      = iprop(iprop((∃ d, owns (c : Thread nD τ) scM0_0 fullShare d) ∗ otherScoped c) ∗ (∃ r, prngReg c r)) := by
  unfold Pipeline.ΦA otherScoped; rw [scopedRest0_eq]; simp only [scM0_0, owns_whole]; try rfl

end Cert.Kernel.Hand

end
-- ==== Proof.K.R0RunA.lean ====
/-
  Region 0's body in the case where the second grid coordinate is 0: the accumulator is zeroed, then this block's partial product is added; the output window is idle.  On whole staging memrefs holding the five input blocks the body
  runs to the end; the pieces its stores leave in the accumulator (and in the output buffer, when it stores there)
  are found by running it.
-/
import proofs.«100161_j89575837925663_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : cond0_0 i) (hc1 : ¬cond0_1 i)
    (x0 : Vec F S256x3200 .bf16) (x1 : Vec F S512x3200 .f32) (x2 : Vec F S1x512 .f32) (x3 : Vec F S1x512 .f32) (x4 : Vec F S1x512 .f32) :
    Σ' (L5 : List (View.Piece (Elt F) S256x512 .f32)), { LS0 : List (View.Piece (Elt F) S256x512 .f32) //
      ∀ (xi5 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__fc1_kernel i arg2 harg2 arg3 harg3 arg4 harg4 arg5 harg5 arg6 harg6 arg7 harg7 arg8 harg8) K } := by
  refine ⟨[], ?_, fun xi5 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R0RunB.lean ====
/-
  Region 0's body in the case where the second grid coordinate is neither 0 nor 19: this block's partial product is added to the accumulator; the output window is idle.  On whole staging memrefs holding the five input blocks the body
  runs to the end; the pieces its stores leave in the accumulator (and in the output buffer, when it stores there)
  are found by running it.
-/
import proofs.«100161_j89575837925663_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : ¬cond0_1 i)
    (x0 : Vec F S256x3200 .bf16) (x1 : Vec F S512x3200 .f32) (x2 : Vec F S1x512 .f32) (x3 : Vec F S1x512 .f32) (x4 : Vec F S1x512 .f32) (xs0 : Vec F S256x512 .f32) :
    Σ' (L5 : List (View.Piece (Elt F) S256x512 .f32)), { LS0 : List (View.Piece (Elt F) S256x512 .f32) //
      ∀ (xi5 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__fc1_kernel i arg2 harg2 arg3 harg3 arg4 harg4 arg5 harg5 arg6 harg6 arg7 harg7 arg8 harg8) K } := by
  refine ⟨[], ?_, fun xi5 E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R0RunC.lean ====
/-
  Region 0's body in the case where the second grid coordinate is 19: the last partial product is added and the normalised, scaled, shifted and clamped block is stored.  On whole staging memrefs holding the five input blocks the body
  runs to the end; the pieces its stores leave in the accumulator (and in the output buffer, when it stores there)
  are found by running it.
-/
import proofs.«100161_j89575837925663_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) :
    Σ' (L5 : List (View.Piece (Elt F) S256x512 .f32)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__fc1_kernel i arg2 harg2 arg3 harg3 arg4 harg4 arg5 harg5 arg6 harg6 arg7 harg7 arg8 harg8) K } := by
  refine ⟨?_, ?_, fun E K => ?run⟩
  case run =>
    simp only [cc0__fc1_kernel_eq_skeleton]; unfold cc0__fc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.R0Frame.lean ====
/-
  Region 0: what the accumulator holds after each grid point and what the output buffer holds at the points that
  store it, the region's invariant (the accumulator at its named contents from the second point on), the proof
  data and the body obligation.  Point t = 20·n + k adds block k's partial product; the accumulator after t is
  defined by recursion on t, restarting at every k = 0.
-/
import proofs.«100161_j89575837925663_2_alg».proof.Proof.K.R0RunA
import proofs.«100161_j89575837925663_2_alg».proof.Proof.K.R0RunB
import proofs.«100161_j89575837925663_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces case A leaves in the accumulator cover it. -/
theorem scover0_A_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : cond0_0 i) (hc1 : ¬cond0_1 i)
    (x0 : Vec F S256x3200 .bf16) (x1 : Vec F S512x3200 .f32) (x2 : Vec F S1x512 .f32) (x3 : Vec F S1x512 .f32) (x4 : Vec F S1x512 .f32) (y : S256x512.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S256x512.size (by sl_kernel_rfl) y

/-- What case A leaves in the accumulator: its pieces read back. -/
def sout0_A_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : cond0_0 i) (hc1 : ¬cond0_1 i)
    (x0 : Vec F S256x3200 .bf16) (x1 : Vec F S512x3200 .f32) (x2 : Vec F S1x512 .f32) (x3 : Vec F S1x512 .f32) (x4 : Vec F S1x512 .f32) : Vec F S256x512 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- The pieces case B leaves in the accumulator cover it. -/
theorem scover0_B_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : ¬cond0_1 i)
    (x0 : Vec F S256x3200 .bf16) (x1 : Vec F S512x3200 .f32) (x2 : Vec F S1x512 .f32) (x3 : Vec F S1x512 .f32) (x4 : Vec F S1x512 .f32) (xs0 : Vec F S256x512 .f32) (y : S256x512.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S256x512.size (by sl_kernel_rfl) y

/-- What case B leaves in the accumulator: its pieces read back. -/
def sout0_B_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : ¬cond0_1 i)
    (x0 : Vec F S256x3200 .bf16) (x1 : Vec F S512x3200 .f32) (x2 : Vec F S1x512 .f32) (x3 : Vec F S1x512 .f32) (x4 : Vec F S1x512 .f32) (xs0 : Vec F S256x512 .f32) : Vec F S256x512 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- The pieces case C leaves in the accumulator cover it. -/
theorem scover0_C_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) (y : S256x512.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S256x512.size (by sl_kernel_rfl) y

/-- What case C leaves in the accumulator: its pieces read back. -/
def sout0_C_0 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) : Vec F S256x512 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-- The pieces case C leaves in the output buffer cover it. -/
theorem cover0_C_5 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) (y : S256x512.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S256x512.size (by sl_kernel_rfl) y

/-- What case C leaves in the output buffer: its pieces read back. -/
def out0_C_5 (c : Dev nD) (i : grid0.Coords) (arg2 : Memref sig .tc .vmem S256x3200 .bf16) (harg2 : arg2.IsWhole) (arg3 : Memref sig .tc .vmem S512x3200 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S256x512 .f32) (harg8 : arg8.IsWhole) (hc0 : ¬cond0_0 i) (hc1 : cond0_1 i)
    (x0 : Vec F S256x3200 .bf16) (x1 : Vec F S512x3200 .f32) (x2 : Vec F S1x512 .f32) (x3 : Vec F S1x512 .f32) (x4 : Vec F S1x512 .f32) (xs0 : Vec F S256x512 .f32) : Vec F S256x512 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

section
variable (V : (c : Dev nD) → (b : Ref sig .tc) → Buf (Elt F) ((c : Thread nD τ).loc b))

/-- The accumulator after a point with k = 0, from the point's blocks. -/
def accA (c : Dev nD) (t : Fin cfg0.N) (h0 : t.val % 20 = 0) : Vec F S256x512 .f32 :=
  sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => by have := (hcond0_1 t).mp h; omega) (iblk0 V c 0 t) (iblk0 V c 1 t) (iblk0 V c 2 t) (iblk0 V c 3 t) (iblk0 V c 4 t)
/-- The accumulator after a point with 0 < k < 19, from the point's blocks and what the point before left. -/
def accB (c : Dev nD) (t : Fin cfg0.N) (h0 : ¬t.val % 20 = 0) (h1 : ¬t.val % 20 = 19) (xs0 : Vec F S256x512 .f32) : Vec F S256x512 .f32 :=
  sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs0
/-- The accumulator after a point with k = 19. -/
def accC (c : Dev nD) (t : Fin cfg0.N) (h1 : t.val % 20 = 19) (xs0 : Vec F S256x512 .f32) : Vec F S256x512 .f32 :=
  sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => by have := (hcond0_0 t).mp h; omega) ((hcond0_1 t).mpr h1) (iblk0 V c 0 t) (iblk0 V c 1 t) (iblk0 V c 2 t) (iblk0 V c 3 t) (iblk0 V c 4 t) xs0
/-- The output buffer after a point with k = 19. -/
def outC (c : Dev nD) (t : Fin cfg0.N) (h1 : t.val % 20 = 19) (xs0 : Vec F S256x512 .f32) : Vec F S256x512 .f32 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => by have := (hcond0_0 t).mp h; omega) ((hcond0_1 t).mpr h1) (iblk0 V c 0 t) (iblk0 V c 1 t) (iblk0 V c 2 t) (iblk0 V c 3 t) (iblk0 V c 4 t) xs0

/-- THE ACCUMULATION: the accumulator after the point at position `n`. -/
def accAt (c : Dev nD) : (n : ℕ) → n < cfg0.N → Vec F S256x512 .f32
  | 0, hn => accA V c ⟨0, hn⟩ (Nat.zero_mod _)
  | n + 1, hn =>
    if h0 : (n + 1) % 20 = 0 then accA V c ⟨n + 1, hn⟩ h0
    else if h1 : (n + 1) % 20 = 19 then accC V c ⟨n + 1, hn⟩ h1 (accAt c n (Nat.lt_of_succ_lt hn))
    else accB V c ⟨n + 1, hn⟩ h0 h1 (accAt c n (Nat.lt_of_succ_lt hn))

/-- The output buffer after the point at position `n` (named only where the body stores it: k = 19). -/
def outAt (c : Dev nD) : (n : ℕ) → n < cfg0.N → Vec F S256x512 .f32
  | 0, _ => VO0_5.read (Elt F) VO0_5.junk
  | n + 1, hn =>
    if h1 : (n + 1) % 20 = 19 then outC V c ⟨n + 1, hn⟩ h1 (accAt V c n (Nat.lt_of_succ_lt hn))
    else VO0_5.read (Elt F) VO0_5.junk

theorem accAt_A (c : Dev nD) (t : Fin cfg0.N) (h0 : t.val % 20 = 0) : accAt V c t.val t.isLt = accA V c t h0 := by
  obtain ⟨n, hn⟩ := t
  cases n with
  | zero => exact rfl
  | succ n => exact (dif_pos h0).trans rfl

theorem accAt_B (c : Dev nD) (t : Fin cfg0.N) (h0 : ¬t.val % 20 = 0) (h1 : ¬t.val % 20 = 19) :
    accAt V c t.val t.isLt = accB V c t h0 h1 (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 20 = 0) (h1 : t.val % 20 = 19) :
    accAt V c t.val t.isLt = accC V c t h1 (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem outAt_C (c : Dev nD) (t : Fin cfg0.N) (h1 : t.val % 20 = 19) :
    outAt V c t.val t.isLt = outC V c t h1 (accAt V c (t.val - 1) (Nat.lt_of_le_of_lt (Nat.sub_le _ _) t.isLt)) := by
  obtain ⟨n, hn⟩ := t
  cases n with
  | zero => exact (by exfalso; (try dsimp only at h1); omega)
  | succ n => exact (dif_pos h1).trans rfl

/-- The region's invariant before position `n`: before the first point the class's (every scoped buffer at anything);
    afterwards the accumulator at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt V c (n - 1) (by omega)) ∗ otherScoped c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in;
    the invariant hands the body the accumulator at what the point before left (at anything where k = 0) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 40 := lt_of_lt_of_eq t.isLt (show cfg0.N = 40 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 20 = 0
  · have h1 : ¬t.val % 20 = 19 := by omega
    rw [Dat.leavesExact_idle (dat0 V c) 5 t (idleAt0_5 t (fun h => h1 ((hcond0_1 t).mp h))) (noFlush0_5 t (fun h => h1 ((hcond0_1 t).mp h)))]
    rw [accAt_A V c t h0]
    unfold accA sout0_A_0; (try dsimp only)
    by_cases hz : t.val = 0
    · rw [PhiS_castSucc V c t, PhiS_zero V c _ _ hz, PhiA0_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => by have := (hcond0_1 t).mp h; omega) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => by have := (hcond0_1 t).mp h; omega) (iblk0 V c 0 t) (iblk0 V c 1 t) (iblk0 V c 2 t) (iblk0 V c 3 t) (iblk0 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 20 = 19
    · rw [show (dat0 V c).leavesExact 5 t = owns (c : Thread nD τ) (ms0_5 t) fullShare ((dat0 V c).after 5 t) from by
        unfold Dat.leavesExact; rw [liveAt0_5 t ((hcond0_1 t).mpr h1)], after0_5]
      rw [accAt_C V c t h0 h1, outAt_C V c t h1]
      unfold accC outC sout0_C_0 out0_C_5; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => by have := (hcond0_0 t).mp h; omega) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [accAt_B V c t h0 h1]
      unfold accB sout0_B_0; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 40 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, HR⟩, Hg⟩
  isplitl [HS0 HR]
  · isplitl [HS0]
    · iexists _; iexact HS0
    iexact HR
  iexact Hg

end

end Cert.Kernel.Hand

end
-- ==== Proof.K.R1Frame.lean ====
/-
  Region 1 (the second dense layer with its batch normalisation, clamp and row normalisation): one grid point,
  five input windows each the whole of its array, one output window stored whole.  What the output buffer holds
  after the body is the body's one store over the five input blocks.
-/
import proofs.«100161_j89575837925663_2_alg».proof.Proof.Gen.Kernel.Launch
import proofs.«100161_j89575837925663_2_alg».proof.Proof.Gen.Kernel.Skeleton
import proofs.«100161_j89575837925663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_A : Rect S256x1024 := Rect.unit (s := S256x1024) ![0, 0] S256x1024.size inb_S256x1024_S256x1024_0_0
abbrev r1_B : Rect S1x256 := Rect.unit (s := S1x256) ![0, 0] S1x256.size inb_S1x256_S1x256_0_0
abbrev r1_C : Rect S256x256 := Rect.unit (s := S256x256) ![0, 0] S256x256.size inb_S256x256_S256x256_0_0

/-- The output buffer after the body, from the input blocks: its one store. -/
def out1_5 (x0 : Vec F S256x1024 .f32) (x1 : Vec F S256x1024 .f32) (x2 : Vec F S1x256 .f32) (x3 : Vec F S1x256 .f32) (x4 : Vec F S1x256 .f32) : Vec F S256x256 .f32 :=
  View.canon [⟨r1_C, k1_pay1 (k1_pay2 (View.ld x0 r1_A) (View.ld x1 r1_A) (View.ld x2 r1_B) (View.ld x3 r1_B) (View.ld x4 r1_B)) (k1_pay3 (View.ld x0 r1_A) (View.ld x1 r1_A) (View.ld x2 r1_B) (View.ld x3 r1_B) (View.ld x4 r1_B))⟩]

theorem cover1_5 (p0 : Vec F S256x256 .f32) (y : S256x256.Idx) :
    ∃ pc ∈ ([⟨r1_C, p0⟩] : List (View.Piece (Elt F) S256x256 .f32)), y ∈ pc.1.set :=
  View.cover_of_tiled [⟨r1_C, p0⟩] S256x256.size (by rfl) y

set_option maxHeartbeats 4000000 in
theorem sound_kernel1 (c : Dev nD) (E : Set ℕ) (i : grid1.Coords) (arg1 : Memref sig .tc .vmem S256x1024 .f32) (harg1 : arg1.IsWhole) (arg2 : Memref sig .tc .vmem S256x1024 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole)
    (x0 : Vec F S256x1024 .f32) (x1 : Vec F S256x1024 .f32) (x2 : Vec F S1x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__fc2_kernel i arg1 harg1 arg2 harg2 arg3 harg3 arg4 harg4 arg5 harg5 arg6 harg6) K := by
  simp only [cc1__fc2_kernel_eq_skeleton]; unfold cc1__fc2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover1_5 _)

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
/-
  The run of the whole program: the contents of the core's buffers at the boundaries between @main's items (the
  host stretches before the two regions, then what each region leaves in its output array), the two regions as
  segments over those contents, and the launch — every weakly fair execution ends with every unscoped buffer at
  the last boundary's contents.  The frame claim and the result's value are read off that post.
-/
import proofs.«100161_j89575837925663_2_alg».proof.Proof.K.R0Frame
import proofs.«100161_j89575837925663_2_alg».proof.Proof.K.R1Frame
import proofs.«100161_j89575837925663_2_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The launch over @main's items with the post "every unscoped buffer ends at the last boundary's contents":
    from it both the frame claim (the arguments) and the value of the result are read. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V14 m outs c) ∗ E 1 c) ⊢ R1.pre c)
    (hpost1 : ∀ c : Dev nD, R1.post c ⊢ iprop(StableHlo.held (c : Thread nD τ) (Pipeline.ucRefs τ sig) (V15 m outs c) ∗ E 2 c)) :
    θ_run defs (onTc (τ := τ) (main (F := F))) ⟨m, fun _ => 0, ρ⟩ (fun r => ∀ c : Dev nD, ∀ b ∈ Pipeline.ucRefs τ sig, r.2.mem (((c : Thread nD τ)).1, b) = V15 m outs c b) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, .rfl, .rfl, .rfl, .rfl, .rfl, .rfl, .rfl, .rfl, .rfl, .rfl, hpre0 c, (hpost0 c).trans (hpre1 c), (hpost1 c).trans (sep_mono .rfl (hE2 c))⟩)
    (hinit := ?_) (QY := fun c s => ∀ b ∈ Pipeline.ucRefs τ sig, s.mem (((c : Thread nD τ)).1, b) = V15 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro; exact h
    · iexact HSI

local notation "𝕄" => MT nD τ sig Unit (Elt F) ℕ (UR sig nD τ) ℕ

set_option maxHeartbeats 8000000 in
/-- Putting a region's arrays back: over ANY entry contents `Vv`, if the proof data's arrays are `Vv`'s and its output
    array ends at `X`, every array of the region ends at `Vv` with the output's buffer replaced by `X`. -/
theorem hF0_gen (Vv : Valuation τ sig (Elt F)) (c : Dev nD) (X : Buf (Elt F) ((c : Thread nD τ).loc main_v98))
    (dat : Dat τ (Elt F) Unit ℕ (UR sig nD τ) ℕ cfg0 c) (hA : ∀ w, dat.A w = Vv (Proc.devRef .tc (Pipeline.arrRef spec0 w)))
    (hX : dat.arrAt 5 cfg0.N = X) :
    ∀ w : Fin cfg0.W, dat.arrAt w cfg0.N = Function.update Vv (Proc.devRef .tc main_v98) X (Proc.devRef .tc (Pipeline.arrRef spec0 w))
  | ⟨0, _⟩ => (dat.arrAt_in 0 rfl _).trans ((hA 0).trans (Function.update_of_ne (StableHlo.devRef_ne_of_ne (by decide)) _ _).symm)
  | ⟨1, _⟩ => (dat.arrAt_in 1 rfl _).trans ((hA 1).trans (Function.update_of_ne (StableHlo.devRef_ne_of_ne (by decide)) _ _).symm)
  | ⟨2, _⟩ => (dat.arrAt_in 2 rfl _).trans ((hA 2).trans (Function.update_of_ne (StableHlo.devRef_ne_of_ne (by decide)) _ _).symm)
  | ⟨3, _⟩ => (dat.arrAt_in 3 rfl _).trans ((hA 3).trans (Function.update_of_ne (StableHlo.devRef_ne_of_ne (by decide)) _ _).symm)
  | ⟨4, _⟩ => (dat.arrAt_in 4 rfl _).trans ((hA 4).trans (Function.update_of_ne (StableHlo.devRef_ne_of_ne (by decide)) _ _).symm)
  | ⟨5, _⟩ => hX.trans (show X = Function.update Vv (Proc.devRef .tc main_v98) X (Proc.devRef .tc main_v98) from by rw [Function.update_self])
theorem hrest0_gen (Vv : Valuation τ sig (Elt F)) (c : Dev nD) (X : Buf (Elt F) ((c : Thread nD τ).loc main_v98)) :
    ∀ b : Ref sig .tc, b ∉ Finset.univ.image (Pipeline.arrRef spec0) → Function.update Vv (Proc.devRef .tc main_v98) X (Proc.devRef .tc b) = Vv (Proc.devRef .tc b) :=
  fun b hb => Function.update_of_ne (StableHlo.devRef_ne_of_ne (fun e => hb (Finset.mem_image.mpr ⟨(5 : Fin cfg0.W), Finset.mem_univ _, (show Pipeline.arrRef spec0 5 = b from e.symm)⟩))) _ _

set_option maxHeartbeats 8000000 in
/-- Putting a region's arrays back: over ANY entry contents `Vv`, if the proof data's arrays are `Vv`'s and its output
    array ends at `X`, every array of the region ends at `Vv` with the output's buffer replaced by `X`. -/
theorem hF1_gen (Vv : Valuation τ sig (Elt F)) (c : Dev nD) (X : Buf (Elt F) ((c : Thread nD τ).loc main_v99))
    (dat : Dat τ (Elt F) Unit ℕ (UR sig nD τ) ℕ cfg1 c) (hA : ∀ w, dat.A w = Vv (Proc.devRef .tc (Pipeline.arrRef spec1 w)))
    (hX : dat.arrAt 5 cfg1.N = X) :
    ∀ w : Fin cfg1.W, dat.arrAt w cfg1.N = Function.update Vv (Proc.devRef .tc main_v99) X (Proc.devRef .tc (Pipeline.arrRef spec1 w))
  | ⟨0, _⟩ => (dat.arrAt_in 0 rfl _).trans ((hA 0).trans (Function.update_of_ne (StableHlo.devRef_ne_of_ne (by decide)) _ _).symm)
  | ⟨1, _⟩ => (dat.arrAt_in 1 rfl _).trans ((hA 1).trans (Function.update_of_ne (StableHlo.devRef_ne_of_ne (by decide)) _ _).symm)
  | ⟨2, _⟩ => (dat.arrAt_in 2 rfl _).trans ((hA 2).trans (Function.update_of_ne (StableHlo.devRef_ne_of_ne (by decide)) _ _).symm)
  | ⟨3, _⟩ => (dat.arrAt_in 3 rfl _).trans ((hA 3).trans (Function.update_of_ne (StableHlo.devRef_ne_of_ne (by decide)) _ _).symm)
  | ⟨4, _⟩ => (dat.arrAt_in 4 rfl _).trans ((hA 4).trans (Function.update_of_ne (StableHlo.devRef_ne_of_ne (by decide)) _ _).symm)
  | ⟨5, _⟩ => hX.trans (show X = Function.update Vv (Proc.devRef .tc main_v99) X (Proc.devRef .tc main_v99) from by rw [Function.update_self])
theorem hrest1_gen (Vv : Valuation τ sig (Elt F)) (c : Dev nD) (X : Buf (Elt F) ((c : Thread nD τ).loc main_v99)) :
    ∀ b : Ref sig .tc, b ∉ Finset.univ.image (Pipeline.arrRef spec1) → Function.update Vv (Proc.devRef .tc main_v99) X (Proc.devRef .tc b) = Vv (Proc.devRef .tc b) :=
  fun b hb => Function.update_of_ne (StableHlo.devRef_ne_of_ne (fun e => hb (Finset.mem_image.mpr ⟨(5 : Fin cfg1.W), Finset.mem_univ _, (show Pipeline.arrRef spec1 5 = b from e.symm)⟩))) _ _

/-! ## The contents at the regions' boundaries -/

/-- Region 0's entry contents (after the thirteen host stretches), read at the TensorCore's references. -/
abbrev E13 : (c : Dev nD) → (b : Ref sig .tc) → Buf (Elt F) ((c : Thread nD τ).loc b) := fun c b => V13 m c b
/-- What region 0 leaves in its output array: the write-backs of its proof data folded. -/
def X98 (c : Dev nD) : Buf (Elt F) ((c : Thread nD τ).loc main_v98) := (dat0 (E13 m) c).arrAt 5 cfg0.N
/-- Region 0's exit contents: its output array at what it leaves, every other buffer as entered. -/
abbrev W14 (c : Dev nD) : Valuation τ sig (Elt F) := Function.update (V13 m c) main_v98 (X98 m c)
abbrev E14 : (c : Dev nD) → (b : Ref sig .tc) → Buf (Elt F) ((c : Thread nD τ).loc b) := fun c b => W14 m c b
/-- What region 1 leaves in its output array (the program's result). -/
def X99 (c : Dev nD) : Buf (Elt F) ((c : Thread nD τ).loc main_v99) := (dat1 (E14 m) c).arrAt 5 cfg1.N
abbrev W15 (c : Dev nD) : Valuation τ sig (Elt F) := Function.update (W14 m c) main_v99 (X99 m c)
abbrev E15 : (c : Dev nD) → (b : Ref sig .tc) → Buf (Elt F) ((c : Thread nD τ).loc b) := fun c b => W15 m c b

/-- What the regions leave, as the family the boundaries' contents are written over. -/
def outs : Outs (F := F) := fun _ r c =>
  if h : r = main_v98 then h ▸ X98 m c else if h' : r = main_v99 then h' ▸ X99 m c else V13 m c r

theorem outs_98 (c : Dev nD) : outs m 14 main_v98 c = X98 m c := by unfold outs; rw [dif_pos rfl]
theorem outs_99 (c : Dev nD) : outs m 15 main_v99 c = X99 m c := by
  unfold outs; rw [dif_neg (by decide), dif_pos rfl]
theorem V14_eq (c : Dev nD) : V14 m (outs m) c = W14 m c := by
  show Function.update (V13 m c) main_v98 (outs m 14 main_v98 c) = _; rw [outs_98]
theorem V15_eq (c : Dev nD) : V15 m (outs m) c = W15 m c := by
  show Function.update (V14 m (outs m) c) main_v99 (outs m 15 main_v99 c) = _; rw [outs_99, V14_eq]

theorem hF0 (c : Dev nD) : ∀ w : Fin cfg0.W, (dat0 (E13 m) c).arrAt w cfg0.N = E14 m c (Pipeline.arrRef spec0 w) :=
  hF0_gen (V13 m c) c (X98 m c) (dat0 (E13 m) c) (A_eq0 (E13 m) c) rfl
theorem hrest0 (c : Dev nD) : ∀ b, b ∉ Finset.univ.image (Pipeline.arrRef spec0) → E14 m c b = E13 m c b :=
  hrest0_gen (V13 m c) c (X98 m c)

theorem hF1 (c : Dev nD) : ∀ w : Fin cfg1.W, (dat1 (E14 m) c).arrAt w cfg1.N = E15 m c (Pipeline.arrRef spec1 w) :=
  hF1_gen (W14 m c) c (X99 m c) (dat1 (E14 m) c) (A_eq1 (E14 m) c) rfl
theorem hrest1 (c : Dev nD) : ∀ b, b ∉ Finset.univ.image (Pipeline.arrRef spec1) → E15 m c b = E14 m c b :=
  hrest1_gen (W14 m c) c (X99 m c)

/-! ## The proof data family and the thread state -/

def pdats : (p : Fin 2) → (c : Dev nD) → Dat τ (Elt F) Unit ℕ (UR sig nD τ) ℕ (cfgs p) c
  | ⟨0, _⟩ => fun c => dat0 (E13 m) c
  | ⟨1, _⟩ => fun c => dat1 (E14 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

set_option backward.isDefEq.respectTransparency.types false in
/-- Region 0 over the thread state: entered from every unscoped buffer at the boundary's contents, left at the next
    boundary's; its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E13 m) c).loose
  hwaits := Pipeline.hwaits_of_owed_zero _ _ _ _ L lv 0 fun _ _ => rfl
  pre c := iprop(StableHlo.held (c : Thread nD τ) (Pipeline.ucRefs τ sig) (V13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec0 c (E13 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E13 m) c)
    unfold Pipeline.ΦA
    iintro ⟨Hp, -, Hr⟩
    isplitl [Hr]; · iexact Hr
    iexact Hp
  hout c := by
    rw [Pipeline.ownSems0_none]
    refine BIBase.Entails.trans (hout0 (E13 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E13 m c) (E14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E14 m) c).loose
  hwaits := Pipeline.hwaits_of_owed_zero _ _ _ _ L lv 1 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec1 c (E14 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E14 m c) (E15 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Every weakly fair execution of @main from memory `m` with zero counters terminates, nothing faulting, with every
    unscoped buffer at the last boundary's contents. -/
theorem run_main (ρ : Dev nD → PrngReg) :
    θ_run defs (onTc (τ := τ) (main (F := F))) ⟨m, fun _ => 0, ρ⟩ (fun r => ∀ c : Dev nD, ∀ b ∈ Pipeline.ucRefs τ sig, r.2.mem (((c : Thread nD τ)).1, b) = V15 m (outs m) c b) :=
  run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V14_eq]; exact .rfl)
    (R1 := reg1 m) (hpre1 := fun c => by rw [V14_eq]; exact .rfl) (hpost1 := fun c => by rw [V15_eq]; exact .rfl)

end Cert.Kernel.Hand

end
-- ==== Proof.K.Frame.lean ====
/-
  The frame claim, at any float instance: every weakly fair execution of the program terminates, nothing faulting,
  and every argument array ends holding its launch contents — each read off the run's post (every unscoped buffer at
  the last boundary's contents), where no host stretch writes an argument and no region may change one.
-/
import proofs.«100161_j89575837925663_2_alg».proof.Proof.K.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => by
    have hm : ∀ b : Ref sig .tc, ¬(Proc.devRef .tc b : DevRef τ sig).isScoped → r.2.mem ((c.tc : Thread nD τ).loc b) = V15 m (outs m) c b :=
      fun b hb => h c (Proc.devRef .tc b) (Finset.mem_filter.mpr ⟨StableHlo.devRef_mem_tcRefs b, hb⟩)
    exact ⟨(hm main_arg0 (by decide)).trans (V15_main_arg0 m (outs m) c),
      (hm main_arg1 (by decide)).trans (V15_main_arg1 m (outs m) c),
      (hm main_arg2 (by decide)).trans (V15_main_arg2 m (outs m) c),
      (hm main_arg3 (by decide)).trans (V15_main_arg3 m (outs m) c),
      (hm main_arg4 (by decide)).trans (V15_main_arg4 m (outs m) c),
      (hm main_arg5 (by decide)).trans (V15_main_arg5 m (outs m) c),
      (hm main_arg6 (by decide)).trans (V15_main_arg6 m (outs m) c),
      (hm main_arg7 (by decide)).trans (V15_main_arg7 m (outs m) c),
      (hm main_arg8 (by decide)).trans (V15_main_arg8 m (outs m) c),
      (hm main_arg9 (by decide)).trans (V15_main_arg9 m (outs m) c),
      (hm main_arg10 (by decide)).trans (V15_main_arg10 m (outs m) c),
      (hm main_arg11 (by decide)).trans (V15_main_arg11 m (outs m) c),
      (hm main_arg12 (by decide)).trans (V15_main_arg12 m (outs m) c),
      (hm main_arg13 (by decide)).trans (V15_main_arg13 m (outs m) c),
      (hm main_arg14 (by decide)).trans (V15_main_arg14 m (outs m) c),
      (hm main_arg15 (by decide)).trans (V15_main_arg15 m (outs m) c),
      (hm main_arg16 (by decide)).trans (V15_main_arg16 m (outs m) c),
      (hm main_arg17 (by decide)).trans (V15_main_arg17 m (outs m) c),
      (hm main_arg18 (by decide)).trans (V15_main_arg18 m (outs m) c),
      (hm main_arg19 (by decide)).trans (V15_main_arg19 m (outs m) c),
      (hm main_arg20 (by decide)).trans (V15_main_arg20 m (outs m) c),
      (hm main_arg21 (by decide)).trans (V15_main_arg21 m (outs m) c)⟩)
    (run_main m ρ)

end Cert.Kernel.Hand

end
-- ==== Proof.RefRun.lean ====
import proofs.«100161_j89575837925663_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The reference program's operations, in order

The module-local functions are substituted at their calls (a call is its callee's body over the call's own
buffers), so `@main` is one straight line of 289 operations. It is cut after the operation that writes
`main_v90` (the attention-weighted rows, reshaped to 256 x 64000): `opsP` is that prefix, `opsT` the rest —
two linear layers, each followed by a batch normalisation over the 256 rows and a rectifier, then a division of each
row by its Euclidean norm. -/

/-- The prefix: from the first operation through the one that writes `main_v90`. -/
abbrev opsP : List (HloOp τ sig (Elt F)) :=
  [ StableHlo.unary main_arg2 main_v0 ((transpose S32x16 [1, 0] · transposes_S16x32_S32x16_1_0) : (⟨S16x32, .f32⟩ : BufTy).Contents (Elt F) → (⟨S32x16, .f32⟩ : BufTy).Contents (Elt F)),
    StableHlo.binary main_arg0 main_v0 main_v1 ((fun l r => Host.dotGeneral dot_S512000x32_S32x16_S512000x16_1_0_0_1_n_n none l r) : (⟨S512000x32, .f32⟩ : BufTy).Contents (Elt F) → (⟨S32x16, .f32⟩ : BufTy).Contents (Elt F) → (⟨S512000x16, .f32⟩ : BufTy).Contents (Elt F)),
    StableHlo.unary main_arg3 main_v2 (broadcastInDim S1x16 ![1] bcast_S16_S1x16_1 : (⟨S16, .f32⟩ : BufTy).Contents (Elt F) → (⟨S1x16, .f32⟩ : BufTy).Contents (Elt F)),
    StableHlo.unary main_v2 main_v3 (broadcastInDim S512000x16 ![0, 1] bcast_S1x16_S512000x16_0_1 : (⟨S1x16, .f32⟩ : BufTy).Contents (Elt F) → (⟨S512000x16, .f32⟩ : BufTy).Contents (Elt F)),
    StableHlo.binary main_v1 main_v3 main_v4 (addf : (⟨S512000x16, .f32⟩ : BufTy).Contents (Elt F) → (⟨S512000x16, .f32⟩ : BufTy).Contents (Elt F) → (⟨S512000x16, .f32⟩ : BufTy).Contents (Elt F)),
    StableHlo.nullary main_cst (constant S_ .f32 0x00000000#32),
    StableHlo.binary main_v4 main_cst main_v5 ((fun x v => Host.reduceAdd x v reducesTo_S512000x16_S16_d0 h_S_) : (⟨S512000x16, .f32⟩ : BufTy).Contents (Elt F) → (⟨S_, .f32⟩ : BufTy).Contents (Elt F) → (⟨S16, .f32⟩ : BufTy).Contents (Elt F)),
    StableHlo.nullary main_cst_0 (constant S_ .f32 0x48FA0000#32),
    StableHlo.unary main_cst_0 main_v6 (broadcastInDim S16 ![] bcast_S_S16 : (⟨S_, .f32⟩ : BufTy).Contents (Elt F) → (⟨S16, .f32⟩ : BufTy).Contents (Elt F)),
    StableHlo.binary main_v5 main_v6 main_v7 (Host.divf : (⟨S16, .f32⟩ : BufTy).Contents (Elt F) → (⟨S16, .f32⟩ : BufTy).Contents (Elt F) → (⟨S16, .f32⟩ : BufTy).Contents (Elt F)),
    StableHlo.nullary main_c (constantI S_ 32 0#32),
    StableHlo.TRef.nullary main_call0.cst (constant S_ .f32 0x00000000#32),
    StableHlo.TRef.binary (.of main_v4 : StableHlo.TRef sig ⟨S512000x16, .f32⟩) main_call0.cst main_call0.v0 (fun x v => Host.reduceAdd x v reducesTo_S512000x16_S16_d0 h_S_),
    StableHlo.TRef.unary main_call0.v0 main_call0.v1 (broadcastInDim S1x16 ![1] bcast_S16_S1x16_1),
    StableHlo.TRef.nullary main_call0.cst_0 (constant S_ .f32 0x48FA0000#32),
    StableHlo.TRef.unary main_call0.cst_0 main_call0.v2 (broadcastInDim S1x16 ![] bcast_S_S1x16),
    StableHlo.TRef.binary main_call0.v1 main_call0.v2 main_call0.v3 Host.divf,
    StableHlo.TRef.unary main_call0.v3 main_call0.v4 (broadcastInDim S512000x16 ![0, 1] bcast_S1x16_S512000x16_0_1),
    StableHlo.TRef.binary (.of main_v4 : StableHlo.TRef sig ⟨S512000x16, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x48FA0000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S512000x16_S16_d0 h_S_),
    StableHlo.TRef.unary main_call0.v8 main_call0.v10 (broadcastInDim S16 ![] bcast_S_S16),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16 ![] bcast_S_S16),
    StableHlo.TRef.ternary main_call0.v12 main_call0.v11 main_call0.call0.v1 main_call0.call0.v2 (fun p a b => select (broadcastInDim S16 ![] bcast_S_S16 p) a b),
    StableHlo.unary main_v7 main_v9 (broadcastInDim S1x16 ![1] bcast_S16_S1x16_1 : (⟨S16, .f32⟩ : BufTy).Contents (Elt F) → (⟨S1x16, .f32⟩ : BufTy).Contents (Elt F)),
    StableHlo.unary main_v9 main_v10 (broadcastInDim S512000x16 ![0, 1] bcast_S1x16_S512000x16_0_1 : (⟨S1x16, .f32⟩ : BufTy).Contents (Elt F) → (⟨S512000x16, .f32⟩ : BufTy).Contents (Elt F)),
    StableHlo.binary main_v4 main_v10 main_v11 (subf : (⟨S512000x16, .f32⟩ : BufTy).Contents (Elt F) → (⟨S512000x16, .f32⟩ : BufTy).Contents (Elt F) → (⟨S512000x16, .f32⟩ : BufTy).Contents (Elt F)),
    StableHlo.nullary main_cst_1 (constant S_ .f32 0x3727C5AC#32),
    StableHlo.unary main_cst_1 main_v12 (broadcastInDim S16 ![] bcast_S_S16 : (⟨S_, .f32⟩ : BufTy).Contents (Elt F) → (⟨S16, .f32⟩ : BufTy).Contents (Elt F)),
    StableHlo.binary main_v8 main_v12 main_v13 (addf : (⟨S16, .f32⟩ : BufTy).Contents (Elt F) → (⟨S16, .f32⟩ : BufTy).Contents (Elt F) → (⟨S16, .f32⟩ : BufTy).Contents (Elt F)),
    StableHlo.unary main_v13 main_v14 (Host.rsqrt : (⟨S16, .f32⟩ : BufTy).Contents (Elt F) → (⟨S16, .f32⟩ : BufTy).Contents (Elt F)),
    StableHlo.unary main_v14 main_v15 (broadcastInDim S1x16 ![1] bcast_S16_S1x16_1 : (⟨S16, .f32⟩ : BufTy).Contents (Elt F) → (⟨S1x16, .f32⟩ : BufTy).Contents (Elt F)),
    StableHlo.unary main_v15 main_v16 (broadcastInDim S512000x16 ![0, 1] bcast_S1x16_S512000x16_0_1 : (⟨S1x16, .f32⟩ : BufTy).Contents (Elt F) → (⟨S512000x16, .f32⟩ : BufTy).Contents (Elt F)),
    StableHlo.binary main_v11 main_v16 main_v17 (mulf : (⟨S512000x16, .f32⟩ : BufTy).Contents (Elt F) → (⟨S512000x16, .f32⟩ : BufTy).Contents (Elt F) → (⟨S512000x16, .f32⟩ : BufTy).Contents (Elt F)),
    StableHlo.unary main_arg4 main_v18 (broadcastInDim S1x16 ![1] bcast_S16_S1x16_1 : (⟨S16, .f32⟩ : BufTy).Contents (Elt F) → (⟨S1x16, .f32⟩ : BufTy).Contents (Elt F)),
    StableHlo.unary main_v18 main_v19 (broadcastInDim S512000x16 ![0, 1] bcast_S1x16_S512000x16_0_1 : (⟨S1x16, .f32⟩ : BufTy).Contents (Elt F) → (⟨S512000x16, .f32⟩ : BufTy).Contents (Elt F)),
    StableHlo.binary main_v17 main_v19 main_v20 (mulf : (⟨S512000x16, .f32⟩ : BufTy).Contents (Elt F) → (⟨S512000x16, .f32⟩ : BufTy).Contents (Elt F) → (⟨S512000x16, .f32⟩ : BufTy).Contents (Elt F)),
    StableHlo.unary main_arg5 main_v21 (broadcastInDim S1x16 ![1] bcast_S16_S1x16_1 : (⟨S16, .f32⟩ : BufTy).Contents (Elt F) → (⟨S1x16, .f32⟩ : BufTy).Contents (Elt F)),
    StableHlo.unary main_v21 main_v22 (broadcastInDim S512000x16 ![0, 1] bcast_S1x16_S512000x16_0_1 : (⟨S1x16, .f32⟩ : BufTy).Contents (Elt F) → (⟨S512000x16, .f32⟩ : BufTy).Contents (Elt F)),
    StableHlo.binary main_v20 main_v22 main_v23 (addf : (⟨S512000x16, .f32⟩ : BufTy).Contents (Elt F) → (⟨S512000x16, .f32⟩ : BufTy).Contents (Elt F) → (⟨S512000x16, .f32⟩ : BufTy).Contents (Elt F)),
    StableHlo.TRef.nullary main_call1.cst (constant S_ .f32 0x00000000#32),
    StableHlo.TRef.unary main_call1.cst main_call1.v0 (broadcastInDim S512000x16 ![] bcast_S_S512000x16),
    StableHlo.TRef.binary (.of main_v23 : StableHlo.TRef sig ⟨S512000x16, .f32⟩) main_call1.v0 main_call1.v1 maximumf,
    StableHlo.unary main_arg6 main_v25 ((transpose S16x8 [1, 0] · transposes_S8x16_S16x8_1_0) : (⟨S8x16, .f32⟩ : BufTy).Contents (Elt F) → (⟨S16x8, .f32⟩ : BufTy).Contents (Elt F)),
    StableHlo.binary main_v24 main_v25 main_v26 ((fun l r => Host.dotGeneral dot_S512000x16_S16x8_S512000x8_1_0_0_1_n_n none l r) : (⟨S512000x16, .f32⟩ : BufTy).Contents (Elt F) → (⟨S16x8, .f32⟩ : BufTy).Contents (Elt F) → (⟨S512000x8, .f32⟩ : BufTy).Contents (Elt F)),
    StableHlo.unary main_arg7 main_v27 (broadcastInDim S1x8 ![1] bcast_S8_S1x8_1 : (⟨S8, .f32⟩ : BufTy).Contents (Elt F) → (⟨S1x8, .f32⟩ : BufTy).Contents (Elt F)),
    StableHlo.unary main_v27 main_v28 (broadcastInDim S512000x8 ![0, 1] bcast_S1x8_S512000x8_0_1 : (⟨S1x8, .f32⟩ : BufTy).Contents (Elt F) → (⟨S512000x8, .f32⟩ : BufTy).Contents (Elt F)),
    StableHlo.binary main_v26 main_v28 main_v29 (addf : (⟨S512000x8, .f32⟩ : BufTy).Contents (Elt F) → (⟨S512000x8, .f32⟩ : BufTy).Contents (Elt F) → (⟨S512000x8, .f32⟩ : BufTy).Contents (Elt F)),
    StableHlo.nullary main_cst_2 (constant S_ .f32 0x00000000#32),
    StableHlo.binary main_v29 main_cst_2 main_v30 ((fun x v => Host.reduceAdd x v reducesTo_S512000x8_S8_d0 h_S_) : (⟨S512000x8, .f32⟩ : BufTy).Contents (Elt F) → (⟨S_, .f32⟩ : BufTy).Contents (Elt F) → (⟨S8, .f32⟩ : BufTy).Contents (Elt F)),
    StableHlo.nullary main_cst_3 (constant S_ .f32 0x48FA0000#32),
    StableHlo.unary main_cst_3 main_v31 (broadcastInDim S8 ![] bcast_S_S8 : (⟨S_, .f32⟩ : BufTy).Contents (Elt F) → (⟨S8, .f32⟩ : BufTy).Contents (Elt F)),
    StableHlo.binary main_v30 main_v31 main_v32 (Host.divf : (⟨S8, .f32⟩ : BufTy).Contents (Elt F) → (⟨S8, .f32⟩ : BufTy).Contents (Elt F) → (⟨S8, .f32⟩ : BufTy).Contents (Elt F)),
    StableHlo.nullary main_c_4 (constantI S_ 32 0#32),
    StableHlo.TRef.nullary main_call2.cst (constant S_ .f32 0x00000000#32),
    StableHlo.TRef.binary (.of main_v29 : StableHlo.TRef sig ⟨S512000x8, .f32⟩) main_call2.cst main_call2.v0 (fun x v => Host.reduceAdd x v reducesTo_S512000x8_S8_d0 h_S_),
    StableHlo.TRef.unary main_call2.v0 main_call2.v1 (broadcastInDim S1x8 ![1] bcast_S8_S1x8_1),
    StableHlo.TRef.nullary main_call2.cst_0 (constant S_ .f32 0x48FA0000#32),
    StableHlo.TRef.unary main_call2.cst_0 main_call2.v2 (broadcastInDim S1x8 ![] bcast_S_S1x8),
    StableHlo.TRef.binary main_call2.v1 main_call2.v2 main_call2.v3 Host.divf,
    StableHlo.TRef.unary main_call2.v3 main_call2.v4 (broadcastInDim S512000x8 ![0, 1] bcast_S1x8_S512000x8_0_1),
    StableHlo.TRef.binary (.of main_v29 : StableHlo.TRef sig ⟨S512000x8, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x48FA0000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S512000x8_S8_d0 h_S_),
    StableHlo.TRef.unary main_call2.v8 main_call2.v10 (broadcastInDim S8 ![] bcast_S_S8),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S8 ![] bcast_S_S8),
    StableHlo.TRef.ternary main_call2.v12 main_call2.v11 main_call2.call0.v1 main_call2.call0.v2 (fun p a b => select (broadcastInDim S8 ![] bcast_S_S8 p) a b),
    StableHlo.unary main_v32 main_v34 (broadcastInDim S1x8 ![1] bcast_S8_S1x8_1 : (⟨S8, .f32⟩ : BufTy).Contents (Elt F) → (⟨S1x8, .f32⟩ : BufTy).Contents (Elt F)),
    StableHlo.unary main_v34 main_v35 (broadcastInDim S512000x8 ![0, 1] bcast_S1x8_S512000x8_0_1 : (⟨S1x8, .f32⟩ : BufTy).Contents (Elt F) → (⟨S512000x8, .f32⟩ : BufTy).Contents (Elt F)),
    StableHlo.binary main_v29 main_v35 main_v36 (subf : (⟨S512000x8, .f32⟩ : BufTy).Contents (Elt F) → (⟨S512000x8, .f32⟩ : BufTy).Contents (Elt F) → (⟨S512000x8, .f32⟩ : BufTy).Contents (Elt F)),
    StableHlo.nullary main_cst_5 (constant S_ .f32 0x3727C5AC#32),
    StableHlo.unary main_cst_5 main_v37 (broadcastInDim S8 ![] bcast_S_S8 : (⟨S_, .f32⟩ : BufTy).Contents (Elt F) → (⟨S8, .f32⟩ : BufTy).Contents (Elt F)),
    StableHlo.binary main_v33 main_v37 main_v38 (addf : (⟨S8, .f32⟩ : BufTy).Contents (Elt F) → (⟨S8, .f32⟩ : BufTy).Contents (Elt F) → (⟨S8, .f32⟩ : BufTy).Contents (Elt F)),
    StableHlo.unary main_v38 main_v39 (Host.rsqrt : (⟨S8, .f32⟩ : BufTy).Contents (Elt F) → (⟨S8, .f32⟩ : BufTy).Contents (Elt F)),
    StableHlo.unary main_v39 main_v40 (broadcastInDim S1x8 ![1] bcast_S8_S1x8_1 : (⟨S8, .f32⟩ : BufTy).Contents (Elt F) → (⟨S1x8, .f32⟩ : BufTy).Contents (Elt F)),
    StableHlo.unary main_v40 main_v41 (broadcastInDim S512000x8 ![0, 1] bcast_S1x8_S512000x8_0_1 : (⟨S1x8, .f32⟩ : BufTy).Contents (Elt F) → (⟨S512000x8, .f32⟩ : BufTy).Contents (Elt F)),
    StableHlo.binary main_v36 main_v41 main_v42 (mulf : (⟨S512000x8, .f32⟩ : BufTy).Contents (Elt F) → (⟨S512000x8, .f32⟩ : BufTy).Contents (Elt F) → (⟨S512000x8, .f32⟩ : BufTy).Contents (Elt F)),
    StableHlo.unary main_arg8 main_v43 (broadcastInDim S1x8 ![1] bcast_S8_S1x8_1 : (⟨S8, .f32⟩ : BufTy).Contents (Elt F) → (⟨S1x8, .f32⟩ : BufTy).Contents (Elt F)),
    StableHlo.unary main_v43 main_v44 (broadcastInDim S512000x8 ![0, 1] bcast_S1x8_S512000x8_0_1 : (⟨S1x8, .f32⟩ : BufTy).Contents (Elt F) → (⟨S512000x8, .f32⟩ : BufTy).Contents (Elt F)),
    StableHlo.binary main_v42 main_v44 main_v45 (mulf : (⟨S512000x8, .f32⟩ : BufTy).Contents (Elt F) → (⟨S512000x8, .f32⟩ : BufTy).Contents (Elt F) → (⟨S512000x8, .f32⟩ : BufTy).Contents (Elt F)),
    StableHlo.unary main_arg9 main_v46 (broadcastInDim S1x8 ![1] bcast_S8_S1x8_1 : (⟨S8, .f32⟩ : BufTy).Contents (Elt F) → (⟨S1x8, .f32⟩ : BufTy).Contents (Elt F)),
    StableHlo.unary main_v46 main_v47 (broadcastInDim S512000x8 ![0, 1] bcast_S1x8_S512000x8_0_1 : (⟨S1x8, .f32⟩ : BufTy).Contents (Elt F) → (⟨S512000x8, .f32⟩ : BufTy).Contents (Elt F)),
    StableHlo.binary main_v45 main_v47 main_v48 (addf : (⟨S512000x8, .f32⟩ : BufTy).Contents (Elt F) → (⟨S512000x8, .f32⟩ : BufTy).Contents (Elt F) → (⟨S512000x8, .f32⟩ : BufTy).Contents (Elt F)),
    StableHlo.TRef.nullary main_call3.cst (constant S_ .f32 0x00000000#32),
    StableHlo.TRef.unary main_call3.cst main_call3.v0 (broadcastInDim S512000x8 ![] bcast_S_S512000x8),
    StableHlo.TRef.binary (.of main_v48 : StableHlo.TRef sig ⟨S512000x8, .f32⟩) main_call3.v0 main_call3.v1 maximumf,
    StableHlo.unary main_arg10 main_v50 ((transpose S8x1 [1, 0] · transposes_S1x8_S8x1_1_0) : (⟨S1x8, .f32⟩ : BufTy).Contents (Elt F) → (⟨S8x1, .f32⟩ : BufTy).Contents (Elt F)),
    StableHlo.binary main_v49 main_v50 main_v51 ((fun l r => Host.dotGeneral dot_S512000x8_S8x1_S512000x1_1_0_0_1_n_n none l r) : (⟨S512000x8, .f32⟩ : BufTy).Contents (Elt F) → (⟨S8x1, .f32⟩ : BufTy).Contents (Elt F) → (⟨S512000x1, .f32⟩ : BufTy).Contents (Elt F)),
    StableHlo.unary main_arg11 main_v52 (broadcastInDim S1x1 ![1] bcast_S1_S1x1_1 : (⟨S1, .f32⟩ : BufTy).Contents (Elt F) → (⟨S1x1, .f32⟩ : BufTy).Contents (Elt F)),
    StableHlo.unary main_v52 main_v53 (broadcastInDim S512000x1 ![0, 1] bcast_S1x1_S512000x1_0_1 : (⟨S1x1, .f32⟩ : BufTy).Contents (Elt F) → (⟨S512000x1, .f32⟩ : BufTy).Contents (Elt F)),
    StableHlo.binary main_v51 main_v53 main_v54 (addf : (⟨S512000x1, .f32⟩ : BufTy).Contents (Elt F) → (⟨S512000x1, .f32⟩ : BufTy).Contents (Elt F) → (⟨S512000x1, .f32⟩ : BufTy).Contents (Elt F)),
    StableHlo.nullary main_cst_6 (constant S_ .f32 0x00000000#32),
    StableHlo.binary main_v54 main_cst_6 main_v55 ((fun x v => Host.reduceAdd x v reducesTo_S512000x1_S1_d0 h_S_) : (⟨S512000x1, .f32⟩ : BufTy).Contents (Elt F) → (⟨S_, .f32⟩ : BufTy).Contents (Elt F) → (⟨S1, .f32⟩ : BufTy).Contents (Elt F)),
    StableHlo.nullary main_cst_7 (constant S_ .f32 0x48FA0000#32),
    StableHlo.unary main_cst_7 main_v56 (broadcastInDim S1 ![] bcast_S_S1 : (⟨S_, .f32⟩ : BufTy).Contents (Elt F) → (⟨S1, .f32⟩ : BufTy).Contents (Elt F)),
    StableHlo.binary main_v55 main_v56 main_v57 (Host.divf : (⟨S1, .f32⟩ : BufTy).Contents (Elt F) → (⟨S1, .f32⟩ : BufTy).Contents (Elt F) → (⟨S1, .f32⟩ : BufTy).Contents (Elt F)),
    StableHlo.nullary main_c_8 (constantI S_ 32 0#32),
    StableHlo.TRef.nullary main_call4.cst (constant S_ .f32 0x00000000#32),
    StableHlo.TRef.binary (.of main_v54 : StableHlo.TRef sig ⟨S512000x1, .f32⟩) main_call4.cst main_call4.v0 (fun x v => Host.reduceAdd x v reducesTo_S512000x1_S1_d0 h_S_),
    StableHlo.TRef.unary main_call4.v0 main_call4.v1 (broadcastInDim S1x1 ![1] bcast_S1_S1x1_1),
    StableHlo.TRef.nullary main_call4.cst_0 (constant S_ .f32 0x48FA0000#32),
    StableHlo.TRef.unary main_call4.cst_0 main_call4.v2 (broadcastInDim S1x1 ![] bcast_S_S1x1),
    StableHlo.TRef.binary main_call4.v1 main_call4.v2 main_call4.v3 Host.divf,
    StableHlo.TRef.unary main_call4.v3 main_call4.v4 (broadcastInDim S512000x1 ![0, 1] bcast_S1x1_S512000x1_0_1),
    StableHlo.TRef.binary (.of main_v54 : StableHlo.TRef sig ⟨S512000x1, .f32⟩) main_call4.v4 main_call4.v5 subf,
    StableHlo.TRef.binary main_call4.v5 main_call4.v5 main_call4.v6 mulf,
    StableHlo.TRef.unary (.of main_c_8 : StableHlo.TRef sig ⟨S_, .i32⟩) main_call4.v7 (sitofp .f32),
    StableHlo.TRef.nullary main_call4.cst_1 (constant S_ .f32 0x48FA0000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S512000x1_S1_d0 h_S_),
    StableHlo.TRef.unary main_call4.v8 main_call4.v10 (broadcastInDim S1 ![] bcast_S_S1),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1 ![] bcast_S_S1),
    StableHlo.TRef.ternary main_call4.v12 main_call4.v11 main_call4.call0.v1 main_call4.call0.v2 (fun p a b => select (broadcastInDim S1 ![] bcast_S_S1 p) a b),
    StableHlo.unary main_v57 main_v59 (broadcastInDim S1x1 ![1] bcast_S1_S1x1_1 : (⟨S1, .f32⟩ : BufTy).Contents (Elt F) → (⟨S1x1, .f32⟩ : BufTy).Contents (Elt F)),
    StableHlo.unary main_v59 main_v60 (broadcastInDim S512000x1 ![0, 1] bcast_S1x1_S512000x1_0_1 : (⟨S1x1, .f32⟩ : BufTy).Contents (Elt F) → (⟨S512000x1, .f32⟩ : BufTy).Contents (Elt F)),
    StableHlo.binary main_v54 main_v60 main_v61 (subf : (⟨S512000x1, .f32⟩ : BufTy).Contents (Elt F) → (⟨S512000x1, .f32⟩ : BufTy).Contents (Elt F) → (⟨S512000x1, .f32⟩ : BufTy).Contents (Elt F)),
    StableHlo.nullary main_cst_9 (constant S_ .f32 0x3727C5AC#32),
    StableHlo.unary main_cst_9 main_v62 (broadcastInDim S1 ![] bcast_S_S1 : (⟨S_, .f32⟩ : BufTy).Contents (Elt F) → (⟨S1, .f32⟩ : BufTy).Contents (Elt F)),
    StableHlo.binary main_v58 main_v62 main_v63 (addf : (⟨S1, .f32⟩ : BufTy).Contents (Elt F) → (⟨S1, .f32⟩ : BufTy).Contents (Elt F) → (⟨S1, .f32⟩ : BufTy).Contents (Elt F)),
    StableHlo.unary main_v63 main_v64 (Host.rsqrt : (⟨S1, .f32⟩ : BufTy).Contents (Elt F) → (⟨S1, .f32⟩ : BufTy).Contents (Elt F)),
    StableHlo.unary main_v64 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S512000x1 ![0, 1] bcast_S1x1_S512000x1_0_1 : (⟨S1x1, .f32⟩ : BufTy).Contents (Elt F) → (⟨S512000x1, .f32⟩ : BufTy).Contents (Elt F)),
    StableHlo.binary main_v61 main_v66 main_v67 (mulf : (⟨S512000x1, .f32⟩ : BufTy).Contents (Elt F) → (⟨S512000x1, .f32⟩ : BufTy).Contents (Elt F) → (⟨S512000x1, .f32⟩ : BufTy).Contents (Elt F)),
    StableHlo.unary main_arg12 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S512000x1 ![0, 1] bcast_S1x1_S512000x1_0_1 : (⟨S1x1, .f32⟩ : BufTy).Contents (Elt F) → (⟨S512000x1, .f32⟩ : BufTy).Contents (Elt F)),
    StableHlo.binary main_v67 main_v69 main_v70 (mulf : (⟨S512000x1, .f32⟩ : BufTy).Contents (Elt F) → (⟨S512000x1, .f32⟩ : BufTy).Contents (Elt F) → (⟨S512000x1, .f32⟩ : BufTy).Contents (Elt F)),
    StableHlo.unary main_arg13 main_v71 (broadcastInDim S1x1 ![1] bcast_S1_S1x1_1 : (⟨S1, .f32⟩ : BufTy).Contents (Elt F) → (⟨S1x1, .f32⟩ : BufTy).Contents (Elt F)),
    StableHlo.unary main_v71 main_v72 (broadcastInDim S512000x1 ![0, 1] bcast_S1x1_S512000x1_0_1 : (⟨S1x1, .f32⟩ : BufTy).Contents (Elt F) → (⟨S512000x1, .f32⟩ : BufTy).Contents (Elt F)),
    StableHlo.binary main_v70 main_v72 main_v73 (addf : (⟨S512000x1, .f32⟩ : BufTy).Contents (Elt F) → (⟨S512000x1, .f32⟩ : BufTy).Contents (Elt F) → (⟨S512000x1, .f32⟩ : BufTy).Contents (Elt F)),
    StableHlo.TRef.nullary main_call5.cst (constant S_ .f32 0x00000000#32),
    StableHlo.TRef.unary main_call5.cst main_call5.v0 (broadcastInDim S512000x1 ![] bcast_S_S512000x1),
    StableHlo.TRef.binary (.of main_v73 : StableHlo.TRef sig ⟨S512000x1, .f32⟩) main_call5.v0 main_call5.v1 maximumf,
    StableHlo.reshape main_v74 main_v75 rfl shapeCasts_S512000x1_S256x2000x1,
    StableHlo.nullary main_cst_10 (constant S_ .f32 0xFF800000#32),
    StableHlo.binary main_v75 main_cst_10 main_v76 ((fun x v => Host.reduce FloatOps.maximumf x v reducesTo_S256x2000x1_S256x1_d1 h_S_) : (⟨S256x2000x1, .f32⟩ : BufTy).Contents (Elt F) → (⟨S_, .f32⟩ : BufTy).Contents (Elt F) → (⟨S256x1, .f32⟩ : BufTy).Contents (Elt F)),
    StableHlo.nullary main_cst_11 (constant S_ .f32 0xFF800000#32),
    StableHlo.unary main_cst_11 main_v77 (broadcastInDim S256x1 ![] bcast_S_S256x1 : (⟨S_, .f32⟩ : BufTy).Contents (Elt F) → (⟨S256x1, .f32⟩ : BufTy).Contents (Elt F)),
    StableHlo.binary main_v77 main_v76 main_v78 (maximumf : (⟨S256x1, .f32⟩ : BufTy).Contents (Elt F) → (⟨S256x1, .f32⟩ : BufTy).Contents (Elt F) → (⟨S256x1, .f32⟩ : BufTy).Contents (Elt F)),
    StableHlo.unary main_v78 main_v79 (broadcastInDim S256x1x1 ![0, 2] bcast_S256x1_S256x1x1_0_2 : (⟨S256x1, .f32⟩ : BufTy).Contents (Elt F) → (⟨S256x1x1, .f32⟩ : BufTy).Contents (Elt F)),
    StableHlo.unary main_v79 main_v80 (broadcastInDim S256x2000x1 ![0, 1, 2] bcast_S256x1x1_S256x2000x1_0_1_2 : (⟨S256x1x1, .f32⟩ : BufTy).Contents (Elt F) → (⟨S256x2000x1, .f32⟩ : BufTy).Contents (Elt F)),
    StableHlo.binary main_v75 main_v80 main_v81 (subf : (⟨S256x2000x1, .f32⟩ : BufTy).Contents (Elt F) → (⟨S256x2000x1, .f32⟩ : BufTy).Contents (Elt F) → (⟨S256x2000x1, .f32⟩ : BufTy).Contents (Elt F)),
    StableHlo.unary main_v81 main_v82 (Host.exp : (⟨S256x2000x1, .f32⟩ : BufTy).Contents (Elt F) → (⟨S256x2000x1, .f32⟩ : BufTy).Contents (Elt F)),
    StableHlo.nullary main_cst_12 (constant S_ .f32 0x00000000#32),
    StableHlo.binary main_v82 main_cst_12 main_v83 ((fun x v => Host.reduceAdd x v reducesTo_S256x2000x1_S256x1_d1 h_S_) : (⟨S256x2000x1, .f32⟩ : BufTy).Contents (Elt F) → (⟨S_, .f32⟩ : BufTy).Contents (Elt F) → (⟨S256x1, .f32⟩ : BufTy).Contents (Elt F)),
    StableHlo.unary main_v83 main_v84 (broadcastInDim S256x1x1 ![0, 2] bcast_S256x1_S256x1x1_0_2 : (⟨S256x1, .f32⟩ : BufTy).Contents (Elt F) → (⟨S256x1x1, .f32⟩ : BufTy).Contents (Elt F)),
    StableHlo.unary main_v84 main_v85 (broadcastInDim S256x2000x1 ![0, 1, 2] bcast_S256x1x1_S256x2000x1_0_1_2 : (⟨S256x1x1, .f32⟩ : BufTy).Contents (Elt F) → (⟨S256x2000x1, .f32⟩ : BufTy).Contents (Elt F)),
    StableHlo.binary main_v82 main_v85 main_v86 (Host.divf : (⟨S256x2000x1, .f32⟩ : BufTy).Contents (Elt F) → (⟨S256x2000x1, .f32⟩ : BufTy).Contents (Elt F) → (⟨S256x2000x1, .f32⟩ : BufTy).Contents (Elt F)),
    StableHlo.reshape main_arg0 main_v87 rfl shapeCasts_S512000x32_S256x2000x32,
    StableHlo.unary main_v86 main_v88 (broadcastInDim S256x2000x32 ![0, 1, 2] bcast_S256x2000x1_S256x2000x32_0_1_2 : (⟨S256x2000x1, .f32⟩ : BufTy).Contents (Elt F) → (⟨S256x2000x32, .f32⟩ : BufTy).Contents (Elt F)),
    StableHlo.binary main_v87 main_v88 main_v89 (mulf : (⟨S256x2000x32, .f32⟩ : BufTy).Contents (Elt F) → (⟨S256x2000x32, .f32⟩ : BufTy).Contents (Elt F) → (⟨S256x2000x32, .f32⟩ : BufTy).Contents (Elt F)),
    StableHlo.reshape main_v89 main_v90 rfl shapeCasts_S256x2000x32_S256x64000 ]

/-- The tail: from the transpose of `main_arg14` through the last operation, which writes `main_v145`. -/
abbrev opsT : List (HloOp τ sig (Elt F)) :=
  [ StableHlo.unary main_arg14 main_v91 ((transpose S64000x1024 [1, 0] · transposes_S1024x64000_S64000x1024_1_0) : (⟨S1024x64000, .f32⟩ : BufTy).Contents (Elt F) → (⟨S64000x1024, .f32⟩ : BufTy).Contents (Elt F)),
    StableHlo.binary main_v90 main_v91 main_v92 ((fun l r => Host.dotGeneral dot_S256x64000_S64000x1024_S256x1024_1_0_0_1_n_n none l r) : (⟨S256x64000, .f32⟩ : BufTy).Contents (Elt F) → (⟨S64000x1024, .f32⟩ : BufTy).Contents (Elt F) → (⟨S256x1024, .f32⟩ : BufTy).Contents (Elt F)),
    StableHlo.unary main_arg15 main_v93 (broadcastInDim S1x1024 ![1] bcast_S1024_S1x1024_1 : (⟨S1024, .f32⟩ : BufTy).Contents (Elt F) → (⟨S1x1024, .f32⟩ : BufTy).Contents (Elt F)),
    StableHlo.unary main_v93 main_v94 (broadcastInDim S256x1024 ![0, 1] bcast_S1x1024_S256x1024_0_1 : (⟨S1x1024, .f32⟩ : BufTy).Contents (Elt F) → (⟨S256x1024, .f32⟩ : BufTy).Contents (Elt F)),
    StableHlo.binary main_v92 main_v94 main_v95 (addf : (⟨S256x1024, .f32⟩ : BufTy).Contents (Elt F) → (⟨S256x1024, .f32⟩ : BufTy).Contents (Elt F) → (⟨S256x1024, .f32⟩ : BufTy).Contents (Elt F)),
    StableHlo.nullary main_cst_13 (constant S_ .f32 0x00000000#32),
    StableHlo.binary main_v95 main_cst_13 main_v96 ((fun x v => Host.reduceAdd x v reducesTo_S256x1024_S1024_d0 h_S_) : (⟨S256x1024, .f32⟩ : BufTy).Contents (Elt F) → (⟨S_, .f32⟩ : BufTy).Contents (Elt F) → (⟨S1024, .f32⟩ : BufTy).Contents (Elt F)),
    StableHlo.nullary main_cst_14 (constant S_ .f32 0x43800000#32),
    StableHlo.unary main_cst_14 main_v97 (broadcastInDim S1024 ![] bcast_S_S1024 : (⟨S_, .f32⟩ : BufTy).Contents (Elt F) → (⟨S1024, .f32⟩ : BufTy).Contents (Elt F)),
    StableHlo.binary main_v96 main_v97 main_v98 (Host.divf : (⟨S1024, .f32⟩ : BufTy).Contents (Elt F) → (⟨S1024, .f32⟩ : BufTy).Contents (Elt F) → (⟨S1024, .f32⟩ : BufTy).Contents (Elt F)),
    StableHlo.nullary main_c_15 (constantI S_ 32 0#32),
    StableHlo.TRef.nullary main_call6.cst (constant S_ .f32 0x00000000#32),
    StableHlo.TRef.binary (.of main_v95 : StableHlo.TRef sig ⟨S256x1024, .f32⟩) main_call6.cst main_call6.v0 (fun x v => Host.reduceAdd x v reducesTo_S256x1024_S1024_d0 h_S_),
    StableHlo.TRef.unary main_call6.v0 main_call6.v1 (broadcastInDim S1x1024 ![1] bcast_S1024_S1x1024_1),
    StableHlo.TRef.nullary main_call6.cst_0 (constant S_ .f32 0x43800000#32),
    StableHlo.TRef.unary main_call6.cst_0 main_call6.v2 (broadcastInDim S1x1024 ![] bcast_S_S1x1024),
    StableHlo.TRef.binary main_call6.v1 main_call6.v2 main_call6.v3 Host.divf,
    StableHlo.TRef.unary main_call6.v3 main_call6.v4 (broadcastInDim S256x1024 ![0, 1] bcast_S1x1024_S256x1024_0_1),
    StableHlo.TRef.binary (.of main_v95 : StableHlo.TRef sig ⟨S256x1024, .f32⟩) main_call6.v4 main_call6.v5 subf,
    StableHlo.TRef.binary main_call6.v5 main_call6.v5 main_call6.v6 mulf,
    StableHlo.TRef.unary (.of main_c_15 : StableHlo.TRef sig ⟨S_, .i32⟩) main_call6.v7 (sitofp .f32),
    StableHlo.TRef.nullary main_call6.cst_1 (constant S_ .f32 0x43800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S256x1024_S1024_d0 h_S_),
    StableHlo.TRef.unary main_call6.v8 main_call6.v10 (broadcastInDim S1024 ![] bcast_S_S1024),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1024 ![] bcast_S_S1024),
    StableHlo.TRef.ternary main_call6.v12 main_call6.v11 main_call6.call0.v1 main_call6.call0.v2 (fun p a b => select (broadcastInDim S1024 ![] bcast_S_S1024 p) a b),
    StableHlo.unary main_v98 main_v100 (broadcastInDim S1x1024 ![1] bcast_S1024_S1x1024_1 : (⟨S1024, .f32⟩ : BufTy).Contents (Elt F) → (⟨S1x1024, .f32⟩ : BufTy).Contents (Elt F)),
    StableHlo.unary main_v100 main_v101 (broadcastInDim S256x1024 ![0, 1] bcast_S1x1024_S256x1024_0_1 : (⟨S1x1024, .f32⟩ : BufTy).Contents (Elt F) → (⟨S256x1024, .f32⟩ : BufTy).Contents (Elt F)),
    StableHlo.binary main_v95 main_v101 main_v102 (subf : (⟨S256x1024, .f32⟩ : BufTy).Contents (Elt F) → (⟨S256x1024, .f32⟩ : BufTy).Contents (Elt F) → (⟨S256x1024, .f32⟩ : BufTy).Contents (Elt F)),
    StableHlo.nullary main_cst_16 (constant S_ .f32 0x3727C5AC#32),
    StableHlo.unary main_cst_16 main_v103 (broadcastInDim S1024 ![] bcast_S_S1024 : (⟨S_, .f32⟩ : BufTy).Contents (Elt F) → (⟨S1024, .f32⟩ : BufTy).Contents (Elt F)),
    StableHlo.binary main_v99 main_v103 main_v104 (addf : (⟨S1024, .f32⟩ : BufTy).Contents (Elt F) → (⟨S1024, .f32⟩ : BufTy).Contents (Elt F) → (⟨S1024, .f32⟩ : BufTy).Contents (Elt F)),
    StableHlo.unary main_v104 main_v105 (Host.rsqrt : (⟨S1024, .f32⟩ : BufTy).Contents (Elt F) → (⟨S1024, .f32⟩ : BufTy).Contents (Elt F)),
    StableHlo.unary main_v105 main_v106 (broadcastInDim S1x1024 ![1] bcast_S1024_S1x1024_1 : (⟨S1024, .f32⟩ : BufTy).Contents (Elt F) → (⟨S1x1024, .f32⟩ : BufTy).Contents (Elt F)),
    StableHlo.unary main_v106 main_v107 (broadcastInDim S256x1024 ![0, 1] bcast_S1x1024_S256x1024_0_1 : (⟨S1x1024, .f32⟩ : BufTy).Contents (Elt F) → (⟨S256x1024, .f32⟩ : BufTy).Contents (Elt F)),
    StableHlo.binary main_v102 main_v107 main_v108 (mulf : (⟨S256x1024, .f32⟩ : BufTy).Contents (Elt F) → (⟨S256x1024, .f32⟩ : BufTy).Contents (Elt F) → (⟨S256x1024, .f32⟩ : BufTy).Contents (Elt F)),
    StableHlo.unary main_arg16 main_v109 (broadcastInDim S1x1024 ![1] bcast_S1024_S1x1024_1 : (⟨S1024, .f32⟩ : BufTy).Contents (Elt F) → (⟨S1x1024, .f32⟩ : BufTy).Contents (Elt F)),
    StableHlo.unary main_v109 main_v110 (broadcastInDim S256x1024 ![0, 1] bcast_S1x1024_S256x1024_0_1 : (⟨S1x1024, .f32⟩ : BufTy).Contents (Elt F) → (⟨S256x1024, .f32⟩ : BufTy).Contents (Elt F)),
    StableHlo.binary main_v108 main_v110 main_v111 (mulf : (⟨S256x1024, .f32⟩ : BufTy).Contents (Elt F) → (⟨S256x1024, .f32⟩ : BufTy).Contents (Elt F) → (⟨S256x1024, .f32⟩ : BufTy).Contents (Elt F)),
    StableHlo.unary main_arg17 main_v112 (broadcastInDim S1x1024 ![1] bcast_S1024_S1x1024_1 : (⟨S1024, .f32⟩ : BufTy).Contents (Elt F) → (⟨S1x1024, .f32⟩ : BufTy).Contents (Elt F)),
    StableHlo.unary main_v112 main_v113 (broadcastInDim S256x1024 ![0, 1] bcast_S1x1024_S256x1024_0_1 : (⟨S1x1024, .f32⟩ : BufTy).Contents (Elt F) → (⟨S256x1024, .f32⟩ : BufTy).Contents (Elt F)),
    StableHlo.binary main_v111 main_v113 main_v114 (addf : (⟨S256x1024, .f32⟩ : BufTy).Contents (Elt F) → (⟨S256x1024, .f32⟩ : BufTy).Contents (Elt F) → (⟨S256x1024, .f32⟩ : BufTy).Contents (Elt F)),
    StableHlo.TRef.nullary main_call7.cst (constant S_ .f32 0x00000000#32),
    StableHlo.TRef.unary main_call7.cst main_call7.v0 (broadcastInDim S256x1024 ![] bcast_S_S256x1024),
    StableHlo.TRef.binary (.of main_v114 : StableHlo.TRef sig ⟨S256x1024, .f32⟩) main_call7.v0 main_call7.v1 maximumf,
    StableHlo.unary main_arg18 main_v116 ((transpose S1024x256 [1, 0] · transposes_S256x1024_S1024x256_1_0) : (⟨S256x1024, .f32⟩ : BufTy).Contents (Elt F) → (⟨S1024x256, .f32⟩ : BufTy).Contents (Elt F)),
    StableHlo.binary main_v115 main_v116 main_v117 ((fun l r => Host.dotGeneral dot_S256x1024_S1024x256_S256x256_1_0_0_1_n_n none l r) : (⟨S256x1024, .f32⟩ : BufTy).Contents (Elt F) → (⟨S1024x256, .f32⟩ : BufTy).Contents (Elt F) → (⟨S256x256, .f32⟩ : BufTy).Contents (Elt F)),
    StableHlo.unary main_arg19 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S256x256 ![0, 1] bcast_S1x256_S256x256_0_1 : (⟨S1x256, .f32⟩ : BufTy).Contents (Elt F) → (⟨S256x256, .f32⟩ : BufTy).Contents (Elt F)),
    StableHlo.binary main_v117 main_v119 main_v120 (addf : (⟨S256x256, .f32⟩ : BufTy).Contents (Elt F) → (⟨S256x256, .f32⟩ : BufTy).Contents (Elt F) → (⟨S256x256, .f32⟩ : BufTy).Contents (Elt F)),
    StableHlo.nullary main_cst_17 (constant S_ .f32 0x00000000#32),
    StableHlo.binary main_v120 main_cst_17 main_v121 ((fun x v => Host.reduceAdd x v reducesTo_S256x256_S256_d0 h_S_) : (⟨S256x256, .f32⟩ : BufTy).Contents (Elt F) → (⟨S_, .f32⟩ : BufTy).Contents (Elt F) → (⟨S256, .f32⟩ : BufTy).Contents (Elt F)),
    StableHlo.nullary main_cst_18 (constant S_ .f32 0x43800000#32),
    StableHlo.unary main_cst_18 main_v122 (broadcastInDim S256 ![] bcast_S_S256 : (⟨S_, .f32⟩ : BufTy).Contents (Elt F) → (⟨S256, .f32⟩ : BufTy).Contents (Elt F)),
    StableHlo.binary main_v121 main_v122 main_v123 (Host.divf : (⟨S256, .f32⟩ : BufTy).Contents (Elt F) → (⟨S256, .f32⟩ : BufTy).Contents (Elt F) → (⟨S256, .f32⟩ : BufTy).Contents (Elt F)),
    StableHlo.nullary main_c_19 (constantI S_ 32 0#32),
    StableHlo.TRef.nullary main_call8.cst (constant S_ .f32 0x00000000#32),
    StableHlo.TRef.binary (.of main_v120 : StableHlo.TRef sig ⟨S256x256, .f32⟩) main_call8.cst main_call8.v0 (fun x v => Host.reduceAdd x v reducesTo_S256x256_S256_d0 h_S_),
    StableHlo.TRef.unary main_call8.v0 main_call8.v1 (broadcastInDim S1x256 ![1] bcast_S256_S1x256_1),
    StableHlo.TRef.nullary main_call8.cst_0 (constant S_ .f32 0x43800000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S256x256 ![0, 1] bcast_S1x256_S256x256_0_1),
    StableHlo.TRef.binary (.of main_v120 : StableHlo.TRef sig ⟨S256x256, .f32⟩) main_call8.v4 main_call8.v5 subf,
    StableHlo.TRef.binary main_call8.v5 main_call8.v5 main_call8.v6 mulf,
    StableHlo.TRef.unary (.of main_c_19 : StableHlo.TRef sig ⟨S_, .i32⟩) main_call8.v7 (sitofp .f32),
    StableHlo.TRef.nullary main_call8.cst_1 (constant S_ .f32 0x43800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S256x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v123 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S256x256 ![0, 1] bcast_S1x256_S256x256_0_1 : (⟨S1x256, .f32⟩ : BufTy).Contents (Elt F) → (⟨S256x256, .f32⟩ : BufTy).Contents (Elt F)),
    StableHlo.binary main_v120 main_v126 main_v127 (subf : (⟨S256x256, .f32⟩ : BufTy).Contents (Elt F) → (⟨S256x256, .f32⟩ : BufTy).Contents (Elt F) → (⟨S256x256, .f32⟩ : BufTy).Contents (Elt F)),
    StableHlo.nullary main_cst_20 (constant S_ .f32 0x3727C5AC#32),
    StableHlo.unary main_cst_20 main_v128 (broadcastInDim S256 ![] bcast_S_S256 : (⟨S_, .f32⟩ : BufTy).Contents (Elt F) → (⟨S256, .f32⟩ : BufTy).Contents (Elt F)),
    StableHlo.binary main_v124 main_v128 main_v129 (addf : (⟨S256, .f32⟩ : BufTy).Contents (Elt F) → (⟨S256, .f32⟩ : BufTy).Contents (Elt F) → (⟨S256, .f32⟩ : BufTy).Contents (Elt F)),
    StableHlo.unary main_v129 main_v130 (Host.rsqrt : (⟨S256, .f32⟩ : BufTy).Contents (Elt F) → (⟨S256, .f32⟩ : BufTy).Contents (Elt F)),
    StableHlo.unary main_v130 main_v131 (broadcastInDim S1x256 ![1] bcast_S256_S1x256_1 : (⟨S256, .f32⟩ : BufTy).Contents (Elt F) → (⟨S1x256, .f32⟩ : BufTy).Contents (Elt F)),
    StableHlo.unary main_v131 main_v132 (broadcastInDim S256x256 ![0, 1] bcast_S1x256_S256x256_0_1 : (⟨S1x256, .f32⟩ : BufTy).Contents (Elt F) → (⟨S256x256, .f32⟩ : BufTy).Contents (Elt F)),
    StableHlo.binary main_v127 main_v132 main_v133 (mulf : (⟨S256x256, .f32⟩ : BufTy).Contents (Elt F) → (⟨S256x256, .f32⟩ : BufTy).Contents (Elt F) → (⟨S256x256, .f32⟩ : BufTy).Contents (Elt F)),
    StableHlo.unary main_arg20 main_v134 (broadcastInDim S1x256 ![1] bcast_S256_S1x256_1 : (⟨S256, .f32⟩ : BufTy).Contents (Elt F) → (⟨S1x256, .f32⟩ : BufTy).Contents (Elt F)),
    StableHlo.unary main_v134 main_v135 (broadcastInDim S256x256 ![0, 1] bcast_S1x256_S256x256_0_1 : (⟨S1x256, .f32⟩ : BufTy).Contents (Elt F) → (⟨S256x256, .f32⟩ : BufTy).Contents (Elt F)),
    StableHlo.binary main_v133 main_v135 main_v136 (mulf : (⟨S256x256, .f32⟩ : BufTy).Contents (Elt F) → (⟨S256x256, .f32⟩ : BufTy).Contents (Elt F) → (⟨S256x256, .f32⟩ : BufTy).Contents (Elt F)),
    StableHlo.unary main_arg21 main_v137 (broadcastInDim S1x256 ![1] bcast_S256_S1x256_1 : (⟨S256, .f32⟩ : BufTy).Contents (Elt F) → (⟨S1x256, .f32⟩ : BufTy).Contents (Elt F)),
    StableHlo.unary main_v137 main_v138 (broadcastInDim S256x256 ![0, 1] bcast_S1x256_S256x256_0_1 : (⟨S1x256, .f32⟩ : BufTy).Contents (Elt F) → (⟨S256x256, .f32⟩ : BufTy).Contents (Elt F)),
    StableHlo.binary main_v136 main_v138 main_v139 (addf : (⟨S256x256, .f32⟩ : BufTy).Contents (Elt F) → (⟨S256x256, .f32⟩ : BufTy).Contents (Elt F) → (⟨S256x256, .f32⟩ : BufTy).Contents (Elt F)),
    StableHlo.TRef.nullary main_call9.cst (constant S_ .f32 0x00000000#32),
    StableHlo.TRef.unary main_call9.cst main_call9.v0 (broadcastInDim S256x256 ![] bcast_S_S256x256),
    StableHlo.TRef.binary (.of main_v139 : StableHlo.TRef sig ⟨S256x256, .f32⟩) main_call9.v0 main_call9.v1 maximumf,
    StableHlo.TRef.binary (.of main_v140 : StableHlo.TRef sig ⟨S256x256, .f32⟩) (.of main_v140 : StableHlo.TRef sig ⟨S256x256, .f32⟩) main_call10.v0 mulf,
    StableHlo.TRef.nullary main_call10.cst (constant S_ .f32 0x00000000#32),
    StableHlo.TRef.binary main_call10.v0 main_call10.cst main_call10.v1 (fun x v => Host.reduceAdd x v reducesTo_S256x256_S256_d1 h_S_),
    StableHlo.TRef.unary main_call10.v1 main_call10.v2 (broadcastInDim S256x1 ![0] bcast_S256_S256x1_0),
    StableHlo.TRef.unary main_call10.v2 main_call10.v3 Host.sqrt,
    StableHlo.nullary main_cst_21 (constant S_ .f32 0x2B8CBCCC#32),
    StableHlo.unary main_cst_21 main_v142 (broadcastInDim S256x1 ![] bcast_S_S256x1 : (⟨S_, .f32⟩ : BufTy).Contents (Elt F) → (⟨S256x1, .f32⟩ : BufTy).Contents (Elt F)),
    StableHlo.binary main_v141 main_v142 main_v143 (maximumf : (⟨S256x1, .f32⟩ : BufTy).Contents (Elt F) → (⟨S256x1, .f32⟩ : BufTy).Contents (Elt F) → (⟨S256x1, .f32⟩ : BufTy).Contents (Elt F)),
    StableHlo.unary main_v143 main_v144 (broadcastInDim S256x256 ![0, 1] bcast_S256x1_S256x256_0_1 : (⟨S256x1, .f32⟩ : BufTy).Contents (Elt F) → (⟨S256x256, .f32⟩ : BufTy).Contents (Elt F)),
    StableHlo.binary main_v140 main_v144 main_v145 (Host.divf : (⟨S256x256, .f32⟩ : BufTy).Contents (Elt F) → (⟨S256x256, .f32⟩ : BufTy).Contents (Elt F) → (⟨S256x256, .f32⟩ : BufTy).Contents (Elt F)) ]

/-- The operations of `@main`'s first window. -/
abbrev opsW0 : List (HloOp τ sig (Elt F)) :=
  [ StableHlo.unary main_arg2 main_v0 ((transpose S32x16 [1, 0] · transposes_S16x32_S32x16_1_0) : (⟨S16x32, .f32⟩ : BufTy).Contents (Elt F) → (⟨S32x16, .f32⟩ : BufTy).Contents (Elt F)),
    StableHlo.binary main_arg0 main_v0 main_v1 ((fun l r => Host.dotGeneral dot_S512000x32_S32x16_S512000x16_1_0_0_1_n_n none l r) : (⟨S512000x32, .f32⟩ : BufTy).Contents (Elt F) → (⟨S32x16, .f32⟩ : BufTy).Contents (Elt F) → (⟨S512000x16, .f32⟩ : BufTy).Contents (Elt F)),
    StableHlo.unary main_arg3 main_v2 (broadcastInDim S1x16 ![1] bcast_S16_S1x16_1 : (⟨S16, .f32⟩ : BufTy).Contents (Elt F) → (⟨S1x16, .f32⟩ : BufTy).Contents (Elt F)),
    StableHlo.unary main_v2 main_v3 (broadcastInDim S512000x16 ![0, 1] bcast_S1x16_S512000x16_0_1 : (⟨S1x16, .f32⟩ : BufTy).Contents (Elt F) → (⟨S512000x16, .f32⟩ : BufTy).Contents (Elt F)),
    StableHlo.binary main_v1 main_v3 main_v4 (addf : (⟨S512000x16, .f32⟩ : BufTy).Contents (Elt F) → (⟨S512000x16, .f32⟩ : BufTy).Contents (Elt F) → (⟨S512000x16, .f32⟩ : BufTy).Contents (Elt F)),
    StableHlo.nullary main_cst (constant S_ .f32 0x00000000#32),
    StableHlo.binary main_v4 main_cst main_v5 ((fun x v => Host.reduceAdd x v reducesTo_S512000x16_S16_d0 h_S_) : (⟨S512000x16, .f32⟩ : BufTy).Contents (Elt F) → (⟨S_, .f32⟩ : BufTy).Contents (Elt F) → (⟨S16, .f32⟩ : BufTy).Contents (Elt F)),
    StableHlo.nullary main_cst_0 (constant S_ .f32 0x48FA0000#32),
    StableHlo.unary main_cst_0 main_v6 (broadcastInDim S16 ![] bcast_S_S16 : (⟨S_, .f32⟩ : BufTy).Contents (Elt F) → (⟨S16, .f32⟩ : BufTy).Contents (Elt F)),
    StableHlo.binary main_v5 main_v6 main_v7 (Host.divf : (⟨S16, .f32⟩ : BufTy).Contents (Elt F) → (⟨S16, .f32⟩ : BufTy).Contents (Elt F) → (⟨S16, .f32⟩ : BufTy).Contents (Elt F)),
    StableHlo.nullary main_c (constantI S_ 32 0#32),
    StableHlo.TRef.nullary main_call0.cst (constant S_ .f32 0x00000000#32),
    StableHlo.TRef.binary (.of main_v4 : StableHlo.TRef sig ⟨S512000x16, .f32⟩) main_call0.cst main_call0.v0 (fun x v => Host.reduceAdd x v reducesTo_S512000x16_S16_d0 h_S_),
    StableHlo.TRef.unary main_call0.v0 main_call0.v1 (broadcastInDim S1x16 ![1] bcast_S16_S1x16_1),
    StableHlo.TRef.nullary main_call0.cst_0 (constant S_ .f32 0x48FA0000#32),
    StableHlo.TRef.unary main_call0.cst_0 main_call0.v2 (broadcastInDim S1x16 ![] bcast_S_S1x16),
    StableHlo.TRef.binary main_call0.v1 main_call0.v2 main_call0.v3 Host.divf,
    StableHlo.TRef.unary main_call0.v3 main_call0.v4 (broadcastInDim S512000x16 ![0, 1] bcast_S1x16_S512000x16_0_1),
    StableHlo.TRef.binary (.of main_v4 : StableHlo.TRef sig ⟨S512000x16, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x48FA0000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S512000x16_S16_d0 h_S_),
    StableHlo.TRef.unary main_call0.v8 main_call0.v10 (broadcastInDim S16 ![] bcast_S_S16),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16 ![] bcast_S_S16),
    StableHlo.TRef.ternary main_call0.v12 main_call0.v11 main_call0.call0.v1 main_call0.call0.v2 (fun p a b => select (broadcastInDim S16 ![] bcast_S_S16 p) a b),
    StableHlo.unary main_v7 main_v9 (broadcastInDim S1x16 ![1] bcast_S16_S1x16_1 : (⟨S16, .f32⟩ : BufTy).Contents (Elt F) → (⟨S1x16, .f32⟩ : BufTy).Contents (Elt F)),
    StableHlo.unary main_v9 main_v10 (broadcastInDim S512000x16 ![0, 1] bcast_S1x16_S512000x16_0_1 : (⟨S1x16, .f32⟩ : BufTy).Contents (Elt F) → (⟨S512000x16, .f32⟩ : BufTy).Contents (Elt F)),
    StableHlo.binary main_v4 main_v10 main_v11 (subf : (⟨S512000x16, .f32⟩ : BufTy).Contents (Elt F) → (⟨S512000x16, .f32⟩ : BufTy).Contents (Elt F) → (⟨S512000x16, .f32⟩ : BufTy).Contents (Elt F)),
    StableHlo.nullary main_cst_1 (constant S_ .f32 0x3727C5AC#32),
    StableHlo.unary main_cst_1 main_v12 (broadcastInDim S16 ![] bcast_S_S16 : (⟨S_, .f32⟩ : BufTy).Contents (Elt F) → (⟨S16, .f32⟩ : BufTy).Contents (Elt F)),
    StableHlo.binary main_v8 main_v12 main_v13 (addf : (⟨S16, .f32⟩ : BufTy).Contents (Elt F) → (⟨S16, .f32⟩ : BufTy).Contents (Elt F) → (⟨S16, .f32⟩ : BufTy).Contents (Elt F)),
    StableHlo.unary main_v13 main_v14 (Host.rsqrt : (⟨S16, .f32⟩ : BufTy).Contents (Elt F) → (⟨S16, .f32⟩ : BufTy).Contents (Elt F)),
    StableHlo.unary main_v14 main_v15 (broadcastInDim S1x16 ![1] bcast_S16_S1x16_1 : (⟨S16, .f32⟩ : BufTy).Contents (Elt F) → (⟨S1x16, .f32⟩ : BufTy).Contents (Elt F)),
    StableHlo.unary main_v15 main_v16 (broadcastInDim S512000x16 ![0, 1] bcast_S1x16_S512000x16_0_1 : (⟨S1x16, .f32⟩ : BufTy).Contents (Elt F) → (⟨S512000x16, .f32⟩ : BufTy).Contents (Elt F)),
    StableHlo.binary main_v11 main_v16 main_v17 (mulf : (⟨S512000x16, .f32⟩ : BufTy).Contents (Elt F) → (⟨S512000x16, .f32⟩ : BufTy).Contents (Elt F) → (⟨S512000x16, .f32⟩ : BufTy).Contents (Elt F)),
    StableHlo.unary main_arg4 main_v18 (broadcastInDim S1x16 ![1] bcast_S16_S1x16_1 : (⟨S16, .f32⟩ : BufTy).Contents (Elt F) → (⟨S1x16, .f32⟩ : BufTy).Contents (Elt F)),
    StableHlo.unary main_v18 main_v19 (broadcastInDim S512000x16 ![0, 1] bcast_S1x16_S512000x16_0_1 : (⟨S1x16, .f32⟩ : BufTy).Contents (Elt F) → (⟨S512000x16, .f32⟩ : BufTy).Contents (Elt F)),
    StableHlo.binary main_v17 main_v19 main_v20 (mulf : (⟨S512000x16, .f32⟩ : BufTy).Contents (Elt F) → (⟨S512000x16, .f32⟩ : BufTy).Contents (Elt F) → (⟨S512000x16, .f32⟩ : BufTy).Contents (Elt F)),
    StableHlo.unary main_arg5 main_v21 (broadcastInDim S1x16 ![1] bcast_S16_S1x16_1 : (⟨S16, .f32⟩ : BufTy).Contents (Elt F) → (⟨S1x16, .f32⟩ : BufTy).Contents (Elt F)),
    StableHlo.unary main_v21 main_v22 (broadcastInDim S512000x16 ![0, 1] bcast_S1x16_S512000x16_0_1 : (⟨S1x16, .f32⟩ : BufTy).Contents (Elt F) → (⟨S512000x16, .f32⟩ : BufTy).Contents (Elt F)),
    StableHlo.binary main_v20 main_v22 main_v23 (addf : (⟨S512000x16, .f32⟩ : BufTy).Contents (Elt F) → (⟨S512000x16, .f32⟩ : BufTy).Contents (Elt F) → (⟨S512000x16, .f32⟩ : BufTy).Contents (Elt F)),
    StableHlo.TRef.nullary main_call1.cst (constant S_ .f32 0x00000000#32),
    StableHlo.TRef.unary main_call1.cst main_call1.v0 (broadcastInDim S512000x16 ![] bcast_S_S512000x16),
    StableHlo.TRef.binary (.of main_v23 : StableHlo.TRef sig ⟨S512000x16, .f32⟩) main_call1.v0 main_call1.v1 maximumf,
    StableHlo.unary main_arg6 main_v25 ((transpose S16x8 [1, 0] · transposes_S8x16_S16x8_1_0) : (⟨S8x16, .f32⟩ : BufTy).Contents (Elt F) → (⟨S16x8, .f32⟩ : BufTy).Contents (Elt F)),
    StableHlo.binary main_v24 main_v25 main_v26 ((fun l r => Host.dotGeneral dot_S512000x16_S16x8_S512000x8_1_0_0_1_n_n none l r) : (⟨S512000x16, .f32⟩ : BufTy).Contents (Elt F) → (⟨S16x8, .f32⟩ : BufTy).Contents (Elt F) → (⟨S512000x8, .f32⟩ : BufTy).Contents (Elt F)),
    StableHlo.unary main_arg7 main_v27 (broadcastInDim S1x8 ![1] bcast_S8_S1x8_1 : (⟨S8, .f32⟩ : BufTy).Contents (Elt F) → (⟨S1x8, .f32⟩ : BufTy).Contents (Elt F)),
    StableHlo.unary main_v27 main_v28 (broadcastInDim S512000x8 ![0, 1] bcast_S1x8_S512000x8_0_1 : (⟨S1x8, .f32⟩ : BufTy).Contents (Elt F) → (⟨S512000x8, .f32⟩ : BufTy).Contents (Elt F)),
    StableHlo.binary main_v26 main_v28 main_v29 (addf : (⟨S512000x8, .f32⟩ : BufTy).Contents (Elt F) → (⟨S512000x8, .f32⟩ : BufTy).Contents (Elt F) → (⟨S512000x8, .f32⟩ : BufTy).Contents (Elt F)),
    StableHlo.nullary main_cst_2 (constant S_ .f32 0x00000000#32),
    StableHlo.binary main_v29 main_cst_2 main_v30 ((fun x v => Host.reduceAdd x v reducesTo_S512000x8_S8_d0 h_S_) : (⟨S512000x8, .f32⟩ : BufTy).Contents (Elt F) → (⟨S_, .f32⟩ : BufTy).Contents (Elt F) → (⟨S8, .f32⟩ : BufTy).Contents (Elt F)),
    StableHlo.nullary main_cst_3 (constant S_ .f32 0x48FA0000#32),
    StableHlo.unary main_cst_3 main_v31 (broadcastInDim S8 ![] bcast_S_S8 : (⟨S_, .f32⟩ : BufTy).Contents (Elt F) → (⟨S8, .f32⟩ : BufTy).Contents (Elt F)),
    StableHlo.binary main_v30 main_v31 main_v32 (Host.divf : (⟨S8, .f32⟩ : BufTy).Contents (Elt F) → (⟨S8, .f32⟩ : BufTy).Contents (Elt F) → (⟨S8, .f32⟩ : BufTy).Contents (Elt F)),
    StableHlo.nullary main_c_4 (constantI S_ 32 0#32),
    StableHlo.TRef.nullary main_call2.cst (constant S_ .f32 0x00000000#32),
    StableHlo.TRef.binary (.of main_v29 : StableHlo.TRef sig ⟨S512000x8, .f32⟩) main_call2.cst main_call2.v0 (fun x v => Host.reduceAdd x v reducesTo_S512000x8_S8_d0 h_S_),
    StableHlo.TRef.unary main_call2.v0 main_call2.v1 (broadcastInDim S1x8 ![1] bcast_S8_S1x8_1),
    StableHlo.TRef.nullary main_call2.cst_0 (constant S_ .f32 0x48FA0000#32),
    StableHlo.TRef.unary main_call2.cst_0 main_call2.v2 (broadcastInDim S1x8 ![] bcast_S_S1x8),
    StableHlo.TRef.binary main_call2.v1 main_call2.v2 main_call2.v3 Host.divf,
    StableHlo.TRef.unary main_call2.v3 main_call2.v4 (broadcastInDim S512000x8 ![0, 1] bcast_S1x8_S512000x8_0_1),
    StableHlo.TRef.binary (.of main_v29 : StableHlo.TRef sig ⟨S512000x8, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x48FA0000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S512000x8_S8_d0 h_S_),
    StableHlo.TRef.unary main_call2.v8 main_call2.v10 (broadcastInDim S8 ![] bcast_S_S8),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S8 ![] bcast_S_S8),
    StableHlo.TRef.ternary main_call2.v12 main_call2.v11 main_call2.call0.v1 main_call2.call0.v2 (fun p a b => select (broadcastInDim S8 ![] bcast_S_S8 p) a b),
    StableHlo.unary main_v32 main_v34 (broadcastInDim S1x8 ![1] bcast_S8_S1x8_1 : (⟨S8, .f32⟩ : BufTy).Contents (Elt F) → (⟨S1x8, .f32⟩ : BufTy).Contents (Elt F)),
    StableHlo.unary main_v34 main_v35 (broadcastInDim S512000x8 ![0, 1] bcast_S1x8_S512000x8_0_1 : (⟨S1x8, .f32⟩ : BufTy).Contents (Elt F) → (⟨S512000x8, .f32⟩ : BufTy).Contents (Elt F)),
    StableHlo.binary main_v29 main_v35 main_v36 (subf : (⟨S512000x8, .f32⟩ : BufTy).Contents (Elt F) → (⟨S512000x8, .f32⟩ : BufTy).Contents (Elt F) → (⟨S512000x8, .f32⟩ : BufTy).Contents (Elt F)),
    StableHlo.nullary main_cst_5 (constant S_ .f32 0x3727C5AC#32),
    StableHlo.unary main_cst_5 main_v37 (broadcastInDim S8 ![] bcast_S_S8 : (⟨S_, .f32⟩ : BufTy).Contents (Elt F) → (⟨S8, .f32⟩ : BufTy).Contents (Elt F)),
    StableHlo.binary main_v33 main_v37 main_v38 (addf : (⟨S8, .f32⟩ : BufTy).Contents (Elt F) → (⟨S8, .f32⟩ : BufTy).Contents (Elt F) → (⟨S8, .f32⟩ : BufTy).Contents (Elt F)),
    StableHlo.unary main_v38 main_v39 (Host.rsqrt : (⟨S8, .f32⟩ : BufTy).Contents (Elt F) → (⟨S8, .f32⟩ : BufTy).Contents (Elt F)),
    StableHlo.unary main_v39 main_v40 (broadcastInDim S1x8 ![1] bcast_S8_S1x8_1 : (⟨S8, .f32⟩ : BufTy).Contents (Elt F) → (⟨S1x8, .f32⟩ : BufTy).Contents (Elt F)),
    StableHlo.unary main_v40 main_v41 (broadcastInDim S512000x8 ![0, 1] bcast_S1x8_S512000x8_0_1 : (⟨S1x8, .f32⟩ : BufTy).Contents (Elt F) → (⟨S512000x8, .f32⟩ : BufTy).Contents (Elt F)),
    StableHlo.binary main_v36 main_v41 main_v42 (mulf : (⟨S512000x8, .f32⟩ : BufTy).Contents (Elt F) → (⟨S512000x8, .f32⟩ : BufTy).Contents (Elt F) → (⟨S512000x8, .f32⟩ : BufTy).Contents (Elt F)),
    StableHlo.unary main_arg8 main_v43 (broadcastInDim S1x8 ![1] bcast_S8_S1x8_1 : (⟨S8, .f32⟩ : BufTy).Contents (Elt F) → (⟨S1x8, .f32⟩ : BufTy).Contents (Elt F)),
    StableHlo.unary main_v43 main_v44 (broadcastInDim S512000x8 ![0, 1] bcast_S1x8_S512000x8_0_1 : (⟨S1x8, .f32⟩ : BufTy).Contents (Elt F) → (⟨S512000x8, .f32⟩ : BufTy).Contents (Elt F)),
    StableHlo.binary main_v42 main_v44 main_v45 (mulf : (⟨S512000x8, .f32⟩ : BufTy).Contents (Elt F) → (⟨S512000x8, .f32⟩ : BufTy).Contents (Elt F) → (⟨S512000x8, .f32⟩ : BufTy).Contents (Elt F)),
    StableHlo.unary main_arg9 main_v46 (broadcastInDim S1x8 ![1] bcast_S8_S1x8_1 : (⟨S8, .f32⟩ : BufTy).Contents (Elt F) → (⟨S1x8, .f32⟩ : BufTy).Contents (Elt F)),
    StableHlo.unary main_v46 main_v47 (broadcastInDim S512000x8 ![0, 1] bcast_S1x8_S512000x8_0_1 : (⟨S1x8, .f32⟩ : BufTy).Contents (Elt F) → (⟨S512000x8, .f32⟩ : BufTy).Contents (Elt F)),
    StableHlo.binary main_v45 main_v47 main_v48 (addf : (⟨S512000x8, .f32⟩ : BufTy).Contents (Elt F) → (⟨S512000x8, .f32⟩ : BufTy).Contents (Elt F) → (⟨S512000x8, .f32⟩ : BufTy).Contents (Elt F)),
    StableHlo.TRef.nullary main_call3.cst (constant S_ .f32 0x00000000#32),
    StableHlo.TRef.unary main_call3.cst main_call3.v0 (broadcastInDim S512000x8 ![] bcast_S_S512000x8),
    StableHlo.TRef.binary (.of main_v48 : StableHlo.TRef sig ⟨S512000x8, .f32⟩) main_call3.v0 main_call3.v1 maximumf,
    StableHlo.unary main_arg10 main_v50 ((transpose S8x1 [1, 0] · transposes_S1x8_S8x1_1_0) : (⟨S1x8, .f32⟩ : BufTy).Contents (Elt F) → (⟨S8x1, .f32⟩ : BufTy).Contents (Elt F)),
    StableHlo.binary main_v49 main_v50 main_v51 ((fun l r => Host.dotGeneral dot_S512000x8_S8x1_S512000x1_1_0_0_1_n_n none l r) : (⟨S512000x8, .f32⟩ : BufTy).Contents (Elt F) → (⟨S8x1, .f32⟩ : BufTy).Contents (Elt F) → (⟨S512000x1, .f32⟩ : BufTy).Contents (Elt F)) ]

/-- The operations of `@main`'s second window. -/
abbrev opsW1 : List (HloOp τ sig (Elt F)) :=
  [ StableHlo.unary main_arg11 main_v52 (broadcastInDim S1x1 ![1] bcast_S1_S1x1_1 : (⟨S1, .f32⟩ : BufTy).Contents (Elt F) → (⟨S1x1, .f32⟩ : BufTy).Contents (Elt F)),
    StableHlo.unary main_v52 main_v53 (broadcastInDim S512000x1 ![0, 1] bcast_S1x1_S512000x1_0_1 : (⟨S1x1, .f32⟩ : BufTy).Contents (Elt F) → (⟨S512000x1, .f32⟩ : BufTy).Contents (Elt F)),
    StableHlo.binary main_v51 main_v53 main_v54 (addf : (⟨S512000x1, .f32⟩ : BufTy).Contents (Elt F) → (⟨S512000x1, .f32⟩ : BufTy).Contents (Elt F) → (⟨S512000x1, .f32⟩ : BufTy).Contents (Elt F)),
    StableHlo.nullary main_cst_6 (constant S_ .f32 0x00000000#32),
    StableHlo.binary main_v54 main_cst_6 main_v55 ((fun x v => Host.reduceAdd x v reducesTo_S512000x1_S1_d0 h_S_) : (⟨S512000x1, .f32⟩ : BufTy).Contents (Elt F) → (⟨S_, .f32⟩ : BufTy).Contents (Elt F) → (⟨S1, .f32⟩ : BufTy).Contents (Elt F)),
    StableHlo.nullary main_cst_7 (constant S_ .f32 0x48FA0000#32),
    StableHlo.unary main_cst_7 main_v56 (broadcastInDim S1 ![] bcast_S_S1 : (⟨S_, .f32⟩ : BufTy).Contents (Elt F) → (⟨S1, .f32⟩ : BufTy).Contents (Elt F)),
    StableHlo.binary main_v55 main_v56 main_v57 (Host.divf : (⟨S1, .f32⟩ : BufTy).Contents (Elt F) → (⟨S1, .f32⟩ : BufTy).Contents (Elt F) → (⟨S1, .f32⟩ : BufTy).Contents (Elt F)),
    StableHlo.nullary main_c_8 (constantI S_ 32 0#32),
    StableHlo.TRef.nullary main_call4.cst (constant S_ .f32 0x00000000#32),
    StableHlo.TRef.binary (.of main_v54 : StableHlo.TRef sig ⟨S512000x1, .f32⟩) main_call4.cst main_call4.v0 (fun x v => Host.reduceAdd x v reducesTo_S512000x1_S1_d0 h_S_),
    StableHlo.TRef.unary main_call4.v0 main_call4.v1 (broadcastInDim S1x1 ![1] bcast_S1_S1x1_1),
    StableHlo.TRef.nullary main_call4.cst_0 (constant S_ .f32 0x48FA0000#32),
    StableHlo.TRef.unary main_call4.cst_0 main_call4.v2 (broadcastInDim S1x1 ![] bcast_S_S1x1),
    StableHlo.TRef.binary main_call4.v1 main_call4.v2 main_call4.v3 Host.divf,
    StableHlo.TRef.unary main_call4.v3 main_call4.v4 (broadcastInDim S512000x1 ![0, 1] bcast_S1x1_S512000x1_0_1),
    StableHlo.TRef.binary (.of main_v54 : StableHlo.TRef sig ⟨S512000x1, .f32⟩) main_call4.v4 main_call4.v5 subf,
    StableHlo.TRef.binary main_call4.v5 main_call4.v5 main_call4.v6 mulf,
    StableHlo.TRef.unary (.of main_c_8 : StableHlo.TRef sig ⟨S_, .i32⟩) main_call4.v7 (sitofp .f32),
    StableHlo.TRef.nullary main_call4.cst_1 (constant S_ .f32 0x48FA0000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S512000x1_S1_d0 h_S_),
    StableHlo.TRef.unary main_call4.v8 main_call4.v10 (broadcastInDim S1 ![] bcast_S_S1),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1 ![] bcast_S_S1),
    StableHlo.TRef.ternary main_call4.v12 main_call4.v11 main_call4.call0.v1 main_call4.call0.v2 (fun p a b => select (broadcastInDim S1 ![] bcast_S_S1 p) a b),
    StableHlo.unary main_v57 main_v59 (broadcastInDim S1x1 ![1] bcast_S1_S1x1_1 : (⟨S1, .f32⟩ : BufTy).Contents (Elt F) → (⟨S1x1, .f32⟩ : BufTy).Contents (Elt F)),
    StableHlo.unary main_v59 main_v60 (broadcastInDim S512000x1 ![0, 1] bcast_S1x1_S512000x1_0_1 : (⟨S1x1, .f32⟩ : BufTy).Contents (Elt F) → (⟨S512000x1, .f32⟩ : BufTy).Contents (Elt F)),
    StableHlo.binary main_v54 main_v60 main_v61 (subf : (⟨S512000x1, .f32⟩ : BufTy).Contents (Elt F) → (⟨S512000x1, .f32⟩ : BufTy).Contents (Elt F) → (⟨S512000x1, .f32⟩ : BufTy).Contents (Elt F)),
    StableHlo.nullary main_cst_9 (constant S_ .f32 0x3727C5AC#32),
    StableHlo.unary main_cst_9 main_v62 (broadcastInDim S1 ![] bcast_S_S1 : (⟨S_, .f32⟩ : BufTy).Contents (Elt F) → (⟨S1, .f32⟩ : BufTy).Contents (Elt F)),
    StableHlo.binary main_v58 main_v62 main_v63 (addf : (⟨S1, .f32⟩ : BufTy).Contents (Elt F) → (⟨S1, .f32⟩ : BufTy).Contents (Elt F) → (⟨S1, .f32⟩ : BufTy).Contents (Elt F)),
    StableHlo.unary main_v63 main_v64 (Host.rsqrt : (⟨S1, .f32⟩ : BufTy).Contents (Elt F) → (⟨S1, .f32⟩ : BufTy).Contents (Elt F)),
    StableHlo.unary main_v64 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S512000x1 ![0, 1] bcast_S1x1_S512000x1_0_1 : (⟨S1x1, .f32⟩ : BufTy).Contents (Elt F) → (⟨S512000x1, .f32⟩ : BufTy).Contents (Elt F)),
    StableHlo.binary main_v61 main_v66 main_v67 (mulf : (⟨S512000x1, .f32⟩ : BufTy).Contents (Elt F) → (⟨S512000x1, .f32⟩ : BufTy).Contents (Elt F) → (⟨S512000x1, .f32⟩ : BufTy).Contents (Elt F)),
    StableHlo.unary main_arg12 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S512000x1 ![0, 1] bcast_S1x1_S512000x1_0_1 : (⟨S1x1, .f32⟩ : BufTy).Contents (Elt F) → (⟨S512000x1, .f32⟩ : BufTy).Contents (Elt F)),
    StableHlo.binary main_v67 main_v69 main_v70 (mulf : (⟨S512000x1, .f32⟩ : BufTy).Contents (Elt F) → (⟨S512000x1, .f32⟩ : BufTy).Contents (Elt F) → (⟨S512000x1, .f32⟩ : BufTy).Contents (Elt F)),
    StableHlo.unary main_arg13 main_v71 (broadcastInDim S1x1 ![1] bcast_S1_S1x1_1 : (⟨S1, .f32⟩ : BufTy).Contents (Elt F) → (⟨S1x1, .f32⟩ : BufTy).Contents (Elt F)),
    StableHlo.unary main_v71 main_v72 (broadcastInDim S512000x1 ![0, 1] bcast_S1x1_S512000x1_0_1 : (⟨S1x1, .f32⟩ : BufTy).Contents (Elt F) → (⟨S512000x1, .f32⟩ : BufTy).Contents (Elt F)),
    StableHlo.binary main_v70 main_v72 main_v73 (addf : (⟨S512000x1, .f32⟩ : BufTy).Contents (Elt F) → (⟨S512000x1, .f32⟩ : BufTy).Contents (Elt F) → (⟨S512000x1, .f32⟩ : BufTy).Contents (Elt F)),
    StableHlo.TRef.nullary main_call5.cst (constant S_ .f32 0x00000000#32),
    StableHlo.TRef.unary main_call5.cst main_call5.v0 (broadcastInDim S512000x1 ![] bcast_S_S512000x1),
    StableHlo.TRef.binary (.of main_v73 : StableHlo.TRef sig ⟨S512000x1, .f32⟩) main_call5.v0 main_call5.v1 maximumf,
    StableHlo.reshape main_v74 main_v75 rfl shapeCasts_S512000x1_S256x2000x1,
    StableHlo.nullary main_cst_10 (constant S_ .f32 0xFF800000#32),
    StableHlo.binary main_v75 main_cst_10 main_v76 ((fun x v => Host.reduce FloatOps.maximumf x v reducesTo_S256x2000x1_S256x1_d1 h_S_) : (⟨S256x2000x1, .f32⟩ : BufTy).Contents (Elt F) → (⟨S_, .f32⟩ : BufTy).Contents (Elt F) → (⟨S256x1, .f32⟩ : BufTy).Contents (Elt F)),
    StableHlo.nullary main_cst_11 (constant S_ .f32 0xFF800000#32),
    StableHlo.unary main_cst_11 main_v77 (broadcastInDim S256x1 ![] bcast_S_S256x1 : (⟨S_, .f32⟩ : BufTy).Contents (Elt F) → (⟨S256x1, .f32⟩ : BufTy).Contents (Elt F)),
    StableHlo.binary main_v77 main_v76 main_v78 (maximumf : (⟨S256x1, .f32⟩ : BufTy).Contents (Elt F) → (⟨S256x1, .f32⟩ : BufTy).Contents (Elt F) → (⟨S256x1, .f32⟩ : BufTy).Contents (Elt F)),
    StableHlo.unary main_v78 main_v79 (broadcastInDim S256x1x1 ![0, 2] bcast_S256x1_S256x1x1_0_2 : (⟨S256x1, .f32⟩ : BufTy).Contents (Elt F) → (⟨S256x1x1, .f32⟩ : BufTy).Contents (Elt F)),
    StableHlo.unary main_v79 main_v80 (broadcastInDim S256x2000x1 ![0, 1, 2] bcast_S256x1x1_S256x2000x1_0_1_2 : (⟨S256x1x1, .f32⟩ : BufTy).Contents (Elt F) → (⟨S256x2000x1, .f32⟩ : BufTy).Contents (Elt F)),
    StableHlo.binary main_v75 main_v80 main_v81 (subf : (⟨S256x2000x1, .f32⟩ : BufTy).Contents (Elt F) → (⟨S256x2000x1, .f32⟩ : BufTy).Contents (Elt F) → (⟨S256x2000x1, .f32⟩ : BufTy).Contents (Elt F)),
    StableHlo.unary main_v81 main_v82 (Host.exp : (⟨S256x2000x1, .f32⟩ : BufTy).Contents (Elt F) → (⟨S256x2000x1, .f32⟩ : BufTy).Contents (Elt F)),
    StableHlo.nullary main_cst_12 (constant S_ .f32 0x00000000#32),
    StableHlo.binary main_v82 main_cst_12 main_v83 ((fun x v => Host.reduceAdd x v reducesTo_S256x2000x1_S256x1_d1 h_S_) : (⟨S256x2000x1, .f32⟩ : BufTy).Contents (Elt F) → (⟨S_, .f32⟩ : BufTy).Contents (Elt F) → (⟨S256x1, .f32⟩ : BufTy).Contents (Elt F)),
    StableHlo.unary main_v83 main_v84 (broadcastInDim S256x1x1 ![0, 2] bcast_S256x1_S256x1x1_0_2 : (⟨S256x1, .f32⟩ : BufTy).Contents (Elt F) → (⟨S256x1x1, .f32⟩ : BufTy).Contents (Elt F)),
    StableHlo.unary main_v84 main_v85 (broadcastInDim S256x2000x1 ![0, 1, 2] bcast_S256x1x1_S256x2000x1_0_1_2 : (⟨S256x1x1, .f32⟩ : BufTy).Contents (Elt F) → (⟨S256x2000x1, .f32⟩ : BufTy).Contents (Elt F)),
    StableHlo.binary main_v82 main_v85 main_v86 (Host.divf : (⟨S256x2000x1, .f32⟩ : BufTy).Contents (Elt F) → (⟨S256x2000x1, .f32⟩ : BufTy).Contents (Elt F) → (⟨S256x2000x1, .f32⟩ : BufTy).Contents (Elt F)),
    StableHlo.reshape main_arg0 main_v87 rfl shapeCasts_S512000x32_S256x2000x32,
    StableHlo.unary main_v86 main_v88 (broadcastInDim S256x2000x32 ![0, 1, 2] bcast_S256x2000x1_S256x2000x32_0_1_2 : (⟨S256x2000x1, .f32⟩ : BufTy).Contents (Elt F) → (⟨S256x2000x32, .f32⟩ : BufTy).Contents (Elt F)),
    StableHlo.binary main_v87 main_v88 main_v89 (mulf : (⟨S256x2000x32, .f32⟩ : BufTy).Contents (Elt F) → (⟨S256x2000x32, .f32⟩ : BufTy).Contents (Elt F) → (⟨S256x2000x32, .f32⟩ : BufTy).Contents (Elt F)),
    StableHlo.reshape main_v89 main_v90 rfl shapeCasts_S256x2000x32_S256x64000,
    StableHlo.unary main_arg14 main_v91 ((transpose S64000x1024 [1, 0] · transposes_S1024x64000_S64000x1024_1_0) : (⟨S1024x64000, .f32⟩ : BufTy).Contents (Elt F) → (⟨S64000x1024, .f32⟩ : BufTy).Contents (Elt F)),
    StableHlo.binary main_v90 main_v91 main_v92 ((fun l r => Host.dotGeneral dot_S256x64000_S64000x1024_S256x1024_1_0_0_1_n_n none l r) : (⟨S256x64000, .f32⟩ : BufTy).Contents (Elt F) → (⟨S64000x1024, .f32⟩ : BufTy).Contents (Elt F) → (⟨S256x1024, .f32⟩ : BufTy).Contents (Elt F)),
    StableHlo.unary main_arg15 main_v93 (broadcastInDim S1x1024 ![1] bcast_S1024_S1x1024_1 : (⟨S1024, .f32⟩ : BufTy).Contents (Elt F) → (⟨S1x1024, .f32⟩ : BufTy).Contents (Elt F)),
    StableHlo.unary main_v93 main_v94 (broadcastInDim S256x1024 ![0, 1] bcast_S1x1024_S256x1024_0_1 : (⟨S1x1024, .f32⟩ : BufTy).Contents (Elt F) → (⟨S256x1024, .f32⟩ : BufTy).Contents (Elt F)),
    StableHlo.binary main_v92 main_v94 main_v95 (addf : (⟨S256x1024, .f32⟩ : BufTy).Contents (Elt F) → (⟨S256x1024, .f32⟩ : BufTy).Contents (Elt F) → (⟨S256x1024, .f32⟩ : BufTy).Contents (Elt F)),
    StableHlo.nullary main_cst_13 (constant S_ .f32 0x00000000#32),
    StableHlo.binary main_v95 main_cst_13 main_v96 ((fun x v => Host.reduceAdd x v reducesTo_S256x1024_S1024_d0 h_S_) : (⟨S256x1024, .f32⟩ : BufTy).Contents (Elt F) → (⟨S_, .f32⟩ : BufTy).Contents (Elt F) → (⟨S1024, .f32⟩ : BufTy).Contents (Elt F)),
    StableHlo.nullary main_cst_14 (constant S_ .f32 0x43800000#32),
    StableHlo.unary main_cst_14 main_v97 (broadcastInDim S1024 ![] bcast_S_S1024 : (⟨S_, .f32⟩ : BufTy).Contents (Elt F) → (⟨S1024, .f32⟩ : BufTy).Contents (Elt F)),
    StableHlo.binary main_v96 main_v97 main_v98 (Host.divf : (⟨S1024, .f32⟩ : BufTy).Contents (Elt F) → (⟨S1024, .f32⟩ : BufTy).Contents (Elt F) → (⟨S1024, .f32⟩ : BufTy).Contents (Elt F)),
    StableHlo.nullary main_c_15 (constantI S_ 32 0#32),
    StableHlo.TRef.nullary main_call6.cst (constant S_ .f32 0x00000000#32),
    StableHlo.TRef.binary (.of main_v95 : StableHlo.TRef sig ⟨S256x1024, .f32⟩) main_call6.cst main_call6.v0 (fun x v => Host.reduceAdd x v reducesTo_S256x1024_S1024_d0 h_S_),
    StableHlo.TRef.unary main_call6.v0 main_call6.v1 (broadcastInDim S1x1024 ![1] bcast_S1024_S1x1024_1),
    StableHlo.TRef.nullary main_call6.cst_0 (constant S_ .f32 0x43800000#32),
    StableHlo.TRef.unary main_call6.cst_0 main_call6.v2 (broadcastInDim S1x1024 ![] bcast_S_S1x1024),
    StableHlo.TRef.binary main_call6.v1 main_call6.v2 main_call6.v3 Host.divf,
    StableHlo.TRef.unary main_call6.v3 main_call6.v4 (broadcastInDim S256x1024 ![0, 1] bcast_S1x1024_S256x1024_0_1),
    StableHlo.TRef.binary (.of main_v95 : StableHlo.TRef sig ⟨S256x1024, .f32⟩) main_call6.v4 main_call6.v5 subf,
    StableHlo.TRef.binary main_call6.v5 main_call6.v5 main_call6.v6 mulf,
    StableHlo.TRef.unary (.of main_c_15 : StableHlo.TRef sig ⟨S_, .i32⟩) main_call6.v7 (sitofp .f32),
    StableHlo.TRef.nullary main_call6.cst_1 (constant S_ .f32 0x43800000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S256x1024_S1024_d0 h_S_),
    StableHlo.TRef.unary main_call6.v8 main_call6.v10 (broadcastInDim S1024 ![] bcast_S_S1024),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S1024 ![] bcast_S_S1024),
    StableHlo.TRef.ternary main_call6.v12 main_call6.v11 main_call6.call0.v1 main_call6.call0.v2 (fun p a b => select (broadcastInDim S1024 ![] bcast_S_S1024 p) a b),
    StableHlo.unary main_v98 main_v100 (broadcastInDim S1x1024 ![1] bcast_S1024_S1x1024_1 : (⟨S1024, .f32⟩ : BufTy).Contents (Elt F) → (⟨S1x1024, .f32⟩ : BufTy).Contents (Elt F)),
    StableHlo.unary main_v100 main_v101 (broadcastInDim S256x1024 ![0, 1] bcast_S1x1024_S256x1024_0_1 : (⟨S1x1024, .f32⟩ : BufTy).Contents (Elt F) → (⟨S256x1024, .f32⟩ : BufTy).Contents (Elt F)) ]

/-- The operations of `@main`'s third window. -/
abbrev opsW2 : List (HloOp τ sig (Elt F)) :=
  [ StableHlo.binary main_v95 main_v101 main_v102 (subf : (⟨S256x1024, .f32⟩ : BufTy).Contents (Elt F) → (⟨S256x1024, .f32⟩ : BufTy).Contents (Elt F) → (⟨S256x1024, .f32⟩ : BufTy).Contents (Elt F)),
    StableHlo.nullary main_cst_16 (constant S_ .f32 0x3727C5AC#32),
    StableHlo.unary main_cst_16 main_v103 (broadcastInDim S1024 ![] bcast_S_S1024 : (⟨S_, .f32⟩ : BufTy).Contents (Elt F) → (⟨S1024, .f32⟩ : BufTy).Contents (Elt F)),
    StableHlo.binary main_v99 main_v103 main_v104 (addf : (⟨S1024, .f32⟩ : BufTy).Contents (Elt F) → (⟨S1024, .f32⟩ : BufTy).Contents (Elt F) → (⟨S1024, .f32⟩ : BufTy).Contents (Elt F)),
    StableHlo.unary main_v104 main_v105 (Host.rsqrt : (⟨S1024, .f32⟩ : BufTy).Contents (Elt F) → (⟨S1024, .f32⟩ : BufTy).Contents (Elt F)),
    StableHlo.unary main_v105 main_v106 (broadcastInDim S1x1024 ![1] bcast_S1024_S1x1024_1 : (⟨S1024, .f32⟩ : BufTy).Contents (Elt F) → (⟨S1x1024, .f32⟩ : BufTy).Contents (Elt F)),
    StableHlo.unary main_v106 main_v107 (broadcastInDim S256x1024 ![0, 1] bcast_S1x1024_S256x1024_0_1 : (⟨S1x1024, .f32⟩ : BufTy).Contents (Elt F) → (⟨S256x1024, .f32⟩ : BufTy).Contents (Elt F)),
    StableHlo.binary main_v102 main_v107 main_v108 (mulf : (⟨S256x1024, .f32⟩ : BufTy).Contents (Elt F) → (⟨S256x1024, .f32⟩ : BufTy).Contents (Elt F) → (⟨S256x1024, .f32⟩ : BufTy).Contents (Elt F)),
    StableHlo.unary main_arg16 main_v109 (broadcastInDim S1x1024 ![1] bcast_S1024_S1x1024_1 : (⟨S1024, .f32⟩ : BufTy).Contents (Elt F) → (⟨S1x1024, .f32⟩ : BufTy).Contents (Elt F)),
    StableHlo.unary main_v109 main_v110 (broadcastInDim S256x1024 ![0, 1] bcast_S1x1024_S256x1024_0_1 : (⟨S1x1024, .f32⟩ : BufTy).Contents (Elt F) → (⟨S256x1024, .f32⟩ : BufTy).Contents (Elt F)),
    StableHlo.binary main_v108 main_v110 main_v111 (mulf : (⟨S256x1024, .f32⟩ : BufTy).Contents (Elt F) → (⟨S256x1024, .f32⟩ : BufTy).Contents (Elt F) → (⟨S256x1024, .f32⟩ : BufTy).Contents (Elt F)),
    StableHlo.unary main_arg17 main_v112 (broadcastInDim S1x1024 ![1] bcast_S1024_S1x1024_1 : (⟨S1024, .f32⟩ : BufTy).Contents (Elt F) → (⟨S1x1024, .f32⟩ : BufTy).Contents (Elt F)),
    StableHlo.unary main_v112 main_v113 (broadcastInDim S256x1024 ![0, 1] bcast_S1x1024_S256x1024_0_1 : (⟨S1x1024, .f32⟩ : BufTy).Contents (Elt F) → (⟨S256x1024, .f32⟩ : BufTy).Contents (Elt F)),
    StableHlo.binary main_v111 main_v113 main_v114 (addf : (⟨S256x1024, .f32⟩ : BufTy).Contents (Elt F) → (⟨S256x1024, .f32⟩ : BufTy).Contents (Elt F) → (⟨S256x1024, .f32⟩ : BufTy).Contents (Elt F)),
    StableHlo.TRef.nullary main_call7.cst (constant S_ .f32 0x00000000#32),
    StableHlo.TRef.unary main_call7.cst main_call7.v0 (broadcastInDim S256x1024 ![] bcast_S_S256x1024),
    StableHlo.TRef.binary (.of main_v114 : StableHlo.TRef sig ⟨S256x1024, .f32⟩) main_call7.v0 main_call7.v1 maximumf,
    StableHlo.unary main_arg18 main_v116 ((transpose S1024x256 [1, 0] · transposes_S256x1024_S1024x256_1_0) : (⟨S256x1024, .f32⟩ : BufTy).Contents (Elt F) → (⟨S1024x256, .f32⟩ : BufTy).Contents (Elt F)),
    StableHlo.binary main_v115 main_v116 main_v117 ((fun l r => Host.dotGeneral dot_S256x1024_S1024x256_S256x256_1_0_0_1_n_n none l r) : (⟨S256x1024, .f32⟩ : BufTy).Contents (Elt F) → (⟨S1024x256, .f32⟩ : BufTy).Contents (Elt F) → (⟨S256x256, .f32⟩ : BufTy).Contents (Elt F)),
    StableHlo.unary main_arg19 main_v118 (broadcastInDim S1x256 ![1] bcast_S256_S1x256_1 : (⟨S256, .f32⟩ : BufTy).Contents (Elt F) → (⟨S1x256, .f32⟩ : BufTy).Contents (Elt F)),
    StableHlo.unary main_v118 main_v119 (broadcastInDim S256x256 ![0, 1] bcast_S1x256_S256x256_0_1 : (⟨S1x256, .f32⟩ : BufTy).Contents (Elt F) → (⟨S256x256, .f32⟩ : BufTy).Contents (Elt F)),
    StableHlo.binary main_v117 main_v119 main_v120 (addf : (⟨S256x256, .f32⟩ : BufTy).Contents (Elt F) → (⟨S256x256, .f32⟩ : BufTy).Contents (Elt F) → (⟨S256x256, .f32⟩ : BufTy).Contents (Elt F)),
    StableHlo.nullary main_cst_17 (constant S_ .f32 0x00000000#32),
    StableHlo.binary main_v120 main_cst_17 main_v121 ((fun x v => Host.reduceAdd x v reducesTo_S256x256_S256_d0 h_S_) : (⟨S256x256, .f32⟩ : BufTy).Contents (Elt F) → (⟨S_, .f32⟩ : BufTy).Contents (Elt F) → (⟨S256, .f32⟩ : BufTy).Contents (Elt F)),
    StableHlo.nullary main_cst_18 (constant S_ .f32 0x43800000#32),
    StableHlo.unary main_cst_18 main_v122 (broadcastInDim S256 ![] bcast_S_S256 : (⟨S_, .f32⟩ : BufTy).Contents (Elt F) → (⟨S256, .f32⟩ : BufTy).Contents (Elt F)),
    StableHlo.binary main_v121 main_v122 main_v123 (Host.divf : (⟨S256, .f32⟩ : BufTy).Contents (Elt F) → (⟨S256, .f32⟩ : BufTy).Contents (Elt F) → (⟨S256, .f32⟩ : BufTy).Contents (Elt F)),
    StableHlo.nullary main_c_19 (constantI S_ 32 0#32),
    StableHlo.TRef.nullary main_call8.cst (constant S_ .f32 0x00000000#32),
    StableHlo.TRef.binary (.of main_v120 : StableHlo.TRef sig ⟨S256x256, .f32⟩) main_call8.cst main_call8.v0 (fun x v => Host.reduceAdd x v reducesTo_S256x256_S256_d0 h_S_),
    StableHlo.TRef.unary main_call8.v0 main_call8.v1 (broadcastInDim S1x256 ![1] bcast_S256_S1x256_1),
    StableHlo.TRef.nullary main_call8.cst_0 (constant S_ .f32 0x43800000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S256x256 ![0, 1] bcast_S1x256_S256x256_0_1),
    StableHlo.TRef.binary (.of main_v120 : StableHlo.TRef sig ⟨S256x256, .f32⟩) main_call8.v4 main_call8.v5 subf,
    StableHlo.TRef.binary main_call8.v5 main_call8.v5 main_call8.v6 mulf,
    StableHlo.TRef.unary (.of main_c_19 : StableHlo.TRef sig ⟨S_, .i32⟩) main_call8.v7 (sitofp .f32),
    StableHlo.TRef.nullary main_call8.cst_1 (constant S_ .f32 0x43800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S256x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v123 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S256x256 ![0, 1] bcast_S1x256_S256x256_0_1 : (⟨S1x256, .f32⟩ : BufTy).Contents (Elt F) → (⟨S256x256, .f32⟩ : BufTy).Contents (Elt F)),
    StableHlo.binary main_v120 main_v126 main_v127 (subf : (⟨S256x256, .f32⟩ : BufTy).Contents (Elt F) → (⟨S256x256, .f32⟩ : BufTy).Contents (Elt F) → (⟨S256x256, .f32⟩ : BufTy).Contents (Elt F)),
    StableHlo.nullary main_cst_20 (constant S_ .f32 0x3727C5AC#32),
    StableHlo.unary main_cst_20 main_v128 (broadcastInDim S256 ![] bcast_S_S256 : (⟨S_, .f32⟩ : BufTy).Contents (Elt F) → (⟨S256, .f32⟩ : BufTy).Contents (Elt F)),
    StableHlo.binary main_v124 main_v128 main_v129 (addf : (⟨S256, .f32⟩ : BufTy).Contents (Elt F) → (⟨S256, .f32⟩ : BufTy).Contents (Elt F) → (⟨S256, .f32⟩ : BufTy).Contents (Elt F)),
    StableHlo.unary main_v129 main_v130 (Host.rsqrt : (⟨S256, .f32⟩ : BufTy).Contents (Elt F) → (⟨S256, .f32⟩ : BufTy).Contents (Elt F)),
    StableHlo.unary main_v130 main_v131 (broadcastInDim S1x256 ![1] bcast_S256_S1x256_1 : (⟨S256, .f32⟩ : BufTy).Contents (Elt F) → (⟨S1x256, .f32⟩ : BufTy).Contents (Elt F)),
    StableHlo.unary main_v131 main_v132 (broadcastInDim S256x256 ![0, 1] bcast_S1x256_S256x256_0_1 : (⟨S1x256, .f32⟩ : BufTy).Contents (Elt F) → (⟨S256x256, .f32⟩ : BufTy).Contents (Elt F)),
    StableHlo.binary main_v127 main_v132 main_v133 (mulf : (⟨S256x256, .f32⟩ : BufTy).Contents (Elt F) → (⟨S256x256, .f32⟩ : BufTy).Contents (Elt F) → (⟨S256x256, .f32⟩ : BufTy).Contents (Elt F)),
    StableHlo.unary main_arg20 main_v134 (broadcastInDim S1x256 ![1] bcast_S256_S1x256_1 : (⟨S256, .f32⟩ : BufTy).Contents (Elt F) → (⟨S1x256, .f32⟩ : BufTy).Contents (Elt F)),
    StableHlo.unary main_v134 main_v135 (broadcastInDim S256x256 ![0, 1] bcast_S1x256_S256x256_0_1 : (⟨S1x256, .f32⟩ : BufTy).Contents (Elt F) → (⟨S256x256, .f32⟩ : BufTy).Contents (Elt F)),
    StableHlo.binary main_v133 main_v135 main_v136 (mulf : (⟨S256x256, .f32⟩ : BufTy).Contents (Elt F) → (⟨S256x256, .f32⟩ : BufTy).Contents (Elt F) → (⟨S256x256, .f32⟩ : BufTy).Contents (Elt F)),
    StableHlo.unary main_arg21 main_v137 (broadcastInDim S1x256 ![1] bcast_S256_S1x256_1 : (⟨S256, .f32⟩ : BufTy).Contents (Elt F) → (⟨S1x256, .f32⟩ : BufTy).Contents (Elt F)),
    StableHlo.unary main_v137 main_v138 (broadcastInDim S256x256 ![0, 1] bcast_S1x256_S256x256_0_1 : (⟨S1x256, .f32⟩ : BufTy).Contents (Elt F) → (⟨S256x256, .f32⟩ : BufTy).Contents (Elt F)),
    StableHlo.binary main_v136 main_v138 main_v139 (addf : (⟨S256x256, .f32⟩ : BufTy).Contents (Elt F) → (⟨S256x256, .f32⟩ : BufTy).Contents (Elt F) → (⟨S256x256, .f32⟩ : BufTy).Contents (Elt F)),
    StableHlo.TRef.nullary main_call9.cst (constant S_ .f32 0x00000000#32),
    StableHlo.TRef.unary main_call9.cst main_call9.v0 (broadcastInDim S256x256 ![] bcast_S_S256x256),
    StableHlo.TRef.binary (.of main_v139 : StableHlo.TRef sig ⟨S256x256, .f32⟩) main_call9.v0 main_call9.v1 maximumf,
    StableHlo.TRef.binary (.of main_v140 : StableHlo.TRef sig ⟨S256x256, .f32⟩) (.of main_v140 : StableHlo.TRef sig ⟨S256x256, .f32⟩) main_call10.v0 mulf,
    StableHlo.TRef.nullary main_call10.cst (constant S_ .f32 0x00000000#32),
    StableHlo.TRef.binary main_call10.v0 main_call10.cst main_call10.v1 (fun x v => Host.reduceAdd x v reducesTo_S256x256_S256_d1 h_S_),
    StableHlo.TRef.unary main_call10.v1 main_call10.v2 (broadcastInDim S256x1 ![0] bcast_S256_S256x1_0),
    StableHlo.TRef.unary main_call10.v2 main_call10.v3 Host.sqrt,
    StableHlo.nullary main_cst_21 (constant S_ .f32 0x2B8CBCCC#32),
    StableHlo.unary main_cst_21 main_v142 (broadcastInDim S256x1 ![] bcast_S_S256x1 : (⟨S_, .f32⟩ : BufTy).Contents (Elt F) → (⟨S256x1, .f32⟩ : BufTy).Contents (Elt F)),
    StableHlo.binary main_v141 main_v142 main_v143 (maximumf : (⟨S256x1, .f32⟩ : BufTy).Contents (Elt F) → (⟨S256x1, .f32⟩ : BufTy).Contents (Elt F) → (⟨S256x1, .f32⟩ : BufTy).Contents (Elt F)),
    StableHlo.unary main_v143 main_v144 (broadcastInDim S256x256 ![0, 1] bcast_S256x1_S256x256_0_1 : (⟨S256x1, .f32⟩ : BufTy).Contents (Elt F) → (⟨S256x256, .f32⟩ : BufTy).Contents (Elt F)),
    StableHlo.binary main_v140 main_v144 main_v145 (Host.divf : (⟨S256x256, .f32⟩ : BufTy).Contents (Elt F) → (⟨S256x256, .f32⟩ : BufTy).Contents (Elt F) → (⟨S256x256, .f32⟩ : BufTy).Contents (Elt F)) ]

set_option maxRecDepth 8192 in
set_option maxHeartbeats 4000000 in
theorem main_part0_eq (c : Dev nD) : main_part0 (F := F) c = seq opsW0 := rfl
set_option maxRecDepth 8192 in
set_option maxHeartbeats 4000000 in
theorem main_part1_eq (c : Dev nD) : main_part1 (F := F) c = seq opsW1 := rfl
set_option maxRecDepth 8192 in
set_option maxHeartbeats 4000000 in
theorem main_part2_eq (c : Dev nD) : main_part2 (F := F) c = seq opsW2 := rfl

set_option maxRecDepth 8192 in
set_option maxHeartbeats 4000000 in
/-- The two cuts of the one line agree: prefix and tail are the three windows, concatenated. -/
theorem ops_split : (opsP ++ opsT : List (HloOp τ sig (Elt F))) = opsW0 ++ (opsW1 ++ opsW2) := by
  simp only [List.cons_append, List.nil_append]

set_option maxRecDepth 8192 in
/-- `@main` is the straight line of the prefix followed by the tail. -/
theorem main_eq (c : Dev nD) : main (F := F) c = seq (opsP ++ opsT) := by
  rw [ops_split]
  simp only [seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsP_sub : (opsP : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., unary_bufs_sub .., binary_bufs_sub .., reshape_bufs_sub ..⟩
set_option maxRecDepth 8192 in
theorem opsT_sub : (opsT : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem ops_sub : (opsP ++ opsT : List (HloOp τ sig (Elt F))).Forall fun op => op.bufs ⊆ tcRefs τ sig :=
  List.forall_iff_forall_mem.mpr fun op h => by
    rcases List.mem_append.mp h with h | h
    exacts [List.forall_iff_forall_mem.mp opsP_sub op h, List.forall_iff_forall_mem.mp opsT_sub op h]

set_option maxRecDepth 8192 in
theorem opsP_fresh : (opsP : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsT_fresh : (opsT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (opsP ++ opsT : List (HloOp τ sig (Elt F))), op.fresh = ∅ := fun op h => by
  rcases List.mem_append.mp h with h | h
  exacts [List.forall_iff_forall_mem.mp opsP_fresh op h, List.forall_iff_forall_mem.mp opsT_fresh op h]

/-- On every device, for any float values, from any memory with zero counters: every weakly fair execution of
    `@main` terminates, and every final state has each buffer at the tail's fold over the prefix's fold over
    the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsT (after opsP (launchContents m c)) (b : DevRef τ sig) :=
  (θ_run defs _ _).mono (fun _ h c b => (h c b).trans (by rw [after_append]))
    (run_seq scopedRefs_eq scopedSems_eq defs main (fun _ => opsP ++ opsT) main_eq (fun _ => ops_sub) m ρ (fun _ => ops_fresh))

/-! ## What the two pieces leave alone -/

local macro "writes_mem" : tactic =>
  `(tactic| (simp only [nullary_writes, unary_writes, binary_writes, ternary_writes, reshape_writes,
      Finset.singleton_subset_iff, List.mem_toFinset]; exact List.mem_map_of_mem (by decide)))

/-- The buffers the prefix writes: one per operation. -/
abbrev opsP_W : List (Ref sig .tc) :=
  [main_v0, main_v1, main_v2, main_v3, main_v4, main_cst, main_v5, main_cst_0, main_v6, main_v7, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v8, main_v9, main_v10, main_v11, main_cst_1, main_v12, main_v13, main_v14, main_v15, main_v16, main_v17, main_v18, main_v19, main_v20, main_v21, main_v22, main_v23, main_call1_cst, main_call1_v0, main_v24, main_v25, main_v26, main_v27, main_v28, main_v29, main_cst_2, main_v30, main_cst_3, main_v31, main_v32, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v33, main_v34, main_v35, main_v36, main_cst_5, main_v37, main_v38, main_v39, main_v40, main_v41, main_v42, main_v43, main_v44, main_v45, main_v46, main_v47, main_v48, main_call3_cst, main_call3_v0, main_v49, main_v50, main_v51, main_v52, main_v53, main_v54, main_cst_6, main_v55, main_cst_7, main_v56, main_v57, main_c_8, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v58, main_v59, main_v60, main_v61, main_cst_9, main_v62, main_v63, main_v64, main_v65, main_v66, main_v67, main_v68, main_v69, main_v70, main_v71, main_v72, main_v73, main_call5_cst, main_call5_v0, main_v74, main_v75, main_cst_10, main_v76, main_cst_11, main_v77, main_v78, main_v79, main_v80, main_v81, main_v82, main_cst_12, main_v83, main_v84, main_v85, main_v86, main_v87, main_v88, main_v89, main_v90]
/-- The buffers the tail writes: one per operation. -/
abbrev opsT_W : List (Ref sig .tc) :=
  [main_v91, main_v92, main_v93, main_v94, main_v95, main_cst_13, main_v96, main_cst_14, main_v97, main_v98, main_c_15, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v99, main_v100, main_v101, main_v102, main_cst_16, main_v103, main_v104, main_v105, main_v106, main_v107, main_v108, main_v109, main_v110, main_v111, main_v112, main_v113, main_v114, main_call7_cst, main_call7_v0, main_v115, main_v116, main_v117, main_v118, main_v119, main_v120, main_cst_17, main_v121, main_cst_18, main_v122, main_v123, main_c_19, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v124, main_v125, main_v126, main_v127, main_cst_20, main_v128, main_v129, main_v130, main_v131, main_v132, main_v133, main_v134, main_v135, main_v136, main_v137, main_v138, main_v139, main_call9_cst, main_call9_v0, main_v140, main_call10_v0, main_call10_cst, main_call10_v1, main_call10_v2, main_v141, main_cst_21, main_v142, main_v143, main_v144, main_v145]

set_option maxRecDepth 8192 in
set_option maxHeartbeats 4000000 in
theorem opsP_writes : (opsP : List (HloOp τ sig (Elt F))).Forall fun op => op.writes ⊆ (opsP_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
set_option maxRecDepth 8192 in
set_option maxHeartbeats 4000000 in
theorem opsT_writes : (opsT : List (HloOp τ sig (Elt F))).Forall fun op => op.writes ⊆ (opsT_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

/-- A buffer the prefix does not write keeps its contents through it. -/
theorem keepP (V : Valuation τ sig (Elt F)) (r : Ref sig .tc) (h : r ∉ opsP_W) :
    after opsP V (Proc.devRef .tc r) = V (Proc.devRef .tc r) := after_of_writes_sub opsP V opsP_writes h
/-- A buffer the tail does not write keeps its contents through it. -/
theorem keepT (V : Valuation τ sig (Elt F)) (r : Ref sig .tc) (h : r ∉ opsT_W) :
    after opsT V (Proc.devRef .tc r) = V (Proc.devRef .tc r) := after_of_writes_sub opsT V opsT_writes h

theorem argP_kept_0 (V : Valuation τ sig (Elt F)) : after opsP V (main_arg0 : DevRef τ sig) = V (main_arg0 : DevRef τ sig) := keepP V main_arg0 (by decide)
theorem argP_kept_1 (V : Valuation τ sig (Elt F)) : after opsP V (main_arg1 : DevRef τ sig) = V (main_arg1 : DevRef τ sig) := keepP V main_arg1 (by decide)
theorem argP_kept_2 (V : Valuation τ sig (Elt F)) : after opsP V (main_arg2 : DevRef τ sig) = V (main_arg2 : DevRef τ sig) := keepP V main_arg2 (by decide)
theorem argP_kept_3 (V : Valuation τ sig (Elt F)) : after opsP V (main_arg3 : DevRef τ sig) = V (main_arg3 : DevRef τ sig) := keepP V main_arg3 (by decide)
theorem argP_kept_4 (V : Valuation τ sig (Elt F)) : after opsP V (main_arg4 : DevRef τ sig) = V (main_arg4 : DevRef τ sig) := keepP V main_arg4 (by decide)
theorem argP_kept_5 (V : Valuation τ sig (Elt F)) : after opsP V (main_arg5 : DevRef τ sig) = V (main_arg5 : DevRef τ sig) := keepP V main_arg5 (by decide)
theorem argP_kept_6 (V : Valuation τ sig (Elt F)) : after opsP V (main_arg6 : DevRef τ sig) = V (main_arg6 : DevRef τ sig) := keepP V main_arg6 (by decide)
theorem argP_kept_7 (V : Valuation τ sig (Elt F)) : after opsP V (main_arg7 : DevRef τ sig) = V (main_arg7 : DevRef τ sig) := keepP V main_arg7 (by decide)
theorem argP_kept_8 (V : Valuation τ sig (Elt F)) : after opsP V (main_arg8 : DevRef τ sig) = V (main_arg8 : DevRef τ sig) := keepP V main_arg8 (by decide)
theorem argP_kept_9 (V : Valuation τ sig (Elt F)) : after opsP V (main_arg9 : DevRef τ sig) = V (main_arg9 : DevRef τ sig) := keepP V main_arg9 (by decide)
theorem argP_kept_10 (V : Valuation τ sig (Elt F)) : after opsP V (main_arg10 : DevRef τ sig) = V (main_arg10 : DevRef τ sig) := keepP V main_arg10 (by decide)
theorem argP_kept_11 (V : Valuation τ sig (Elt F)) : after opsP V (main_arg11 : DevRef τ sig) = V (main_arg11 : DevRef τ sig) := keepP V main_arg11 (by decide)
theorem argP_kept_12 (V : Valuation τ sig (Elt F)) : after opsP V (main_arg12 : DevRef τ sig) = V (main_arg12 : DevRef τ sig) := keepP V main_arg12 (by decide)
theorem argP_kept_13 (V : Valuation τ sig (Elt F)) : after opsP V (main_arg13 : DevRef τ sig) = V (main_arg13 : DevRef τ sig) := keepP V main_arg13 (by decide)
theorem argP_kept_14 (V : Valuation τ sig (Elt F)) : after opsP V (main_arg14 : DevRef τ sig) = V (main_arg14 : DevRef τ sig) := keepP V main_arg14 (by decide)
theorem argP_kept_15 (V : Valuation τ sig (Elt F)) : after opsP V (main_arg15 : DevRef τ sig) = V (main_arg15 : DevRef τ sig) := keepP V main_arg15 (by decide)
theorem argP_kept_16 (V : Valuation τ sig (Elt F)) : after opsP V (main_arg16 : DevRef τ sig) = V (main_arg16 : DevRef τ sig) := keepP V main_arg16 (by decide)
theorem argP_kept_17 (V : Valuation τ sig (Elt F)) : after opsP V (main_arg17 : DevRef τ sig) = V (main_arg17 : DevRef τ sig) := keepP V main_arg17 (by decide)
theorem argP_kept_18 (V : Valuation τ sig (Elt F)) : after opsP V (main_arg18 : DevRef τ sig) = V (main_arg18 : DevRef τ sig) := keepP V main_arg18 (by decide)
theorem argP_kept_19 (V : Valuation τ sig (Elt F)) : after opsP V (main_arg19 : DevRef τ sig) = V (main_arg19 : DevRef τ sig) := keepP V main_arg19 (by decide)
theorem argP_kept_20 (V : Valuation τ sig (Elt F)) : after opsP V (main_arg20 : DevRef τ sig) = V (main_arg20 : DevRef τ sig) := keepP V main_arg20 (by decide)
theorem argP_kept_21 (V : Valuation τ sig (Elt F)) : after opsP V (main_arg21 : DevRef τ sig) = V (main_arg21 : DevRef τ sig) := keepP V main_arg21 (by decide)
theorem argT_kept_0 (V : Valuation τ sig (Elt F)) : after opsT V (main_arg0 : DevRef τ sig) = V (main_arg0 : DevRef τ sig) := keepT V main_arg0 (by decide)
theorem argT_kept_1 (V : Valuation τ sig (Elt F)) : after opsT V (main_arg1 : DevRef τ sig) = V (main_arg1 : DevRef τ sig) := keepT V main_arg1 (by decide)
theorem argT_kept_2 (V : Valuation τ sig (Elt F)) : after opsT V (main_arg2 : DevRef τ sig) = V (main_arg2 : DevRef τ sig) := keepT V main_arg2 (by decide)
theorem argT_kept_3 (V : Valuation τ sig (Elt F)) : after opsT V (main_arg3 : DevRef τ sig) = V (main_arg3 : DevRef τ sig) := keepT V main_arg3 (by decide)
theorem argT_kept_4 (V : Valuation τ sig (Elt F)) : after opsT V (main_arg4 : DevRef τ sig) = V (main_arg4 : DevRef τ sig) := keepT V main_arg4 (by decide)
theorem argT_kept_5 (V : Valuation τ sig (Elt F)) : after opsT V (main_arg5 : DevRef τ sig) = V (main_arg5 : DevRef τ sig) := keepT V main_arg5 (by decide)
theorem argT_kept_6 (V : Valuation τ sig (Elt F)) : after opsT V (main_arg6 : DevRef τ sig) = V (main_arg6 : DevRef τ sig) := keepT V main_arg6 (by decide)
theorem argT_kept_7 (V : Valuation τ sig (Elt F)) : after opsT V (main_arg7 : DevRef τ sig) = V (main_arg7 : DevRef τ sig) := keepT V main_arg7 (by decide)
theorem argT_kept_8 (V : Valuation τ sig (Elt F)) : after opsT V (main_arg8 : DevRef τ sig) = V (main_arg8 : DevRef τ sig) := keepT V main_arg8 (by decide)
theorem argT_kept_9 (V : Valuation τ sig (Elt F)) : after opsT V (main_arg9 : DevRef τ sig) = V (main_arg9 : DevRef τ sig) := keepT V main_arg9 (by decide)
theorem argT_kept_10 (V : Valuation τ sig (Elt F)) : after opsT V (main_arg10 : DevRef τ sig) = V (main_arg10 : DevRef τ sig) := keepT V main_arg10 (by decide)
theorem argT_kept_11 (V : Valuation τ sig (Elt F)) : after opsT V (main_arg11 : DevRef τ sig) = V (main_arg11 : DevRef τ sig) := keepT V main_arg11 (by decide)
theorem argT_kept_12 (V : Valuation τ sig (Elt F)) : after opsT V (main_arg12 : DevRef τ sig) = V (main_arg12 : DevRef τ sig) := keepT V main_arg12 (by decide)
theorem argT_kept_13 (V : Valuation τ sig (Elt F)) : after opsT V (main_arg13 : DevRef τ sig) = V (main_arg13 : DevRef τ sig) := keepT V main_arg13 (by decide)
theorem argT_kept_14 (V : Valuation τ sig (Elt F)) : after opsT V (main_arg14 : DevRef τ sig) = V (main_arg14 : DevRef τ sig) := keepT V main_arg14 (by decide)
theorem argT_kept_15 (V : Valuation τ sig (Elt F)) : after opsT V (main_arg15 : DevRef τ sig) = V (main_arg15 : DevRef τ sig) := keepT V main_arg15 (by decide)
theorem argT_kept_16 (V : Valuation τ sig (Elt F)) : after opsT V (main_arg16 : DevRef τ sig) = V (main_arg16 : DevRef τ sig) := keepT V main_arg16 (by decide)
theorem argT_kept_17 (V : Valuation τ sig (Elt F)) : after opsT V (main_arg17 : DevRef τ sig) = V (main_arg17 : DevRef τ sig) := keepT V main_arg17 (by decide)
theorem argT_kept_18 (V : Valuation τ sig (Elt F)) : after opsT V (main_arg18 : DevRef τ sig) = V (main_arg18 : DevRef τ sig) := keepT V main_arg18 (by decide)
theorem argT_kept_19 (V : Valuation τ sig (Elt F)) : after opsT V (main_arg19 : DevRef τ sig) = V (main_arg19 : DevRef τ sig) := keepT V main_arg19 (by decide)
theorem argT_kept_20 (V : Valuation τ sig (Elt F)) : after opsT V (main_arg20 : DevRef τ sig) = V (main_arg20 : DevRef τ sig) := keepT V main_arg20 (by decide)
theorem argT_kept_21 (V : Valuation τ sig (Elt F)) : after opsT V (main_arg21 : DevRef τ sig) = V (main_arg21 : DevRef τ sig) := keepT V main_arg21 (by decide)

/-! ## The tail read back

Each stage below is the composition of the tail's operations that compute it, written over arrays: the same pure
functions applied in the same order, so the fold of `opsT` at `main_v145` is `refTail` of the contents of
`main_v90` and of the eight parameter buffers by computation. -/

/-- A linear layer: the rows `X` against the transpose of the weights `W`, plus the bias `b` broadcast over the rows. -/
def lin (X : FVec F S256x64000 .f32) (W : FVec F S1024x64000 .f32) (b : FVec F S1024 .f32) : FVec F S256x1024 .f32 :=
  addf (Host.dotGeneral dot_S256x64000_S64000x1024_S256x1024_1_0_0_1_n_n none X (transpose S64000x1024 [1, 0] W transposes_S1024x64000_S64000x1024_1_0)) (broadcastInDim S256x1024 ![0, 1] bcast_S1x1024_S256x1024_0_1 (broadcastInDim S1x1024 ![1] bcast_S1024_S1x1024_1 b))

/-- The row count 256 less the integer zero converted to a float: the divisor of the variance. -/
def cnt256 : FVec F S_ .f32 :=
  subf (constant S_ .f32 0x43800000#32) (sitofp .f32 (constantI S_ 32 0#32))

/-- The mean over the 256 rows, per column: the column sums divided by 256. -/
def mean1 (h : FVec F S256x1024 .f32) : FVec F S1024 .f32 :=
  Host.divf (Host.reduceAdd h (constant S_ .f32 0x00000000#32) reducesTo_S256x1024_S1024_d0 h_S_) (broadcastInDim S1024 ![] bcast_S_S1024 (constant S_ .f32 0x43800000#32))

/-- The rows less the column means (the means recomputed through a 1 x 1024 row, as the variance's function does). -/
def cent1 (h : FVec F S256x1024 .f32) : FVec F S256x1024 .f32 :=
  subf h (broadcastInDim S256x1024 ![0, 1] bcast_S1x1024_S256x1024_0_1 (Host.divf (broadcastInDim S1x1024 ![1] bcast_S1024_S1x1024_1 (Host.reduceAdd h (constant S_ .f32 0x00000000#32) reducesTo_S256x1024_S1024_d0 h_S_)) (broadcastInDim S1x1024 ![] bcast_S_S1x1024 (constant S_ .f32 0x43800000#32))))

/-- The variance over the 256 rows, per column: the sum of the squared centred entries divided by `cnt256`,
    selected against the quiet NaN where `cnt256` is not positive. -/
def var1 (h : FVec F S256x1024 .f32) : FVec F S1024 .f32 :=
  select (broadcastInDim S1024 ![] bcast_S_S1024 (cmpf .ogt (cnt256 (F := F)) (constant S_ .f32 0x00000000#32))) (Host.divf (Host.reduceAdd (mulf (cent1 h) (cent1 h)) (constant S_ .f32 0x00000000#32) reducesTo_S256x1024_S1024_d0 h_S_) (broadcastInDim S1024 ![] bcast_S_S1024 cnt256)) (broadcastInDim S1024 ![] bcast_S_S1024 (id (constant S_ .f32 0x7FC00000#32)))

/-- Batch normalisation over the rows with scale `g` and shift `b`, then the maximum with zero. -/
def bnRelu1 (h : FVec F S256x1024 .f32) (g b : FVec F S1024 .f32) : FVec F S256x1024 .f32 :=
  maximumf (addf (mulf (mulf (subf h (broadcastInDim S256x1024 ![0, 1] bcast_S1x1024_S256x1024_0_1 (broadcastInDim S1x1024 ![1] bcast_S1024_S1x1024_1 (mean1 h)))) (broadcastInDim S256x1024 ![0, 1] bcast_S1x1024_S256x1024_0_1 (broadcastInDim S1x1024 ![1] bcast_S1024_S1x1024_1 (Host.rsqrt (addf (var1 h) (broadcastInDim S1024 ![] bcast_S_S1024 (constant S_ .f32 0x3727C5AC#32))))))) (broadcastInDim S256x1024 ![0, 1] bcast_S1x1024_S256x1024_0_1 (broadcastInDim S1x1024 ![1] bcast_S1024_S1x1024_1 g))) (broadcastInDim S256x1024 ![0, 1] bcast_S1x1024_S256x1024_0_1 (broadcastInDim S1x1024 ![1] bcast_S1024_S1x1024_1 b))) (broadcastInDim S256x1024 ![] bcast_S_S256x1024 (constant S_ .f32 0x00000000#32))

/-- The second linear layer. -/
def lin2 (h : FVec F S256x1024 .f32) (W : FVec F S256x1024 .f32) (b : FVec F S256 .f32) : FVec F S256x256 .f32 :=
  addf (Host.dotGeneral dot_S256x1024_S1024x256_S256x256_1_0_0_1_n_n none h (transpose S1024x256 [1, 0] W transposes_S256x1024_S1024x256_1_0)) (broadcastInDim S256x256 ![0, 1] bcast_S1x256_S256x256_0_1 (broadcastInDim S1x256 ![1] bcast_S256_S1x256_1 b))

/-- The mean over the 256 rows, per column, at width 256. -/
def mean2 (h : FVec F S256x256 .f32) : FVec F S256 .f32 :=
  Host.divf (Host.reduceAdd h (constant S_ .f32 0x00000000#32) reducesTo_S256x256_S256_d0 h_S_) (broadcastInDim S256 ![] bcast_S_S256 (constant S_ .f32 0x43800000#32))

/-- The rows less the column means, at width 256. -/
def cent2 (h : FVec F S256x256 .f32) : FVec F S256x256 .f32 :=
  subf h (broadcastInDim S256x256 ![0, 1] bcast_S1x256_S256x256_0_1 (Host.divf (broadcastInDim S1x256 ![1] bcast_S256_S1x256_1 (Host.reduceAdd h (constant S_ .f32 0x00000000#32) reducesTo_S256x256_S256_d0 h_S_)) (broadcastInDim S1x256 ![] bcast_S_S1x256 (constant S_ .f32 0x43800000#32))))

/-- The variance over the 256 rows, per column, at width 256. -/
def var2 (h : FVec F S256x256 .f32) : FVec F S256 .f32 :=
  select (broadcastInDim S256 ![] bcast_S_S256 (cmpf .ogt (cnt256 (F := F)) (constant S_ .f32 0x00000000#32))) (Host.divf (Host.reduceAdd (mulf (cent2 h) (cent2 h)) (constant S_ .f32 0x00000000#32) reducesTo_S256x256_S256_d0 h_S_) (broadcastInDim S256 ![] bcast_S_S256 cnt256)) (broadcastInDim S256 ![] bcast_S_S256 (id (constant S_ .f32 0x7FC00000#32)))

/-- Batch normalisation over the rows with scale `g` and shift `b`, then the maximum with zero, at width 256. -/
def bnRelu2 (h : FVec F S256x256 .f32) (g b : FVec F S256 .f32) : FVec F S256x256 .f32 :=
  maximumf (addf (mulf (mulf (subf h (broadcastInDim S256x256 ![0, 1] bcast_S1x256_S256x256_0_1 (broadcastInDim S1x256 ![1] bcast_S256_S1x256_1 (mean2 h)))) (broadcastInDim S256x256 ![0, 1] bcast_S1x256_S256x256_0_1 (broadcastInDim S1x256 ![1] bcast_S256_S1x256_1 (Host.rsqrt (addf (var2 h) (broadcastInDim S256 ![] bcast_S_S256 (constant S_ .f32 0x3727C5AC#32))))))) (broadcastInDim S256x256 ![0, 1] bcast_S1x256_S256x256_0_1 (broadcastInDim S1x256 ![1] bcast_S256_S1x256_1 g))) (broadcastInDim S256x256 ![0, 1] bcast_S1x256_S256x256_0_1 (broadcastInDim S1x256 ![1] bcast_S256_S1x256_1 b))) (broadcastInDim S256x256 ![] bcast_S_S256x256 (constant S_ .f32 0x00000000#32))

/-- Each row divided by the larger of its Euclidean norm and the constant `0x2B8CBCCC`. -/
def l2norm (y : FVec F S256x256 .f32) : FVec F S256x256 .f32 :=
  Host.divf y (broadcastInDim S256x256 ![0, 1] bcast_S256x1_S256x256_0_1 (maximumf (Host.sqrt (broadcastInDim S256x1 ![0] bcast_S256_S256x1_0 (Host.reduceAdd (mulf y y) (constant S_ .f32 0x00000000#32) reducesTo_S256x256_S256_d1 h_S_))) (broadcastInDim S256x1 ![] bcast_S_S256x1 (constant S_ .f32 0x2B8CBCCC#32))))

/-- The tail as one function of the prefix's result and the eight parameters. -/
def refTail (X : FVec F S256x64000 .f32) (fw1 : FVec F S1024x64000 .f32) (fb1 fg1 fbe1 : FVec F S1024 .f32)
    (fw2 : FVec F S256x1024 .f32) (fb2 fg2 fbe2 : FVec F S256 .f32) : FVec F S256x256 .f32 :=
  l2norm (bnRelu2 (lin2 (bnRelu1 (lin X fw1 fb1) fg1 fbe1) fw2 fb2) fg2 fbe2)

set_option maxRecDepth 8192 in
set_option maxHeartbeats 4000000 in
/-- The tail's fold at the result buffer is `refTail` of the contents it starts from. -/
theorem tail_eq (W : Valuation τ sig (Elt F)) :
    after opsT W (main_v145 : DevRef τ sig)
      = refTail (W (main_v90 : DevRef τ sig)) (W (main_arg14 : DevRef τ sig)) (W (main_arg15 : DevRef τ sig))
          (W (main_arg16 : DevRef τ sig)) (W (main_arg17 : DevRef τ sig)) (W (main_arg18 : DevRef τ sig))
          (W (main_arg19 : DevRef τ sig)) (W (main_arg20 : DevRef τ sig)) (W (main_arg21 : DevRef τ sig)) := by
  after_results_simp <;> rfl

end Cert.ReferenceIdeal.RefRun

end
-- ==== Proof.RefRead.lean ====
/-
  The reference's tail on the extended reals, read entry by entry: each linear layer as a sum over the contracted
  coordinate plus the bias, each batch normalisation with its rectifier as the specification's function of one column,
  and the final row normalisation as the specification's function of one row.  The host's spelling of each stage is
  stated once over free row, column and contraction counts with every shape relation a hypothesis, read there, and the
  reference's own stages are instances of those spellings by unfolding.
-/
import Idealize.ShloMosaic.PureOps.Ideal
import Idealize.ShloMosaic.PureOps.Ideal.Laws
import Idealize.ShloMosaic.Lib.ValueIdx
import Idealize.ShloMosaic.Lib.Pipeline.Value
import proofs.«100161_j89575837925663_2_alg».proof.Proof.LibColumnSums
import proofs.«100161_j89575837925663_2_alg».proof.Proof.LibRowReductions
import proofs.«100161_j89575837925663_2_alg».proof.Proof.LibRowVector
import proofs.«100161_j89575837925663_2_alg».proof.Proof.LibHostRows
import proofs.«100161_j89575837925663_2_alg».proof.Proof.LibColumnNorm
import proofs.«100161_j89575837925663_2_alg».proof.Proof.RefRun

noncomputable section

open scoped BigOperators

namespace Cert.ReferenceIdeal.RefRead.Generic

open Idealize.ShloMosaic Idealize.ShloMosaic.ValueIdx Cert.Lib.ColumnNorm

variable {R C K : Nat}

/-! ## The host's spellings over generic shapes

Each definition is a stage of the reference's tail with the row count `R`, the column count `C` and the contracted
length `K` left free and every shape relation a hypothesis; each reading states its entry at `(p, q)` as the
specification's function of one column (one row) of the operand. -/

theorem host_divf_apply {s : Shape} {φ : FTy} (x y : FVec Ideal s φ) (i : s.Idx) : Host.divf x y i = Ideal.div (x i) (y i) := rfl
theorem host_rsqrt_apply {s : Shape} {φ : FTy} (x : FVec Ideal s φ) (i : s.Idx) : Host.rsqrt x i = Ideal.rsqrt (x i) := rfl
theorem host_sqrt_apply {s : Shape} {φ : FTy} (x : FVec Ideal s φ) (i : s.Idx) : Host.sqrt x i = Ideal.sqrt (x i) := rfl

/-- The host's reduce-add along the first axis of an a×b array is at q the initial value's element plus the sum over
    k of the array at (k, q). -/
theorem host_colsum0_apply {a b : Nat} {u : Shape} (x : FVec Ideal ⟨2, ![a, b]⟩ .f32) (init : u.Idx → Ideal .f32)
    (h' : (⟨2, ![a, b]⟩ : Shape).ReducesTo [0] ⟨1, ![b]⟩) (hu : 0 < u.numel) (q : Fin b) :
    Host.reduceAdd x init h' hu (ix1 q) = init (Shape.Idx.first hu) + ∑ k : Fin a, x (ix2 k q) := by
  have h : (⟨2, ![a, b]⟩ : Shape).Reduces [0] ⟨1, ![b]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.ColumnSums.lift_col h q k))

/-- A plain product of an m×k by a k×n matrix on the host is at (a, b) the sum over c of A(a, c) · B(c, b). -/
theorem host_dot_rows_apply {m k n : Nat} {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The transpose of a c×k array read at (i, j) is the array at (j, i). -/
theorem transpose10_apply {α : Type} {c k : Nat} (W : (⟨2, ![c, k]⟩ : Shape).Idx → α)
    (ht : (⟨2, ![c, k]⟩ : Shape).Transposes [1, 0] ⟨2, ![k, c]⟩) (i : Fin k) (j : Fin c) :
    transpose ⟨2, ![k, c]⟩ [1, 0] W ht (ix2 i j) = W (ix2 j i) :=
  transpose_apply _ W ht _ _ fun b => by
    match b with
    | ⟨0, _⟩ => rfl
    | ⟨1, _⟩ => rfl

/-- A vector of C entries broadcast to a 1×C row and then down R rows reads its entry q at every (p, q). -/
theorem bcast_vec_rows_apply {α : Type} (x : (⟨1, ![C]⟩ : Shape).Idx → α)
    (hb1 : (⟨1, ![C]⟩ : Shape).BroadcastsInDim ⟨2, ![1, C]⟩ ![1])
    (hb2 : (⟨2, ![1, C]⟩ : Shape).BroadcastsInDim ⟨2, ![R, C]⟩ ![0, 1]) (p : Fin R) (q : Fin C) :
    broadcastInDim ⟨2, ![R, C]⟩ ![0, 1] hb2 (broadcastInDim ⟨2, ![1, C]⟩ ![1] hb1 x) (ix2 p q) = x (ix1 q) := by
  rw [Cert.Lib.RowVector.bcastInDim_rows_apply, Cert.Lib.RowVector.bcastInDim_eq_asRow]
  rfl

/-- A linear layer: the rows against the transpose of the weights, plus the bias broadcast over the rows. -/
def hostLin (d : DotDims ⟨2, ![R, K]⟩ ⟨2, ![K, C]⟩ ⟨2, ![R, C]⟩)
    (ht : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![R, C]⟩ ![0, 1])
    (X : FVec Ideal ⟨2, ![R, K]⟩ .f32) (W : FVec Ideal ⟨2, ![C, K]⟩ .f32) (b : FVec Ideal ⟨1, ![C]⟩ .f32) :
    FVec Ideal ⟨2, ![R, C]⟩ .f32 :=
  addf (Host.dotGeneral d none X (transpose ⟨2, ![K, C]⟩ [1, 0] W ht))
    (broadcastInDim ⟨2, ![R, C]⟩ ![0, 1] hb2 (broadcastInDim ⟨2, ![1, C]⟩ ![1] hb1 b))

theorem hostLin_apply (d : DotDims ⟨2, ![R, K]⟩ ⟨2, ![K, C]⟩ ⟨2, ![R, C]⟩)
    (hlc : d.lhsContracting = [1]) (hrc : d.rhsContracting = [0]) (hln : d.lhsNonContracting = [0])
    (hrn : d.rhsNonContracting = [1]) (hlb : d.lhsBatch = []) (hrb : d.rhsBatch = [])
    (ht : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![R, C]⟩ ![0, 1])
    (X : FVec Ideal ⟨2, ![R, K]⟩ .f32) (W : FVec Ideal ⟨2, ![C, K]⟩ .f32) (b : FVec Ideal ⟨1, ![C]⟩ .f32)
    (p : Fin R) (q : Fin C) :
    hostLin d ht hb1 hb2 X W b (ix2 p q) = (∑ i : Fin K, X (ix2 p i) * W (ix2 q i)) + b (ix1 q) := by
  unfold hostLin
  rw [addf_apply, host_dot_rows_apply d hlc hrc hln hrn hlb hrb, bcast_vec_rows_apply]
  refine congrArg (· + b (ix1 q)) (Finset.sum_congr rfl fun i _ => ?_)
  exact congrArg (X (ix2 p i) * ·) (transpose10_apply W ht i q)

/-- The variance's divisor: the word 256 less the integer zero converted to a float. -/
def hostCnt : FVec Ideal ⟨0, ![]⟩ .f32 :=
  subf (constant ⟨0, ![]⟩ .f32 0x43800000#32) (sitofp .f32 (constantI ⟨0, ![]⟩ 32 0#32))

/-- The divisor is the word 256: the converted zero is zero. -/
theorem hostCnt_apply : hostCnt ix0 = w256 := by
  have e : (((0#32 : BitVec 32).toInt : ℝ) : EReal) = 0 := by simp
  show Ideal.ofBits .f32 0x43800000#32 - (((0#32 : BitVec 32).toInt : ℝ) : EReal) = w256
  rw [e, sub_zero]

/-- The column means: the column sums from the zero word, divided by the word 256. -/
def hostMean (hred : (⟨2, ![R, C]⟩ : Shape).ReducesTo [0] ⟨1, ![C]⟩) (hS : 0 < (⟨0, ![]⟩ : Shape).numel) (hbSv : (⟨0, ![]⟩ : Shape).BroadcastsInDim ⟨1, ![C]⟩ ![])
    (h : FVec Ideal ⟨2, ![R, C]⟩ .f32) : FVec Ideal ⟨1, ![C]⟩ .f32 :=
  Host.divf (Host.reduceAdd h (constant ⟨0, ![]⟩ .f32 0x00000000#32) hred hS) (broadcastInDim ⟨1, ![C]⟩ ![] hbSv (constant ⟨0, ![]⟩ .f32 0x43800000#32))

theorem hostMean_apply (hred : (⟨2, ![R, C]⟩ : Shape).ReducesTo [0] ⟨1, ![C]⟩) (hS : 0 < (⟨0, ![]⟩ : Shape).numel) (hbSv : (⟨0, ![]⟩ : Shape).BroadcastsInDim ⟨1, ![C]⟩ ![])
    (h : FVec Ideal ⟨2, ![R, C]⟩ .f32) (q : Fin C) :
    hostMean hred hS hbSv h (ix1 q) = colMean (fun p' : Fin R => h (ix2 p' q)) := by
  unfold hostMean colMean
  rw [host_divf_apply, host_colsum0_apply, Cert.Lib.RowVector.bcastInDim_scalar_apply]
  simp only [constant_apply, Ideal.ofBits_zero_f32, zero_add]

/-- The rows less the column means, the means taken through a 1×C row. -/
def hostCent (hred : (⟨2, ![R, C]⟩ : Shape).ReducesTo [0] ⟨1, ![C]⟩) (hS : 0 < (⟨0, ![]⟩ : Shape).numel)
    (hb1 : (⟨1, ![C]⟩ : Shape).BroadcastsInDim ⟨2, ![1, C]⟩ ![1]) (hbSr : (⟨0, ![]⟩ : Shape).BroadcastsInDim ⟨2, ![1, C]⟩ ![])
    (hb2 : (⟨2, ![1, C]⟩ : Shape).BroadcastsInDim ⟨2, ![R, C]⟩ ![0, 1])
    (h : FVec Ideal ⟨2, ![R, C]⟩ .f32) : FVec Ideal ⟨2, ![R, C]⟩ .f32 :=
  subf h (broadcastInDim ⟨2, ![R, C]⟩ ![0, 1] hb2 (Host.divf (broadcastInDim ⟨2, ![1, C]⟩ ![1] hb1 (Host.reduceAdd h (constant ⟨0, ![]⟩ .f32 0x00000000#32) hred hS)) (broadcastInDim ⟨2, ![1, C]⟩ ![] hbSr (constant ⟨0, ![]⟩ .f32 0x43800000#32))))

theorem hostCent_apply (hred : (⟨2, ![R, C]⟩ : Shape).ReducesTo [0] ⟨1, ![C]⟩) (hS : 0 < (⟨0, ![]⟩ : Shape).numel)
    (hb1 : (⟨1, ![C]⟩ : Shape).BroadcastsInDim ⟨2, ![1, C]⟩ ![1]) (hbSr : (⟨0, ![]⟩ : Shape).BroadcastsInDim ⟨2, ![1, C]⟩ ![])
    (hb2 : (⟨2, ![1, C]⟩ : Shape).BroadcastsInDim ⟨2, ![R, C]⟩ ![0, 1])
    (h : FVec Ideal ⟨2, ![R, C]⟩ .f32) (p : Fin R) (q : Fin C) :
    hostCent hred hS hb1 hbSr hb2 h (ix2 p q) = h (ix2 p q) - colMean (fun p' : Fin R => h (ix2 p' q)) := by
  unfold hostCent colMean
  rw [subf_apply, Cert.Lib.RowVector.bcastInDim_rows_apply, host_divf_apply, Cert.Lib.RowVector.bcastInDim_eq_asRow, Cert.Lib.RowVector.asRow_apply,
    host_colsum0_apply, Cert.Lib.RowVector.bcastInDim_scalar_apply]
  simp only [constant_apply, Ideal.ofBits_zero_f32, zero_add]

/-- The guard of the variance's select holds: the word 256 exceeds the zero word. -/
theorem guard_one : FloatOps.cmpf (F := Ideal) (φ := .f32) .ogt w256 (Ideal.ofBits .f32 0x00000000#32) = 1#1 := by
  have hlt : Ideal.ofBits .f32 0x00000000#32 < w256 := by
    rw [Ideal.ofBits_zero_f32]
    show (0 : EReal) < Ideal.ofBits .f32 0x43800000#32
    rw [ofBits_256]
    exact_mod_cast (by norm_num : (0 : ℝ) < 256)
  show BitVec.ofBool (decide (Ideal.ofBits .f32 0x00000000#32 < w256)) = 1#1
  rw [decide_eq_true hlt]
  rfl

/-- The column variances: the sums of the squared centred entries divided by the divisor, selected against the quiet
    NaN where the divisor is not positive. -/
def hostVar (hred : (⟨2, ![R, C]⟩ : Shape).ReducesTo [0] ⟨1, ![C]⟩) (hS : 0 < (⟨0, ![]⟩ : Shape).numel) (hbSv : (⟨0, ![]⟩ : Shape).BroadcastsInDim ⟨1, ![C]⟩ ![])
    (hb1 : (⟨1, ![C]⟩ : Shape).BroadcastsInDim ⟨2, ![1, C]⟩ ![1]) (hbSr : (⟨0, ![]⟩ : Shape).BroadcastsInDim ⟨2, ![1, C]⟩ ![])
    (hb2 : (⟨2, ![1, C]⟩ : Shape).BroadcastsInDim ⟨2, ![R, C]⟩ ![0, 1])
    (h : FVec Ideal ⟨2, ![R, C]⟩ .f32) : FVec Ideal ⟨1, ![C]⟩ .f32 :=
  select (broadcastInDim ⟨1, ![C]⟩ ![] hbSv (cmpf .ogt hostCnt (constant ⟨0, ![]⟩ .f32 0x00000000#32))) (Host.divf (Host.reduceAdd (mulf (hostCent hred hS hb1 hbSr hb2 h) (hostCent hred hS hb1 hbSr hb2 h)) (constant ⟨0, ![]⟩ .f32 0x00000000#32) hred hS) (broadcastInDim ⟨1, ![C]⟩ ![] hbSv hostCnt)) (broadcastInDim ⟨1, ![C]⟩ ![] hbSv (id (constant ⟨0, ![]⟩ .f32 0x7FC00000#32)))

theorem hostVar_apply (hred : (⟨2, ![R, C]⟩ : Shape).ReducesTo [0] ⟨1, ![C]⟩) (hS : 0 < (⟨0, ![]⟩ : Shape).numel) (hbSv : (⟨0, ![]⟩ : Shape).BroadcastsInDim ⟨1, ![C]⟩ ![])
    (hb1 : (⟨1, ![C]⟩ : Shape).BroadcastsInDim ⟨2, ![1, C]⟩ ![1]) (hbSr : (⟨0, ![]⟩ : Shape).BroadcastsInDim ⟨2, ![1, C]⟩ ![])
    (hb2 : (⟨2, ![1, C]⟩ : Shape).BroadcastsInDim ⟨2, ![R, C]⟩ ![0, 1])
    (h : FVec Ideal ⟨2, ![R, C]⟩ .f32) (q : Fin C) :
    hostVar hred hS hbSv hb1 hbSr hb2 h (ix1 q) = colVar (fun p' : Fin R => h (ix2 p' q)) := by
  unfold hostVar colVar
  rw [select_apply, Cert.Lib.RowVector.bcastInDim_scalar_apply, cmpf_apply, hostCnt_apply, constant_apply, guard_one, select_one,
    host_divf_apply, host_colsum0_apply, Cert.Lib.RowVector.bcastInDim_scalar_apply, hostCnt_apply]
  simp only [mulf_apply, hostCent_apply, constant_apply, Ideal.ofBits_zero_f32, zero_add]

/-- Batch normalisation of the columns with scale `g` and shift `b`, then the maximum with the zero word. -/
def hostBN (hred : (⟨2, ![R, C]⟩ : Shape).ReducesTo [0] ⟨1, ![C]⟩) (hS : 0 < (⟨0, ![]⟩ : Shape).numel) (hbSv : (⟨0, ![]⟩ : Shape).BroadcastsInDim ⟨1, ![C]⟩ ![])
    (hb1 : (⟨1, ![C]⟩ : Shape).BroadcastsInDim ⟨2, ![1, C]⟩ ![1]) (hbSr : (⟨0, ![]⟩ : Shape).BroadcastsInDim ⟨2, ![1, C]⟩ ![])
    (hb2 : (⟨2, ![1, C]⟩ : Shape).BroadcastsInDim ⟨2, ![R, C]⟩ ![0, 1]) (hbSm : (⟨0, ![]⟩ : Shape).BroadcastsInDim ⟨2, ![R, C]⟩ ![])
    (h : FVec Ideal ⟨2, ![R, C]⟩ .f32) (g b : FVec Ideal ⟨1, ![C]⟩ .f32) : FVec Ideal ⟨2, ![R, C]⟩ .f32 :=
  maximumf (addf (mulf (mulf (subf h (broadcastInDim ⟨2, ![R, C]⟩ ![0, 1] hb2 (broadcastInDim ⟨2, ![1, C]⟩ ![1] hb1 (hostMean hred hS hbSv h)))) (broadcastInDim ⟨2, ![R, C]⟩ ![0, 1] hb2 (broadcastInDim ⟨2, ![1, C]⟩ ![1] hb1 (Host.rsqrt (addf (hostVar hred hS hbSv hb1 hbSr hb2 h) (broadcastInDim ⟨1, ![C]⟩ ![] hbSv (constant ⟨0, ![]⟩ .f32 0x3727C5AC#32))))))) (broadcastInDim ⟨2, ![R, C]⟩ ![0, 1] hb2 (broadcastInDim ⟨2, ![1, C]⟩ ![1] hb1 g))) (broadcastInDim ⟨2, ![R, C]⟩ ![0, 1] hb2 (broadcastInDim ⟨2, ![1, C]⟩ ![1] hb1 b))) (broadcastInDim ⟨2, ![R, C]⟩ ![] hbSm (constant ⟨0, ![]⟩ .f32 0x00000000#32))

theorem hostBN_apply (hred : (⟨2, ![R, C]⟩ : Shape).ReducesTo [0] ⟨1, ![C]⟩) (hS : 0 < (⟨0, ![]⟩ : Shape).numel) (hbSv : (⟨0, ![]⟩ : Shape).BroadcastsInDim ⟨1, ![C]⟩ ![])
    (hb1 : (⟨1, ![C]⟩ : Shape).BroadcastsInDim ⟨2, ![1, C]⟩ ![1]) (hbSr : (⟨0, ![]⟩ : Shape).BroadcastsInDim ⟨2, ![1, C]⟩ ![])
    (hb2 : (⟨2, ![1, C]⟩ : Shape).BroadcastsInDim ⟨2, ![R, C]⟩ ![0, 1]) (hbSm : (⟨0, ![]⟩ : Shape).BroadcastsInDim ⟨2, ![R, C]⟩ ![])
    (h : FVec Ideal ⟨2, ![R, C]⟩ .f32) (g b : FVec Ideal ⟨1, ![C]⟩ .f32) (p : Fin R) (q : Fin C) :
    hostBN hred hS hbSv hb1 hbSr hb2 hbSm h g b (ix2 p q)
      = bnCol (fun p' : Fin R => h (ix2 p' q)) (g (ix1 q)) (b (ix1 q)) p := by
  unfold hostBN bnCol
  rw [maximumf_apply, addf_apply, mulf_apply, mulf_apply, subf_apply, bcast_vec_rows_apply, bcast_vec_rows_apply,
    bcast_vec_rows_apply, bcast_vec_rows_apply, hostMean_apply, host_rsqrt_apply, addf_apply, hostVar_apply,
    Cert.Lib.RowVector.bcastInDim_scalar_apply, Cert.Lib.RowVector.bcastInDim_scalar_apply]
  rfl

/-- Each row divided by the larger of its Euclidean norm and the word δ. -/
def hostL2 (hred1 : (⟨2, ![R, C]⟩ : Shape).ReducesTo [1] ⟨1, ![R]⟩) (hS : 0 < (⟨0, ![]⟩ : Shape).numel)
    (hb0 : (⟨1, ![R]⟩ : Shape).BroadcastsInDim ⟨2, ![R, 1]⟩ ![0]) (hbSc : (⟨0, ![]⟩ : Shape).BroadcastsInDim ⟨2, ![R, 1]⟩ ![])
    (hbc : (⟨2, ![R, 1]⟩ : Shape).BroadcastsInDim ⟨2, ![R, C]⟩ ![0, 1])
    (y : FVec Ideal ⟨2, ![R, C]⟩ .f32) : FVec Ideal ⟨2, ![R, C]⟩ .f32 :=
  Host.divf y (broadcastInDim ⟨2, ![R, C]⟩ ![0, 1] hbc (maximumf (Host.sqrt (broadcastInDim ⟨2, ![R, 1]⟩ ![0] hb0 (Host.reduceAdd (mulf y y) (constant ⟨0, ![]⟩ .f32 0x00000000#32) hred1 hS))) (broadcastInDim ⟨2, ![R, 1]⟩ ![] hbSc (constant ⟨0, ![]⟩ .f32 0x2B8CBCCC#32))))

theorem hostL2_apply (hred1 : (⟨2, ![R, C]⟩ : Shape).ReducesTo [1] ⟨1, ![R]⟩) (hS : 0 < (⟨0, ![]⟩ : Shape).numel)
    (hb0 : (⟨1, ![R]⟩ : Shape).BroadcastsInDim ⟨2, ![R, 1]⟩ ![0]) (hbSc : (⟨0, ![]⟩ : Shape).BroadcastsInDim ⟨2, ![R, 1]⟩ ![])
    (hbc : (⟨2, ![R, 1]⟩ : Shape).BroadcastsInDim ⟨2, ![R, C]⟩ ![0, 1])
    (y : FVec Ideal ⟨2, ![R, C]⟩ .f32) (p : Fin R) (q : Fin C) :
    hostL2 hred1 hS hb0 hbSc hbc y (ix2 p q) = l2row (fun k : Fin C => y (ix2 p k)) q := by
  unfold hostL2 l2row
  rw [host_divf_apply, Cert.Lib.RowReductions.bcastInDim_cols_apply, maximumf_apply, host_sqrt_apply, Cert.Lib.RowReductions.bcastInDim_col_apply,
    Cert.Lib.HostRows.host_rowsum_apply, Cert.Lib.RowVector.bcastInDim_scalar_apply]
  simp only [mulf_apply, constant_apply, Ideal.ofBits_zero_f32, zero_add]

end Cert.ReferenceIdeal.RefRead.Generic

namespace Cert.ReferenceIdeal.RefRead

open Idealize.ShloMosaic Idealize.ShloMosaic.ValueIdx Cert.ReferenceIdeal Cert.ReferenceIdeal.Gen

/-! ## The reference's stages as instances of the generic spellings -/

theorem lin_eq (X : FVec Ideal S256x64000 .f32) (W : FVec Ideal S1024x64000 .f32) (b : FVec Ideal S1024 .f32) :
    RefRun.lin X W b = Generic.hostLin dot_S256x64000_S64000x1024_S256x1024_1_0_0_1_n_n
      transposes_S1024x64000_S64000x1024_1_0 bcast_S1024_S1x1024_1 bcast_S1x1024_S256x1024_0_1 X W b := rfl

theorem bnRelu1_eq (h : FVec Ideal S256x1024 .f32) (g b : FVec Ideal S1024 .f32) :
    RefRun.bnRelu1 h g b = Generic.hostBN reducesTo_S256x1024_S1024_d0 h_S_ bcast_S_S1024 bcast_S1024_S1x1024_1 bcast_S_S1x1024 bcast_S1x1024_S256x1024_0_1 bcast_S_S256x1024 h g b := rfl

theorem lin2_eq (h : FVec Ideal S256x1024 .f32) (W : FVec Ideal S256x1024 .f32) (b : FVec Ideal S256 .f32) :
    RefRun.lin2 h W b = Generic.hostLin dot_S256x1024_S1024x256_S256x256_1_0_0_1_n_n
      transposes_S256x1024_S1024x256_1_0 bcast_S256_S1x256_1 bcast_S1x256_S256x256_0_1 h W b := rfl

theorem bnRelu2_eq (h : FVec Ideal S256x256 .f32) (g b : FVec Ideal S256 .f32) :
    RefRun.bnRelu2 h g b = Generic.hostBN reducesTo_S256x256_S256_d0 h_S_ bcast_S_S256 bcast_S256_S1x256_1 bcast_S_S1x256 bcast_S1x256_S256x256_0_1 bcast_S_S256x256 h g b := rfl

theorem l2norm_eq (y : FVec Ideal S256x256 .f32) :
    RefRun.l2norm y = Generic.hostL2 reducesTo_S256x256_S256_d1 h_S_ bcast_S256_S256x1_0 bcast_S_S256x1
      bcast_S256x1_S256x256_0_1 y := rfl

/-! ## The readings -/

/-- The first linear layer at (p, j): the row p of `X` against the row j of `W`, plus the bias at j. -/
theorem lin_apply (X : FVec Ideal S256x64000 .f32) (W : FVec Ideal S1024x64000 .f32) (b : FVec Ideal S1024 .f32)
    (p : Fin 256) (j : Fin 1024) :
    RefRun.lin X W b (ix2 p j) = (∑ i : Fin 64000, X (ix2 p i) * W (ix2 j i)) + b (ix1 j) := by
  rw [lin_eq]
  exact Generic.hostLin_apply _ rfl rfl rfl rfl rfl rfl _ _ _ X W b p j

/-- The first normalisation at (p, j): the specification's function of column j. -/
theorem bnRelu1_apply (h : FVec Ideal S256x1024 .f32) (g b : FVec Ideal S1024 .f32) (p : Fin 256) (j : Fin 1024) :
    RefRun.bnRelu1 h g b (ix2 p j)
      = Cert.Lib.ColumnNorm.bnCol (fun p' : Fin 256 => h (ix2 p' j)) (g (ix1 j)) (b (ix1 j)) p := by
  rw [bnRelu1_eq]
  exact Generic.hostBN_apply _ _ _ _ _ _ _ h g b p j

/-- The second linear layer at (p, j). -/
theorem lin2_apply (h : FVec Ideal S256x1024 .f32) (W : FVec Ideal S256x1024 .f32) (b : FVec Ideal S256 .f32)
    (p j : Fin 256) :
    RefRun.lin2 h W b (ix2 p j) = (∑ i : Fin 1024, h (ix2 p i) * W (ix2 j i)) + b (ix1 j) := by
  rw [lin2_eq]
  exact Generic.hostLin_apply _ rfl rfl rfl rfl rfl rfl _ _ _ h W b p j

/-- The second normalisation at (p, j): the specification's function of column j. -/
theorem bnRelu2_apply (h : FVec Ideal S256x256 .f32) (g b : FVec Ideal S256 .f32) (p j : Fin 256) :
    RefRun.bnRelu2 h g b (ix2 p j)
      = Cert.Lib.ColumnNorm.bnCol (fun p' : Fin 256 => h (ix2 p' j)) (g (ix1 j)) (b (ix1 j)) p := by
  rw [bnRelu2_eq]
  exact Generic.hostBN_apply _ _ _ _ _ _ _ h g b p j

/-- The row normalisation at (p, j): the specification's function of row p. -/
theorem l2norm_apply (y : FVec Ideal S256x256 .f32) (p j : Fin 256) :
    RefRun.l2norm y (ix2 p j) = Cert.Lib.ColumnNorm.l2row (fun k : Fin 256 => y (ix2 p k)) j := by
  rw [l2norm_eq]
  exact Generic.hostL2_apply _ _ _ _ _ y p j

end Cert.ReferenceIdeal.RefRead

end
-- ==== Proof.BridgeOps.lean ====
/-
  The reference's operations through the pooled array, cut where each stage of the shared front part ends: the three
  normalised layers of the scoring network (after their clamps) and the softmax-weighted pooling.  The four pieces
  in order are the whole list.
-/
import proofs.«100161_j89575837925663_2_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stage 1 of the front part. -/
abbrev P1 : List (HloOp τ sig (Elt F)) :=
  [ StableHlo.unary main_arg2 main_v0 ((transpose S32x16 [1, 0] · transposes_S16x32_S32x16_1_0) : (⟨S16x32, .f32⟩ : BufTy).Contents (Elt F) → (⟨S32x16, .f32⟩ : BufTy).Contents (Elt F)),
    StableHlo.binary main_arg0 main_v0 main_v1 ((fun l r => Host.dotGeneral dot_S512000x32_S32x16_S512000x16_1_0_0_1_n_n none l r) : (⟨S512000x32, .f32⟩ : BufTy).Contents (Elt F) → (⟨S32x16, .f32⟩ : BufTy).Contents (Elt F) → (⟨S512000x16, .f32⟩ : BufTy).Contents (Elt F)),
    StableHlo.unary main_arg3 main_v2 (broadcastInDim S1x16 ![1] bcast_S16_S1x16_1 : (⟨S16, .f32⟩ : BufTy).Contents (Elt F) → (⟨S1x16, .f32⟩ : BufTy).Contents (Elt F)),
    StableHlo.unary main_v2 main_v3 (broadcastInDim S512000x16 ![0, 1] bcast_S1x16_S512000x16_0_1 : (⟨S1x16, .f32⟩ : BufTy).Contents (Elt F) → (⟨S512000x16, .f32⟩ : BufTy).Contents (Elt F)),
    StableHlo.binary main_v1 main_v3 main_v4 (addf : (⟨S512000x16, .f32⟩ : BufTy).Contents (Elt F) → (⟨S512000x16, .f32⟩ : BufTy).Contents (Elt F) → (⟨S512000x16, .f32⟩ : BufTy).Contents (Elt F)),
    StableHlo.nullary main_cst (constant S_ .f32 0x00000000#32),
    StableHlo.binary main_v4 main_cst main_v5 ((fun x v => Host.reduceAdd x v reducesTo_S512000x16_S16_d0 h_S_) : (⟨S512000x16, .f32⟩ : BufTy).Contents (Elt F) → (⟨S_, .f32⟩ : BufTy).Contents (Elt F) → (⟨S16, .f32⟩ : BufTy).Contents (Elt F)),
    StableHlo.nullary main_cst_0 (constant S_ .f32 0x48FA0000#32),
    StableHlo.unary main_cst_0 main_v6 (broadcastInDim S16 ![] bcast_S_S16 : (⟨S_, .f32⟩ : BufTy).Contents (Elt F) → (⟨S16, .f32⟩ : BufTy).Contents (Elt F)),
    StableHlo.binary main_v5 main_v6 main_v7 (Host.divf : (⟨S16, .f32⟩ : BufTy).Contents (Elt F) → (⟨S16, .f32⟩ : BufTy).Contents (Elt F) → (⟨S16, .f32⟩ : BufTy).Contents (Elt F)),
    StableHlo.nullary main_c (constantI S_ 32 0#32),
    StableHlo.TRef.nullary main_call0.cst (constant S_ .f32 0x00000000#32),
    StableHlo.TRef.binary (.of main_v4 : StableHlo.TRef sig ⟨S512000x16, .f32⟩) main_call0.cst main_call0.v0 (fun x v => Host.reduceAdd x v reducesTo_S512000x16_S16_d0 h_S_),
    StableHlo.TRef.unary main_call0.v0 main_call0.v1 (broadcastInDim S1x16 ![1] bcast_S16_S1x16_1),
    StableHlo.TRef.nullary main_call0.cst_0 (constant S_ .f32 0x48FA0000#32),
    StableHlo.TRef.unary main_call0.cst_0 main_call0.v2 (broadcastInDim S1x16 ![] bcast_S_S1x16),
    StableHlo.TRef.binary main_call0.v1 main_call0.v2 main_call0.v3 Host.divf,
    StableHlo.TRef.unary main_call0.v3 main_call0.v4 (broadcastInDim S512000x16 ![0, 1] bcast_S1x16_S512000x16_0_1),
    StableHlo.TRef.binary (.of main_v4 : StableHlo.TRef sig ⟨S512000x16, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x48FA0000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S512000x16_S16_d0 h_S_),
    StableHlo.TRef.unary main_call0.v8 main_call0.v10 (broadcastInDim S16 ![] bcast_S_S16),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16 ![] bcast_S_S16),
    StableHlo.TRef.ternary main_call0.v12 main_call0.v11 main_call0.call0.v1 main_call0.call0.v2 (fun p a b => select (broadcastInDim S16 ![] bcast_S_S16 p) a b),
    StableHlo.unary main_v7 main_v9 (broadcastInDim S1x16 ![1] bcast_S16_S1x16_1 : (⟨S16, .f32⟩ : BufTy).Contents (Elt F) → (⟨S1x16, .f32⟩ : BufTy).Contents (Elt F)),
    StableHlo.unary main_v9 main_v10 (broadcastInDim S512000x16 ![0, 1] bcast_S1x16_S512000x16_0_1 : (⟨S1x16, .f32⟩ : BufTy).Contents (Elt F) → (⟨S512000x16, .f32⟩ : BufTy).Contents (Elt F)),
    StableHlo.binary main_v4 main_v10 main_v11 (subf : (⟨S512000x16, .f32⟩ : BufTy).Contents (Elt F) → (⟨S512000x16, .f32⟩ : BufTy).Contents (Elt F) → (⟨S512000x16, .f32⟩ : BufTy).Contents (Elt F)),
    StableHlo.nullary main_cst_1 (constant S_ .f32 0x3727C5AC#32),
    StableHlo.unary main_cst_1 main_v12 (broadcastInDim S16 ![] bcast_S_S16 : (⟨S_, .f32⟩ : BufTy).Contents (Elt F) → (⟨S16, .f32⟩ : BufTy).Contents (Elt F)),
    StableHlo.binary main_v8 main_v12 main_v13 (addf : (⟨S16, .f32⟩ : BufTy).Contents (Elt F) → (⟨S16, .f32⟩ : BufTy).Contents (Elt F) → (⟨S16, .f32⟩ : BufTy).Contents (Elt F)),
    StableHlo.unary main_v13 main_v14 (Host.rsqrt : (⟨S16, .f32⟩ : BufTy).Contents (Elt F) → (⟨S16, .f32⟩ : BufTy).Contents (Elt F)),
    StableHlo.unary main_v14 main_v15 (broadcastInDim S1x16 ![1] bcast_S16_S1x16_1 : (⟨S16, .f32⟩ : BufTy).Contents (Elt F) → (⟨S1x16, .f32⟩ : BufTy).Contents (Elt F)),
    StableHlo.unary main_v15 main_v16 (broadcastInDim S512000x16 ![0, 1] bcast_S1x16_S512000x16_0_1 : (⟨S1x16, .f32⟩ : BufTy).Contents (Elt F) → (⟨S512000x16, .f32⟩ : BufTy).Contents (Elt F)),
    StableHlo.binary main_v11 main_v16 main_v17 (mulf : (⟨S512000x16, .f32⟩ : BufTy).Contents (Elt F) → (⟨S512000x16, .f32⟩ : BufTy).Contents (Elt F) → (⟨S512000x16, .f32⟩ : BufTy).Contents (Elt F)),
    StableHlo.unary main_arg4 main_v18 (broadcastInDim S1x16 ![1] bcast_S16_S1x16_1 : (⟨S16, .f32⟩ : BufTy).Contents (Elt F) → (⟨S1x16, .f32⟩ : BufTy).Contents (Elt F)),
    StableHlo.unary main_v18 main_v19 (broadcastInDim S512000x16 ![0, 1] bcast_S1x16_S512000x16_0_1 : (⟨S1x16, .f32⟩ : BufTy).Contents (Elt F) → (⟨S512000x16, .f32⟩ : BufTy).Contents (Elt F)),
    StableHlo.binary main_v17 main_v19 main_v20 (mulf : (⟨S512000x16, .f32⟩ : BufTy).Contents (Elt F) → (⟨S512000x16, .f32⟩ : BufTy).Contents (Elt F) → (⟨S512000x16, .f32⟩ : BufTy).Contents (Elt F)),
    StableHlo.unary main_arg5 main_v21 (broadcastInDim S1x16 ![1] bcast_S16_S1x16_1 : (⟨S16, .f32⟩ : BufTy).Contents (Elt F) → (⟨S1x16, .f32⟩ : BufTy).Contents (Elt F)),
    StableHlo.unary main_v21 main_v22 (broadcastInDim S512000x16 ![0, 1] bcast_S1x16_S512000x16_0_1 : (⟨S1x16, .f32⟩ : BufTy).Contents (Elt F) → (⟨S512000x16, .f32⟩ : BufTy).Contents (Elt F)),
    StableHlo.binary main_v20 main_v22 main_v23 (addf : (⟨S512000x16, .f32⟩ : BufTy).Contents (Elt F) → (⟨S512000x16, .f32⟩ : BufTy).Contents (Elt F) → (⟨S512000x16, .f32⟩ : BufTy).Contents (Elt F)),
    StableHlo.TRef.nullary main_call1.cst (constant S_ .f32 0x00000000#32),
    StableHlo.TRef.unary main_call1.cst main_call1.v0 (broadcastInDim S512000x16 ![] bcast_S_S512000x16),
    StableHlo.TRef.binary (.of main_v23 : StableHlo.TRef sig ⟨S512000x16, .f32⟩) main_call1.v0 main_call1.v1 maximumf ]

/-- Stage 2 of the front part. -/
abbrev P2 : List (HloOp τ sig (Elt F)) :=
  [ StableHlo.unary main_arg6 main_v25 ((transpose S16x8 [1, 0] · transposes_S8x16_S16x8_1_0) : (⟨S8x16, .f32⟩ : BufTy).Contents (Elt F) → (⟨S16x8, .f32⟩ : BufTy).Contents (Elt F)),
    StableHlo.binary main_v24 main_v25 main_v26 ((fun l r => Host.dotGeneral dot_S512000x16_S16x8_S512000x8_1_0_0_1_n_n none l r) : (⟨S512000x16, .f32⟩ : BufTy).Contents (Elt F) → (⟨S16x8, .f32⟩ : BufTy).Contents (Elt F) → (⟨S512000x8, .f32⟩ : BufTy).Contents (Elt F)),
    StableHlo.unary main_arg7 main_v27 (broadcastInDim S1x8 ![1] bcast_S8_S1x8_1 : (⟨S8, .f32⟩ : BufTy).Contents (Elt F) → (⟨S1x8, .f32⟩ : BufTy).Contents (Elt F)),
    StableHlo.unary main_v27 main_v28 (broadcastInDim S512000x8 ![0, 1] bcast_S1x8_S512000x8_0_1 : (⟨S1x8, .f32⟩ : BufTy).Contents (Elt F) → (⟨S512000x8, .f32⟩ : BufTy).Contents (Elt F)),
    StableHlo.binary main_v26 main_v28 main_v29 (addf : (⟨S512000x8, .f32⟩ : BufTy).Contents (Elt F) → (⟨S512000x8, .f32⟩ : BufTy).Contents (Elt F) → (⟨S512000x8, .f32⟩ : BufTy).Contents (Elt F)),
    StableHlo.nullary main_cst_2 (constant S_ .f32 0x00000000#32),
    StableHlo.binary main_v29 main_cst_2 main_v30 ((fun x v => Host.reduceAdd x v reducesTo_S512000x8_S8_d0 h_S_) : (⟨S512000x8, .f32⟩ : BufTy).Contents (Elt F) → (⟨S_, .f32⟩ : BufTy).Contents (Elt F) → (⟨S8, .f32⟩ : BufTy).Contents (Elt F)),
    StableHlo.nullary main_cst_3 (constant S_ .f32 0x48FA0000#32),
    StableHlo.unary main_cst_3 main_v31 (broadcastInDim S8 ![] bcast_S_S8 : (⟨S_, .f32⟩ : BufTy).Contents (Elt F) → (⟨S8, .f32⟩ : BufTy).Contents (Elt F)),
    StableHlo.binary main_v30 main_v31 main_v32 (Host.divf : (⟨S8, .f32⟩ : BufTy).Contents (Elt F) → (⟨S8, .f32⟩ : BufTy).Contents (Elt F) → (⟨S8, .f32⟩ : BufTy).Contents (Elt F)),
    StableHlo.nullary main_c_4 (constantI S_ 32 0#32),
    StableHlo.TRef.nullary main_call2.cst (constant S_ .f32 0x00000000#32),
    StableHlo.TRef.binary (.of main_v29 : StableHlo.TRef sig ⟨S512000x8, .f32⟩) main_call2.cst main_call2.v0 (fun x v => Host.reduceAdd x v reducesTo_S512000x8_S8_d0 h_S_),
    StableHlo.TRef.unary main_call2.v0 main_call2.v1 (broadcastInDim S1x8 ![1] bcast_S8_S1x8_1),
    StableHlo.TRef.nullary main_call2.cst_0 (constant S_ .f32 0x48FA0000#32),
    StableHlo.TRef.unary main_call2.cst_0 main_call2.v2 (broadcastInDim S1x8 ![] bcast_S_S1x8),
    StableHlo.TRef.binary main_call2.v1 main_call2.v2 main_call2.v3 Host.divf,
    StableHlo.TRef.unary main_call2.v3 main_call2.v4 (broadcastInDim S512000x8 ![0, 1] bcast_S1x8_S512000x8_0_1),
    StableHlo.TRef.binary (.of main_v29 : StableHlo.TRef sig ⟨S512000x8, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x48FA0000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S512000x8_S8_d0 h_S_),
    StableHlo.TRef.unary main_call2.v8 main_call2.v10 (broadcastInDim S8 ![] bcast_S_S8),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S8 ![] bcast_S_S8),
    StableHlo.TRef.ternary main_call2.v12 main_call2.v11 main_call2.call0.v1 main_call2.call0.v2 (fun p a b => select (broadcastInDim S8 ![] bcast_S_S8 p) a b),
    StableHlo.unary main_v32 main_v34 (broadcastInDim S1x8 ![1] bcast_S8_S1x8_1 : (⟨S8, .f32⟩ : BufTy).Contents (Elt F) → (⟨S1x8, .f32⟩ : BufTy).Contents (Elt F)),
    StableHlo.unary main_v34 main_v35 (broadcastInDim S512000x8 ![0, 1] bcast_S1x8_S512000x8_0_1 : (⟨S1x8, .f32⟩ : BufTy).Contents (Elt F) → (⟨S512000x8, .f32⟩ : BufTy).Contents (Elt F)),
    StableHlo.binary main_v29 main_v35 main_v36 (subf : (⟨S512000x8, .f32⟩ : BufTy).Contents (Elt F) → (⟨S512000x8, .f32⟩ : BufTy).Contents (Elt F) → (⟨S512000x8, .f32⟩ : BufTy).Contents (Elt F)),
    StableHlo.nullary main_cst_5 (constant S_ .f32 0x3727C5AC#32),
    StableHlo.unary main_cst_5 main_v37 (broadcastInDim S8 ![] bcast_S_S8 : (⟨S_, .f32⟩ : BufTy).Contents (Elt F) → (⟨S8, .f32⟩ : BufTy).Contents (Elt F)),
    StableHlo.binary main_v33 main_v37 main_v38 (addf : (⟨S8, .f32⟩ : BufTy).Contents (Elt F) → (⟨S8, .f32⟩ : BufTy).Contents (Elt F) → (⟨S8, .f32⟩ : BufTy).Contents (Elt F)),
    StableHlo.unary main_v38 main_v39 (Host.rsqrt : (⟨S8, .f32⟩ : BufTy).Contents (Elt F) → (⟨S8, .f32⟩ : BufTy).Contents (Elt F)),
    StableHlo.unary main_v39 main_v40 (broadcastInDim S1x8 ![1] bcast_S8_S1x8_1 : (⟨S8, .f32⟩ : BufTy).Contents (Elt F) → (⟨S1x8, .f32⟩ : BufTy).Contents (Elt F)),
    StableHlo.unary main_v40 main_v41 (broadcastInDim S512000x8 ![0, 1] bcast_S1x8_S512000x8_0_1 : (⟨S1x8, .f32⟩ : BufTy).Contents (Elt F) → (⟨S512000x8, .f32⟩ : BufTy).Contents (Elt F)),
    StableHlo.binary main_v36 main_v41 main_v42 (mulf : (⟨S512000x8, .f32⟩ : BufTy).Contents (Elt F) → (⟨S512000x8, .f32⟩ : BufTy).Contents (Elt F) → (⟨S512000x8, .f32⟩ : BufTy).Contents (Elt F)),
    StableHlo.unary main_arg8 main_v43 (broadcastInDim S1x8 ![1] bcast_S8_S1x8_1 : (⟨S8, .f32⟩ : BufTy).Contents (Elt F) → (⟨S1x8, .f32⟩ : BufTy).Contents (Elt F)),
    StableHlo.unary main_v43 main_v44 (broadcastInDim S512000x8 ![0, 1] bcast_S1x8_S512000x8_0_1 : (⟨S1x8, .f32⟩ : BufTy).Contents (Elt F) → (⟨S512000x8, .f32⟩ : BufTy).Contents (Elt F)),
    StableHlo.binary main_v42 main_v44 main_v45 (mulf : (⟨S512000x8, .f32⟩ : BufTy).Contents (Elt F) → (⟨S512000x8, .f32⟩ : BufTy).Contents (Elt F) → (⟨S512000x8, .f32⟩ : BufTy).Contents (Elt F)),
    StableHlo.unary main_arg9 main_v46 (broadcastInDim S1x8 ![1] bcast_S8_S1x8_1 : (⟨S8, .f32⟩ : BufTy).Contents (Elt F) → (⟨S1x8, .f32⟩ : BufTy).Contents (Elt F)),
    StableHlo.unary main_v46 main_v47 (broadcastInDim S512000x8 ![0, 1] bcast_S1x8_S512000x8_0_1 : (⟨S1x8, .f32⟩ : BufTy).Contents (Elt F) → (⟨S512000x8, .f32⟩ : BufTy).Contents (Elt F)),
    StableHlo.binary main_v45 main_v47 main_v48 (addf : (⟨S512000x8, .f32⟩ : BufTy).Contents (Elt F) → (⟨S512000x8, .f32⟩ : BufTy).Contents (Elt F) → (⟨S512000x8, .f32⟩ : BufTy).Contents (Elt F)),
    StableHlo.TRef.nullary main_call3.cst (constant S_ .f32 0x00000000#32),
    StableHlo.TRef.unary main_call3.cst main_call3.v0 (broadcastInDim S512000x8 ![] bcast_S_S512000x8),
    StableHlo.TRef.binary (.of main_v48 : StableHlo.TRef sig ⟨S512000x8, .f32⟩) main_call3.v0 main_call3.v1 maximumf ]

/-- Stage 3 of the front part. -/
abbrev P3 : List (HloOp τ sig (Elt F)) :=
  [ StableHlo.unary main_arg10 main_v50 ((transpose S8x1 [1, 0] · transposes_S1x8_S8x1_1_0) : (⟨S1x8, .f32⟩ : BufTy).Contents (Elt F) → (⟨S8x1, .f32⟩ : BufTy).Contents (Elt F)),
    StableHlo.binary main_v49 main_v50 main_v51 ((fun l r => Host.dotGeneral dot_S512000x8_S8x1_S512000x1_1_0_0_1_n_n none l r) : (⟨S512000x8, .f32⟩ : BufTy).Contents (Elt F) → (⟨S8x1, .f32⟩ : BufTy).Contents (Elt F) → (⟨S512000x1, .f32⟩ : BufTy).Contents (Elt F)),
    StableHlo.unary main_arg11 main_v52 (broadcastInDim S1x1 ![1] bcast_S1_S1x1_1 : (⟨S1, .f32⟩ : BufTy).Contents (Elt F) → (⟨S1x1, .f32⟩ : BufTy).Contents (Elt F)),
    StableHlo.unary main_v52 main_v53 (broadcastInDim S512000x1 ![0, 1] bcast_S1x1_S512000x1_0_1 : (⟨S1x1, .f32⟩ : BufTy).Contents (Elt F) → (⟨S512000x1, .f32⟩ : BufTy).Contents (Elt F)),
    StableHlo.binary main_v51 main_v53 main_v54 (addf : (⟨S512000x1, .f32⟩ : BufTy).Contents (Elt F) → (⟨S512000x1, .f32⟩ : BufTy).Contents (Elt F) → (⟨S512000x1, .f32⟩ : BufTy).Contents (Elt F)),
    StableHlo.nullary main_cst_6 (constant S_ .f32 0x00000000#32),
    StableHlo.binary main_v54 main_cst_6 main_v55 ((fun x v => Host.reduceAdd x v reducesTo_S512000x1_S1_d0 h_S_) : (⟨S512000x1, .f32⟩ : BufTy).Contents (Elt F) → (⟨S_, .f32⟩ : BufTy).Contents (Elt F) → (⟨S1, .f32⟩ : BufTy).Contents (Elt F)),
    StableHlo.nullary main_cst_7 (constant S_ .f32 0x48FA0000#32),
    StableHlo.unary main_cst_7 main_v56 (broadcastInDim S1 ![] bcast_S_S1 : (⟨S_, .f32⟩ : BufTy).Contents (Elt F) → (⟨S1, .f32⟩ : BufTy).Contents (Elt F)),
    StableHlo.binary main_v55 main_v56 main_v57 (Host.divf : (⟨S1, .f32⟩ : BufTy).Contents (Elt F) → (⟨S1, .f32⟩ : BufTy).Contents (Elt F) → (⟨S1, .f32⟩ : BufTy).Contents (Elt F)),
    StableHlo.nullary main_c_8 (constantI S_ 32 0#32),
    StableHlo.TRef.nullary main_call4.cst (constant S_ .f32 0x00000000#32),
    StableHlo.TRef.binary (.of main_v54 : StableHlo.TRef sig ⟨S512000x1, .f32⟩) main_call4.cst main_call4.v0 (fun x v => Host.reduceAdd x v reducesTo_S512000x1_S1_d0 h_S_),
    StableHlo.TRef.unary main_call4.v0 main_call4.v1 (broadcastInDim S1x1 ![1] bcast_S1_S1x1_1),
    StableHlo.TRef.nullary main_call4.cst_0 (constant S_ .f32 0x48FA0000#32),
    StableHlo.TRef.unary main_call4.cst_0 main_call4.v2 (broadcastInDim S1x1 ![] bcast_S_S1x1),
    StableHlo.TRef.binary main_call4.v1 main_call4.v2 main_call4.v3 Host.divf,
    StableHlo.TRef.unary main_call4.v3 main_call4.v4 (broadcastInDim S512000x1 ![0, 1] bcast_S1x1_S512000x1_0_1),
    StableHlo.TRef.binary (.of main_v54 : StableHlo.TRef sig ⟨S512000x1, .f32⟩) main_call4.v4 main_call4.v5 subf,
    StableHlo.TRef.binary main_call4.v5 main_call4.v5 main_call4.v6 mulf,
    StableHlo.TRef.unary (.of main_c_8 : StableHlo.TRef sig ⟨S_, .i32⟩) main_call4.v7 (sitofp .f32),
    StableHlo.TRef.nullary main_call4.cst_1 (constant S_ .f32 0x48FA0000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S512000x1_S1_d0 h_S_),
    StableHlo.TRef.unary main_call4.v8 main_call4.v10 (broadcastInDim S1 ![] bcast_S_S1),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1 ![] bcast_S_S1),
    StableHlo.TRef.ternary main_call4.v12 main_call4.v11 main_call4.call0.v1 main_call4.call0.v2 (fun p a b => select (broadcastInDim S1 ![] bcast_S_S1 p) a b),
    StableHlo.unary main_v57 main_v59 (broadcastInDim S1x1 ![1] bcast_S1_S1x1_1 : (⟨S1, .f32⟩ : BufTy).Contents (Elt F) → (⟨S1x1, .f32⟩ : BufTy).Contents (Elt F)),
    StableHlo.unary main_v59 main_v60 (broadcastInDim S512000x1 ![0, 1] bcast_S1x1_S512000x1_0_1 : (⟨S1x1, .f32⟩ : BufTy).Contents (Elt F) → (⟨S512000x1, .f32⟩ : BufTy).Contents (Elt F)),
    StableHlo.binary main_v54 main_v60 main_v61 (subf : (⟨S512000x1, .f32⟩ : BufTy).Contents (Elt F) → (⟨S512000x1, .f32⟩ : BufTy).Contents (Elt F) → (⟨S512000x1, .f32⟩ : BufTy).Contents (Elt F)),
    StableHlo.nullary main_cst_9 (constant S_ .f32 0x3727C5AC#32),
    StableHlo.unary main_cst_9 main_v62 (broadcastInDim S1 ![] bcast_S_S1 : (⟨S_, .f32⟩ : BufTy).Contents (Elt F) → (⟨S1, .f32⟩ : BufTy).Contents (Elt F)),
    StableHlo.binary main_v58 main_v62 main_v63 (addf : (⟨S1, .f32⟩ : BufTy).Contents (Elt F) → (⟨S1, .f32⟩ : BufTy).Contents (Elt F) → (⟨S1, .f32⟩ : BufTy).Contents (Elt F)),
    StableHlo.unary main_v63 main_v64 (Host.rsqrt : (⟨S1, .f32⟩ : BufTy).Contents (Elt F) → (⟨S1, .f32⟩ : BufTy).Contents (Elt F)),
    StableHlo.unary main_v64 main_v65 (broadcastInDim S1x1 ![1] bcast_S1_S1x1_1 : (⟨S1, .f32⟩ : BufTy).Contents (Elt F) → (⟨S1x1, .f32⟩ : BufTy).Contents (Elt F)),
    StableHlo.unary main_v65 main_v66 (broadcastInDim S512000x1 ![0, 1] bcast_S1x1_S512000x1_0_1 : (⟨S1x1, .f32⟩ : BufTy).Contents (Elt F) → (⟨S512000x1, .f32⟩ : BufTy).Contents (Elt F)),
    StableHlo.binary main_v61 main_v66 main_v67 (mulf : (⟨S512000x1, .f32⟩ : BufTy).Contents (Elt F) → (⟨S512000x1, .f32⟩ : BufTy).Contents (Elt F) → (⟨S512000x1, .f32⟩ : BufTy).Contents (Elt F)),
    StableHlo.unary main_arg12 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S512000x1 ![0, 1] bcast_S1x1_S512000x1_0_1 : (⟨S1x1, .f32⟩ : BufTy).Contents (Elt F) → (⟨S512000x1, .f32⟩ : BufTy).Contents (Elt F)),
    StableHlo.binary main_v67 main_v69 main_v70 (mulf : (⟨S512000x1, .f32⟩ : BufTy).Contents (Elt F) → (⟨S512000x1, .f32⟩ : BufTy).Contents (Elt F) → (⟨S512000x1, .f32⟩ : BufTy).Contents (Elt F)),
    StableHlo.unary main_arg13 main_v71 (broadcastInDim S1x1 ![1] bcast_S1_S1x1_1 : (⟨S1, .f32⟩ : BufTy).Contents (Elt F) → (⟨S1x1, .f32⟩ : BufTy).Contents (Elt F)),
    StableHlo.unary main_v71 main_v72 (broadcastInDim S512000x1 ![0, 1] bcast_S1x1_S512000x1_0_1 : (⟨S1x1, .f32⟩ : BufTy).Contents (Elt F) → (⟨S512000x1, .f32⟩ : BufTy).Contents (Elt F)),
    StableHlo.binary main_v70 main_v72 main_v73 (addf : (⟨S512000x1, .f32⟩ : BufTy).Contents (Elt F) → (⟨S512000x1, .f32⟩ : BufTy).Contents (Elt F) → (⟨S512000x1, .f32⟩ : BufTy).Contents (Elt F)),
    StableHlo.TRef.nullary main_call5.cst (constant S_ .f32 0x00000000#32),
    StableHlo.TRef.unary main_call5.cst main_call5.v0 (broadcastInDim S512000x1 ![] bcast_S_S512000x1),
    StableHlo.TRef.binary (.of main_v73 : StableHlo.TRef sig ⟨S512000x1, .f32⟩) main_call5.v0 main_call5.v1 maximumf ]

/-- Stage 4 of the front part. -/
abbrev P4 : List (HloOp τ sig (Elt F)) :=
  [ StableHlo.reshape main_v74 main_v75 rfl shapeCasts_S512000x1_S256x2000x1,
    StableHlo.nullary main_cst_10 (constant S_ .f32 0xFF800000#32),
    StableHlo.binary main_v75 main_cst_10 main_v76 ((fun x v => Host.reduce FloatOps.maximumf x v reducesTo_S256x2000x1_S256x1_d1 h_S_) : (⟨S256x2000x1, .f32⟩ : BufTy).Contents (Elt F) → (⟨S_, .f32⟩ : BufTy).Contents (Elt F) → (⟨S256x1, .f32⟩ : BufTy).Contents (Elt F)),
    StableHlo.nullary main_cst_11 (constant S_ .f32 0xFF800000#32),
    StableHlo.unary main_cst_11 main_v77 (broadcastInDim S256x1 ![] bcast_S_S256x1 : (⟨S_, .f32⟩ : BufTy).Contents (Elt F) → (⟨S256x1, .f32⟩ : BufTy).Contents (Elt F)),
    StableHlo.binary main_v77 main_v76 main_v78 (maximumf : (⟨S256x1, .f32⟩ : BufTy).Contents (Elt F) → (⟨S256x1, .f32⟩ : BufTy).Contents (Elt F) → (⟨S256x1, .f32⟩ : BufTy).Contents (Elt F)),
    StableHlo.unary main_v78 main_v79 (broadcastInDim S256x1x1 ![0, 2] bcast_S256x1_S256x1x1_0_2 : (⟨S256x1, .f32⟩ : BufTy).Contents (Elt F) → (⟨S256x1x1, .f32⟩ : BufTy).Contents (Elt F)),
    StableHlo.unary main_v79 main_v80 (broadcastInDim S256x2000x1 ![0, 1, 2] bcast_S256x1x1_S256x2000x1_0_1_2 : (⟨S256x1x1, .f32⟩ : BufTy).Contents (Elt F) → (⟨S256x2000x1, .f32⟩ : BufTy).Contents (Elt F)),
    StableHlo.binary main_v75 main_v80 main_v81 (subf : (⟨S256x2000x1, .f32⟩ : BufTy).Contents (Elt F) → (⟨S256x2000x1, .f32⟩ : BufTy).Contents (Elt F) → (⟨S256x2000x1, .f32⟩ : BufTy).Contents (Elt F)),
    StableHlo.unary main_v81 main_v82 (Host.exp : (⟨S256x2000x1, .f32⟩ : BufTy).Contents (Elt F) → (⟨S256x2000x1, .f32⟩ : BufTy).Contents (Elt F)),
    StableHlo.nullary main_cst_12 (constant S_ .f32 0x00000000#32),
    StableHlo.binary main_v82 main_cst_12 main_v83 ((fun x v => Host.reduceAdd x v reducesTo_S256x2000x1_S256x1_d1 h_S_) : (⟨S256x2000x1, .f32⟩ : BufTy).Contents (Elt F) → (⟨S_, .f32⟩ : BufTy).Contents (Elt F) → (⟨S256x1, .f32⟩ : BufTy).Contents (Elt F)),
    StableHlo.unary main_v83 main_v84 (broadcastInDim S256x1x1 ![0, 2] bcast_S256x1_S256x1x1_0_2 : (⟨S256x1, .f32⟩ : BufTy).Contents (Elt F) → (⟨S256x1x1, .f32⟩ : BufTy).Contents (Elt F)),
    StableHlo.unary main_v84 main_v85 (broadcastInDim S256x2000x1 ![0, 1, 2] bcast_S256x1x1_S256x2000x1_0_1_2 : (⟨S256x1x1, .f32⟩ : BufTy).Contents (Elt F) → (⟨S256x2000x1, .f32⟩ : BufTy).Contents (Elt F)),
    StableHlo.binary main_v82 main_v85 main_v86 (Host.divf : (⟨S256x2000x1, .f32⟩ : BufTy).Contents (Elt F) → (⟨S256x2000x1, .f32⟩ : BufTy).Contents (Elt F) → (⟨S256x2000x1, .f32⟩ : BufTy).Contents (Elt F)),
    StableHlo.reshape main_arg0 main_v87 rfl shapeCasts_S512000x32_S256x2000x32,
    StableHlo.unary main_v86 main_v88 (broadcastInDim S256x2000x32 ![0, 1, 2] bcast_S256x2000x1_S256x2000x32_0_1_2 : (⟨S256x2000x1, .f32⟩ : BufTy).Contents (Elt F) → (⟨S256x2000x32, .f32⟩ : BufTy).Contents (Elt F)),
    StableHlo.binary main_v87 main_v88 main_v89 (mulf : (⟨S256x2000x32, .f32⟩ : BufTy).Contents (Elt F) → (⟨S256x2000x32, .f32⟩ : BufTy).Contents (Elt F) → (⟨S256x2000x32, .f32⟩ : BufTy).Contents (Elt F)),
    StableHlo.reshape main_v89 main_v90 rfl shapeCasts_S256x2000x32_S256x64000 ]

set_option maxRecDepth 65536 in
theorem opsP_split : (opsP : List (HloOp τ sig (Elt F))) = P1 ++ (P2 ++ (P3 ++ P4)) := rfl

theorem after_opsP (W : Valuation τ sig (Elt F)) : after opsP W = after P4 (after P3 (after P2 (after P1 W))) := by
  rw [opsP_split, after_append, after_append, after_append]

/-- A buffer the front part does not write keeps its contents through each piece. -/
theorem keep_of_mem {P : List (HloOp τ sig (Elt F))} (hP : ∀ op ∈ P, op ∈ (opsP : List (HloOp τ sig (Elt F))))
    (W : Valuation τ sig (Elt F)) (r : Ref sig .tc) (h : r ∉ opsP_W) : after P W (Proc.devRef .tc r) = W (Proc.devRef .tc r) :=
  after_of_writes_sub P W (List.forall_iff_forall_mem.mpr fun op hop => (List.forall_iff_forall_mem.mp opsP_writes) op (hP op hop)) h

theorem P1_sub : ∀ op ∈ (P1 : List (HloOp τ sig (Elt F))), op ∈ (opsP : List (HloOp τ sig (Elt F))) := fun op h => by
  rw [opsP_split]; exact List.mem_append_left _ h
theorem P2_sub : ∀ op ∈ (P2 : List (HloOp τ sig (Elt F))), op ∈ (opsP : List (HloOp τ sig (Elt F))) := fun op h => by
  rw [opsP_split]; exact List.mem_append_right _ (List.mem_append_left _ h)
theorem P3_sub : ∀ op ∈ (P3 : List (HloOp τ sig (Elt F))), op ∈ (opsP : List (HloOp τ sig (Elt F))) := fun op h => by
  rw [opsP_split]; exact List.mem_append_right _ (List.mem_append_right _ (List.mem_append_left _ h))

end Cert.ReferenceIdeal.RefRun

end
-- ==== Proof.BridgeS1.lean ====
/-
  Stage 1 of the front part: the kernel's program and the reference apply the same operations, so from contents that
  agree on what the stage reads they leave the same contents in what it produces.
-/
import proofs.«100161_j89575837925663_2_alg».proof.Proof.BridgeOps
import proofs.«100161_j89575837925663_2_alg».proof.Proof.Gen.KernelIdeal.Regions

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 16000000 in
theorem stage1 (V : Valuation Cert.KernelIdeal.τ Cert.KernelIdeal.sig (Elt F)) (W : Valuation Cert.ReferenceIdeal.τ Cert.ReferenceIdeal.sig (Elt F))
    (h0 : W (Proc.devRef (τ := Cert.ReferenceIdeal.τ) .tc Cert.ReferenceIdeal.main_arg0) = V (Proc.devRef (τ := Cert.KernelIdeal.τ) .tc Cert.KernelIdeal.main_arg0))
    (h1 : W (Proc.devRef (τ := Cert.ReferenceIdeal.τ) .tc Cert.ReferenceIdeal.main_arg2) = V (Proc.devRef (τ := Cert.KernelIdeal.τ) .tc Cert.KernelIdeal.main_arg2))
    (h2 : W (Proc.devRef (τ := Cert.ReferenceIdeal.τ) .tc Cert.ReferenceIdeal.main_arg3) = V (Proc.devRef (τ := Cert.KernelIdeal.τ) .tc Cert.KernelIdeal.main_arg3))
    (h3 : W (Proc.devRef (τ := Cert.ReferenceIdeal.τ) .tc Cert.ReferenceIdeal.main_arg4) = V (Proc.devRef (τ := Cert.KernelIdeal.τ) .tc Cert.KernelIdeal.main_arg4))
    (h4 : W (Proc.devRef (τ := Cert.ReferenceIdeal.τ) .tc Cert.ReferenceIdeal.main_arg5) = V (Proc.devRef (τ := Cert.KernelIdeal.τ) .tc Cert.KernelIdeal.main_arg5)) :
    (after Cert.KernelIdeal.Gen.hostOps0_3 (after Cert.KernelIdeal.Gen.hostOps0_2 (after Cert.KernelIdeal.Gen.hostOps0_1 (after Cert.KernelIdeal.Gen.hostOps0 V)))) (Proc.devRef (τ := Cert.KernelIdeal.τ) .tc Cert.KernelIdeal.main_v24)
      = after (Cert.ReferenceIdeal.RefRun.P1 (F := F)) W (Proc.devRef (τ := Cert.ReferenceIdeal.τ) .tc Cert.ReferenceIdeal.main_v24) := by
  simp only [Cert.KernelIdeal.Gen.hostOps0, Cert.KernelIdeal.Gen.hostOps0_1, Cert.KernelIdeal.Gen.hostOps0_2, Cert.KernelIdeal.Gen.hostOps0_3, Cert.ReferenceIdeal.RefRun.P1]
  after_results_simp
  simp only [h0, h1, h2, h3, h4]
  rfl

end Cert.Bridge

end
-- ==== Proof.BridgeS2.lean ====
/-
  Stage 2 of the front part: the kernel's program and the reference apply the same operations, so from contents that
  agree on what the stage reads they leave the same contents in what it produces.
-/
import proofs.«100161_j89575837925663_2_alg».proof.Proof.BridgeOps
import proofs.«100161_j89575837925663_2_alg».proof.Proof.Gen.KernelIdeal.Regions

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 16000000 in
theorem stage2 (V : Valuation Cert.KernelIdeal.τ Cert.KernelIdeal.sig (Elt F)) (W : Valuation Cert.ReferenceIdeal.τ Cert.ReferenceIdeal.sig (Elt F))
    (h0 : W (Proc.devRef (τ := Cert.ReferenceIdeal.τ) .tc Cert.ReferenceIdeal.main_v24) = V (Proc.devRef (τ := Cert.KernelIdeal.τ) .tc Cert.KernelIdeal.main_v24))
    (h1 : W (Proc.devRef (τ := Cert.ReferenceIdeal.τ) .tc Cert.ReferenceIdeal.main_arg6) = V (Proc.devRef (τ := Cert.KernelIdeal.τ) .tc Cert.KernelIdeal.main_arg6))
    (h2 : W (Proc.devRef (τ := Cert.ReferenceIdeal.τ) .tc Cert.ReferenceIdeal.main_arg7) = V (Proc.devRef (τ := Cert.KernelIdeal.τ) .tc Cert.KernelIdeal.main_arg7))
    (h3 : W (Proc.devRef (τ := Cert.ReferenceIdeal.τ) .tc Cert.ReferenceIdeal.main_arg8) = V (Proc.devRef (τ := Cert.KernelIdeal.τ) .tc Cert.KernelIdeal.main_arg8))
    (h4 : W (Proc.devRef (τ := Cert.ReferenceIdeal.τ) .tc Cert.ReferenceIdeal.main_arg9) = V (Proc.devRef (τ := Cert.KernelIdeal.τ) .tc Cert.KernelIdeal.main_arg9)) :
    (after Cert.KernelIdeal.Gen.hostOps0_7 (after Cert.KernelIdeal.Gen.hostOps0_6 (after Cert.KernelIdeal.Gen.hostOps0_5 (after Cert.KernelIdeal.Gen.hostOps0_4 V)))) (Proc.devRef (τ := Cert.KernelIdeal.τ) .tc Cert.KernelIdeal.main_v49)
      = after (Cert.ReferenceIdeal.RefRun.P2 (F := F)) W (Proc.devRef (τ := Cert.ReferenceIdeal.τ) .tc Cert.ReferenceIdeal.main_v49) := by
  simp only [Cert.KernelIdeal.Gen.hostOps0_4, Cert.KernelIdeal.Gen.hostOps0_5, Cert.KernelIdeal.Gen.hostOps0_6, Cert.KernelIdeal.Gen.hostOps0_7, Cert.ReferenceIdeal.RefRun.P2]
  after_results_simp
  simp only [h0, h1, h2, h3, h4]
  rfl

end Cert.Bridge

end
-- ==== Proof.BridgeS3.lean ====
/-
  Stage 3 of the front part: the kernel's program and the reference apply the same operations, so from contents that
  agree on what the stage reads they leave the same contents in what it produces.
-/
import proofs.«100161_j89575837925663_2_alg».proof.Proof.BridgeOps
import proofs.«100161_j89575837925663_2_alg».proof.Proof.Gen.KernelIdeal.Regions

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 16000000 in
theorem stage3 (V : Valuation Cert.KernelIdeal.τ Cert.KernelIdeal.sig (Elt F)) (W : Valuation Cert.ReferenceIdeal.τ Cert.ReferenceIdeal.sig (Elt F))
    (h0 : W (Proc.devRef (τ := Cert.ReferenceIdeal.τ) .tc Cert.ReferenceIdeal.main_v49) = V (Proc.devRef (τ := Cert.KernelIdeal.τ) .tc Cert.KernelIdeal.main_v49))
    (h1 : W (Proc.devRef (τ := Cert.ReferenceIdeal.τ) .tc Cert.ReferenceIdeal.main_arg10) = V (Proc.devRef (τ := Cert.KernelIdeal.τ) .tc Cert.KernelIdeal.main_arg10))
    (h2 : W (Proc.devRef (τ := Cert.ReferenceIdeal.τ) .tc Cert.ReferenceIdeal.main_arg11) = V (Proc.devRef (τ := Cert.KernelIdeal.τ) .tc Cert.KernelIdeal.main_arg11))
    (h3 : W (Proc.devRef (τ := Cert.ReferenceIdeal.τ) .tc Cert.ReferenceIdeal.main_arg12) = V (Proc.devRef (τ := Cert.KernelIdeal.τ) .tc Cert.KernelIdeal.main_arg12))
    (h4 : W (Proc.devRef (τ := Cert.ReferenceIdeal.τ) .tc Cert.ReferenceIdeal.main_arg13) = V (Proc.devRef (τ := Cert.KernelIdeal.τ) .tc Cert.KernelIdeal.main_arg13)) :
    (after Cert.KernelIdeal.Gen.hostOps0_11 (after Cert.KernelIdeal.Gen.hostOps0_10 (after Cert.KernelIdeal.Gen.hostOps0_9 (after Cert.KernelIdeal.Gen.hostOps0_8 V)))) (Proc.devRef (τ := Cert.KernelIdeal.τ) .tc Cert.KernelIdeal.main_v74)
      = after (Cert.ReferenceIdeal.RefRun.P3 (F := F)) W (Proc.devRef (τ := Cert.ReferenceIdeal.τ) .tc Cert.ReferenceIdeal.main_v74) := by
  simp only [Cert.KernelIdeal.Gen.hostOps0_8, Cert.KernelIdeal.Gen.hostOps0_9, Cert.KernelIdeal.Gen.hostOps0_10, Cert.KernelIdeal.Gen.hostOps0_11, Cert.ReferenceIdeal.RefRun.P3]
  after_results_simp
  simp only [h0, h1, h2, h3, h4]
  rfl

end Cert.Bridge

end
-- ==== Proof.BridgeS4.lean ====
/-
  Stage 4 of the front part: the kernel's program and the reference apply the same operations, so from contents that
  agree on what the stage reads they leave the same contents in what it produces.
-/
import proofs.«100161_j89575837925663_2_alg».proof.Proof.BridgeOps
import proofs.«100161_j89575837925663_2_alg».proof.Proof.Gen.KernelIdeal.Regions

set_option maxRecDepth 16384

noncomputable section

namespace Cert.Bridge

open Idealize.ShloMosaic Idealize.ShloMosaic.TcCoe Idealize.SL.Sem Idealize.ShloMosaic.StableHlo

variable {F : FTy → Type} [FloatOps F]

set_option maxHeartbeats 16000000 in
theorem stage4 (V : Valuation Cert.KernelIdeal.τ Cert.KernelIdeal.sig (Elt F)) (W : Valuation Cert.ReferenceIdeal.τ Cert.ReferenceIdeal.sig (Elt F))
    (h0 : W (Proc.devRef (τ := Cert.ReferenceIdeal.τ) .tc Cert.ReferenceIdeal.main_v74) = V (Proc.devRef (τ := Cert.KernelIdeal.τ) .tc Cert.KernelIdeal.main_v74))
    (h1 : W (Proc.devRef (τ := Cert.ReferenceIdeal.τ) .tc Cert.ReferenceIdeal.main_arg0) = V (Proc.devRef (τ := Cert.KernelIdeal.τ) .tc Cert.KernelIdeal.main_arg0)) :
    (after Cert.KernelIdeal.Gen.hostOps0_12 V) (Proc.devRef (τ := Cert.KernelIdeal.τ) .tc Cert.KernelIdeal.main_v90)
      = after (Cert.ReferenceIdeal.RefRun.P4 (F := F)) W (Proc.devRef (τ := Cert.ReferenceIdeal.τ) .tc Cert.ReferenceIdeal.main_v90) := by
  simp only [Cert.KernelIdeal.Gen.hostOps0_12, Cert.ReferenceIdeal.RefRun.P4]
  after_results_simp
  simp only [h0, h1]
  rfl

end Cert.Bridge

end
-- ==== Proof.Bridge.lean ====
/-
  The two idealized programs compute the same result.  Their front parts — the scoring network, the softmax over
  each segment and the weighted pooling — are the same operations, so from memories that agree on the arguments
  the pooled array is the same on both sides (stage by stage).  After it, the kernel's first region accumulates the
  first dense layer's product over twenty blocks of columns and normalises each block of output columns, its
  second region does the second layer and the row normalisation; the reference does the same layers on whole
  arrays.  Entry by entry both are the row normalisation of the normalised second layer of the normalised first
  layer: sums regrouped (no finiteness needed), the reference's variance guard decided (256 − 0 > 0).
-/
import proofs.«100161_j89575837925663_2_alg».proof.Proof.KI.Final
import proofs.«100161_j89575837925663_2_alg».proof.Proof.KI.Entry
import proofs.«100161_j89575837925663_2_alg».proof.Proof.KI.Frame
import proofs.«100161_j89575837925663_2_alg».proof.Proof.K.Frame
import proofs.«100161_j89575837925663_2_alg».proof.Proof.RefRead
import proofs.«100161_j89575837925663_2_alg».proof.Proof.BridgeS1
import proofs.«100161_j89575837925663_2_alg».proof.Proof.BridgeS2
import proofs.«100161_j89575837925663_2_alg».proof.Proof.BridgeS3
import proofs.«100161_j89575837925663_2_alg».proof.Proof.BridgeS4
import proofs.«100161_j89575837925663_2_alg».proof.Defs

set_option maxRecDepth 16384

noncomputable section

namespace Cert.Bridge

open Idealize.ShloMosaic Idealize.ShloMosaic.TcCoe Idealize.SL.Sem Idealize.ShloMosaic.StableHlo Idealize.ShloMosaic.ValueIdx
open Cert.Lib.ColumnNorm Cert.KernelIdeal.Hand
open scoped BigOperators

section
variable {F : FTy → Type} [FloatOps F]
variable (m : (ℓ : Loc Cert.KernelIdeal.nD Cert.KernelIdeal.τ Cert.KernelIdeal.sig) → Buf (Elt F) ℓ)

theorem V4_keep (c : Dev Cert.KernelIdeal.nD) (r : Ref Cert.KernelIdeal.sig .tc) (h0 : r ∉ Cert.KernelIdeal.Gen.hostOps0_W) (h1 : r ∉ Cert.KernelIdeal.Gen.hostOps0_1_W) (h2 : r ∉ Cert.KernelIdeal.Gen.hostOps0_2_W) (h3 : r ∉ Cert.KernelIdeal.Gen.hostOps0_3_W) :
    Cert.KernelIdeal.Gen.V4 m c r = m ((c : Thread Cert.KernelIdeal.nD Cert.KernelIdeal.τ).loc r) := by
  rw [Cert.KernelIdeal.Gen.V4_of m c r h3, Cert.KernelIdeal.Gen.V3_of m c r h2, Cert.KernelIdeal.Gen.V2_of m c r h1, Cert.KernelIdeal.Gen.V1_of m c r h0]

theorem V8_keep (c : Dev Cert.KernelIdeal.nD) (r : Ref Cert.KernelIdeal.sig .tc) (h0 : r ∉ Cert.KernelIdeal.Gen.hostOps0_W) (h1 : r ∉ Cert.KernelIdeal.Gen.hostOps0_1_W) (h2 : r ∉ Cert.KernelIdeal.Gen.hostOps0_2_W) (h3 : r ∉ Cert.KernelIdeal.Gen.hostOps0_3_W) (h4 : r ∉ Cert.KernelIdeal.Gen.hostOps0_4_W) (h5 : r ∉ Cert.KernelIdeal.Gen.hostOps0_5_W) (h6 : r ∉ Cert.KernelIdeal.Gen.hostOps0_6_W) (h7 : r ∉ Cert.KernelIdeal.Gen.hostOps0_7_W) :
    Cert.KernelIdeal.Gen.V8 m c r = m ((c : Thread Cert.KernelIdeal.nD Cert.KernelIdeal.τ).loc r) := by
  rw [Cert.KernelIdeal.Gen.V8_of m c r h7, Cert.KernelIdeal.Gen.V7_of m c r h6, Cert.KernelIdeal.Gen.V6_of m c r h5, Cert.KernelIdeal.Gen.V5_of m c r h4, Cert.KernelIdeal.Gen.V4_of m c r h3, Cert.KernelIdeal.Gen.V3_of m c r h2, Cert.KernelIdeal.Gen.V2_of m c r h1, Cert.KernelIdeal.Gen.V1_of m c r h0]

end

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- THE POOLED ARRAY is the same on both sides. -/
theorem pooled_agree (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) (c : Dev Cert.KernelIdeal.nD) :
    Cert.KernelIdeal.Gen.V13 m c Cert.KernelIdeal.main_v90 = after Cert.ReferenceIdeal.RefRun.opsP (launchContents m' c) (Proc.devRef (τ := Cert.ReferenceIdeal.τ) .tc Cert.ReferenceIdeal.main_v90) := by
  rw [Cert.ReferenceIdeal.RefRun.after_opsP]
  have s1 := stage1 (Cert.KernelIdeal.Gen.V0 m c) (launchContents m' c) (hag c).1 (hag c).2.2.1 (hag c).2.2.2.1 (hag c).2.2.2.2.1 (hag c).2.2.2.2.2.1
  have s2 := stage2 (Cert.KernelIdeal.Gen.V4 m c) (after Cert.ReferenceIdeal.RefRun.P1 (launchContents m' c)) s1.symm
    ((Cert.ReferenceIdeal.RefRun.keep_of_mem Cert.ReferenceIdeal.RefRun.P1_sub (launchContents m' c) Cert.ReferenceIdeal.main_arg6 (by decide)).trans ((hag c).2.2.2.2.2.2.1.trans (V4_keep m c Cert.KernelIdeal.main_arg6 (by decide) (by decide) (by decide) (by decide)).symm))
    ((Cert.ReferenceIdeal.RefRun.keep_of_mem Cert.ReferenceIdeal.RefRun.P1_sub (launchContents m' c) Cert.ReferenceIdeal.main_arg7 (by decide)).trans ((hag c).2.2.2.2.2.2.2.1.trans (V4_keep m c Cert.KernelIdeal.main_arg7 (by decide) (by decide) (by decide) (by decide)).symm))
    ((Cert.ReferenceIdeal.RefRun.keep_of_mem Cert.ReferenceIdeal.RefRun.P1_sub (launchContents m' c) Cert.ReferenceIdeal.main_arg8 (by decide)).trans ((hag c).2.2.2.2.2.2.2.2.1.trans (V4_keep m c Cert.KernelIdeal.main_arg8 (by decide) (by decide) (by decide) (by decide)).symm))
    ((Cert.ReferenceIdeal.RefRun.keep_of_mem Cert.ReferenceIdeal.RefRun.P1_sub (launchContents m' c) Cert.ReferenceIdeal.main_arg9 (by decide)).trans ((hag c).2.2.2.2.2.2.2.2.2.1.trans (V4_keep m c Cert.KernelIdeal.main_arg9 (by decide) (by decide) (by decide) (by decide)).symm))
  have s3 := stage3 (Cert.KernelIdeal.Gen.V8 m c) (after Cert.ReferenceIdeal.RefRun.P2 (after Cert.ReferenceIdeal.RefRun.P1 (launchContents m' c))) s2.symm
    ((Cert.ReferenceIdeal.RefRun.keep_of_mem Cert.ReferenceIdeal.RefRun.P2_sub _ Cert.ReferenceIdeal.main_arg10 (by decide)).trans ((Cert.ReferenceIdeal.RefRun.keep_of_mem Cert.ReferenceIdeal.RefRun.P1_sub (launchContents m' c) Cert.ReferenceIdeal.main_arg10 (by decide)).trans ((hag c).2.2.2.2.2.2.2.2.2.2.1.trans (V8_keep m c Cert.KernelIdeal.main_arg10 (by decide) (by decide) (by decide) (by decide) (by decide) (by decide) (by decide) (by decide)).symm)))
    ((Cert.ReferenceIdeal.RefRun.keep_of_mem Cert.ReferenceIdeal.RefRun.P2_sub _ Cert.ReferenceIdeal.main_arg11 (by decide)).trans ((Cert.ReferenceIdeal.RefRun.keep_of_mem Cert.ReferenceIdeal.RefRun.P1_sub (launchContents m' c) Cert.ReferenceIdeal.main_arg11 (by decide)).trans ((hag c).2.2.2.2.2.2.2.2.2.2.2.1.trans (V8_keep m c Cert.KernelIdeal.main_arg11 (by decide) (by decide) (by decide) (by decide) (by decide) (by decide) (by decide) (by decide)).symm)))
    ((Cert.ReferenceIdeal.RefRun.keep_of_mem Cert.ReferenceIdeal.RefRun.P2_sub _ Cert.ReferenceIdeal.main_arg12 (by decide)).trans ((Cert.ReferenceIdeal.RefRun.keep_of_mem Cert.ReferenceIdeal.RefRun.P1_sub (launchContents m' c) Cert.ReferenceIdeal.main_arg12 (by decide)).trans ((hag c).2.2.2.2.2.2.2.2.2.2.2.2.1.trans (V8_keep m c Cert.KernelIdeal.main_arg12 (by decide) (by decide) (by decide) (by decide) (by decide) (by decide) (by decide) (by decide)).symm)))
    ((Cert.ReferenceIdeal.RefRun.keep_of_mem Cert.ReferenceIdeal.RefRun.P2_sub _ Cert.ReferenceIdeal.main_arg13 (by decide)).trans ((Cert.ReferenceIdeal.RefRun.keep_of_mem Cert.ReferenceIdeal.RefRun.P1_sub (launchContents m' c) Cert.ReferenceIdeal.main_arg13 (by decide)).trans ((hag c).2.2.2.2.2.2.2.2.2.2.2.2.2.1.trans (V8_keep m c Cert.KernelIdeal.main_arg13 (by decide) (by decide) (by decide) (by decide) (by decide) (by decide) (by decide) (by decide)).symm)))
  exact stage4 (Cert.KernelIdeal.Gen.V12 m c) (after Cert.ReferenceIdeal.RefRun.P3 (after Cert.ReferenceIdeal.RefRun.P2 (after Cert.ReferenceIdeal.RefRun.P1 (launchContents m' c)))) s3.symm
    ((Cert.ReferenceIdeal.RefRun.keep_of_mem Cert.ReferenceIdeal.RefRun.P3_sub _ Cert.ReferenceIdeal.main_arg0 (by decide)).trans ((Cert.ReferenceIdeal.RefRun.keep_of_mem Cert.ReferenceIdeal.RefRun.P2_sub _ Cert.ReferenceIdeal.main_arg0 (by decide)).trans ((Cert.ReferenceIdeal.RefRun.keep_of_mem Cert.ReferenceIdeal.RefRun.P1_sub (launchContents m' c) Cert.ReferenceIdeal.main_arg0 (by decide)).trans ((hag c).1.trans (V12_keep m c Cert.KernelIdeal.main_arg0 (by decide) (by decide) (by decide) (by decide) (by decide) (by decide) (by decide) (by decide) (by decide) (by decide) (by decide) (by decide)).symm))))

/-- A 1×b row read on ℕ × ℕ at row 0. -/
theorem nat2_row {b : ℕ} (A : (⟨2, ![1, b]⟩ : Shape).Idx → EReal) (q : Fin b) : nat2 A 0 q.val = A (ix2 0 q) := nat2_ix2 A 0 q

/-- THE TAIL of the reference, applied to what the kernel's program holds, is the kernel's result. -/
theorem tail_value (c : Dev Cert.KernelIdeal.nD) :
    Cert.ReferenceIdeal.RefRun.refTail (F := Ideal) (Cert.KernelIdeal.Gen.V13 m c Cert.KernelIdeal.main_v90)
        (m ((c.tc : Thread Cert.KernelIdeal.nD Cert.KernelIdeal.τ).loc Cert.KernelIdeal.main_arg14)) (m ((c.tc : Thread Cert.KernelIdeal.nD Cert.KernelIdeal.τ).loc Cert.KernelIdeal.main_arg15))
        (m ((c.tc : Thread Cert.KernelIdeal.nD Cert.KernelIdeal.τ).loc Cert.KernelIdeal.main_arg16)) (m ((c.tc : Thread Cert.KernelIdeal.nD Cert.KernelIdeal.τ).loc Cert.KernelIdeal.main_arg17))
        (m ((c.tc : Thread Cert.KernelIdeal.nD Cert.KernelIdeal.τ).loc Cert.KernelIdeal.main_arg18)) (m ((c.tc : Thread Cert.KernelIdeal.nD Cert.KernelIdeal.τ).loc Cert.KernelIdeal.main_arg19))
        (m ((c.tc : Thread Cert.KernelIdeal.nD Cert.KernelIdeal.τ).loc Cert.KernelIdeal.main_arg20)) (m ((c.tc : Thread Cert.KernelIdeal.nD Cert.KernelIdeal.τ).loc Cert.KernelIdeal.main_arg21))
      = X99 m c := by
  funext idx
  obtain ⟨p, j, rfl⟩ : ∃ (p j : Fin 256), idx = ix2 p j := ⟨idx 0, idx 1, eq_ix2 idx⟩
  rw [X99_apply m c p j _ _ _ _ _ rfl rfl rfl rfl rfl]
  unfold Cert.ReferenceIdeal.RefRun.refTail
  rw [Cert.ReferenceIdeal.RefRead.l2norm_apply]
  refine congrArg (fun r => l2row r j) (funext fun k => ?_)
  rw [Cert.ReferenceIdeal.RefRead.bnRelu2_apply]
  have e96 : (Cert.KernelIdeal.Gen.V13 m c Cert.KernelIdeal.main_v96 : Cert.KernelIdeal.S1x256.Idx → EReal) (ix2 0 k) = (m ((c.tc : Thread Cert.KernelIdeal.nD Cert.KernelIdeal.τ).loc Cert.KernelIdeal.main_arg20) : Cert.KernelIdeal.S256.Idx → EReal) (ix1 k) := by
    rw [entry_v96]; exact Cert.Lib.RowReductions.shapeCast_rowvec_apply _ _ k
  have e97 : (Cert.KernelIdeal.Gen.V13 m c Cert.KernelIdeal.main_v97 : Cert.KernelIdeal.S1x256.Idx → EReal) (ix2 0 k) = (m ((c.tc : Thread Cert.KernelIdeal.nD Cert.KernelIdeal.τ).loc Cert.KernelIdeal.main_arg21) : Cert.KernelIdeal.S256.Idx → EReal) (ix1 k) := by
    rw [entry_v97]; exact Cert.Lib.RowReductions.shapeCast_rowvec_apply _ _ k
  have e95 : (Cert.KernelIdeal.Gen.V13 m c Cert.KernelIdeal.main_v95 : Cert.KernelIdeal.S1x256.Idx → EReal) (ix2 0 k) = (m ((c.tc : Thread Cert.KernelIdeal.nD Cert.KernelIdeal.τ).loc Cert.KernelIdeal.main_arg19) : Cert.KernelIdeal.S256.Idx → EReal) (ix1 k) := by
    rw [entry_v95]; exact Cert.Lib.RowReductions.shapeCast_rowvec_apply _ _ k
  rw [e95, e96, e97]
  refine congrArg (fun h => bnCol h _ _ p) (funext fun p' => ?_)
  rw [Cert.ReferenceIdeal.RefRead.lin2_apply]
  refine congrArg₂ (· + ·) (Finset.sum_congr rfl fun i _ => ?_) rfl
  rw [entry_arg18]
  refine congrArg₂ (· * ·) ?_ rfl
  rw [Cert.ReferenceIdeal.RefRead.bnRelu1_apply, G98_apply]
  have e93 : nat2 (E13 m c Cert.KernelIdeal.main_v93 : Cert.KernelIdeal.S1x1024.Idx → EReal) 0 i.val = (m ((c.tc : Thread Cert.KernelIdeal.nD Cert.KernelIdeal.τ).loc Cert.KernelIdeal.main_arg16) : Cert.KernelIdeal.S1024.Idx → EReal) (ix1 i) := by
    rw [nat2_row]; show (Cert.KernelIdeal.Gen.V13 m c Cert.KernelIdeal.main_v93 : Cert.KernelIdeal.S1x1024.Idx → EReal) (ix2 0 i) = _
    rw [entry_v93]; exact Cert.Lib.RowReductions.shapeCast_rowvec_apply _ _ i
  have e94 : nat2 (E13 m c Cert.KernelIdeal.main_v94 : Cert.KernelIdeal.S1x1024.Idx → EReal) 0 i.val = (m ((c.tc : Thread Cert.KernelIdeal.nD Cert.KernelIdeal.τ).loc Cert.KernelIdeal.main_arg17) : Cert.KernelIdeal.S1024.Idx → EReal) (ix1 i) := by
    rw [nat2_row]; show (Cert.KernelIdeal.Gen.V13 m c Cert.KernelIdeal.main_v94 : Cert.KernelIdeal.S1x1024.Idx → EReal) (ix2 0 i) = _
    rw [entry_v94]; exact Cert.Lib.RowReductions.shapeCast_rowvec_apply _ _ i
  rw [e93, e94]
  refine congrArg (fun h => bnCol h _ _ p') (funext fun p'' => ?_)
  rw [Cert.ReferenceIdeal.RefRead.lin_apply]
  unfold lin1
  have e92 : nat2 (E13 m c Cert.KernelIdeal.main_v92 : Cert.KernelIdeal.S1x1024.Idx → EReal) 0 i.val = (m ((c.tc : Thread Cert.KernelIdeal.nD Cert.KernelIdeal.τ).loc Cert.KernelIdeal.main_arg15) : Cert.KernelIdeal.S1024.Idx → EReal) (ix1 i) := by
    rw [nat2_row]; show (Cert.KernelIdeal.Gen.V13 m c Cert.KernelIdeal.main_v92 : Cert.KernelIdeal.S1x1024.Idx → EReal) (ix2 0 i) = _
    rw [entry_v92]; exact Cert.Lib.RowReductions.shapeCast_rowvec_apply _ _ i
  rw [e92]
  refine congrArg₂ (· + ·) (Finset.sum_congr rfl fun i' _ => ?_) rfl
  rw [nat2_ix2, nat2_ix2]
  simp only [E13]
  rw [entry_v91, entry_arg14]
  rfl

/-- The reference's result, from a memory agreeing with the kernel's on the arguments, is the kernel's result. -/
theorem ref_value (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) (c : Dev Cert.KernelIdeal.nD) :
    after Cert.ReferenceIdeal.RefRun.opsT (after Cert.ReferenceIdeal.RefRun.opsP (launchContents m' c)) (Proc.devRef (τ := Cert.ReferenceIdeal.τ) .tc Cert.ReferenceIdeal.main_v145) = X99 m c := by
  have t := tail_value m c
  rw [← (hag c).2.2.2.2.2.2.2.2.2.2.2.2.2.2.1, ← (hag c).2.2.2.2.2.2.2.2.2.2.2.2.2.2.2.1, ← (hag c).2.2.2.2.2.2.2.2.2.2.2.2.2.2.2.2.1, ← (hag c).2.2.2.2.2.2.2.2.2.2.2.2.2.2.2.2.2.1, ← (hag c).2.2.2.2.2.2.2.2.2.2.2.2.2.2.2.2.2.2.1, ← (hag c).2.2.2.2.2.2.2.2.2.2.2.2.2.2.2.2.2.2.2.1, ← (hag c).2.2.2.2.2.2.2.2.2.2.2.2.2.2.2.2.2.2.2.2.1, ← (hag c).2.2.2.2.2.2.2.2.2.2.2.2.2.2.2.2.2.2.2.2.2, pooled_agree m m' hag c] at t
  rw [Cert.ReferenceIdeal.RefRun.tail_eq, Cert.ReferenceIdeal.RefRun.argP_kept_14, Cert.ReferenceIdeal.RefRun.argP_kept_15, Cert.ReferenceIdeal.RefRun.argP_kept_16, Cert.ReferenceIdeal.RefRun.argP_kept_17, Cert.ReferenceIdeal.RefRun.argP_kept_18, Cert.ReferenceIdeal.RefRun.argP_kept_19, Cert.ReferenceIdeal.RefRun.argP_kept_20, Cert.ReferenceIdeal.RefRun.argP_kept_21]
  exact t

end

end Cert.Bridge

end
-- ==== Proof.lean ====
/-
  The certificate: the word-level kernel, its idealization and the idealized reference each run to the end leaving
  their arguments unchanged, and on the extended reals the kernel's program and the reference compute the same
  256 × 256 result.
  The kernel's program is host operations (a three-layer scoring network with batch statistics over all points, a
  softmax over each segment's points, the weighted pooling), then two kernel regions.  Region 0 computes the first
  dense layer 256×64000 by 64000×1024 as twenty partial products per block of 512 output columns, kept in an
  accumulator across grid points, and at each block's last point normalises its columns over the 256 rows, scales,
  shifts and clamps them.  Region 1 does the second dense layer with the same normalisation and divides each row
  by the larger of its Euclidean norm and a small constant.  The reference does the same on whole arrays.  The
  frames are the launch over the program's items with each region's body run case by case (first block, middle
  blocks, last block); the values meet entry by entry at one specification: a sum over 64000 columns regrouped as
  twenty sums of 3200 (associativity and commutativity of addition only — no finiteness is used), the column
  normalisation, and the row normalisation.  The idealization rewrote nothing, so it preserves the kernel trivially.
-/
import proofs.«100161_j89575837925663_2_alg».proof.Defs
import proofs.«100161_j89575837925663_2_alg».proof.Proof.Bridge
import proofs.«100161_j89575837925663_2_alg».proof.Proof.Gen.Kernel
import proofs.«100161_j89575837925663_2_alg».proof.Proof.Gen.KernelIdeal
import proofs.«100161_j89575837925663_2_alg».proof.Proof.Gen.ReferenceIdeal
import proofs.«100161_j89575837925663_2_alg».proof.Proof.Gen.Pre_finite_inputs
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun r h c =>
    ⟨(h c Cert.ReferenceIdeal.main_arg0).trans ((Cert.ReferenceIdeal.RefRun.argT_kept_0 _).trans (Cert.ReferenceIdeal.RefRun.argP_kept_0 _)),
      (h c Cert.ReferenceIdeal.main_arg1).trans ((Cert.ReferenceIdeal.RefRun.argT_kept_1 _).trans (Cert.ReferenceIdeal.RefRun.argP_kept_1 _)),
      (h c Cert.ReferenceIdeal.main_arg2).trans ((Cert.ReferenceIdeal.RefRun.argT_kept_2 _).trans (Cert.ReferenceIdeal.RefRun.argP_kept_2 _)),
      (h c Cert.ReferenceIdeal.main_arg3).trans ((Cert.ReferenceIdeal.RefRun.argT_kept_3 _).trans (Cert.ReferenceIdeal.RefRun.argP_kept_3 _)),
      (h c Cert.ReferenceIdeal.main_arg4).trans ((Cert.ReferenceIdeal.RefRun.argT_kept_4 _).trans (Cert.ReferenceIdeal.RefRun.argP_kept_4 _)),
      (h c Cert.ReferenceIdeal.main_arg5).trans ((Cert.ReferenceIdeal.RefRun.argT_kept_5 _).trans (Cert.ReferenceIdeal.RefRun.argP_kept_5 _)),
      (h c Cert.ReferenceIdeal.main_arg6).trans ((Cert.ReferenceIdeal.RefRun.argT_kept_6 _).trans (Cert.ReferenceIdeal.RefRun.argP_kept_6 _)),
      (h c Cert.ReferenceIdeal.main_arg7).trans ((Cert.ReferenceIdeal.RefRun.argT_kept_7 _).trans (Cert.ReferenceIdeal.RefRun.argP_kept_7 _)),
      (h c Cert.ReferenceIdeal.main_arg8).trans ((Cert.ReferenceIdeal.RefRun.argT_kept_8 _).trans (Cert.ReferenceIdeal.RefRun.argP_kept_8 _)),
      (h c Cert.ReferenceIdeal.main_arg9).trans ((Cert.ReferenceIdeal.RefRun.argT_kept_9 _).trans (Cert.ReferenceIdeal.RefRun.argP_kept_9 _)),
      (h c Cert.ReferenceIdeal.main_arg10).trans ((Cert.ReferenceIdeal.RefRun.argT_kept_10 _).trans (Cert.ReferenceIdeal.RefRun.argP_kept_10 _)),
      (h c Cert.ReferenceIdeal.main_arg11).trans ((Cert.ReferenceIdeal.RefRun.argT_kept_11 _).trans (Cert.ReferenceIdeal.RefRun.argP_kept_11 _)),
      (h c Cert.ReferenceIdeal.main_arg12).trans ((Cert.ReferenceIdeal.RefRun.argT_kept_12 _).trans (Cert.ReferenceIdeal.RefRun.argP_kept_12 _)),
      (h c Cert.ReferenceIdeal.main_arg13).trans ((Cert.ReferenceIdeal.RefRun.argT_kept_13 _).trans (Cert.ReferenceIdeal.RefRun.argP_kept_13 _)),
      (h c Cert.ReferenceIdeal.main_arg14).trans ((Cert.ReferenceIdeal.RefRun.argT_kept_14 _).trans (Cert.ReferenceIdeal.RefRun.argP_kept_14 _)),
      (h c Cert.ReferenceIdeal.main_arg15).trans ((Cert.ReferenceIdeal.RefRun.argT_kept_15 _).trans (Cert.ReferenceIdeal.RefRun.argP_kept_15 _)),
      (h c Cert.ReferenceIdeal.main_arg16).trans ((Cert.ReferenceIdeal.RefRun.argT_kept_16 _).trans (Cert.ReferenceIdeal.RefRun.argP_kept_16 _)),
      (h c Cert.ReferenceIdeal.main_arg17).trans ((Cert.ReferenceIdeal.RefRun.argT_kept_17 _).trans (Cert.ReferenceIdeal.RefRun.argP_kept_17 _)),
      (h c Cert.ReferenceIdeal.main_arg18).trans ((Cert.ReferenceIdeal.RefRun.argT_kept_18 _).trans (Cert.ReferenceIdeal.RefRun.argP_kept_18 _)),
      (h c Cert.ReferenceIdeal.main_arg19).trans ((Cert.ReferenceIdeal.RefRun.argT_kept_19 _).trans (Cert.ReferenceIdeal.RefRun.argP_kept_19 _)),
      (h c Cert.ReferenceIdeal.main_arg20).trans ((Cert.ReferenceIdeal.RefRun.argT_kept_20 _).trans (Cert.ReferenceIdeal.RefRun.argP_kept_20 _)),
      (h c Cert.ReferenceIdeal.main_arg21).trans ((Cert.ReferenceIdeal.RefRun.argT_kept_21 _).trans (Cert.ReferenceIdeal.RefRun.argP_kept_21 _))⟩)
    (Cert.ReferenceIdeal.RefRun.run_all (F := Ideal) m ρ)

theorem preserves : Cert.preserves_Kernel_KernelIdeal := trivial

theorem algebraic : Cert.algebraic_KernelIdeal_ReferenceIdeal := by
  intro m ρ m' ρ' _ hag
  refine ⟨fun c => Cert.KernelIdeal.Hand.X99 m c, Cert.KernelIdeal.Hand.run_value m ρ, ?_⟩
  refine (θ_run Cert.ReferenceIdeal.defs _ _).mono (fun r h c => ⟨(h c Cert.ReferenceIdeal.main_v145).trans (Cert.Bridge.ref_value m m' hag c),
      (h c Cert.ReferenceIdeal.main_arg0).trans ((Cert.ReferenceIdeal.RefRun.argT_kept_0 _).trans (Cert.ReferenceIdeal.RefRun.argP_kept_0 _)),
      (h c Cert.ReferenceIdeal.main_arg1).trans ((Cert.ReferenceIdeal.RefRun.argT_kept_1 _).trans (Cert.ReferenceIdeal.RefRun.argP_kept_1 _)),
      (h c Cert.ReferenceIdeal.main_arg2).trans ((Cert.ReferenceIdeal.RefRun.argT_kept_2 _).trans (Cert.ReferenceIdeal.RefRun.argP_kept_2 _)),
      (h c Cert.ReferenceIdeal.main_arg3).trans ((Cert.ReferenceIdeal.RefRun.argT_kept_3 _).trans (Cert.ReferenceIdeal.RefRun.argP_kept_3 _)),
      (h c Cert.ReferenceIdeal.main_arg4).trans ((Cert.ReferenceIdeal.RefRun.argT_kept_4 _).trans (Cert.ReferenceIdeal.RefRun.argP_kept_4 _)),
      (h c Cert.ReferenceIdeal.main_arg5).trans ((Cert.ReferenceIdeal.RefRun.argT_kept_5 _).trans (Cert.ReferenceIdeal.RefRun.argP_kept_5 _)),
      (h c Cert.ReferenceIdeal.main_arg6).trans ((Cert.ReferenceIdeal.RefRun.argT_kept_6 _).trans (Cert.ReferenceIdeal.RefRun.argP_kept_6 _)),
      (h c Cert.ReferenceIdeal.main_arg7).trans ((Cert.ReferenceIdeal.RefRun.argT_kept_7 _).trans (Cert.ReferenceIdeal.RefRun.argP_kept_7 _)),
      (h c Cert.ReferenceIdeal.main_arg8).trans ((Cert.ReferenceIdeal.RefRun.argT_kept_8 _).trans (Cert.ReferenceIdeal.RefRun.argP_kept_8 _)),
      (h c Cert.ReferenceIdeal.main_arg9).trans ((Cert.ReferenceIdeal.RefRun.argT_kept_9 _).trans (Cert.ReferenceIdeal.RefRun.argP_kept_9 _)),
      (h c Cert.ReferenceIdeal.main_arg10).trans ((Cert.ReferenceIdeal.RefRun.argT_kept_10 _).trans (Cert.ReferenceIdeal.RefRun.argP_kept_10 _)),
      (h c Cert.ReferenceIdeal.main_arg11).trans ((Cert.ReferenceIdeal.RefRun.argT_kept_11 _).trans (Cert.ReferenceIdeal.RefRun.argP_kept_11 _)),
      (h c Cert.ReferenceIdeal.main_arg12).trans ((Cert.ReferenceIdeal.RefRun.argT_kept_12 _).trans (Cert.ReferenceIdeal.RefRun.argP_kept_12 _)),
      (h c Cert.ReferenceIdeal.main_arg13).trans ((Cert.ReferenceIdeal.RefRun.argT_kept_13 _).trans (Cert.ReferenceIdeal.RefRun.argP_kept_13 _)),
      (h c Cert.ReferenceIdeal.main_arg14).trans ((Cert.ReferenceIdeal.RefRun.argT_kept_14 _).trans (Cert.ReferenceIdeal.RefRun.argP_kept_14 _)),
      (h c Cert.ReferenceIdeal.main_arg15).trans ((Cert.ReferenceIdeal.RefRun.argT_kept_15 _).trans (Cert.ReferenceIdeal.RefRun.argP_kept_15 _)),
      (h c Cert.ReferenceIdeal.main_arg16).trans ((Cert.ReferenceIdeal.RefRun.argT_kept_16 _).trans (Cert.ReferenceIdeal.RefRun.argP_kept_16 _)),
      (h c Cert.ReferenceIdeal.main_arg17).trans ((Cert.ReferenceIdeal.RefRun.argT_kept_17 _).trans (Cert.ReferenceIdeal.RefRun.argP_kept_17 _)),
      (h c Cert.ReferenceIdeal.main_arg18).trans ((Cert.ReferenceIdeal.RefRun.argT_kept_18 _).trans (Cert.ReferenceIdeal.RefRun.argP_kept_18 _)),
      (h c Cert.ReferenceIdeal.main_arg19).trans ((Cert.ReferenceIdeal.RefRun.argT_kept_19 _).trans (Cert.ReferenceIdeal.RefRun.argP_kept_19 _)),
      (h c Cert.ReferenceIdeal.main_arg20).trans ((Cert.ReferenceIdeal.RefRun.argT_kept_20 _).trans (Cert.ReferenceIdeal.RefRun.argP_kept_20 _)),
      (h c Cert.ReferenceIdeal.main_arg21).trans ((Cert.ReferenceIdeal.RefRun.argT_kept_21 _).trans (Cert.ReferenceIdeal.RefRun.argP_kept_21 _))⟩)
    (Cert.ReferenceIdeal.RefRun.run_all (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
